-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S16384 : Shape := ⟨1, ![16384]⟩
abbrev S8x256 : Shape := ⟨2, ![8, 256]⟩
abbrev S256x128 : Shape := ⟨2, ![256, 128]⟩
abbrev S128 : Shape := ⟨1, ![128]⟩
abbrev S_ : Shape := ⟨0, ![]⟩

class Facts : Prop where
  bcast_S_S8x256 : S_.BroadcastsInDim S8x256 (![] : Fin 0 → Fin S8x256.rank)
  reducesTo_S8x256_S_d0_1 : S8x256.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S16384 : S_.BroadcastsInDim S16384 (![] : Fin 0 → Fin S16384.rank)
  reducesTo_S16384_S_d0 : S16384.ReducesTo [0] S_

variable [Facts]

def fn_part1 {F : FTy → Type} [FloatOps F] (main_arg0 : IVec S16384 32) (main_v13 : IVec S_ 1) (main_v15 : IVec S16384 1) (main_c_5 : IVec S_ 32) : IVec S_ 1 :=
  let main_v16 : IVec S16384 32 := broadcastInDim S16384 ![] bcast_S_S16384 main_c_5
  let main_v17 : IVec S16384 1 := cmpi .sle main_arg0 main_v16
  let main_v18 : IVec S16384 1 := andi main_v15 main_v17
  let main_c_6 : IVec S_ 1 := constantI S_ 1 1#1
  let main_v19 : IVec S_ 1 := (fun x v => Host.reduce IntOp.andi x v reducesTo_S16384_S_d0 h_S_) main_v18 main_c_6
  let main_v20 : IVec S_ 1 := andi main_v13 main_v19
  main_v20

def fn {F : FTy → Type} [FloatOps F] (main_arg0 : IVec S16384 32) (main_arg1 : FVec F S8x256 .f32) (main_arg2 : FVec F S256x128 .f32) (main_arg3 : FVec F S128 .f32) : IVec S_ 1 :=
  let main_v0 : FVec F S8x256 .f32 := Host.absf main_arg1
  let main_cst : FVec F S_ .f32 := constant S_ .f32 0x7F800000#32
  let main_v1 : FVec F S8x256 .f32 := broadcastInDim S8x256 ![] bcast_S_S8x256 main_cst
  let main_v2 : IVec S8x256 1 := cmpf .olt main_v0 main_v1
  let main_c : IVec S_ 1 := constantI S_ 1 1#1
  let main_v3 : IVec S_ 1 := (fun x v => Host.reduce IntOp.andi x v reducesTo_S8x256_S_d0_1 h_S_) main_v2 main_c
  let main_v4 : FVec F S256x128 .f32 := Host.absf main_arg2
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_c_4 : IVec S_ 32 := constantI S_ 32 0#32
  let main_v14 : IVec S16384 32 := broadcastInDim S16384 ![] bcast_S_S16384 main_c_4
  let main_v15 : IVec S16384 1 := cmpi .sge main_arg0 main_v14
  let main_c_5 : IVec S_ 32 := constantI S_ 32 7#32
  fn_part1 (F := F) main_arg0 main_v13 main_v15 main_c_5
-- ==== Kernel.lean ====
abbrev S16384 : Shape := ⟨1, ![16384]⟩
abbrev S8x256 : Shape := ⟨2, ![8, 256]⟩
abbrev S256x128 : Shape := ⟨2, ![256, 128]⟩
abbrev S128 : Shape := ⟨1, ![128]⟩
abbrev S1x128 : Shape := ⟨2, ![1, 128]⟩
abbrev S8x128 : Shape := ⟨2, ![8, 128]⟩
abbrev S128x128 : Shape := ⟨2, ![128, 128]⟩
abbrev S16384x128 : Shape := ⟨2, ![16384, 128]⟩
abbrev S4x128 : Shape := ⟨2, ![4, 128]⟩
abbrev S512x128 : Shape := ⟨2, ![512, 128]⟩
abbrev S8 : Shape := ⟨1, ![8]⟩
abbrev S_ : Shape := ⟨0, ![]⟩
abbrev S64x128 : Shape := ⟨2, ![64, 128]⟩
abbrev S1x64 : Shape := ⟨2, ![1, 64]⟩
abbrev S64 : Shape := ⟨1, ![64]⟩
abbrev S1 : Shape := ⟨1, ![1]⟩

abbrev nBuf : Table → Nat
  | .hbm => 8
  | .local .tc .vmem => 4
  | .shared => 1
  | .local .scVector .vmem => 2
  | _ => 0

abbrev bufTy : (tb : Table) → Fin (nBuf tb) → BufTy
  | .hbm, ⟨0, _⟩ => ⟨S16384, .i32⟩
  | .hbm, ⟨1, _⟩ => ⟨S8x256, .f32⟩
  | .hbm, ⟨2, _⟩ => ⟨S256x128, .f32⟩
  | .hbm, ⟨3, _⟩ => ⟨S128, .f32⟩
  | .hbm, ⟨4, _⟩ => ⟨S1x128, .f32⟩
  | .hbm, ⟨5, _⟩ => ⟨S8x128, .f32⟩
  | .hbm, ⟨6, _⟩ => ⟨S128x128, .i32⟩
  | .hbm, ⟨7, _⟩ => ⟨S16384x128, .f32⟩
  | .local .tc .vmem, ⟨0, _⟩ => ⟨S8x256, .f32⟩
  | .local .tc .vmem, ⟨1, _⟩ => ⟨S256x128, .f32⟩
  | .local .tc .vmem, ⟨2, _⟩ => ⟨S1x128, .f32⟩
  | .local .tc .vmem, ⟨3, _⟩ => ⟨S8x128, .f32⟩
  | .shared, ⟨0, _⟩ => ⟨S8x128, .f32⟩
  | .local .scVector .vmem, ⟨0, _⟩ => ⟨S4x128, .i32⟩
  | .local .scVector .vmem, ⟨1, _⟩ => ⟨S512x128, .f32⟩
  | _, _ => ⟨S16384, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | _, _ => false

abbrev semScoped : Fin 5 → Bool
  | ⟨0, _⟩ => false
  | ⟨1, _⟩ => false
  | ⟨2, _⟩ => false
  | ⟨3, _⟩ => false
  | ⟨4, _⟩ => false
  | _ => false

abbrev dmaSemScoped : Fin 15 → Bool
  | ⟨0, _⟩ => true
  | ⟨1, _⟩ => true
  | ⟨2, _⟩ => true
  | ⟨3, _⟩ => true
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => false
  | _ => false

abbrev sig : RefSig :=
  ofTables nBuf rfl bufTy 5 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v1_scv : Ref sig .scVector := ⟨.hbm, 5, rfl⟩
abbrev main_v2_scv : Ref sig .scVector := ⟨.hbm, 6, rfl⟩
abbrev main_v3_scv : Ref sig .scVector := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc1_scratch1 : Ref sig .scVector := ⟨.shared, 0, rfl⟩
abbrev cc1_scratch0 : Ref sig .scVector := ⟨.vmem, 0, rfl⟩
abbrev cc1_scratch2 : Ref sig .scVector := ⟨.vmem, 1, rfl⟩
abbrev cc0_sem0_0 : DmaSem sig := 0
abbrev cc0_sem1_0 : DmaSem sig := 1
abbrev cc0_sem2_0 : DmaSem sig := 2
abbrev cc0_sem3_0 : DmaSem sig := 3
abbrev sc_start : Sem sig := 0
abbrev sc_done : Sem sig := 1
abbrev sc_go : Sem sig := 2
abbrev sc_taskDone : Sem sig := 3
abbrev sc_bar0 : Sem sig := 4

abbrev nD : Nat := 1
abbrev τ : Topo := Topo.v7x

variable {F : FTy → Type} [FloatOps F]

abbrev grid0 : Pipeline.Grid := .none

abbrev stage0_0 : Fin 1 → Memref sig .tc .vmem S8x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev grid1 : Pipeline.Grid := ⟨2, ![2, 16], ![false, false]⟩

def k1_off1 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32 : BitVec 32 := 4#32
  let v3 : BitVec 32 := Scalar.muli v1 c4_i32
  let c0_i32 : BitVec 32 := 0#32
  ![v3.toNat, 0]
def k1_off2 (i : grid1.Coords) (c0_i32_56 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v65 : BitVec 32 := Scalar.addi v2 c0_i32_56
  let c0_i32_59 : BitVec 32 := 0#32
  ![v65.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  shapeCasts_S128_S1x128 : S128.ShapeCasts S1x128
  inb_S8x256_S8x256_0_0 : ∀ a, (![0, 0] : Fin 2 → Nat) a + S8x256.size a ≤ S8x256.size a
  h_S8x256 : 0 < S8x256.numel
  inb_S256x128_S256x128_0_0 : ∀ a, (![0, 0] : Fin 2 → Nat) a + S256x128.size a ≤ S256x128.size a
  h_S256x128 : 0 < S256x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S8x128 : S1x128.Broadcasts S8x128
  inb_S8x128_S8x128_0_0 : ∀ a, (![0, 0] : Fin 2 → Nat) a + S8x128.size a ≤ S8x128.size a
  h_S8x128 : 0 < S8x128.numel
  shapeCasts_S16384_S128x128 : S16384.ShapeCasts S128x128
  inb_S512x128_S64x128_0_0 : ∀ a, (![0, 0] : Fin 2 → Nat) a + S64x128.size a ≤ S512x128.size a
  inb_S4x128_S1x64_0_0 : ∀ a, (![0, 0] : Fin 2 → Nat) a + S1x64.size a ≤ S4x128.size a
  squeezes_S1x64_S64 : S1x64.Squeezes S64
  inb_S8_S1_0 : ∀ a, (![0] : Fin 1 → Nat) a + S1.size a ≤ S8.size a
  squeezes_S1_S_ : S1.Squeezes S_
  gathers_S8x128_S64x128 : S8x128.Gathers 0 S64x128
  inb_S512x128_S64x128_64_0 : ∀ a, (![64, 0] : Fin 2 → Nat) a + S64x128.size a ≤ S512x128.size a
  inb_S4x128_S1x64_0_64 : ∀ a, (![0, 64] : Fin 2 → Nat) a + S1x64.size a ≤ S4x128.size a
  inb_S8_S1_1 : ∀ a, (![1] : Fin 1 → Nat) a + S1.size a ≤ S8.size a
  inb_S512x128_S64x128_128_0 : ∀ a, (![128, 0] : Fin 2 → Nat) a + S64x128.size a ≤ S512x128.size a
  inb_S4x128_S1x64_1_0 : ∀ a, (![1, 0] : Fin 2 → Nat) a + S1x64.size a ≤ S4x128.size a
  inb_S8_S1_2 : ∀ a, (![2] : Fin 1 → Nat) a + S1.size a ≤ S8.size a
  inb_S512x128_S64x128_192_0 : ∀ a, (![192, 0] : Fin 2 → Nat) a + S64x128.size a ≤ S512x128.size a
  inb_S4x128_S1x64_1_64 : ∀ a, (![1, 64] : Fin 2 → Nat) a + S1x64.size a ≤ S4x128.size a
  inb_S8_S1_3 : ∀ a, (![3] : Fin 1 → Nat) a + S1.size a ≤ S8.size a
  inb_S512x128_S64x128_256_0 : ∀ a, (![256, 0] : Fin 2 → Nat) a + S64x128.size a ≤ S512x128.size a
  inb_S4x128_S1x64_2_0 : ∀ a, (![2, 0] : Fin 2 → Nat) a + S1x64.size a ≤ S4x128.size a
  inb_S8_S1_4 : ∀ a, (![4] : Fin 1 → Nat) a + S1.size a ≤ S8.size a
  inb_S512x128_S64x128_320_0 : ∀ a, (![320, 0] : Fin 2 → Nat) a + S64x128.size a ≤ S512x128.size a
  inb_S4x128_S1x64_2_64 : ∀ a, (![2, 64] : Fin 2 → Nat) a + S1x64.size a ≤ S4x128.size a
  inb_S8_S1_5 : ∀ a, (![5] : Fin 1 → Nat) a + S1.size a ≤ S8.size a
  inb_S512x128_S64x128_384_0 : ∀ a, (![384, 0] : Fin 2 → Nat) a + S64x128.size a ≤ S512x128.size a
  inb_S4x128_S1x64_3_0 : ∀ a, (![3, 0] : Fin 2 → Nat) a + S1x64.size a ≤ S4x128.size a
  inb_S8_S1_6 : ∀ a, (![6] : Fin 1 → Nat) a + S1.size a ≤ S8.size a
  inb_S512x128_S64x128_448_0 : ∀ a, (![448, 0] : Fin 2 → Nat) a + S64x128.size a ≤ S512x128.size a
  inb_S4x128_S1x64_3_64 : ∀ a, (![3, 64] : Fin 2 → Nat) a + S1x64.size a ≤ S4x128.size a
  inb_S8_S1_7 : ∀ a, (![7] : Fin 1 → Nat) a + S1.size a ≤ S8.size a
  dot_S8x256_S256x128_S8x128_1_0_0_1_n_n_wf : DotDims.WF S8x256 S256x128 S8x128 [1] [0] [0] [1] [] []
  hcc1_scratch3 : 4 + S8.numel ≤ 15
  hcc1_scratch4 : 12 + S_.numel ≤ 15
  hcc1_scratch5 : 13 + S_.numel ≤ 15
  hcc1_scoped0 : 14 + S_.numel ≤ 15
  hscKind : ∀ q, scKind q ≠ .tc
  hscCore : ∀ q, scNCore q ≤ τ.nSC
  hscSub : ∀ q, scNSub q ≤ τ.nSub
  hstage0_0 : ∀ j, (stage0_0 j).IsWhole
  hstage0_1 : ∀ j, (stage0_1 j).IsWhole
  hstage0_2 : ∀ j, (stage0_2 j).IsWhole
  hstage0_3 : ∀ j, (stage0_3 j).IsWhole
  hcore1 : grid1.bound 0 ≤ τ.nSC
  hsub1 : grid1.bound 1 ≤ τ.nSub
  k1_off1_inb : ∀ i : grid1.Coords, ∀ a, (k1_off1 i) a + S4x128.size a ≤ S128x128.size a
  k1_off2_inb : ∀ i : grid1.Coords, ∀ (r : Fin 8), ∀ a, (k1_off2 i (BitVec.ofNat 32 (64 * r.val))) a + S64x128.size a ≤ S16384x128.size a

variable [Facts₀]

abbrev cc1_scratch3 : DmaSems sig S8 := SemArray.consecutive 4 S8 hcc1_scratch3
abbrev cc1_scratch4 : DmaSems sig S_ := SemArray.consecutive 12 S_ hcc1_scratch4
abbrev cc1_scratch5 : DmaSems sig S_ := SemArray.consecutive 13 S_ hcc1_scratch5
abbrev cc1_scoped0 : DmaSems sig S_ := SemArray.consecutive 14 S_ hcc1_scoped0
def dot_S8x256_S256x128_S8x128_1_0_0_1_n_n : DotDims S8x256 S256x128 S8x128 where
  lhsContracting := [1]
  rhsContracting := [0]
  lhsNonContracting := [0]
  rhsNonContracting := [1]
  lhsBatch := []
  rhsBatch := []
  wf := dot_S8x256_S256x128_S8x128_1_0_0_1_n_n_wf

abbrev win0_0 : Pipeline.Window sig grid0 :=
  Pipeline.Window.whole (Memref.whole main_arg1) false false (stage0_0 0) (sem0_0 0) (Memref.isWhole_whole _) (hstage0_0 0)

abbrev win0_1 : Pipeline.Window sig grid0 :=
  Pipeline.Window.whole (Memref.whole main_arg2) false false (stage0_1 0) (sem0_1 0) (Memref.isWhole_whole _) (hstage0_1 0)

abbrev win0_2 : Pipeline.Window sig grid0 :=
  Pipeline.Window.whole (Memref.whole main_v0) false false (stage0_2 0) (sem0_2 0) (Memref.isWhole_whole _) (hstage0_2 0)

abbrev win0_3 : Pipeline.Window sig grid0 :=
  Pipeline.Window.whole (Memref.whole main_v1) true false (stage0_3 0) (sem0_3 0) (Memref.isWhole_whole _) (hstage0_3 0)

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16384 : Shape := ⟨1, ![16384]⟩
abbrev S8x256 : Shape := ⟨2, ![8, 256]⟩
abbrev S256x128 : Shape := ⟨2, ![256, 128]⟩
abbrev S128 : Shape := ⟨1, ![128]⟩
abbrev S_ : Shape := ⟨0, ![]⟩
abbrev S16384x1 : Shape := ⟨2, ![16384, 1]⟩
abbrev S1 : Shape := ⟨1, ![1]⟩
abbrev S1x1 : Shape := ⟨2, ![1, 1]⟩
abbrev S16384x256 : Shape := ⟨2, ![16384, 256]⟩
abbrev S16384x128 : Shape := ⟨2, ![16384, 128]⟩
abbrev S1x128 : Shape := ⟨2, ![1, 128]⟩

abbrev nBuf : Space → Nat
  | .hbm => 31
  | .vmem => 0
  | .smem => 0
  | _ => 0

abbrev bufTy : (tb : Table) → Fin (tcTables nBuf tb) → BufTy
  | .hbm, ⟨0, _⟩ => ⟨S16384, .i32⟩
  | .hbm, ⟨1, _⟩ => ⟨S8x256, .f32⟩
  | .hbm, ⟨2, _⟩ => ⟨S256x128, .f32⟩
  | .hbm, ⟨3, _⟩ => ⟨S128, .f32⟩
  | .hbm, ⟨4, _⟩ => ⟨S_, .i32⟩
  | .hbm, ⟨5, _⟩ => ⟨S16384, .i32⟩
  | .hbm, ⟨6, _⟩ => ⟨S16384, .i1⟩
  | .hbm, ⟨7, _⟩ => ⟨S_, .i32⟩
  | .hbm, ⟨8, _⟩ => ⟨S16384, .i32⟩
  | .hbm, ⟨9, _⟩ => ⟨S16384, .i32⟩
  | .hbm, ⟨10, _⟩ => ⟨S16384, .i32⟩
  | .hbm, ⟨11, _⟩ => ⟨S16384x1, .i32⟩
  | .hbm, ⟨12, _⟩ => ⟨S1, .i32⟩
  | .hbm, ⟨13, _⟩ => ⟨S_, .i32⟩
  | .hbm, ⟨14, _⟩ => ⟨S16384x1, .i32⟩
  | .hbm, ⟨15, _⟩ => ⟨S16384x1, .i1⟩
  | .hbm, ⟨16, _⟩ => ⟨S1x1, .i32⟩
  | .hbm, ⟨17, _⟩ => ⟨S16384x1, .i32⟩
  | .hbm, ⟨18, _⟩ => ⟨S16384x1, .i1⟩
  | .hbm, ⟨19, _⟩ => ⟨S16384x1, .i1⟩
  | .hbm, ⟨20, _⟩ => ⟨S_, .i1⟩
  | .hbm, ⟨21, _⟩ => ⟨S16384, .i1⟩
  | .hbm, ⟨22, _⟩ => ⟨S16384x256, .f32⟩
  | .hbm, ⟨23, _⟩ => ⟨S16384x256, .i1⟩
  | .hbm, ⟨24, _⟩ => ⟨S_, .f32⟩
  | .hbm, ⟨25, _⟩ => ⟨S16384x256, .f32⟩
  | .hbm, ⟨26, _⟩ => ⟨S16384x256, .f32⟩
  | .hbm, ⟨27, _⟩ => ⟨S16384x128, .f32⟩
  | .hbm, ⟨28, _⟩ => ⟨S1x128, .f32⟩
  | .hbm, ⟨29, _⟩ => ⟨S16384x128, .f32⟩
  | .hbm, ⟨30, _⟩ => ⟨S16384x128, .f32⟩
  | _, _ => ⟨S16384, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_c : Ref sig .tc := ⟨.hbm, 4, rfl⟩
abbrev main_call0_v0 : Ref sig .tc := ⟨.hbm, 5, rfl⟩
abbrev main_call0_v1 : Ref sig .tc := ⟨.hbm, 6, rfl⟩
abbrev main_call0_c_0 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_c_1 : Ref sig .tc := ⟨.hbm, 12, rfl⟩
abbrev main_call0_c_2 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_3 : Ref sig .tc := ⟨.hbm, 20, rfl⟩
abbrev main_call0_v12 : Ref sig .tc := ⟨.hbm, 21, rfl⟩
abbrev main_call0_v13 : Ref sig .tc := ⟨.hbm, 22, rfl⟩
abbrev main_call0_v14 : Ref sig .tc := ⟨.hbm, 23, rfl⟩
abbrev main_call0_cst : Ref sig .tc := ⟨.hbm, 24, rfl⟩
abbrev main_call0_v15 : Ref sig .tc := ⟨.hbm, 25, rfl⟩
abbrev main_v0 : Ref sig .tc := ⟨.hbm, 26, rfl⟩
abbrev main_v1 : Ref sig .tc := ⟨.hbm, 27, rfl⟩
abbrev main_v2 : Ref sig .tc := ⟨.hbm, 28, rfl⟩
abbrev main_v3 : Ref sig .tc := ⟨.hbm, 29, rfl⟩
abbrev main_v4 : Ref sig .tc := ⟨.hbm, 30, rfl⟩

abbrev nD : Nat := 1
abbrev τ : Topo := Topo.v7x

variable {F : FTy → Type} [FloatOps F]

class Facts₀ : Prop where
  bcast_S_S16384 : S_.BroadcastsInDim S16384 (![] : Fin 0 → Fin S16384.rank)
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S1_S1x1_1 : S1.BroadcastsInDim S1x1 (![1] : Fin 1 → Fin S1x1.rank)
  bcast_S1x1_S16384x1_0_1 : S1x1.BroadcastsInDim S16384x1 (![0, 1] : Fin 2 → Fin S16384x1.rank)
  reducesTo_S16384x1_S16384_d1 : S16384x1.ReducesTo [1] S16384
  h_S_ : 0 < S_.numel
  bcast_S16384_S16384x256_0 : S16384.BroadcastsInDim S16384x256 (![0] : Fin 1 → Fin S16384x256.rank)
  bcast_S_S16384x256 : S_.BroadcastsInDim S16384x256 (![] : Fin 0 → Fin S16384x256.rank)
  bcast_S128_S1x128_1 : S128.BroadcastsInDim S1x128 (![1] : Fin 1 → Fin S1x128.rank)
  bcast_S1x128_S16384x128_0_1 : S1x128.BroadcastsInDim S16384x128 (![0, 1] : Fin 2 → Fin S16384x128.rank)
  gather_S8x256_S16384x1_S16384x256_1_0_n_n_0_1_1256_wf : GatherDims.WF S8x256 S16384x1 S16384x256 [1] [0] [] [0] [] 1 ![1, 256]
  dot_S16384x256_S256x128_S16384x128_1_0_0_1_n_n_wf : DotDims.WF S16384x256 S256x128 S16384x128 [1] [0] [0] [1] [] []

variable [Facts₀]

def gather_S8x256_S16384x1_S16384x256_1_0_n_n_0_1_1256 : GatherDims S8x256 S16384x1 S16384x256 where
  offsetDims := [1]
  collapsedSliceDims := [0]
  operandBatchingDims := []
  startIndicesBatchingDims := []
  startIndexMap := [0]
  indexVectorDim := 1
  sliceSizes := ![1, 256]
  wf := gather_S8x256_S16384x1_S16384x256_1_0_n_n_0_1_1256_wf
def dot_S16384x256_S256x128_S16384x128_1_0_0_1_n_n : DotDims S16384x256 S256x128 S16384x128 where
  lhsContracting := [1]
  rhsContracting := [0]
  lhsNonContracting := [0]
  rhsNonContracting := [1]
  lhsBatch := []
  rhsBatch := []
  wf := dot_S16384x256_S256x128_S16384x128_1_0_0_1_n_n_wf

class Facts : Prop extends Facts₀ where

variable [Facts]
-- ==== Proof.IndexRange.lean ====
/-
  The index words are row numbers.

  The precondition is one bit: the conjunction of "every entry of the table, of W and of b is finite" with
  "every index word x_i satisfies 0 <= x_i and x_i <= 7, read signed". The last conjunct is a reduction by AND,
  started from 1, over the 16384 bits (0 <= x_i) AND (x_i <= 7); the precondition says the whole conjunction is 1, so
  that reduction is 1, so every one of its bits is 1, so both comparisons hold at every i. A 32-bit word whose signed
  reading lies in [0, 7] has its top bit clear: its unsigned reading is the same number, and it is below 8. That is
  what makes x_i name one of the 8 rows of the table.
-/
import proofs.«206855_g20126216749723_cont_sun_m_335_21_alg».proof.Pre_input_domain
import Idealize.ShloMosaic.Lib.ReduceAll
import Idealize.ShloMosaic.Lib.ValueIdx

open Idealize.ShloMosaic

namespace Cert.EmbedProject

/-- The scalar shape has one index. -/
instance scalarIdx_subsingleton : Subsingleton Cert.Pre_input_domain.S_.Idx := ⟨fun _ _ => funext fun d => d.elim0⟩

/-- A word that tests "0 <= w" and "w <= 7", both signed, reads the same signed and unsigned, and is below 8. -/
theorem word_lt_eight (w : BitVec 32) (h0 : IntOp.cmpi .sge w 0#32 = 1#1) (h7 : IntOp.cmpi .sle w 7#32 = 1#1) :
    w.toNat < 8 ∧ w.toInt = (w.toNat : ℤ) := by
  rw [IntOp.cmpi_sge, show (0#32 : BitVec 32).toInt = 0 from by decide] at h0
  rw [IntOp.cmpi_sle, show (7#32 : BitVec 32).toInt = 7 from by decide] at h7
  have hlt := w.isLt
  rw [BitVec.toInt_eq_toNat_cond] at h0 h7 ⊢
  split at h0 <;> split at h7 <;> constructor <;> omega

/-- THE PRECONDITION DECODED at index word i: it is a natural number below 8, also when read signed. -/
theorem index_lt_eight {F : FTy → Type} [FloatOps F] [Cert.Pre_input_domain.Facts]
    (x : IVec ⟨1, ![16384]⟩ 32) (table : FVec F ⟨2, ![8, 256]⟩ .f32) (W : FVec F ⟨2, ![256, 128]⟩ .f32) (b : FVec F ⟨1, ![128]⟩ .f32)
    (h : Cert.Pre_input_domain.fn (F := F) x table W b = fun _ => 1#1) (i : Fin 16384) :
    (x (Idealize.ShloMosaic.ValueIdx.ix1 i)).toNat < 8 ∧ (x (Idealize.ShloMosaic.ValueIdx.ix1 i)).toInt = ((x (Idealize.ShloMosaic.ValueIdx.ix1 i)).toNat : ℤ) := by
  have e := congrFun h ValueIdx.ix0
  dsimp only [Cert.Pre_input_domain.fn, Cert.Pre_input_domain.fn_part1] at e
  -- the last conjunct of the conjunction: the reduction by AND over the range bits
  have eR := (IntOp.andi_eq_one.1 e).2
  -- every bit of a reduction by AND that came out 1 is 1
  have eI := Host.reduce_andi_all _ _ _ _ _ eR (ValueIdx.ix1 i)
  -- the bit at i is (0 <= x_i) AND (x_i <= 7), the bounds being the broadcast constants 0 and 7
  obtain ⟨h0, h7⟩ := IntOp.andi_eq_one.1 eI
  exact word_lt_eight _ h0 h7

end Cert.EmbedProject
-- ==== Proof.RowTakeStages.lean ====
/-
  The reference, stage by stage, as pure functions of its four arguments (for any float instance).

  Taking rows of the table at the index words goes through five stages. (1) A negative index word counts from the end:
  8 is added to it (a comparison with 0, a sum with 8, a choice between the two). (2) The 16384 words are laid out as a
  column [16384, 1]: the start indices of a gather. (3) A bit per word says whether it lies in [0, 7] — the two signed
  comparisons, their conjunction, and a reduction by AND along the column's unit axis. (4) The gather takes whole rows
  of the table at the start indices, clamping a start index into [0, 7]. (5) Where the bit is 0 the row taken is
  replaced by a row of NaN. The taken rows are then multiplied by W, and b, made a row [1, 128] and repeated down the
  16384 rows, is added.
-/
import proofs.«206855_g20126216749723_cont_sun_m_335_21_alg».proof.ReferenceIdeal

noncomputable section

namespace Cert.ReferenceIdeal.RefRun

open Cert.ReferenceIdeal Idealize.ShloMosaic
open Cert.ReferenceIdeal.Facts₀ Cert.ReferenceIdeal.Facts

variable {F : FTy → Type} [FloatOps F] [Cert.ReferenceIdeal.Facts]

/-- Stage 1: a negative index word counts from the end — x_i + 8 where x_i < 0, x_i elsewhere. -/
def wrapped (x : IVec S16384 32) : IVec S16384 32 :=
  select (cmpi .slt x (broadcastInDim S16384 ![] bcast_S_S16384 (constantI S_ 32 0#32)))
    (addi x (broadcastInDim S16384 ![] bcast_S_S16384 (constantI S_ 32 8#32))) x

/-- Stage 2: the wrapped words as a column, the gather's start indices. -/
def startCol (x : IVec S16384 32) : IVec S16384x1 32 :=
  broadcastInDim S16384x1 ![0] bcast_S16384_S16384x1_0 (wrapped x)

/-- Stage 3: the bit "0 <= start index <= 7" of each word, the conjunction reduced along the column's unit axis. -/
def inTable (x : IVec S16384 32) : IVec S16384 1 :=
  Host.reduce IntOp.andi
    (andi (cmpi .sge (startCol x) (broadcastInDim S16384x1 ![] bcast_S_S16384x1 (constantI S_ 32 0#32)))
      (cmpi .sle (startCol x)
        (broadcastInDim S16384x1 ![0, 1] bcast_S1x1_S16384x1_0_1 (broadcastInDim S1x1 ![1] bcast_S1_S1x1_1 (constantI S1 32 7#32)))))
    (constantI S_ 1 1#1) reducesTo_S16384x1_S16384_d1 h_S_

/-- Stages 4 and 5: the rows of the table at the start indices, a row of NaN where the index is outside the table. -/
def taken (x : IVec S16384 32) (table : FVec F S8x256 .f32) : FVec F S16384x256 .f32 :=
  select (broadcastInDim S16384x256 ![0] bcast_S16384_S16384x256_0 (inTable x))
    (Host.gather gather_S8x256_S16384x1_S16384x256_1_0_n_n_0_1_1256 table (startCol x))
    (broadcastInDim S16384x256 ![] bcast_S_S16384x256 (constant S_ .f32 0x7FC00000#32))

/-- The whole reference: the taken rows times W, plus b on every row. -/
def composed (x : IVec S16384 32) (table : FVec F S8x256 .f32) (W : FVec F S256x128 .f32) (b : FVec F S128 .f32) :
    FVec F S16384x128 .f32 :=
  addf (Host.dotGeneral dot_S16384x256_S256x128_S16384x128_1_0_0_1_n_n none (taken x table) W)
    (broadcastInDim S16384x128 ![0, 1] bcast_S1x128_S16384x128_0_1 (broadcastInDim S1x128 ![1] bcast_S128_S1x128_1 b))

end Cert.ReferenceIdeal.RefRun

end
-- ==== Proof.RowTakeRun.lean ====
/-
  The reference's run.

  The program is a straight line of 27 host operations: the 23 of taking rows (stages 1 to 5 of the lookup, the call
  that takes the rows and the call inside it that chooses between a word and the word plus 8, both written out at the
  place of the call over the buffers of that call), then the product with W, the two steps that make b a row and repeat
  it, and the sum. Run in order from any memory, each operation writes one buffer of its own and reads buffers written
  before it or the arguments; so the last buffer holds the stages composed, as one function of the four arguments, and
  the arguments, which no operation writes, are unchanged.
-/
import proofs.«206855_g20126216749723_cont_sun_m_335_21_alg».proof.Proof.RowTakeStages
import Idealize.ShloMosaic.Lib.StableHlo.Run

noncomputable section

namespace Cert.ReferenceIdeal.RefRun

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F] [hRef : Cert.ReferenceIdeal.Facts]

/-- The 27 operations, in order: taking the rows (23, over the buffers of that call), the product, b made a row,
    the row repeated, the sum. -/
abbrev ops : List (HloOp τ sig (Elt F)) :=
  [ TRef.nullary main_call0.c (constantI S_ 32 0#32),
    TRef.unary main_call0.c main_call0.v0 (broadcastInDim S16384 ![] bcast_S_S16384),
    TRef.binary (.of main_arg0) main_call0.v0 main_call0.v1 (cmpi .slt),
    TRef.nullary main_call0.c_0 (constantI S_ 32 8#32),
    TRef.unary main_call0.c_0 main_call0.v2 (broadcastInDim S16384 ![] bcast_S_S16384),
    TRef.binary (.of main_arg0) main_call0.v2 main_call0.v3 addi,
    TRef.ternary main_call0.v1 main_call0.v3 (.of main_arg0) main_call0.call0.v0 select,
    TRef.unary main_call0.call0.v0 main_call0.v5 (broadcastInDim S16384x1 ![0] bcast_S16384_S16384x1_0),
    TRef.nullary main_call0.c_1 (constantI S1 32 7#32),
    TRef.nullary main_call0.c_2 (constantI S_ 32 0#32),
    TRef.unary main_call0.c_2 main_call0.v6 (broadcastInDim S16384x1 ![] bcast_S_S16384x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S16384x1 ![0, 1] bcast_S1x1_S16384x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S16384x1_S16384_d1 h_S_),
    TRef.binary (.of main_arg1) main_call0.v5 main_call0.v13 (fun x i => Host.gather gather_S8x256_S16384x1_S16384x256_1_0_n_n_0_1_1256 x i),
    TRef.unary main_call0.v12 main_call0.v14 (broadcastInDim S16384x256 ![0] bcast_S16384_S16384x256_0),
    TRef.nullary main_call0.cst (constant S_ .f32 0x7FC00000#32),
    TRef.unary main_call0.cst main_call0.v15 (broadcastInDim S16384x256 ![] bcast_S_S16384x256),
    TRef.ternary main_call0.v14 main_call0.v13 main_call0.v15 main_call0.v16 select,
    binary main_v0 main_arg2 main_v1 ((fun l r => Host.dotGeneral dot_S16384x256_S256x128_S16384x128_1_0_0_1_n_n none l r) : (⟨S16384x256, .f32⟩ : BufTy).Contents (Elt F) → (⟨S256x128, .f32⟩ : BufTy).Contents (Elt F) → (⟨S16384x128, .f32⟩ : BufTy).Contents (Elt F)),
    unary main_arg3 main_v2 (broadcastInDim S1x128 ![1] bcast_S128_S1x128_1 : (⟨S128, .f32⟩ : BufTy).Contents (Elt F) → (⟨S1x128, .f32⟩ : BufTy).Contents (Elt F)),
    unary main_v2 main_v3 (broadcastInDim S16384x128 ![0, 1] bcast_S1x128_S16384x128_0_1 : (⟨S1x128, .f32⟩ : BufTy).Contents (Elt F) → (⟨S16384x128, .f32⟩ : BufTy).Contents (Elt F)),
    binary main_v1 main_v3 main_v4 (addf : (⟨S16384x128, .f32⟩ : BufTy).Contents (Elt F) → (⟨S16384x128, .f32⟩ : BufTy).Contents (Elt F) → (⟨S16384x128, .f32⟩ : BufTy).Contents (Elt F)) ]

set_option maxRecDepth 1024 in
/-- The program is that straight line: the two called functions written out at their calls, and the sequencing
    re-associated into one chain. -/
theorem main_eq (c : Dev nD) : main (F := F) c = seq ops := by
  simp only [main, fn_take.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-- Every operation touches device buffers only. -/
theorem ops_sub : (ops (F := F) : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub ..,
    binary_bufs_sub .., unary_bufs_sub .., unary_bufs_sub .., binary_bufs_sub ..⟩

attribute [local irreducible] Host.reduce Host.gather in
set_option maxRecDepth 8192 in
/-- What the last buffer holds after the line: the stages composed, of what the four argument buffers held. -/
theorem out_eq (V : Valuation τ sig (Elt F)) :
    after (ops (F := F)) V (main_v4 : DevRef τ sig)
      = composed (V (main_arg0 : DevRef τ sig)) (V (main_arg1 : DevRef τ sig)) (V (main_arg2 : DevRef τ sig))
          (V (main_arg3 : DevRef τ sig)) := by
  after_results_simp
  rfl

theorem arg0_eq (V : Valuation τ sig (Elt F)) : after (ops (F := F)) V (main_arg0 : DevRef τ sig) = V (main_arg0 : DevRef τ sig) := by
  after_results_simp
theorem arg1_eq (V : Valuation τ sig (Elt F)) : after (ops (F := F)) V (main_arg1 : DevRef τ sig) = V (main_arg1 : DevRef τ sig) := by
  after_results_simp
theorem arg2_eq (V : Valuation τ sig (Elt F)) : after (ops (F := F)) V (main_arg2 : DevRef τ sig) = V (main_arg2 : DevRef τ sig) := by
  after_results_simp
theorem arg3_eq (V : Valuation τ sig (Elt F)) : after (ops (F := F)) V (main_arg3 : DevRef τ sig) = V (main_arg3 : DevRef τ sig) := by
  after_results_simp

/-- On every device, for any float values, from any memory with zero counters: every weakly fair execution of the
    program terminates with the result buffer at the stages composed of the arguments, and the arguments unchanged. -/
theorem run_composed (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_v4)
          = composed (m ((c.tc : Thread nD τ).loc main_arg0)) (m ((c.tc : Thread nD τ).loc main_arg1))
              (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v4).trans (out_eq _),
      (h c main_arg0).trans (arg0_eq _), (h c main_arg1).trans (arg1_eq _),
      (h c main_arg2).trans (arg2_eq _), (h c main_arg3).trans (arg3_eq _)⟩)
    (run_seq scopedRefs_eq scopedSems_eq defs main (fun _ => ops) main_eq (fun _ => ops_sub) m ρ)

end Cert.ReferenceIdeal.RefRun

end
-- ==== Proof.LibPlainMatmul.lean ====
/- Two contractions read at coordinates, on the extended reals, for any extents: a `tpu.matmul` with the plain dimension
   numbers (rows × contraction by contraction × columns) into the zero accumulator, at (p, c), is the sum over the
   contraction coordinate k of left(p, k) · right(k, c); and a lane sum of a matrix (a `vector.multi_reduction <add>`
   along axis 1 from the neutral accumulator), at row p, is the sum over k of the matrix at (p, k). Nothing here depends
   on a particular program: a printed record with the plain lists is `DotDims.plain` by `rfl`. -/
import Idealize.ShloMosaic.PureOps.Ideal
import Idealize.ShloMosaic.PureOps.Ideal.Laws
import Idealize.ShloMosaic.Lib.ValueIdx

noncomputable section

open scoped BigOperators

open Idealize.ShloMosaic Idealize.ShloMosaic.ValueIdx

namespace Cert.Lib.PlainMatmul

/-- A matrix product with the plain dimension numbers into the zero accumulator, read at (p, c): the sum over the one
    contraction coordinate of the left operand's row p against the right operand's column c. -/
theorem plain_matmul_zero_apply {M K N : ℕ} {φ₁ φ₂ : FTy} (l : FVec Ideal ⟨2, ![M, K]⟩ φ₁) (r : FVec Ideal ⟨2, ![K, N]⟩ φ₂)
    (p : Fin M) (c : Fin N) :
    FloatOps.matmul (DotDims.plain M K N) none l r (constant (F := Ideal) ⟨2, ![M, N]⟩ .f32 0x00000000#32) (ix2 p c)
      = ∑ k : Fin K, l (ix2 p k) * r (ix2 k c) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p c) ((contrEquiv1 (DotDims.plain M K N) K rfl rfl).symm k) = ix2 p k :=
    funext fun a => Fin.ext (by
      match a with
      | ⟨0, _⟩ => rfl
      | ⟨1, _⟩ => exact ((DotDims.plain M K N).lhsIdx_val_of_single rfl _ _).trans hk)
  have er : (DotDims.plain M K N).rhsIdx (ix2 p c) ((contrEquiv1 (DotDims.plain M K N) K rfl rfl).symm k) = ix2 k c :=
    funext fun a => Fin.ext (by
      match a with
      | ⟨0, _⟩ => exact ((DotDims.plain M K N).rhsIdx_val_of_single rfl _ _).trans hk
      | ⟨1, _⟩ => rfl)
  rw [el, er]

/-- A lane sum of a matrix from the neutral accumulator, read at row p: the sum over the lane coordinate of the matrix
    at (p, k). The hypotheses are typed as the library's reading of the reduction takes them; a printed body's proof
    arguments are accepted for them. -/
theorem rowSum_apply {A K : ℕ} (src : FVec Ideal ⟨2, ![A, K]⟩ .f32) (acc : BitVec 32)
    (h : (⟨2, ![A, K]⟩ : Shape).Reduces [1] ⟨1, ![A]⟩) (hφ : FKind.Formats .f32) (hacc : acc = FKind.add.neutral .f32 hφ)
    (p : Fin A) :
    multiReduction .add [1] ⟨1, ![A]⟩ src acc h hφ hacc (ix1 p) = ∑ k : Fin K, src (ix2 p k) :=
  (Ideal.multiReduction_add_single src acc h hφ hacc (ix1 p)).trans
    (Finset.sum_congr rfl fun k _ => congrArg src (funext fun a => Fin.ext (by
      match a with
      | ⟨0, _⟩ => rfl
      | ⟨1, _⟩ => rfl)))

end Cert.Lib.PlainMatmul

end
-- ==== Proof.LibPlainDot.lean ====
/- The host's contraction read at coordinates, on the extended reals, for any extents: a `stablehlo.dot_general` with the
   plain dimension numbers (rows × contraction by contraction × columns), at (p, c), is the sum over the contraction
   coordinate k of left(p, k) · right(k, c) — whatever the precision annotation and the summation schedule, which the
   exact sum does not see. And a sum over an index range that is two ranges laid end to end is the sum over the first
   plus the sum over the second, in any commutative additive monoid (no finiteness): what splits a contraction over a
   concatenated operand into the contractions over its pieces. Nothing here depends on a particular program: a printed
   record with the plain lists is `DotDims.plain` by `rfl`. -/
import Idealize.ShloMosaic.PureOps.Ideal
import Idealize.ShloMosaic.PureOps.Ideal.Laws
import Idealize.ShloMosaic.Lib.ValueIdx

noncomputable section

open scoped BigOperators

open Idealize.ShloMosaic Idealize.ShloMosaic.ValueIdx

namespace Cert.Lib.PlainDot

/-- A host contraction with the plain dimension numbers, read at (p, c): the sum over the one contraction coordinate
    of the left operand's row p against the right operand's column c. -/
theorem plain_dotGeneral_apply {M K N : ℕ} {φ₁ φ₂ : FTy} (prec : Option ContractPrecision) (sched : HostSchedule)
    (l : FVec Ideal ⟨2, ![M, K]⟩ φ₁) (r : FVec Ideal ⟨2, ![K, N]⟩ φ₂) (p : Fin M) (c : Fin N) :
    FloatOps.dotGeneral (DotDims.plain M K N) prec sched l r (ix2 p c) = ∑ k : Fin K, l (ix2 p k) * r (ix2 k c) := by
  rw [Ideal.dotGeneral_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p c) ((contrEquiv1 (DotDims.plain M K N) K rfl rfl).symm k) = ix2 p k :=
    funext fun a => Fin.ext (by
      match a with
      | ⟨0, _⟩ => rfl
      | ⟨1, _⟩ => exact ((DotDims.plain M K N).lhsIdx_val_of_single rfl _ _).trans hk)
  have er : (DotDims.plain M K N).rhsIdx (ix2 p c) ((contrEquiv1 (DotDims.plain M K N) K rfl rfl).symm k) = ix2 k c :=
    funext fun a => Fin.ext (by
      match a with
      | ⟨0, _⟩ => exact ((DotDims.plain M K N).rhsIdx_val_of_single rfl _ _).trans hk
      | ⟨1, _⟩ => rfl)
  rw [el, er]

/-- A sum over `Fin (a + b)` is the sum over the first `a` indices plus the sum over the last `b`, the latter
    numbered from `a`. -/
theorem sum_two_ranges {β : Type*} [AddCommMonoid β] (a b : ℕ) (f : Fin (a + b) → β) :
    ∑ k : Fin (a + b), f k = ∑ k : Fin a, f (Fin.castAdd b k) + ∑ k : Fin b, f (Fin.natAdd a k) :=
  Fin.sum_univ_add f

end Cert.Lib.PlainDot

end
-- ==== Proof.LibBlockProduct.lean ====
/- The product of two matrices over the extended reals as ONE function of the two arrays, for any extents, and three
   readings of it: a `tpu.matmul` with the plain dimension numbers into the zero accumulator IS the product; the host's
   `dot_general` with the plain dimension numbers IS the product, whatever its precision annotation; and a block of whole
   rows of the product is the product of that block of rows of the left factor with the whole right factor (each entry
   of a product depends on one row of the left factor only), stated for any three re-indexings that move a row block
   to its place. No finiteness is used: every statement is an equality of the same finite sum of the same products. -/
import Idealize.ShloMosaic.PureOps.Ideal
import Idealize.ShloMosaic.PureOps.Ideal.Laws
import Idealize.ShloMosaic.Lib.ValueIdx
import proofs.«206855_g20126216749723_cont_sun_m_335_21_alg».proof.Proof.LibPlainMatmul
import proofs.«206855_g20126216749723_cont_sun_m_335_21_alg».proof.Proof.LibPlainDot

noncomputable section

open scoped BigOperators

open Idealize.ShloMosaic Idealize.ShloMosaic.ValueIdx

namespace Cert.Lib.BlockProduct

/-- The product of an M×K array and a K×N array: entry (p, q) is the sum over k of left(p, k) · right(k, q). -/
def prod {M K N : ℕ} (x : (⟨2, ![M, K]⟩ : Shape).Idx → EReal) (w : (⟨2, ![K, N]⟩ : Shape).Idx → EReal) :
    (⟨2, ![M, N]⟩ : Shape).Idx → EReal :=
  fun i => ∑ k : Fin K, x (ix2 (⟨(i 0).val, idx2_lt0 i⟩ : Fin M) k) * w (ix2 k (⟨(i 1).val, idx2_lt1 i⟩ : Fin N))

/-- The product read at coordinates. -/
theorem prod_apply {M K N : ℕ} (x : (⟨2, ![M, K]⟩ : Shape).Idx → EReal) (w : (⟨2, ![K, N]⟩ : Shape).Idx → EReal)
    (p : Fin M) (q : Fin N) : prod x w (ix2 p q) = ∑ k : Fin K, x (ix2 p k) * w (ix2 k q) := rfl

/-- A matrix unit's product into the zero accumulator is the product. -/
theorem matmul_eq_prod {M K N : ℕ} {φ₁ φ₂ : FTy} (l : FVec Ideal ⟨2, ![M, K]⟩ φ₁) (r : FVec Ideal ⟨2, ![K, N]⟩ φ₂) :
    FloatOps.matmul (DotDims.plain M K N) none l r (constant (F := Ideal) ⟨2, ![M, N]⟩ .f32 0x00000000#32) = prod l r := by
  funext i
  obtain ⟨p, q, rfl⟩ : ∃ (p : Fin M) (q : Fin N), i = ix2 p q := ⟨i 0, i 1, eq_ix2 i⟩
  rw [prod_apply]
  exact Cert.Lib.PlainMatmul.plain_matmul_zero_apply l r p q

/-- The host's contraction is the product. -/
theorem dotGeneral_eq_prod {M K N : ℕ} {φ₁ φ₂ : FTy} (prec : Option ContractPrecision) (sched : HostSchedule)
    (l : FVec Ideal ⟨2, ![M, K]⟩ φ₁) (r : FVec Ideal ⟨2, ![K, N]⟩ φ₂) :
    FloatOps.dotGeneral (DotDims.plain M K N) prec sched l r = prod l r := by
  funext i
  obtain ⟨p, q, rfl⟩ : ∃ (p : Fin M) (q : Fin N), i = ix2 p q := ⟨i 0, i 1, eq_ix2 i⟩
  rw [prod_apply]
  exact Cert.Lib.PlainDot.plain_dotGeneral_apply prec sched l r p q

/-- A block of R whole rows of a product, starting at row `b`, is the product of those rows of the left factor with the
    right factor: `e0` places a row-block index of the left factor at rows `b …`, `e2` does the same for the product, and
    `e1` leaves the right factor's indices where they are. -/
theorem prod_rowBlock {M K N R : ℕ} (A : (⟨2, ![M, K]⟩ : Shape).Idx → EReal) (B : (⟨2, ![K, N]⟩ : Shape).Idx → EReal)
    (e0 : (⟨2, ![R, K]⟩ : Shape).Idx → (⟨2, ![M, K]⟩ : Shape).Idx) (e1 : (⟨2, ![K, N]⟩ : Shape).Idx → (⟨2, ![K, N]⟩ : Shape).Idx)
    (e2 : (⟨2, ![R, N]⟩ : Shape).Idx → (⟨2, ![M, N]⟩ : Shape).Idx) (b : ℕ)
    (h0 : ∀ z, (e0 z 0).val = b + (z 0).val ∧ (e0 z 1).val = (z 1).val)
    (h1 : ∀ z, (e1 z 0).val = (z 0).val ∧ (e1 z 1).val = (z 1).val)
    (h2 : ∀ z, (e2 z 0).val = b + (z 0).val ∧ (e2 z 1).val = (z 1).val)
    (y : (⟨2, ![R, N]⟩ : Shape).Idx) :
    prod (fun z => A (e0 z)) (fun z => B (e1 z)) y = prod A B (e2 y) := by
  unfold prod
  refine Finset.sum_congr rfl fun k _ => ?_
  have ea : e0 (ix2 (⟨(y 0).val, idx2_lt0 y⟩ : Fin R) k) = ix2 (⟨(e2 y 0).val, idx2_lt0 (e2 y)⟩ : Fin M) k :=
    funext fun a => Fin.ext (by
      match a with
      | ⟨0, _⟩ => exact ((h0 _).1).trans ((h2 y).1).symm
      | ⟨1, _⟩ => exact (h0 _).2)
  have eb : e1 (ix2 k (⟨(y 1).val, idx2_lt1 y⟩ : Fin N)) = ix2 k (⟨(e2 y 1).val, idx2_lt1 (e2 y)⟩ : Fin N) :=
    funext fun a => Fin.ext (by
      match a with
      | ⟨0, _⟩ => exact (h1 _).1
      | ⟨1, _⟩ => exact ((h1 _).2).trans ((h2 y).2).symm)
  show A (e0 _) * B (e1 _) = _
  rw [ea, eb]

end Cert.Lib.BlockProduct

end
-- ==== Proof.LibBroadcastReads.lean ====
/- Small layout reads at coordinates, for any extents and any element type: a column `[a, 1]` broadcast along the lanes
   to `[a, b]` (a vector `broadcast` and a host `broadcast_in_dim` with dims [0, 1]), a row `[1, b]` broadcast down the
   rows by a host `broadcast_in_dim` with dims [0, 1], a vector `[a]` made a column `[a, 1]` (dims [0]) and a vector `[b]`
   made a row `[1, b]` (dims [1]). Each reads the operand at the coordinate that survives; the unit axis reads at 0.
   Nothing here depends on a particular program. -/
import Idealize.ShloMosaic.Lib.Pipeline.Value
import Idealize.ShloMosaic.Lib.ValueIdx

noncomputable section

open Idealize.ShloMosaic Idealize.ShloMosaic.ValueIdx

namespace Cert.Lib.BroadcastReads

variable {α : Type}

/-- A vector broadcast of a column `[a, 1]` to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A host broadcast (dims [0, 1]) of a column `[a, 1]` to `[a, b]` reads, at `(p, c)`, the column at row `p`. -/
theorem broadcastInDim_a1_ab_apply {a b : ℕ} (v : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h v (ix2 p c) = v (ix2 p (0 : Fin 1)) := by
  refine broadcastInDim_apply _ h v (ix2 p c) (ix2 p (0 : Fin 1)) fun ax => ?_
  match ax with
  | ⟨0, _⟩ =>
    show p.val = if a = 1 then 0 else p.val
    split
    · have := p.isLt; omega
    · rfl
  | ⟨1, _⟩ => rfl

/-- A host broadcast (dims [0, 1]) of a row `[1, b]` to `[a, b]` reads, at `(p, c)`, the row at column `c`. -/
theorem broadcastInDim_1b_ab_apply {a b : ℕ} (v : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h v (ix2 p c) = v (ix2 (0 : Fin 1) c) := by
  refine broadcastInDim_apply _ h v (ix2 p c) (ix2 (0 : Fin 1) c) fun ax => ?_
  match ax with
  | ⟨0, _⟩ => rfl
  | ⟨1, _⟩ =>
    show c.val = if b = 1 then 0 else c.val
    split
    · have := c.isLt; omega
    · rfl

/-- A vector `[a]` made a column `[a, 1]` by a host broadcast (dims [0]) reads, at `(p, z)`, the vector at `p`. -/
theorem broadcastInDim_a_a1_apply {a : ℕ} (v : (⟨1, ![a]⟩ : Shape).Idx → α)
    (h : (⟨1, ![a]⟩ : Shape).BroadcastsInDim ⟨2, ![a, 1]⟩ ![0]) (p : Fin a) (z : Fin 1) :
    broadcastInDim ⟨2, ![a, 1]⟩ ![0] h v (ix2 p z) = v (ix1 p) := by
  refine broadcastInDim_apply _ h v (ix2 p z) (ix1 p) fun ax => ?_
  match ax with
  | ⟨0, _⟩ =>
    show p.val = if a = 1 then 0 else p.val
    split
    · have := p.isLt; omega
    · rfl

/-- A vector `[b]` made a row `[1, b]` by a host broadcast (dims [1]) reads, at `(z, c)`, the vector at `c`. -/
theorem broadcastInDim_b_1b_apply {b : ℕ} (v : (⟨1, ![b]⟩ : Shape).Idx → α)
    (h : (⟨1, ![b]⟩ : Shape).BroadcastsInDim ⟨2, ![1, b]⟩ ![1]) (z : Fin 1) (c : Fin b) :
    broadcastInDim ⟨2, ![1, b]⟩ ![1] h v (ix2 z c) = v (ix1 c) := by
  refine broadcastInDim_apply _ h v (ix2 z c) (ix1 c) fun ax => ?_
  match ax with
  | ⟨0, _⟩ =>
    show c.val = if b = 1 then 0 else c.val
    split
    · have := c.isLt; omega
    · rfl

end Cert.Lib.BroadcastReads

end
-- ==== Proof.LibDenseLayer.lean ====
/- One dense layer of the graph network on the extended reals, as whole-array functions for any extents.
   `affine a W b` is the matrix product a·W with the vector b added to every row; `leak` is the leaky rectifier
   y ↦ y if y ≥ 0, else s·y, with s the single-precision number nearest 0.1 (the same word on both sides of the
   comparison, so its value is never needed); `layer` is the two composed. Three readings: a row stored as a
   `[1, N]` array feeds `affine` like the vector it was cast or broadcast from; the host's spelling of a layer
   (a `dot_general`, the bias broadcast twice, a compare against a broadcast zero, a product with a broadcast slope, a
   select) is `layer`; and a block of whole rows of `affine` / `layer` is the same function of that block of rows of the left
   factor (an entry depends on one row of the left factor, on W and on b only). No finiteness is used. -/
import Idealize.ShloMosaic.PureOps.Ideal
import Idealize.ShloMosaic.PureOps.Ideal.Laws
import Idealize.ShloMosaic.Lib.ValueIdx
import Idealize.ShloMosaic.Lib.Pipeline.Value
import proofs.«206855_g20126216749723_cont_sun_m_335_21_alg».proof.Proof.LibBlockProduct
import proofs.«206855_g20126216749723_cont_sun_m_335_21_alg».proof.Proof.LibBroadcastReads

noncomputable section

open scoped BigOperators

open Idealize.ShloMosaic Idealize.ShloMosaic.ValueIdx Cert.Lib.BlockProduct

namespace Cert.GraphLayer

/-- The product a·W plus the row `brow` (a `[1, N]` array) on every row. -/
def affine {M K N : ℕ} (a : (⟨2, ![M, K]⟩ : Shape).Idx → EReal) (W : (⟨2, ![K, N]⟩ : Shape).Idx → EReal)
    (brow : (⟨2, ![1, N]⟩ : Shape).Idx → EReal) : (⟨2, ![M, N]⟩ : Shape).Idx → EReal :=
  fun i => prod a W i + brow (ix2 (0 : Fin 1) (⟨(i 1).val, idx2_lt1 i⟩ : Fin N))

theorem affine_apply {M K N : ℕ} (a : (⟨2, ![M, K]⟩ : Shape).Idx → EReal) (W : (⟨2, ![K, N]⟩ : Shape).Idx → EReal)
    (brow : (⟨2, ![1, N]⟩ : Shape).Idx → EReal) (p : Fin M) (q : Fin N) :
    affine a W brow (ix2 p q) = prod a W (ix2 p q) + brow (ix2 (0 : Fin 1) q) := rfl

/-- The leaky rectifier: y where y ≥ 0, the slope times y elsewhere. -/
def leak (y : EReal) : EReal :=
  Scalar.select (FloatOps.cmpf (F := Ideal) (φ := .f32) .oge y (Ideal.ofBits .f32 0x00000000#32)) y
    (Ideal.ofBits .f32 0x3DCCCCCD#32 * y)

/-- One layer: the rectifier of the affine map, entry by entry. -/
def layer {M K N : ℕ} (a : (⟨2, ![M, K]⟩ : Shape).Idx → EReal) (W : (⟨2, ![K, N]⟩ : Shape).Idx → EReal)
    (brow : (⟨2, ![1, N]⟩ : Shape).Idx → EReal) : (⟨2, ![M, N]⟩ : Shape).Idx → EReal :=
  fun i => leak (affine a W brow i)

/-- A scalar broadcast to any shape reads the scalar everywhere. -/
theorem bcast_scalar_apply {α : Type} {t : Shape} (h : (⟨0, ![]⟩ : Shape).BroadcastsInDim t (![] : Fin 0 → Fin t.rank))
    (x : (⟨0, ![]⟩ : Shape).Idx → α) (i : t.Idx) : broadcastInDim t ![] h x i = x ix0 :=
  (broadcastInDim_apply _ h x i (fun a => a.elim0) (fun a => a.elim0)).trans (congrArg x (funext fun a => a.elim0))

/-- THE HOST'S LAYER: the contraction, the bias made a row and broadcast down the rows, the comparison with a broadcast
    zero, the product with the broadcast slope and the select are `layer` of the operands, the bias as the row it
    was broadcast to. -/
theorem host_layer_eq {M K N : ℕ} (prec : Option ContractPrecision) (sched : HostSchedule)
    (a : FVec Ideal ⟨2, ![M, K]⟩ .f32) (W : FVec Ideal ⟨2, ![K, N]⟩ .f32) (brow : FVec Ideal ⟨2, ![1, N]⟩ .f32)
    (h2 : (⟨2, ![1, N]⟩ : Shape).BroadcastsInDim ⟨2, ![M, N]⟩ ![0, 1])
    (h0 : (⟨0, ![]⟩ : Shape).BroadcastsInDim ⟨2, ![M, N]⟩ (![] : Fin 0 → Fin 2)) :
    select (cmpf .oge (addf (FloatOps.dotGeneral (DotDims.plain M K N) prec sched a W) (broadcastInDim ⟨2, ![M, N]⟩ ![0, 1] h2 brow))
        (broadcastInDim ⟨2, ![M, N]⟩ ![] h0 (constant (F := Ideal) ⟨0, ![]⟩ .f32 0x00000000#32)))
      (addf (FloatOps.dotGeneral (DotDims.plain M K N) prec sched a W) (broadcastInDim ⟨2, ![M, N]⟩ ![0, 1] h2 brow))
      (mulf (broadcastInDim ⟨2, ![M, N]⟩ ![] h0 (constant (F := Ideal) ⟨0, ![]⟩ .f32 0x3DCCCCCD#32))
        (addf (FloatOps.dotGeneral (DotDims.plain M K N) prec sched a W) (broadcastInDim ⟨2, ![M, N]⟩ ![0, 1] h2 brow)))
      = layer a W brow := by
  funext i
  obtain ⟨p, q, rfl⟩ : ∃ (p : Fin M) (q : Fin N), i = ix2 p q := ⟨i 0, i 1, eq_ix2 i⟩
  rw [select_apply, cmpf_apply, mulf_apply, addf_apply, bcast_scalar_apply, bcast_scalar_apply, constant_apply, constant_apply,
    dotGeneral_eq_prod, Cert.Lib.BroadcastReads.broadcastInDim_1b_ab_apply]
  rfl

/-- The host's affine map alone (no rectifier). -/
theorem host_affine_eq {M K N : ℕ} (prec : Option ContractPrecision) (sched : HostSchedule)
    (a : FVec Ideal ⟨2, ![M, K]⟩ .f32) (W : FVec Ideal ⟨2, ![K, N]⟩ .f32) (brow : FVec Ideal ⟨2, ![1, N]⟩ .f32)
    (h2 : (⟨2, ![1, N]⟩ : Shape).BroadcastsInDim ⟨2, ![M, N]⟩ ![0, 1]) :
    addf (FloatOps.dotGeneral (DotDims.plain M K N) prec sched a W) (broadcastInDim ⟨2, ![M, N]⟩ ![0, 1] h2 brow)
      = affine a W brow := by
  funext i
  obtain ⟨p, q, rfl⟩ : ∃ (p : Fin M) (q : Fin N), i = ix2 p q := ⟨i 0, i 1, eq_ix2 i⟩
  rw [addf_apply, dotGeneral_eq_prod, Cert.Lib.BroadcastReads.broadcastInDim_1b_ab_apply]
  rfl

/-- A BLOCK OF WHOLE ROWS of the affine map, starting at row `b`, is the affine map of that block of rows of the left
    factor: `e0` and `e2` place a row-block index at rows `b …` of the left factor and of the result; `e1` and `e3`
    leave the indices of W and of the bias row where they are. -/
theorem affine_rowBlock {M K N R : ℕ} (A : (⟨2, ![M, K]⟩ : Shape).Idx → EReal) (B : (⟨2, ![K, N]⟩ : Shape).Idx → EReal)
    (C : (⟨2, ![1, N]⟩ : Shape).Idx → EReal)
    (e0 : (⟨2, ![R, K]⟩ : Shape).Idx → (⟨2, ![M, K]⟩ : Shape).Idx) (e1 : (⟨2, ![K, N]⟩ : Shape).Idx → (⟨2, ![K, N]⟩ : Shape).Idx)
    (e3 : (⟨2, ![1, N]⟩ : Shape).Idx → (⟨2, ![1, N]⟩ : Shape).Idx)
    (e2 : (⟨2, ![R, N]⟩ : Shape).Idx → (⟨2, ![M, N]⟩ : Shape).Idx) (b : ℕ)
    (h0 : ∀ z, (e0 z 0).val = b + (z 0).val ∧ (e0 z 1).val = (z 1).val)
    (h1 : ∀ z, (e1 z 0).val = (z 0).val ∧ (e1 z 1).val = (z 1).val)
    (h3 : ∀ z, (e3 z 0).val = (z 0).val ∧ (e3 z 1).val = (z 1).val)
    (h2 : ∀ z, (e2 z 0).val = b + (z 0).val ∧ (e2 z 1).val = (z 1).val)
    (y : (⟨2, ![R, N]⟩ : Shape).Idx) :
    affine (fun z => A (e0 z)) (fun z => B (e1 z)) (fun z => C (e3 z)) y = affine A B C (e2 y) := by
  unfold affine
  rw [prod_rowBlock A B e0 e1 e2 b h0 h1 h2 y]
  refine congrArg (fun t => prod A B (e2 y) + C t) ?_
  funext a
  refine Fin.ext ?_
  match a with
  | ⟨0, _⟩ => exact (h3 _).1
  | ⟨1, _⟩ => exact ((h3 _).2).trans ((h2 y).2).symm

/-- The same for a whole layer. -/
theorem layer_rowBlock {M K N R : ℕ} (A : (⟨2, ![M, K]⟩ : Shape).Idx → EReal) (B : (⟨2, ![K, N]⟩ : Shape).Idx → EReal)
    (C : (⟨2, ![1, N]⟩ : Shape).Idx → EReal)
    (e0 : (⟨2, ![R, K]⟩ : Shape).Idx → (⟨2, ![M, K]⟩ : Shape).Idx) (e1 : (⟨2, ![K, N]⟩ : Shape).Idx → (⟨2, ![K, N]⟩ : Shape).Idx)
    (e3 : (⟨2, ![1, N]⟩ : Shape).Idx → (⟨2, ![1, N]⟩ : Shape).Idx)
    (e2 : (⟨2, ![R, N]⟩ : Shape).Idx → (⟨2, ![M, N]⟩ : Shape).Idx) (b : ℕ)
    (h0 : ∀ z, (e0 z 0).val = b + (z 0).val ∧ (e0 z 1).val = (z 1).val)
    (h1 : ∀ z, (e1 z 0).val = (z 0).val ∧ (e1 z 1).val = (z 1).val)
    (h3 : ∀ z, (e3 z 0).val = (z 0).val ∧ (e3 z 1).val = (z 1).val)
    (h2 : ∀ z, (e2 z 0).val = b + (z 0).val ∧ (e2 z 1).val = (z 1).val)
    (y : (⟨2, ![R, N]⟩ : Shape).Idx) :
    layer (fun z => A (e0 z)) (fun z => B (e1 z)) (fun z => C (e3 z)) y = layer A B C (e2 y) :=
  congrArg leak (affine_rowBlock A B C e0 e1 e3 e2 b h0 h1 h3 h2 y)

end Cert.GraphLayer

end
-- ==== Proof.LookupSpec.lean ====
/- The function both programs compute, and the one law that joins their two arrangements of it.
   An embedding table of 8 rows of 256 numbers is projected through a 256 x 128 matrix W and a bias b is added to
   every row: P(v, d) = sum over k of table(v, k) * W(k, d) + b(d), an 8 x 128 array. Each of 16384 index words names a
   row of the table, and row i of the result is row x_i of P.
   The kernel projects the 8 rows once and then moves rows of P; the reference first gathers 16384 rows of the table
   and projects each of them. Entry (i, d) of either is the same finite sum of the same products plus b(d): an entry of
   a matrix product depends on one row of its left factor only, so gathering rows commutes with the projection.
   Nothing here uses finiteness: only the same sums are compared, never rearranged across an infinity. -/
import Idealize.ShloMosaic.PureOps.Ideal
import Idealize.ShloMosaic.Lib.ValueIdx
import proofs.«206855_g20126216749723_cont_sun_m_335_21_alg».proof.Proof.LibDenseLayer

noncomputable section

open scoped BigOperators

open Idealize.ShloMosaic Idealize.ShloMosaic.ValueIdx Cert.Lib.BlockProduct Cert.GraphLayer

namespace Cert.EmbedProject

/-- The bias vector laid out as the single row of a 1 x 128 array. -/
def biasRow (b : (⟨1, ![128]⟩ : Shape).Idx → EReal) : (⟨2, ![1, 128]⟩ : Shape).Idx → EReal :=
  fun z => b (ix1 (⟨(z 1).val, idx2_lt1 z⟩ : Fin 128))

theorem biasRow_apply (b : (⟨1, ![128]⟩ : Shape).Idx → EReal) (z : Fin 1) (q : Fin 128) :
    biasRow b (ix2 z q) = b (ix1 q) := rfl

/-- The projected table P = table * W + b, 8 rows of 128 numbers. -/
def projected (table : (⟨2, ![8, 256]⟩ : Shape).Idx → EReal) (W : (⟨2, ![256, 128]⟩ : Shape).Idx → EReal)
    (b : (⟨1, ![128]⟩ : Shape).Idx → EReal) : (⟨2, ![8, 128]⟩ : Shape).Idx → EReal :=
  affine table W (biasRow b)

theorem projected_apply (table : (⟨2, ![8, 256]⟩ : Shape).Idx → EReal) (W : (⟨2, ![256, 128]⟩ : Shape).Idx → EReal)
    (b : (⟨1, ![128]⟩ : Shape).Idx → EReal) (v : Fin 8) (d : Fin 128) :
    projected table W b (ix2 v d) = (∑ k : Fin 256, table (ix2 v k) * W (ix2 k d)) + b (ix1 d) := rfl

/-- The row of the table an index word names: the word read as a natural number when that is below 8 (the only
    case the precondition leaves), row 0 otherwise. -/
def rowOf (w : BitVec 32) : Fin 8 := if h : w.toNat < 8 then ⟨w.toNat, h⟩ else 0

theorem rowOf_val {w : BitVec 32} (h : w.toNat < 8) : (rowOf w).val = w.toNat := by
  unfold rowOf; rw [dif_pos h]

/-- The row that index word number i names. -/
def rowAt (x : (⟨1, ![16384]⟩ : Shape).Idx → BitVec 32) (i : Fin 16384) : Fin 8 := rowOf (x (ix1 i))

/-- THE RESULT: row i is row x_i of the projected table. -/
def lookup (x : (⟨1, ![16384]⟩ : Shape).Idx → BitVec 32) (table : (⟨2, ![8, 256]⟩ : Shape).Idx → EReal)
    (W : (⟨2, ![256, 128]⟩ : Shape).Idx → EReal) (b : (⟨1, ![128]⟩ : Shape).Idx → EReal) :
    (⟨2, ![16384, 128]⟩ : Shape).Idx → EReal :=
  fun j => projected table W b (ix2 (rowAt x (⟨(j 0).val, idx2_lt0 j⟩ : Fin 16384)) (⟨(j 1).val, idx2_lt1 j⟩ : Fin 128))

theorem lookup_apply (x : (⟨1, ![16384]⟩ : Shape).Idx → BitVec 32) (table : (⟨2, ![8, 256]⟩ : Shape).Idx → EReal)
    (W : (⟨2, ![256, 128]⟩ : Shape).Idx → EReal) (b : (⟨1, ![128]⟩ : Shape).Idx → EReal) (i : Fin 16384) (d : Fin 128) :
    lookup x table W b (ix2 i d) = projected table W b (ix2 (rowAt x i) d) := rfl

/-- The 16384 gathered rows of the table: row i is row x_i. -/
def gathered (x : (⟨1, ![16384]⟩ : Shape).Idx → BitVec 32) (table : (⟨2, ![8, 256]⟩ : Shape).Idx → EReal) :
    (⟨2, ![16384, 256]⟩ : Shape).Idx → EReal :=
  fun j => table (ix2 (rowAt x (⟨(j 0).val, idx2_lt0 j⟩ : Fin 16384)) (⟨(j 1).val, idx2_lt1 j⟩ : Fin 256))

theorem gathered_apply (x : (⟨1, ![16384]⟩ : Shape).Idx → BitVec 32) (table : (⟨2, ![8, 256]⟩ : Shape).Idx → EReal)
    (i : Fin 16384) (k : Fin 256) : gathered x table (ix2 i k) = table (ix2 (rowAt x i) k) := rfl

/-- GATHERING COMMUTES WITH THE PROJECTION: projecting the gathered rows gives the gathered rows of the projected
    table. Entry (i, d) of both is the sum over k of table(x_i, k) * W(k, d), plus b(d). -/
theorem affine_gathered (x : (⟨1, ![16384]⟩ : Shape).Idx → BitVec 32) (table : (⟨2, ![8, 256]⟩ : Shape).Idx → EReal)
    (W : (⟨2, ![256, 128]⟩ : Shape).Idx → EReal) (b : (⟨1, ![128]⟩ : Shape).Idx → EReal) :
    affine (gathered x table) W (biasRow b) = lookup x table W b := by
  funext j
  obtain ⟨i, d, rfl⟩ : ∃ (i : Fin 16384) (d : Fin 128), j = ix2 i d := ⟨j 0, j 1, eq_ix2 j⟩
  rw [lookup_apply, projected_apply, affine_apply, prod_apply, biasRow_apply]
  rfl

end Cert.EmbedProject

end
-- ==== Proof.LibRowGather.lean ====
/- A row gather read at coordinates, for any extents and any element type: a `stablehlo.gather` of a matrix `[N, C]` at a
   column `[R, 1]` of start indices, with offset axis [1], collapsed axis [0], start index map [0] and slices `[1, C]` —
   what taking whole rows of a table at an integer vector lowers to. Result element `(r, c)` is the matrix at row
   `idx[r, 0]`, read as a signed integer and clamped into `[0, N − 1]`, and column `c`. When the start index is known to lie
   in `[0, N − 1]` the clamp is the identity (`gather_rows_apply_of_lt`). Nothing here depends on a particular program: a
   printed record with these lists is `rowTakeDims` by `rfl`. -/
import Idealize.ShloMosaic.PureOps.Ideal
import Idealize.ShloMosaic.Lib.ValueIdx

noncomputable section

open Idealize.ShloMosaic Idealize.ShloMosaic.ValueIdx

namespace Cert.Lib.RowGather

variable {α : Type}

/-- The dimension numbers of a row gather for an operand `[N, C]`, start indices `[R, 1]` and a result `[R, C]`; their
    conditions `wf` are decided on a program's literal shapes. -/
abbrev rowTakeDims (N R C : Nat) (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(r, c)`: the operand at row `idx[r, 0]`, read signed and clamped into `[0, N − 1]`, and
    column `c`. -/
theorem gather_rows_apply {N R C w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (r : Fin R) (c : Fin C) :
    Host.gather (rowTakeDims N R C wf) x idx (ix2 r c)
      = x (ix2 (⟨min (idx (ix2 r (0 : Fin 1))).toInt.toNat (N - 1), by omega⟩ : Fin N) c) := by
  unfold Host.gather
  congr 1
  funext a
  refine Fin.ext ?_
  match a with
  | ⟨0, _⟩ =>
    show (rowTakeDims N R C wf).start (ix2 r c) idx 0 + (rowTakeDims N R C wf).batchCoord (ix2 r c) 0
        + (rowTakeDims N R C wf).offCoord (ix2 r c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowTakeDims N R C wf).startIndexMap from List.mem_singleton.mpr rfl)]
    have hsi : (rowTakeDims N R C wf).siIdx (ix2 r c) ⟨List.idxOf (0 : Fin 2) (rowTakeDims N R C wf).startIndexMap,
        List.idxOf_lt_length_iff.2 (List.mem_singleton.mpr rfl)⟩ = ix2 r (0 : Fin 1) := by
      funext b; refine Fin.ext ?_
      match b with
      | ⟨0, _⟩ => rfl
      | ⟨1, _⟩ => rfl
    rw [hsi]
    rfl
  | ⟨1, _⟩ =>
    show (rowTakeDims N R C wf).start (ix2 r c) idx 1 + (rowTakeDims N R C wf).batchCoord (ix2 r c) 1
        + (rowTakeDims N R C wf).offCoord (ix2 r c) 1 = c.val
    rw [GatherDims.batchCoord_eq_zero _ _ _ List.not_mem_nil]
    unfold GatherDims.start
    rw [dif_neg (show (1 : Fin 2) ∉ (rowTakeDims N R C wf).startIndexMap from (by decide : (1 : Fin 2) ∉ ([0] : List (Fin 2))))]
    unfold GatherDims.offCoord
    rw [dif_pos (show (1 : Fin 2) ∈ (rowTakeDims N R C wf).sKept from
      ((rowTakeDims N R C wf).mem_sKept 1).mpr ⟨(by decide : (1 : Fin 2) ∉ ([0] : List (Fin 2))), List.not_mem_nil⟩)]
    simp only [Nat.zero_add, Nat.add_zero]
    rfl

/-- The same read when the start index, as a signed integer, is a natural number below `N`: the clamp does nothing. -/
theorem gather_rows_apply_of_lt {N R C w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (r : Fin R) (c : Fin C) (q : Fin N)
    (hq : (idx (ix2 r (0 : Fin 1))).toInt = (q.val : ℤ)) :
    Host.gather (rowTakeDims N R C wf) x idx (ix2 r c) = x (ix2 q c) := by
  rw [gather_rows_apply hN wf x idx r c]
  congr 2
  refine Fin.ext ?_
  show min (idx (ix2 r (0 : Fin 1))).toInt.toNat (N - 1) = q.val
  rw [hq, Int.toNat_natCast]
  have := q.isLt
  omega

end Cert.Lib.RowGather

end
-- ==== Proof.LibVecGather.lean ====
/- A gather of scalars read at an index, for any extents and any element type: a `stablehlo.gather` of a vector `[N]` at a
   column `[R, 1]` of start indices, with no offset axis, collapsed axis [0], start index map [0] and slices `[1]` — what
   indexing a vector by an integer vector lowers to. Result element `r` is the vector at `idx[r, 0]`, read as a signed
   integer and clamped into `[0, N − 1]`; when the start index is known to lie in range the clamp is the identity.
   Beside it, the forward reading of a reduction by `and`: from the initial bit one over bits that are all one, the
   result is one. Nothing here depends on a particular program. -/
import Idealize.ShloMosaic.PureOps.Ideal
import Idealize.ShloMosaic.PureOps.Reduce
import Idealize.ShloMosaic.Lib.ValueIdx

noncomputable section

open Idealize.ShloMosaic Idealize.ShloMosaic.ValueIdx

namespace Cert.Lib.VecGather

variable {α : Type}

/-- The dimension numbers of a gather of scalars for an operand `[N]`, start indices `[R, 1]` and a result `[R]`. -/
abbrev vecTakeDims (N R : Nat) (wf : GatherDims.WF ⟨1, ![N]⟩ ⟨2, ![R, 1]⟩ ⟨1, ![R]⟩ [] [0] [] [0] [] 1 ![1]) :
    GatherDims ⟨1, ![N]⟩ ⟨2, ![R, 1]⟩ ⟨1, ![R]⟩ where
  offsetDims := []
  collapsedSliceDims := [0]
  operandBatchingDims := []
  startIndicesBatchingDims := []
  startIndexMap := [0]
  indexVectorDim := 1
  sliceSizes := ![1]
  wf := wf

/-- THE GATHER OF SCALARS READ AT `r`: the operand at `idx[r, 0]`, read signed and clamped into `[0, N − 1]`. -/
theorem gather_vec_apply {N R w : Nat} (hN : 0 < N)
    (wf : GatherDims.WF ⟨1, ![N]⟩ ⟨2, ![R, 1]⟩ ⟨1, ![R]⟩ [] [0] [] [0] [] 1 ![1])
    (x : (⟨1, ![N]⟩ : Shape).Idx → α) (idx : IVec ⟨2, ![R, 1]⟩ w) (r : Fin R) :
    Host.gather (vecTakeDims N R wf) x idx (ix1 r)
      = x (ix1 (⟨min (idx (ix2 r (0 : Fin 1))).toInt.toNat (N - 1), by omega⟩ : Fin N)) := by
  unfold Host.gather
  congr 1
  funext a
  refine Fin.ext ?_
  match a with
  | ⟨0, _⟩ =>
    show (vecTakeDims N R wf).start (ix1 r) idx 0 + (vecTakeDims N R wf).batchCoord (ix1 r) 0
        + (vecTakeDims N R wf).offCoord (ix1 r) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 1) ∈ (vecTakeDims N R wf).startIndexMap from List.mem_singleton.mpr rfl)]
    have hsi : (vecTakeDims N R wf).siIdx (ix1 r) ⟨List.idxOf (0 : Fin 1) (vecTakeDims N R wf).startIndexMap,
        List.idxOf_lt_length_iff.2 (List.mem_singleton.mpr rfl)⟩ = ix2 r (0 : Fin 1) := by
      funext b; refine Fin.ext ?_
      match b with
      | ⟨0, _⟩ => rfl
      | ⟨1, _⟩ => rfl
    rw [hsi]
    rfl

/-- The same read when the start index, as a signed integer, is a natural number below `N`. -/
theorem gather_vec_apply_of_lt {N R w : Nat} (hN : 0 < N)
    (wf : GatherDims.WF ⟨1, ![N]⟩ ⟨2, ![R, 1]⟩ ⟨1, ![R]⟩ [] [0] [] [0] [] 1 ![1])
    (x : (⟨1, ![N]⟩ : Shape).Idx → α) (idx : IVec ⟨2, ![R, 1]⟩ w) (r : Fin R) (q : Fin N)
    (hq : (idx (ix2 r (0 : Fin 1))).toInt = (q.val : ℤ)) :
    Host.gather (vecTakeDims N R wf) x idx (ix1 r) = x (ix1 q) := by
  rw [gather_vec_apply hN wf x idx r]
  congr 2
  refine Fin.ext ?_
  show min (idx (ix2 r (0 : Fin 1))).toInt.toNat (N - 1) = q.val
  rw [hq, Int.toNat_natCast]
  have := q.isLt
  omega

/-! ## A reduction by `and` of bits that are all one -/

theorem foldl_andi_of_all_one {ι : Type} (f : ι → BitVec 1) :
    ∀ l : List ι, (∀ n ∈ l, f n = 1#1) → l.foldl (fun r n => IntOp.andi r (f n)) 1#1 = 1#1
  | [], _ => rfl
  | a :: l, h => by
    rw [List.foldl_cons, h a (List.mem_cons_self ..)]
    have e : IntOp.andi 1#1 1#1 = 1#1 := by decide
    rw [e]
    exact foldl_andi_of_all_one f l fun n hn => h n (List.mem_cons_of_mem _ hn)

/-- From the initial bit one, over bits that are all one, the reduction answers one at every result index. -/
theorem reduce_andi_of_all_one {s t u : Shape} {axes : List (Fin s.rank)} (x : s.Idx → BitVec 1) (init : u.Idx → BitVec 1)
    (h : s.ReducesTo axes t) (hu : 0 < u.numel) (j : t.Idx) (hinit : init (Shape.Idx.first hu) = 1#1) (hx : ∀ i, x i = 1#1) :
    Host.reduce IntOp.andi x init h hu j = 1#1 := by
  rw [Host.reduce_eq_foldl, hinit]
  exact foldl_andi_of_all_one x _ fun i _ => hx i

end Cert.Lib.VecGather

end
-- ==== Proof.LibBatchBroadcast.lean ====
/- Three host broadcasts read at coordinates, for any extents and any element type: a vector `[a]` repeated along a new
   trailing axis to `[a, b]` (dims [0]), a matrix `[a, b]` given a leading unit axis `[1, a, b]` (dims [1, 2]), and an
   array `[1, a, b]` repeated along its unit axis to `[n, a, b]` (dims [0, 1, 2]). Each reads the operand at the
   coordinates that survive; the unit axis reads at 0. Nothing here depends on a particular program. -/
import Idealize.ShloMosaic.Lib.Pipeline.Value
import Idealize.ShloMosaic.Lib.ValueIdx

noncomputable section

open Idealize.ShloMosaic Idealize.ShloMosaic.ValueIdx

namespace Cert.Lib.BatchBroadcast

variable {α : Type}

/-- A vector `[a]` repeated along a new trailing axis (dims [0]) reads, at `(p, c)`, the vector at `p`. -/
theorem broadcastInDim_a_ab_apply {a b : ℕ} (v : (⟨1, ![a]⟩ : Shape).Idx → α)
    (h : (⟨1, ![a]⟩ : Shape).BroadcastsInDim ⟨2, ![a, b]⟩ ![0]) (p : Fin a) (c : Fin b) :
    broadcastInDim ⟨2, ![a, b]⟩ ![0] h v (ix2 p c) = v (ix1 p) := by
  refine broadcastInDim_apply _ h v (ix2 p c) (ix1 p) fun ax => ?_
  match ax with
  | ⟨0, _⟩ =>
    show p.val = if a = 1 then 0 else p.val
    split
    · have := p.isLt; omega
    · rfl

/-- A matrix `[a, b]` given a leading unit axis (dims [1, 2]) reads, at `(z, p, c)`, the matrix at `(p, c)`. -/
theorem broadcastInDim_ab_1ab_apply {a b : ℕ} (v : (⟨2, ![a, b]⟩ : Shape).Idx → α)
    (h : (⟨2, ![a, b]⟩ : Shape).BroadcastsInDim ⟨3, ![1, a, b]⟩ ![1, 2]) (z : Fin 1) (p : Fin a) (c : Fin b) :
    broadcastInDim ⟨3, ![1, a, b]⟩ ![1, 2] h v (ix3 z p c) = v (ix2 p c) := by
  refine broadcastInDim_apply _ h v (ix3 z p c) (ix2 p c) fun ax => ?_
  match ax with
  | ⟨0, _⟩ =>
    show p.val = if a = 1 then 0 else p.val
    split
    · have := p.isLt; omega
    · rfl
  | ⟨1, _⟩ =>
    show c.val = if b = 1 then 0 else c.val
    split
    · have := c.isLt; omega
    · rfl

/-- An array `[1, a, b]` repeated along its unit axis (dims [0, 1, 2]) reads, at `(q, p, c)`, the array at `(0, p, c)`. -/
theorem broadcastInDim_1ab_nab_apply {n a b : ℕ} (v : (⟨3, ![1, a, b]⟩ : Shape).Idx → α)
    (h : (⟨3, ![1, a, b]⟩ : Shape).BroadcastsInDim ⟨3, ![n, a, b]⟩ ![0, 1, 2]) (q : Fin n) (p : Fin a) (c : Fin b) :
    broadcastInDim ⟨3, ![n, a, b]⟩ ![0, 1, 2] h v (ix3 q p c) = v (ix3 (0 : Fin 1) p c) := by
  refine broadcastInDim_apply _ h v (ix3 q p c) (ix3 (0 : Fin 1) p c) fun ax => ?_
  match ax with
  | ⟨0, _⟩ =>
    show (0 : ℕ) = if (1 : ℕ) = 1 then 0 else q.val
    rfl
  | ⟨1, _⟩ =>
    show p.val = if a = 1 then 0 else p.val
    split
    · have := p.isLt; omega
    · rfl
  | ⟨2, _⟩ =>
    show c.val = if b = 1 then 0 else c.val
    split
    · have := c.isLt; omega
    · rfl

end Cert.Lib.BatchBroadcast

end
-- ==== Proof.RowTakeValue.lean ====
/-
  The reference's stages read at an index, when every index word is a row number.

  Suppose every index word x_i, read as a natural number, is below 8, and its signed reading is that same number (what the
  precondition gives). Then: (1) x_i is not negative, so the choice "x_i + 8 where x_i < 0" keeps x_i; (2) the start
  index of row i is x_i; (3) both comparisons 0 <= x_i and x_i <= 7 hold, so every bit reduced by AND is one and the
  reduction answers one; (4) the start index lies inside the table, so the gather's clamp does nothing and row i of the
  gather is row x_i of the table; (5) the bit being one, the NaN row is never chosen. The rows taken are therefore the
  gathered rows of the specification. The bias, made a row by a broadcast, is the specification's bias row; the
  contraction with its dimension numbers is the plain matrix product; so the whole is the affine map of the gathered
  rows, which is the lookup into the projected table.
-/
import proofs.«206855_g20126216749723_cont_sun_m_335_21_alg».proof.Proof.RowTakeStages
import proofs.«206855_g20126216749723_cont_sun_m_335_21_alg».proof.Proof.LookupSpec
import proofs.«206855_g20126216749723_cont_sun_m_335_21_alg».proof.Proof.LibRowGather
import proofs.«206855_g20126216749723_cont_sun_m_335_21_alg».proof.Proof.LibVecGather
import proofs.«206855_g20126216749723_cont_sun_m_335_21_alg».proof.Proof.LibBatchBroadcast
import proofs.«206855_g20126216749723_cont_sun_m_335_21_alg».proof.Proof.LibBroadcastReads
import proofs.«206855_g20126216749723_cont_sun_m_335_21_alg».proof.Proof.LibDenseLayer
import Idealize.ShloMosaic.Lib.Affine

noncomputable section

namespace Cert.ReferenceIdeal.RefRun

open Cert.ReferenceIdeal Idealize.ShloMosaic Idealize.ShloMosaic.ValueIdx Cert.EmbedProject Cert.GraphLayer
open Cert.ReferenceIdeal.Facts₀ Cert.ReferenceIdeal.Facts

variable {F : FTy → Type} [FloatOps F] [Cert.ReferenceIdeal.Facts]

/-- Every index word is a row number of the table: below 8 as a natural number, and the same number read signed. -/
def RowNumbers (x : IVec S16384 32) : Prop :=
  ∀ i : Fin 16384, (x (ix1 i)).toNat < 8 ∧ (x (ix1 i)).toInt = ((x (ix1 i)).toNat : ℤ)

/-- Stage 1: a row number is not negative, so the word is kept (8 is not added). -/
theorem wrapped_apply {x : IVec S16384 32} (hx : RowNumbers x) (i : Fin 16384) : wrapped x (ix1 i) = x (ix1 i) := by
  show Scalar.select (IntOp.cmpi .slt (x (ix1 i)) 0#32) (IntOp.addi (x (ix1 i)) 8#32) (x (ix1 i)) = x (ix1 i)
  unfold Scalar.select
  refine if_neg fun hc => ?_
  have hlt := IntOp.cmpi_slt.1 hc
  rw [(hx i).2, show (0#32 : BitVec 32).toInt = 0 from by decide] at hlt
  omega

/-- Stage 2: the start index of row i is x_i. -/
theorem startCol_apply {x : IVec S16384 32} (hx : RowNumbers x) (i : Fin 16384) (z : Fin 1) :
    startCol x (ix2 i z) = x (ix1 i) :=
  (Cert.Lib.BroadcastReads.broadcastInDim_a_a1_apply (wrapped x) bcast_S16384_S16384x1_0 i z).trans (wrapped_apply hx i)

/-- Stage 3: both comparisons hold at every word, so the reduction by AND answers one. -/
theorem inTable_apply {x : IVec S16384 32} (hx : RowNumbers x) (i : Fin 16384) : inTable x (ix1 i) = 1#1 := by
  unfold inTable
  refine Cert.Lib.VecGather.reduce_andi_of_all_one _ _ _ _ _ rfl fun j => ?_
  obtain ⟨p, z, rfl⟩ : ∃ (p : Fin 16384) (z : Fin 1), j = ix2 p z := ⟨j 0, j 1, eq_ix2 j⟩
  show IntOp.andi (IntOp.cmpi .sge (startCol x (ix2 p z)) 0#32) (IntOp.cmpi .sle (startCol x (ix2 p z)) 7#32) = 1#1
  rw [startCol_apply hx p z]
  have h := hx p
  refine IntOp.andi_eq_one.2 ⟨IntOp.cmpi_sge.2 ?_, IntOp.cmpi_sle.2 ?_⟩
  · rw [h.2, show (0#32 : BitVec 32).toInt = 0 from by decide]; omega
  · rw [h.2, show (7#32 : BitVec 32).toInt = 7 from by decide]; omega

/-- The program's gather is the gather of whole rows of an [8, 256] table at a column of 16384 start indices. -/
theorem gather_dims_eq :
    gather_S8x256_S16384x1_S16384x256_1_0_n_n_0_1_1256
      = Cert.Lib.RowGather.rowTakeDims 8 16384 256 gather_S8x256_S16384x1_S16384x256_1_0_n_n_0_1_1256_wf := rfl

/-- Stages 4 and 5: row i of the rows taken is row x_i of the table — the clamp does nothing and NaN is never chosen. -/
theorem taken_apply {x : IVec S16384 32} (hx : RowNumbers x) (table : FVec F S8x256 .f32) (i : Fin 16384) (k : Fin 256) :
    taken x table (ix2 i k) = table (ix2 (rowAt x i) k) := by
  unfold taken
  rw [select_apply, Cert.Lib.BatchBroadcast.broadcastInDim_a_ab_apply, inTable_apply hx i, select_one, gather_dims_eq]
  refine Cert.Lib.RowGather.gather_rows_apply_of_lt (by decide) _ table (startCol x) i k (rowAt x i) ?_
  rw [startCol_apply hx i 0, (hx i).2]
  exact congrArg Int.ofNat (rowOf_val (hx i).1).symm

/-- The rows taken are the specification's gathered rows. -/
theorem taken_eq {x : IVec S16384 32} (hx : RowNumbers x) (table : FVec Ideal S8x256 .f32) :
    taken (F := Ideal) x table = gathered x table := by
  funext j
  obtain ⟨i, k, rfl⟩ : ∃ (i : Fin 16384) (k : Fin 256), j = ix2 i k := ⟨j 0, j 1, eq_ix2 j⟩
  rw [taken_apply hx table i k, gathered_apply]

/-- The bias made a row by a broadcast is the specification's bias row. -/
theorem bias_row_eq (b : FVec Ideal S128 .f32) : broadcastInDim S1x128 ![1] bcast_S128_S1x128_1 b = biasRow b := by
  funext j
  obtain ⟨z, q, rfl⟩ : ∃ (z : Fin 1) (q : Fin 128), j = ix2 z q := ⟨j 0, j 1, eq_ix2 j⟩
  rw [Cert.Lib.BroadcastReads.broadcastInDim_b_1b_apply, biasRow_apply]

/-- The program's contraction is the plain product of a [16384, 256] by a [256, 128] matrix. -/
theorem dot_dims_eq : dot_S16384x256_S256x128_S16384x128_1_0_0_1_n_n = DotDims.plain 16384 256 128 := rfl

/-- THE VALUE: when every index word is a row number, the reference's stages composed are the lookup into the
    projected table. -/
theorem composed_eq_lookup {x : IVec S16384 32} (hx : RowNumbers x) (table : FVec Ideal S8x256 .f32)
    (W : FVec Ideal S256x128 .f32) (b : FVec Ideal S128 .f32) :
    composed (F := Ideal) x table W b = lookup x table W b := by
  unfold composed
  rw [taken_eq hx table, bias_row_eq b, dot_dims_eq]
  exact (host_affine_eq none .single (gathered x table) W (biasRow b) bcast_S1x128_S16384x128_0_1).trans
    (affine_gathered x table W b)

end Cert.ReferenceIdeal.RefRun

end
-- ==== Proof.RefRun.lean ====
/-
  The reference computes the lookup.

  Two facts are joined. The run: from any memory, the program's 27 operations leave in the result buffer the stages
  composed, as one function of the four arguments, and leave the arguments as they were. The value: the precondition
  says every index word lies in [0, 7] read signed, so every index word is a row number of the table; then 8 is never
  added to a word, the in-range bit is one everywhere, the gather's clamp does nothing and NaN is never chosen, and the
  stages composed are the lookup of rows of the projected table.
-/
import proofs.«206855_g20126216749723_cont_sun_m_335_21_alg».proof.Defs
import proofs.«206855_g20126216749723_cont_sun_m_335_21_alg».proof.Proof.IndexRange
import proofs.«206855_g20126216749723_cont_sun_m_335_21_alg».proof.Proof.RowTakeRun
import proofs.«206855_g20126216749723_cont_sun_m_335_21_alg».proof.Proof.RowTakeValue

noncomputable section

namespace Cert.ReferenceIdeal.RefRun

open Cert.ReferenceIdeal Idealize.ShloMosaic Idealize.SL.Sem

/-- The precondition makes every index word a row number of the table. -/
theorem rowNumbers_of_pre [hPre : Cert.Pre_input_domain.Facts]
    (m : (ℓ : Loc nD τ sig) → Buf (Elt Ideal) ℓ) (hpre : Cert.Pre_ReferenceIdeal m) (c : Dev nD) :
    RowNumbers (m ((c.tc : Thread nD τ).loc main_arg0)) := fun i =>
  Cert.EmbedProject.index_lt_eight (F := Ideal) (m ((c.tc : Thread nD τ).loc main_arg0)) (m ((c.tc : Thread nD τ).loc main_arg1))
    (m ((c.tc : Thread nD τ).loc main_arg2)) (m ((c.tc : Thread nD τ).loc main_arg3)) (hpre c) i

/-- Under the precondition, every weakly fair execution of the reference terminates with the result buffer holding the
    lookup of its four arguments, and the arguments unchanged. -/
theorem run [hRef : Cert.ReferenceIdeal.Facts] [hPre : Cert.Pre_input_domain.Facts]
    (m : (ℓ : Loc nD τ sig) → Buf (Elt Ideal) ℓ) (ρ : Dev nD → PrngReg) (hpre : Cert.Pre_ReferenceIdeal m) :
    θ_run (defs (F := Ideal)) (onTc (τ := τ) (main (F := Ideal))) ⟨m, fun _ => 0, ρ⟩ fun r => ∀ c : Dev nD,
      r.2.mem ((c.tc : Thread nD τ).loc main_v4)
          = Cert.EmbedProject.lookup (m ((c.tc : Thread nD τ).loc main_arg0)) (m ((c.tc : Thread nD τ).loc main_arg1))
              (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run (defs (F := Ideal)) _ _).mono
    (fun _ h c => ⟨((h c).1).trans (composed_eq_lookup (rowNumbers_of_pre m hpre c) _ _ _), (h c).2⟩)
    (run_composed (F := Ideal) m ρ)

end Cert.ReferenceIdeal.RefRun

end
-- ==== Proof.Protocol.lean ====
/- The protocol of the lookup kernel: what its threads hold, hand over and owe.
   The program: on the TensorCore the bias b is laid out as a row, the 8 x 256 table is projected once through W with the
   bias added (an 8 x 128 array P), the 16384 index words are laid out as a 128 x 128 array, and a SparseCore kernel
   runs on 2 cores x 16 vector subcores. Tile (c, s) is worker w = 2 s + c: it fetches rows 4 w .. 4 w + 3 of the index
   array (its 512 words) into its own memory; tile 0 of each core copies P into the core's shared memory; the 16 tiles of
   a core meet at the subcore barrier; each tile then gathers, 64 words at a time, the rows of the shared copy of P its
   words name into a 512 x 128 buffer of its own, and copies each finished block of 64 rows out to rows
   512 w + 64 j .. of the result.
   What is fixed here: the values of the intermediate arrays as functions of the launch memory (so that every
   hand-over can name its contents), the blocks of rows each tile owns, the barrier's schedule (tile 0's arrival hands
   every tile a read share of the shared copy of P), and what each handshake of the launch carries. -/
import proofs.«206855_g20126216749723_cont_sun_m_335_21_alg».proof.KernelIdeal
import proofs.«206855_g20126216749723_cont_sun_m_335_21_alg».proof.Proof.Gen.KernelIdeal
import proofs.«206855_g20126216749723_cont_sun_m_335_21_alg».proof.Proof.LookupSpec
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic

noncomputable section

namespace Cert.Proof.LookupI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev coreOf (c : Fin ((K (F := F)).nCore 0)) : Fin τ.nSC := (K (F := F)).core 0 c
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the barrier cells' rounds, the rounds of the projection's staging
cells, the transfers' counters (rightmost, where the transfer rules look for them) -/

abbrev UH : Type := URounds (GSem nD τ sig) ℕ
abbrev UB : Type := URounds (GSem nD τ sig) ℕ
abbrev UP : Type := URounds (GSem nD τ sig) Unit
abbrev UU : Type := UH × (UB × (UP × Counters))

local notation "𝕄" => MT nD τ sig (HIx 1) (Elt F) ℕ UU ℕ

abbrev EH : Emb UH (MT nD τ sig (HIx 1) (Elt F) ℕ UU ℕ) := embL
/-- The barrier cells' rounds: the left half of the right factor. -/
def EB : Emb UB (MT nD τ sig (HIx 1) (Elt F) ℕ UU ℕ) :=
  (Emb.inl : Emb UB (UB × (UP × Counters))).trans embR
/-- The staging cells' rounds: the left half of what is right of that. -/
def EP : Emb UP (MT nD τ sig (HIx 1) (Elt F) ℕ UU ℕ) :=
  (Emb.inl : Emb UP (UP × Counters)).trans ((Emb.inr : Emb (UP × Counters) (UB × (UP × Counters))).trans embR)
instance EB_landsIn : (EB : Emb UB 𝕄).LandsIn (upEmb : UEmb _ 𝕄) := by unfold EB; infer_instance
instance EP_landsIn : (EP : Emb UP 𝕄).LandsIn (upEmb : UEmb _ 𝕄) := by unfold EP; infer_instance
/-- The transfers' counters are found in the rightmost factor. -/
example : CountersIn UU := inferInstance

/-! ## The launch memory, the arrays and their values -/

variable (m : (ℓ : Loc nD τ sig) → Buf (Elt F) ℓ) (ρ : Dev nD → PrngReg)

abbrev xLoc (d : Dev nD) : Loc nD τ sig := (SparseCore.T d).loc main_arg0      -- the 16384 index words
abbrev tLoc (d : Dev nD) : Loc nD τ sig := (SparseCore.T d).loc main_arg1      -- the table, 8 x 256
abbrev wLoc (d : Dev nD) : Loc nD τ sig := (SparseCore.T d).loc main_arg2      -- W, 256 x 128
abbrev bLoc (d : Dev nD) : Loc nD τ sig := (SparseCore.T d).loc main_arg3      -- b, 128
abbrev rLoc (d : Dev nD) : Loc nD τ sig := (SparseCore.T d).loc main_v0        -- b as a row, 1 x 128
abbrev pLoc (d : Dev nD) : Loc nD τ sig := (SparseCore.T d).loc main_v1        -- P, the projected table, 8 x 128
abbrev iLoc (d : Dev nD) : Loc nD τ sig := (SparseCore.T d).loc main_v2        -- the index words as 128 x 128
abbrev oLoc (d : Dev nD) : Loc nD τ sig := (SparseCore.T d).loc main_v3        -- the result, 16384 x 128

/-- Core c's shared memory, as every tile of the core addresses it: the copy of P. -/
abbrev shRef (c : Fin τ.nSC) : DevRef τ sig := ⟨.shared, ⟨0, by decide⟩, c⟩
abbrev shLoc (d : Dev nD) (c : Fin τ.nSC) : Loc nD τ sig := (d, shRef c)

variable [FloatOps F]

/-- The bias laid out as a row: the same 128 numbers. -/
def rowVal (d : Dev nD) : FVec F S1x128 .f32 := shapeCast S1x128 (m (bLoc d)) shapeCasts_S128_S1x128
/-- The index words laid out 128 to a row: word 128 a + b at (a, b). -/
def idxVal (d : Dev nD) : IVec S128x128 32 := shapeCast S128x128 (m (xLoc d)) shapeCasts_S16384_S128x128

/-- What the projection's body stores, as one term of its three loaded blocks: the product into a zero accumulator
    plus the bias row on every row. -/
def projTerm (t : FVec F S8x256 .f32) (w : FVec F S256x128 .f32) (r : FVec F S1x128 .f32) : FVec F S8x128 .f32 :=
  addf (matmul dot_S8x256_S256x128_S8x128_1_0_0_1_n_n none t w (constant S8x128 .f32 0x00000000#32))
    (broadcastTo S8x128 (shapeCast S1x128 r shapeCasts_S1x128_S1x128) broadcasts_S1x128_S8x128)

/-- P as the launch memory determines it. -/
def projVal (d : Dev nD) : FVec F S8x128 .f32 := projTerm (m (tLoc d)) (m (wLoc d)) (rowVal m d)

/-- THE RESULT as the launch memory determines it: row i is row x_i of P (x_i read as in the specification: the word
    as a natural number when below 8). It only moves entries of P, so it is the same definition at every float
    instance. -/
def outVal (d : Dev nD) : FVec F S16384x128 .f32 :=
  fun j => projVal m d (ValueIdx.ix2 (Cert.EmbedProject.rowOf (m (xLoc d) (ValueIdx.ix1 (⟨(j 0).val, ValueIdx.idx2_lt0 j⟩ : Fin 16384))))
    (⟨(j 1).val, ValueIdx.idx2_lt1 j⟩ : Fin 128))

/-! ## The blocks of rows -/

theorem hdivO : 32 ∣ S16384x128.size 0 := ⟨512, rfl⟩
theorem hdivI : 32 ∣ S128x128.size 0 := ⟨4, rfl⟩
/-- Worker w's 512 rows of the result, and its 4 rows of the index array. -/
abbrev oBlock (w : Fin 32) : Rect S16384x128 := Rect.part (s := S16384x128) (a₀ := 0) hdivO w
abbrev iBlock (w : Fin 32) : Rect S128x128 := Rect.part (s := S128x128) (a₀ := 0) hdivI w
abbrev oSet (w : Fin 32) : Finset S16384x128.Idx := (oBlock w).set
abbrev iSet (w : Fin 32) : Finset S128x128.Idx := (iBlock w).set

/-- The worker number of tile s of core c. -/
def worker (c : Fin 2) (s : Fin 16) : Fin 32 := ⟨2 * s.val + c.val, by omega⟩

theorem worker_injective : Function.Injective (fun cs : Fin 2 × Fin 16 => worker cs.1 cs.2) := by
  rintro ⟨c, s⟩ ⟨c', s'⟩ h
  have h' : 2 * s.val + c.val = 2 * s'.val + c'.val := congrArg Fin.val h
  have hc : c.val = c'.val := by omega
  have hs : s.val = s'.val := by omega
  exact Prod.ext (Fin.ext hc) (Fin.ext hs)

/-! ## The chunks of the result: 256 blocks of 64 rows; worker w copies out chunks 8 w .. 8 w + 7 -/

theorem hdivC : 256 ∣ S16384x128.size 0 := ⟨64, rfl⟩
abbrev oChunk (k : Fin 256) : Rect S16384x128 := Rect.part (s := S16384x128) (a₀ := 0) hdivC k
abbrev oChunkSet (k : Fin 256) : Finset S16384x128.Idx := (oChunk k).set
/-- Chunk j of worker w. -/
def chunkOf (w : Fin 32) (j : Fin 8) : Fin 256 := ⟨8 * w.val + j.val, by omega⟩

theorem chunkOf_injective : Function.Injective (fun wj : Fin 32 × Fin 8 => chunkOf wj.1 wj.2) := by
  rintro ⟨w, j⟩ ⟨w', j'⟩ h
  have h' : 8 * w.val + j.val = 8 * w'.val + j'.val := congrArg Fin.val h
  have hj : j.val < 8 := j.isLt
  have hj' : j'.val < 8 := j'.isLt
  have hw : w.val = w'.val := by omega
  have hjj : j.val = j'.val := by omega
  exact Prod.ext (Fin.ext hw) (Fin.ext hjj)

theorem nSub_eq : τ.nSub = 16 := rfl
theorem nSC_eq : τ.nSC = 2 := rfl
/-- A tile's coordinates as the numbers the blocks are indexed by. -/
abbrev cN (c : Fin τ.nSC) : Fin 2 := Fin.cast nSC_eq c
abbrev sN (s : Fin τ.nSub) : Fin 16 := Fin.cast nSub_eq s

/-! ## The barrier cells -/

/-- Tile (c, j)'s barrier semaphore on device d. -/
abbrev bcell (d : Dev nD) (c : Fin τ.nSC) (j : Fin τ.nSub) : GSem nD τ sig := (V d c j, .reg sc_bar0)

omit [FloatOps F] in
theorem sc_bar0_ne_go : (sc_bar0 : Sem sig) ≠ sc_go := by decide

def isBar (g : GSem nD τ sig) : Bool :=
  match g with
  | ((_, .scVector _ _), sm) => decide (sm = .reg sc_bar0)
  | _ => false

omit [FloatOps F] in
@[simp] theorem isBar_bcell (d : Dev nD) (c : Fin τ.nSC) (j : Fin τ.nSub) : isBar (bcell d c j) = true := by simp [isBar]

/-- Read token j (of 16) of core c's shared copy of P, at P's value. -/
abbrev shTok (d : Dev nD) (c : Fin τ.nSC) (j : Fin 16) : sProp 𝕄 := shLoc d c ↦{Transfers.shareTok fullShare 16 j} projVal m d
/-- What is left of the shared copy once the 16 tokens are out. -/
abbrev shRest (d : Dev nD) (c : Fin τ.nSC) : sProp 𝕄 := shLoc d c ↦{Transfers.shareDrop fullShare 16} projVal m d

/-- What an arrival at tile j's barrier cell hands over: tile 0's arrival, which comes after tile 0 has filled the
    shared memory with P and waited for the copy, hands tile j its read token of it; the other arrivals, nothing. -/
def bPay (g : GSem nD τ sig) (n : ℕ) : sProp 𝕄 :=
  match g with
  | ((d, .scVector c j), _) => if n = 0 then shTok m d c (sN j) else iprop(emp)
  | _ => iprop(emp)

/-- The barrier cells' schedule: one round on each, of one unit duty per tile of the core, named by the tile's
    number. -/
def bRd : Rounds.Schedule (GSem nD τ sig) ℕ 𝕄 where
  duties g r := if isBar g ∧ r = 0 then (Finset.univ : Finset (Fin τ.nSub)).image Fin.val else ∅
  amount _ _ _ := 1
  payload g _ n := bPay m g n
  amount_pos _ _ _ _ := Nat.one_pos

instance bRd_payload_storable (g : GSem nD τ sig) (r n : ℕ) : BI.Storable (upEmb : UEmb _ 𝕄) ((bRd (F := F) m).payload g r n) := by
  show BI.Storable upEmb (bPay m g n)
  unfold bPay
  rcases g with ⟨⟨d, _ | c | ⟨c, i⟩⟩, sm⟩ <;> dsimp only <;> (repeat' split) <;> infer_instance

omit [FloatOps F] in
theorem bigSep_emp' {I : Type} (s : Finset I) : (bigSep s fun _ => iprop(emp)) = (iprop(emp) : sProp 𝕄) := bigSep_emp_const s

theorem bRd_duties₀ (d : Dev nD) (c : Fin τ.nSC) (j : Fin τ.nSub) :
    (bRd (F := F) m).duties (bcell d c j) 0 = (Finset.univ : Finset (Fin τ.nSub)).image Fin.val := by
  simp [bRd, isBar]
theorem bRd_mem₀ (d : Dev nD) (c : Fin τ.nSC) (j i : Fin τ.nSub) : i.val ∈ (bRd (F := F) m).duties (bcell d c j) 0 := by
  rw [bRd_duties₀]; exact Finset.mem_image_of_mem _ (Finset.mem_univ i)
theorem bRd_expect (d : Dev nD) (c : Fin τ.nSC) (j : Fin τ.nSub) : 0 + grid1.bound 1 = (bRd (F := F) m).expect (bcell d c j) 0 := by
  unfold Rounds.Schedule.expect; rw [bRd_duties₀]
  show 0 + 16 = ∑ x ∈ (Finset.univ : Finset (Fin 16)).image Fin.val, 1
  rw [Finset.sum_const, Finset.card_image_of_injective _ Fin.val_injective]; rfl

/-- What a tile owes for the barrier from the launch: one unit on the cell of every tile of its core, at the call's
    index. -/
def oxV (d : Dev nD) (c : Fin τ.nSC) : CellTallies nD τ sig (HIx 1) := ∑ j : Fin (grid1.bound 1), tallyAt (bcell d c (j.castLE hsub1)) (some 0) 1

omit [FloatOps F] in
theorem oxV_none (d : Dev nD) (c : Fin τ.nSC) (g : GSem nD τ sig) : oxV d c g none = 0 := by
  unfold oxV
  rw [Finset.sum_apply, Finsupp.finsetSum_apply]
  exact Finset.sum_eq_zero fun j _ => by rw [tallyAt_apply, if_neg (fun e => nomatch e.2)]

omit [FloatOps F] in
theorem oxV_apply_pos {d : Dev nD} {c : Fin τ.nSC} {g : GSem nD τ sig} {ι : HIx 1} (h : 0 < oxV d c g ι) :
    ∃ j : Fin (grid1.bound 1), g = bcell d c (j.castLE hsub1) ∧ ι = some 0 := by
  unfold oxV at h
  rw [Finset.sum_apply, Finsupp.finsetSum_apply] at h
  obtain ⟨j, -, hj⟩ := Finset.exists_ne_zero_of_sum_ne_zero (Nat.pos_iff_ne_zero.mp h)
  rw [tallyAt_apply] at hj
  split at hj
  · next e => exact ⟨j, e.1, e.2⟩
  · exact absurd rfl hj

/-- A tile's barrier kit, dealt it at the launch: the invariant of every tile's cell of its core, its duty token in
    each of those rounds, that each has reached round 0, its own cell's position at the origin of round 0, and the
    credit for the sixteen units its own round collects. -/
def bkit (d : Dev nD) (c : Fin τ.nSC) (i : Fin τ.nSub) : sProp 𝕄 :=
  iprop((∃ κ : GSem nD τ sig → ℕ, bigSep Finset.univ fun j : Fin (grid1.bound 1) =>
      cellInv EB (bRd (F := F) m) (κ (bcell d c (j.castLE hsub1))) (bcell d c (j.castLE hsub1)))
    ∗ (bigSep Finset.univ fun j : Fin (grid1.bound 1) => dutyTok EB (bcell d c (j.castLE hsub1)) 0 i.val)
    ∗ (bigSep Finset.univ fun j : Fin (grid1.bound 1) => reached EB (bcell d c (j.castLE hsub1)) 0)
    ∗ atPos EB (bcell d c i) 0 ∅ 0
    ∗ cred (tallyAt (bcell d c i) (some 0) (grid1.bound 1)))

/-! ## What the handshakes carry -/

/-- Worker w's rows of the index array at their value, and chunk k of the result at contents f. -/
abbrev iRows (d : Dev nD) (w : Fin 32) : sProp 𝕄 := iLoc d ↦[iSet w]{fullShare} idxVal m d
abbrev oChunkPts (d : Dev nD) (k : Fin 256) (f : Buf (Elt F) (oLoc d)) : sProp 𝕄 := oLoc d ↦[oChunkSet k]{fullShare} f
/-- Core c's read token (of 2) of P in HBM: only tile 0 of the core reads it. -/
abbrev pTok (d : Dev nD) (c : Fin 2) : sProp 𝕄 := pLoc d ↦{Transfers.shareTok fullShare 2 c} projVal m d

/-- What tile s of core c is handed at its start and hands back at its end. -/
def goOf (d : Dev nD) (c : Fin τ.nSC) (s : Fin 16) : sProp 𝕄 :=
  iprop(iRows m d (worker (cN c) s) ∗ (bigSep Finset.univ fun j : Fin 8 => oChunkPts d (chunkOf (worker (cN c) s) j) (m (oLoc d)))
    ∗ if s = 0 then iprop(pTok m d (cN c) ∗ ∃ f, shLoc d c ↦{fullShare} f) else iprop(emp))
def tdOf (d : Dev nD) (c : Fin τ.nSC) (s : Fin 16) : sProp 𝕄 :=
  iprop((bigSep Finset.univ fun j : Fin 8 => oChunkPts d (chunkOf (worker (cN c) s) j) (outVal m d))
    ∗ shTok m d c s ∗ if s = 0 then shRest m d c else iprop(emp))
/-- What the call hands core c and takes back from it. -/
def stOf (d : Dev nD) (c : Fin τ.nSC) : sProp 𝕄 :=
  iprop(pTok m d (cN c) ∗ bigSep Finset.univ fun s : Fin 16 =>
    iprop(iRows m d (worker (cN c) s) ∗ bigSep Finset.univ fun j : Fin 8 => oChunkPts d (chunkOf (worker (cN c) s) j) (m (oLoc d))))
def dnOf (d : Dev nD) (c : Fin τ.nSC) : sProp 𝕄 :=
  bigSep Finset.univ fun s : Fin 16 => bigSep Finset.univ fun j : Fin 8 => oChunkPts d (chunkOf (worker (cN c) s) j) (outVal m d)

instance goOf_storable (d : Dev nD) (c : Fin τ.nSC) (s : Fin 16) : BI.Storable (upEmb : UEmb _ 𝕄) (goOf m d c s) := by
  unfold goOf; split <;> infer_instance
instance tdOf_storable (d : Dev nD) (c : Fin τ.nSC) (s : Fin 16) : BI.Storable (upEmb : UEmb _ 𝕄) (tdOf m d c s) := by
  unfold tdOf; split <;> infer_instance
instance stOf_storable (d : Dev nD) (c : Fin τ.nSC) : BI.Storable (upEmb : UEmb _ 𝕄) (stOf m d c) := by
  unfold stOf; infer_instance
instance dnOf_storable (d : Dev nD) (c : Fin τ.nSC) : BI.Storable (upEmb : UEmb _ 𝕄) (dnOf m d c) := by
  unfold dnOf; infer_instance

/-- The one call: each core its token of P and its tiles' rows; each tile its rows, tile 0 also the token and the shared
    memory; every tile's proof consumes its barrier kit and owes its sixteen arrivals. -/
def P : (K (F := F)).Pay (nD := nD) (Val := Elt F) (Name := ℕ) (U := UU) where
  st := fun q d c => match q with | 0 => stOf m d (coreOf c)
  dn := fun q d c => match q with | 0 => dnOf m d (coreOf c)
  go := fun q d c i => match q with | 0 => goOf m d (coreOf c) (Fin.cast nSub_zero i)
  td := fun q d c i => match q with | 0 => tdOf m d (coreOf c) (Fin.cast nSub_zero i)
  x := fun _ thr => match thr with
    | (d, .scVector c i) => bkit m d c i
    | _ => iprop(emp)
  ox := fun _ thr => match thr with
    | (d, .scVector c _) => oxV d c
    | _ => 0
  ox_band := by
    intro q thr g ι h
    obtain rfl : q = 0 := Subsingleton.elim _ _
    rcases thr with ⟨d, _ | c | ⟨c, i⟩⟩
    · exact absurd h (lt_irrefl 0)
    · exact absurd h (lt_irrefl 0)
    · dsimp only at h
      obtain ⟨j, rfl, rfl⟩ := oxV_apply_pos h
      rw [(K (F := F)).lev_V_reg d c (j.castLE hsub1) (show (sc_bar0 : Sem sig) ≠ (K (F := F)).go from sc_bar0_ne_go)]; exact ⟨le_rfl, by decide⟩
  ox_tc := fun _ _ => rfl
  ox_sc := fun _ _ _ h => absurd rfl h
  ox_vc := by
    intro q d c i _
    obtain rfl : q = 0 := Subsingleton.elim _ _
    exact ⟨rfl, c.isLt, i.isLt⟩

instance P_storable : (P (F := F) m).IsStorable where
  st q d c := match q with | 0 => (inferInstance : BI.Storable (upEmb : UEmb _ 𝕄) (stOf m d (coreOf c)))
  dn q d c := match q with | 0 => (inferInstance : BI.Storable (upEmb : UEmb _ 𝕄) (dnOf m d (coreOf c)))
  go q d c i := match q with | 0 => (inferInstance : BI.Storable (upEmb : UEmb _ 𝕄) (goOf m d (coreOf c) (Fin.cast nSub_zero i)))
  td q d c i := match q with | 0 => (inferInstance : BI.Storable (upEmb : UEmb _ 𝕄) (tdOf m d (coreOf c) (Fin.cast nSub_zero i)))

end Cert.Proof.LookupI

end
-- ==== Proof.KernelValue.lean ====
/-
  The kernel's result is the lookup.

  On the extended reals the matrix unit's product of the 8 x 256 table with W into a zero accumulator is the plain
  matrix product: entry (v, q) is the sum over k of table(v, k) * W(k, q). The bias is laid out as a row [1, 128] holding
  the same 128 numbers; that row, cast to its own shape (nothing moves) and repeated down the 8 rows, reads b(q) at
  (v, q). So the array the projection stores is the specification's projected table P = table * W + b, entry by entry.
  The result moves rows of that array: row i is row x_i. That is the specification's lookup. No finiteness is used:
  the same sums of the same products are compared, never rearranged.
-/
import proofs.«206855_g20126216749723_cont_sun_m_335_21_alg».proof.Proof.Protocol
import proofs.«206855_g20126216749723_cont_sun_m_335_21_alg».proof.Proof.LookupSpec
import Idealize.ShloMosaic.Lib.ValueLayout
import Idealize.ShloMosaic.Lib.Pipeline.Value

noncomputable section

namespace Cert.Proof.LookupI

open Cert.KernelIdeal Cert.KernelIdeal.Gen
open Idealize.ShloMosaic Idealize.ShloMosaic.ValueIdx Cert.EmbedProject Cert.GraphLayer Cert.Lib.BlockProduct

/-- The program's contraction is the plain product of an [8, 256] by a [256, 128] matrix. -/
theorem dot_dims_eq : dot_S8x256_S256x128_S8x128_1_0_0_1_n_n = DotDims.plain 8 256 128 := rfl

/-- What the projection stores, read at (v, q): the product's entry plus the row's entry in column q. -/
theorem projTerm_apply (t : FVec Ideal S8x256 .f32) (w : FVec Ideal S256x128 .f32) (r : FVec Ideal S1x128 .f32)
    (v : Fin 8) (q : Fin 128) :
    projTerm (F := Ideal) t w r (ix2 v q) = (∑ k : Fin 256, t (ix2 v k) * w (ix2 k q)) + r (ix2 (0 : Fin 1) q) := by
  unfold projTerm
  rw [addf_apply, shapeCast_self, broadcastTo_1b_ab_apply, dot_dims_eq]
  exact congrArg (· + r (ix2 (0 : Fin 1) q)) ((congrFun (matmul_eq_prod t w) (ix2 v q)).trans (prod_apply t w v q))

/-- The bias as a row reads b(q) in column q. -/
theorem rowVal_apply (m : (ℓ : Loc nD τ sig) → Buf (Elt Ideal) ℓ) (d : Dev nD) (q : Fin 128) :
    rowVal (F := Ideal) m d (ix2 (0 : Fin 1) q) = m (bLoc d) (ix1 q) := by
  unfold rowVal
  exact shapeCast_a_1a_apply _ _ (0 : Fin 1) q

/-- The array the projection stores is the specification's projected table. -/
theorem projVal_eq_projected (m : (ℓ : Loc nD τ sig) → Buf (Elt Ideal) ℓ) (d : Dev nD) :
    projVal (F := Ideal) m d = projected (m (tLoc d)) (m (wLoc d)) (m (bLoc d)) := by
  funext j
  obtain ⟨v, q, rfl⟩ : ∃ (v : Fin 8) (q : Fin 128), j = ix2 v q := ⟨j 0, j 1, eq_ix2 j⟩
  unfold projVal
  rw [projTerm_apply, projected_apply, rowVal_apply]

/-- THE KERNEL'S VALUE: row i of the result is row x_i of the projected table — the lookup. -/
theorem outVal_eq_lookup (m : (ℓ : Loc Cert.KernelIdeal.nD Cert.KernelIdeal.τ Cert.KernelIdeal.sig) → Buf (Elt Ideal) ℓ) (d : Dev Cert.KernelIdeal.nD) :
    outVal (F := Ideal) m d = Cert.EmbedProject.lookup (m (xLoc d)) (m (tLoc d)) (m (wLoc d)) (m (bLoc d)) := by
  unfold outVal
  rw [projVal_eq_projected m d]
  rfl

end Cert.Proof.LookupI

end
-- ==== Proof.Assemble.lean ====
/-
  The five conjuncts of the claim from the kernel's two runs.

  Taken as given: the word-level kernel runs and leaves its four arguments unchanged; the kernel on the extended reals
  runs, leaves its arguments unchanged, and ends with its result array at row i = row x_i of the projected table. From
  these: the three frames (the second and third are runs with the value forgotten; the reference's run is proved, under
  the precondition, to end at the lookup); the idealization rewrote nothing, so what it preserves is trivial; and the
  agreement of kernel and reference on the extended reals — both end at the lookup of rows of the projected table of
  the same four arguments: the kernel's result is that lookup, the reference's is too, and memories that agree on the
  arguments satisfy the same precondition and have the same lookup.
-/
import proofs.«206855_g20126216749723_cont_sun_m_335_21_alg».proof.Defs
import proofs.«206855_g20126216749723_cont_sun_m_335_21_alg».proof.Proof.RefRun
import proofs.«206855_g20126216749723_cont_sun_m_335_21_alg».proof.Proof.KernelValue
import proofs.«206855_g20126216749723_cont_sun_m_335_21_alg».proof.Proof.Gen.Kernel
import proofs.«206855_g20126216749723_cont_sun_m_335_21_alg».proof.Proof.Gen.KernelIdeal
import proofs.«206855_g20126216749723_cont_sun_m_335_21_alg».proof.Proof.Gen.ReferenceIdeal
import proofs.«206855_g20126216749723_cont_sun_m_335_21_alg».proof.Proof.Gen.Pre_input_domain

noncomputable section

namespace Cert.Proof

open Idealize.ShloMosaic Idealize.SL.Sem

/-- Memories that agree on the four arguments satisfy the same precondition: it is one function of those four arrays. -/
theorem pre_reference_of_agree
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hpre : Cert.Pre_KernelIdeal (hPre_input_domain := Cert.Pre_input_domain.Gen.facts) m)
    (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) :
    Cert.Pre_ReferenceIdeal (hPre_input_domain := Cert.Pre_input_domain.Gen.facts) m' := fun c => by
  show Cert.Pre_input_domain.fn (F := Ideal) _ _ _ _ = _
  rw [(hagree c).1, (hagree c).2.1, (hagree c).2.2.1, (hagree c).2.2.2]
  exact hpre c

/-- THE CLAIM, from the kernel's two runs. -/
theorem claim_of_runs
      (hBits : ∀ (m : (ℓ : Loc Cert.Kernel.nD Cert.Kernel.τ Cert.Kernel.sig) → Buf (Elt Bits) ℓ) (g : Dev Cert.Kernel.nD → PrngReg),
        Cert.Pre_Kernel (hPre_input_domain := Cert.Pre_input_domain.Gen.facts) m →
        θ_run (Cert.Kernel.defs (F := Bits)) (Cert.Kernel.threads (F := Bits)) ⟨m, fun _ => 0, g⟩ (fun r => ∀ c : Dev Cert.Kernel.nD,
          r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1)
          ∧ r.2.mem ((c.tc : Thread Cert.Kernel.nD Cert.Kernel.τ).loc Cert.Kernel.main_arg2) = m ((c.tc : Thread Cert.Kernel.nD Cert.Kernel.τ).loc Cert.Kernel.main_arg2)
          ∧ r.2.mem ((c.tc : Thread Cert.Kernel.nD Cert.Kernel.τ).loc Cert.Kernel.main_arg3) = m ((c.tc : Thread Cert.Kernel.nD Cert.Kernel.τ).loc Cert.Kernel.main_arg3)))
      (hIdeal : ∀ (m : (ℓ : Loc Cert.KernelIdeal.nD Cert.KernelIdeal.τ Cert.KernelIdeal.sig) → Buf (Elt Ideal) ℓ) (g : Dev Cert.KernelIdeal.nD → PrngReg),
        Cert.Pre_KernelIdeal (hPre_input_domain := Cert.Pre_input_domain.Gen.facts) m →
        θ_run (Cert.KernelIdeal.defs (F := Ideal)) (Cert.KernelIdeal.threads (F := Ideal)) ⟨m, fun _ => 0, g⟩ (fun r => ∀ c : Dev Cert.KernelIdeal.nD,
          r.2.mem (Cert.Proof.LookupI.oLoc c) = Cert.Proof.LookupI.outVal (F := Ideal) m c
          ∧ r.2.mem (Cert.Proof.LookupI.xLoc c) = m (Cert.Proof.LookupI.xLoc c) ∧ r.2.mem (Cert.Proof.LookupI.tLoc c) = m (Cert.Proof.LookupI.tLoc c)
          ∧ r.2.mem (Cert.Proof.LookupI.wLoc c) = m (Cert.Proof.LookupI.wLoc c) ∧ r.2.mem (Cert.Proof.LookupI.bLoc c) = m (Cert.Proof.LookupI.bLoc c))) :
      Cert.Claim := by
  refine ⟨Cert.Kernel.Gen.facts, Cert.KernelIdeal.Gen.facts, Cert.ReferenceIdeal.Gen.facts, Cert.Pre_input_domain.Gen.facts,
    hBits,
    fun m g hpre => (θ_run _ _ _).mono (fun _ h c => (h c).2) (hIdeal m g hpre),
    fun m g hpre => (θ_run _ _ _).mono (fun _ h c => (h c).2) (Cert.ReferenceIdeal.RefRun.run m g hpre),
    trivial, ?_⟩
  intro m g m' g' hpre hagree
  have hpre' := pre_reference_of_agree m m' hpre hagree
  refine ⟨fun c => Cert.EmbedProject.lookup (m (Cert.Proof.LookupI.xLoc c)) (m (Cert.Proof.LookupI.tLoc c))
      (m (Cert.Proof.LookupI.wLoc c)) (m (Cert.Proof.LookupI.bLoc c)), ?_, ?_⟩
  · exact (θ_run _ _ _).mono (fun _ h c => ⟨(h c).1.trans (Cert.Proof.LookupI.outVal_eq_lookup m c), (h c).2⟩) (hIdeal m g hpre)
  · refine (θ_run _ _ _).mono (fun _ h c => ⟨(h c).1.trans ?_, (h c).2⟩) (Cert.ReferenceIdeal.RefRun.run m' g' hpre')
    rw [(hagree c).1, (hagree c).2.1, (hagree c).2.2.1, (hagree c).2.2.2]

end Cert.Proof

end
-- ==== Proof.Split.lean ====
/- How the call's operands split among the tiles and how the results gather.
   The index array (128 x 128) is cut into 32 blocks of 4 rows, one per worker; the result (16384 x 128) into 256 chunks
   of 64 rows, worker w owning chunks 8 w .. 8 w + 7. Core c is handed its read token of P and the rows and chunks of
   its sixteen workers 2 s + c; tile 0 of the core is handed the token and the core's shared memory whole, and each
   tile hands back its read token of the shared copy of P. -/
import proofs.«206855_g20126216749723_cont_sun_m_335_21_alg».proof.Proof.Protocol

noncomputable section

namespace Cert.Proof.LookupI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

variable (m : (ℓ : Loc nD τ sig) → Buf (Elt F) ℓ) (ρ : Dev nD → PrngReg)
variable [FloatOps F]

/-! ## Reindexing: a core's tiles, the workers by core and tile, the chunks by worker and position -/

omit [FloatOps F] in
/-- The call's tiles of a core are the sixteen tile numbers. -/
theorem bigSep_tiles (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

/-- Every worker number is 2 s + c for exactly one core c and tile s. -/
def workerEquiv : Fin 2 × Fin 16 ≃ Fin 32 :=
  Equiv.ofBijective (fun cs => worker cs.1 cs.2)
    ((Fintype.bijective_iff_injective_and_card _).mpr ⟨worker_injective, by simp⟩)

/-- Every chunk number is 8 w + j for exactly one worker w and position j. -/
def chunkEquiv : Fin 32 × Fin 8 ≃ Fin 256 :=
  Equiv.ofBijective (fun wj => chunkOf wj.1 wj.2)
    ((Fintype.bijective_iff_injective_and_card _).mpr ⟨chunkOf_injective, by simp⟩)

omit [FloatOps F] in
/-- A family over the 32 workers, grouped by core and then by tile. -/
theorem bigSep_workers (Φ : Fin 32 → sProp 𝕄) :
    bigSep Finset.univ Φ = bigSep Finset.univ fun c : Fin 2 => bigSep Finset.univ fun s : Fin 16 => Φ (worker c s) := by
  rw [bigSep_univ_equiv workerEquiv Φ, bigSep_univ_prod]; rfl

omit [FloatOps F] in
/-- A family over the 256 chunks, grouped by core, tile and position. -/
theorem bigSep_chunks (Ψ : Fin 256 → sProp 𝕄) :
    bigSep Finset.univ Ψ = bigSep Finset.univ fun c : Fin 2 => bigSep Finset.univ fun s : Fin 16 => bigSep Finset.univ fun j : Fin 8 => Ψ (chunkOf (worker c s) j) := by
  rw [bigSep_univ_equiv chunkEquiv Ψ, bigSep_univ_prod, bigSep_workers]; rfl

/-! ## The arrays cut into their blocks -/

omit [FloatOps F] in
theorem iSets_disjoint : ∀ w ∈ (Finset.univ : Finset (Fin 32)), ∀ w' ∈ (Finset.univ : Finset (Fin 32)), w ≠ w' → Disjoint (iSet w) (iSet w') :=
  fun _ _ _ _ h => Rect.part_disjoint hdivI h
omit [FloatOps F] in
theorem iSets_cover : (Finset.univ : Finset (Fin 32)).biUnion iSet = Finset.univ := Rect.biUnion_part hdivI
omit [FloatOps F] in
theorem oChunks_disjoint : ∀ k ∈ (Finset.univ : Finset (Fin 256)), ∀ k' ∈ (Finset.univ : Finset (Fin 256)), k ≠ k' → Disjoint (oChunkSet k) (oChunkSet k') :=
  fun _ _ _ _ h => Rect.part_disjoint hdivC h
omit [FloatOps F] in
theorem oChunks_cover : (Finset.univ : Finset (Fin 256)).biUnion oChunkSet = Finset.univ := Rect.biUnion_part hdivC

omit [FloatOps F] in
/-- The index array whole is its 32 blocks of 4 rows. -/
theorem iPts_blocks (d : Dev nD) (f : Buf (Elt F) (iLoc d)) :
    (iLoc d ↦{fullShare} f : sProp 𝕄) = bigSep Finset.univ fun w : Fin 32 => iLoc d ↦[iSet w]{fullShare} f := by
  rw [← pointsTo_biUnion Finset.univ (ℓ := iLoc d) iSet iSets_disjoint, iSets_cover]
omit [FloatOps F] in
/-- The result whole is its 256 chunks of 64 rows. -/
theorem oPts_chunks (d : Dev nD) (f : Buf (Elt F) (oLoc d)) :
    (oLoc d ↦{fullShare} f : sProp 𝕄) = bigSep Finset.univ fun k : Fin 256 => oLoc d ↦[oChunkSet k]{fullShare} f := by
  rw [← pointsTo_biUnion Finset.univ (ℓ := oLoc d) oChunkSet oChunks_disjoint, oChunks_cover]

/-! ## What the call hands the cores, and takes back -/

/-- What the cores are handed, the core as a number: its read token of P, its workers' rows and chunks. -/
theorem st_eq (d : Dev nD) :
    (bigSep Finset.univ fun c : Fin ((K (F := F)).nCore 0) => (P m).st 0 d c)
      = bigSep Finset.univ fun c : Fin 2 => iprop(pTok m d c ∗ bigSep Finset.univ fun s : Fin 16 =>
          iprop(iRows m d (worker c s) ∗ bigSep Finset.univ fun j : Fin 8 => oChunkPts d (chunkOf (worker c s) j) (m (oLoc d)))) :=
  bigSep_congr fun c _ => by
    show stOf m d (coreOf c) = _
    unfold stOf
    rw [show cN (coreOf c) = c from Fin.ext rfl]

/-- What the cores hand back: their workers' chunks at the result's value. -/
theorem dn_eq (d : Dev nD) :
    (bigSep Finset.univ fun c : Fin ((K (F := F)).nCore 0) => (P m).dn 0 d c)
      = bigSep Finset.univ fun c : Fin 2 => bigSep Finset.univ fun s : Fin 16 => bigSep Finset.univ fun j : Fin 8 =>
          oChunkPts d (chunkOf (worker c s) j) (outVal m d) :=
  bigSep_congr fun c _ => by
    show dnOf m d (coreOf c) = _
    unfold dnOf
    rw [show cN (coreOf c) = c from Fin.ext rfl]

/-! ## A core's operands split among its tiles -/

omit [FloatOps F] in
/-- The core's shared memory is among the sequencer's own buffers: it, whole at some contents, and the rest. -/
theorem ownBufs_seq (d : Dev nD) (c : Fin τ.nSC) :
    (ownBufs (S d c) : sProp 𝕄)
      = iprop((∃ f, shLoc d c ↦{fullShare} f)
          ∗ bigSep ((ownRefs (τ := τ) (.scScalar c)).erase (shRef c)) fun b => iprop(∃ f, ((d, b) : Loc nD τ sig) ↦{fullShare} f)) := by
  unfold SparseCore.Cfg.ownBufs
  exact SparseCore.bigSep_erase' ((mem_ownRefs (p := Proc.scScalar c) (b := shRef c)).mpr rfl)

omit [FloatOps F] in
/-- A family over the tiles that is X at tile 0 and nothing elsewhere is X. -/
theorem bigSep_at_zero (X : sProp 𝕄) : (bigSep Finset.univ fun s : Fin 16 => if s = 0 then X else iprop(emp)) ⊣⊢ X := by
  rw [bigSep_univ_at _ (0 : Fin 16), if_pos rfl,
    bigSep_congr (s := (Finset.univ : Finset (Fin 16)).erase 0) (Ψ := fun _ => iprop(emp)) fun s hs => if_neg (Finset.ne_of_mem_erase hs),
    bigSep_emp']
  exact sep_emp

/-- Core c's split. Out: every tile its block of index rows and its eight chunks of the result; tile 0 also the core's
    read token of P and the shared memory whole. Back: every tile its chunks at the result's value and read token s (of
    sixteen) of the shared copy of P, tile 0 also what is left of that copy beside the sixteen tokens; tokens and
    remainder join to the shared memory whole, which returns to the sequencer's buffers. The index rows are not handed
    back. -/
theorem split_core (d : Dev nD) (c : Fin τ.nSC) :
    iprop(stOf m d c ∗ ownBufs (S d c)) ⊢ |={Set.univ}=> iprop((bigSep Finset.univ fun s : Fin 16 => goOf m d c s)
      ∗ ((bigSep Finset.univ fun s : Fin 16 => tdOf m d c s) -∗ iprop(dnOf m d c ∗ ownBufs (S d c)))) := by
  unfold goOf tdOf stOf dnOf
  rw [ownBufs_seq]
  simp only [bigSep_sep']
  iintro ⟨⟨Hp, Hi, Ho⟩, ⟨%f, Hsh⟩, Hrest⟩
  imodintro
  isplitl [Hp Hi Ho Hsh]
  · isplitl [Hi]; · iexact Hi
    isplitl [Ho]; · iexact Ho
    iapply (bigSep_at_zero _).2
    isplitl [Hp]; · iexact Hp
    iexists f; iexact Hsh
  iintro ⟨Ho, Ht, Hr⟩
  isplitl [Ho]; · iexact Ho
  isplitl [Ht Hr]
  · iexists (projVal m d)
    iapply (Transfers.pointsTo_toks_join fullShare 16)
    isplitl [Hr]
    · iapply (bigSep_at_zero _).1; iexact Hr
    iexact Ht
  iexact Hrest

theorem vecSplit : (K (F := F)).VecSplit (P m) 0 := by
  intro d c
  have h := split_core m d (coreOf c)
  rw [← bigSep_tiles (F := F) (fun s => goOf m d (coreOf c) s), ← bigSep_tiles (F := F) (fun s => tdOf m d (coreOf c) s)] at h
  exact h

/-- What @main hands the call: P's two read tokens, one per core, the remainder kept; the index array as the 32
    workers' blocks; the result as its 256 chunks; both regrouped by core and tile. -/
theorem st_all (d : Dev nD) :
    iprop((pLoc d ↦{fullShare} projVal m d) ∗ (iLoc d ↦{fullShare} idxVal m d) ∗ (oLoc d ↦{fullShare} m (oLoc d)))
      ⊢ iprop((pLoc d ↦{Transfers.shareDrop fullShare 2} projVal m d) ∗ bigSep Finset.univ fun c : Fin ((K (F := F)).nCore 0) => (P m).st 0 d c) := by
  rw [st_eq, bigSep_sep']
  simp only [bigSep_sep']
  rw [iPts_blocks, oPts_chunks, bigSep_workers (fun w => iLoc d ↦[iSet w]{fullShare} idxVal m d),
    bigSep_chunks (fun k => oLoc d ↦[oChunkSet k]{fullShare} m (oLoc d))]
  iintro ⟨Hp, Hi, Ho⟩
  ihave Hp' := (Transfers.pointsTo_toks_split fullShare 2) $$ Hp
  icases Hp' with ⟨Hd, Ht⟩
  isplitl [Hd]; · iexact Hd
  isplitl [Ht]; · iexact Ht
  isplitl [Hi]; · iexact Hi
  iexact Ho

/-- The 256 chunks, all at the result's value, are the result whole. -/
theorem dn_all (d : Dev nD) :
    (bigSep Finset.univ fun c : Fin ((K (F := F)).nCore 0) => (P m).dn 0 d c) ⊢ (oLoc d ↦{fullShare} outVal m d : sProp 𝕄) :=
  Entails.of_eq (by rw [dn_eq, oPts_chunks, bigSep_chunks (fun k => oLoc d ↦[oChunkSet k]{fullShare} outVal m d)])

end Cert.Proof.LookupI

end
-- ==== Proof.LaunchElem.lean ====
/- The launch element of the ghost state: the handshakes' rounds, the barrier cells' rounds (one cell per tile of
   either core, sixteen unit duties each, named by the arriving tile), the rounds of the projection's staging cells, and
   the transfers' counters. From it and the credit for the tiles' arrivals each tile is dealt its barrier kit, and the
   TensorCore the funded rounds of its staging cells. -/
import proofs.«206855_g20126216749723_cont_sun_m_335_21_alg».proof.Proof.Protocol
import proofs.«206855_g20126216749723_cont_sun_m_335_21_alg».proof.Proof.Gen.KernelIdeal.Launch
import Idealize.ShloMosaic.Lib.Pipeline.Sound

noncomputable section

namespace Cert.Proof.LookupI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

variable (m : (ℓ : Loc nD τ sig) → Buf (Elt F) ℓ) (ρ : Dev nD → PrngReg)
variable [FloatOps F]

/-- The projection's pipeline configurations, at the one admissible contents (no prefetched table). -/
abbrev cfgsP : Fin 1 → Pipeline.Cfg sig Λ₀ := Pipeline.pin (pcfgs (F := F)) (fun p => (cfgs p).toPCfg_adm)

/-- The staging cells are pairwise distinct. -/
theorem cellOfP_inj : Function.Injective (Pipeline.cellOf (nD := nD) (τ := τ) (cfgsP (F := F))) := cellOf_inj

/-- What @main's proof starts from on device d beyond what the launch deals the TensorCore: the funded rounds of the
    projection's staging cells. -/
def G (d : Dev nD) : sProp 𝕄 := iprop(Pipeline.cellsGhost (cfgsP (F := F)) EP 0 d ∗ Pipeline.toksInit (cfgsP (F := F)) EP 0 d)

/-- A tile of a device: the device, the core, the tile's number. -/
abbrev DCI : Type := Dev nD × Fin τ.nSC × Fin τ.nSub
/-- The barrier cell of a tile. -/
abbrev bcellOf (x : DCI) : GSem nD τ sig := bcell x.1 x.2.1 x.2.2

/-- The barrier cells: one per tile of either core of every device. -/
def bCells : Finset (GSem nD τ sig) := Finset.univ.image bcellOf
/-- Tile i's duty in round 0 of tile j's cell, for every pair of tiles of a core. -/
def bToks : Finset (GSem nD τ sig × ℕ × ℕ) :=
  Finset.univ.image fun x : DCI × Fin (grid1.bound 1) => (bcell x.1.1 x.1.2.1 (x.2.castLE hsub1), 0, x.1.2.2.val)

/-- The staging cells' launch element. -/
def pp : UP := initOf (Pipeline.cells (cfgsP (F := F)) (cellOfP_inj (F := F))) (Pipeline.launchToks (cfgsP (F := F)) (cellOfP_inj (F := F)))

/-- The launch element: the handshakes' cells and tokens, the barrier cells and their duty tokens, the staging cells and
    theirs, and no transfer counted yet. -/
def u₀ : UU := (initOf (K (F := F)).hsCells (K (F := F)).hsToks, (initOf bCells bToks, (pp (F := F), 1)))

/-! ## The element splits into its components -/

/-- The launch element is the handshakes' rounds, the barrier cells' rounds and the staging cells' rounds, each owned
    through its embedding (the counters are not needed at the launch). -/
theorem u₀_split : (ownU (u₀ (F := F)) : sProp 𝕄)
    ⊢ iprop(BI.own (EH (initOf (K (F := F)).hsCells (K (F := F)).hsToks)) ∗ BI.own (EB (initOf bCells bToks)) ∗ BI.own (EP (pp (F := F)))) := by
  unfold u₀
  iintro Hu
  ihave H := (ownU_pair _ _) $$ Hu
  icases H with ⟨HH, HR⟩
  ihave H := (own_pair_emb (embR (nD := nD) (τ := τ) (sig := sig) (Ix := HIx 1) (Val := Elt F) (Name := ℕ) (Lvl := ℕ) (A := UH) (B := UB × (UP × Counters))) _ _) $$ HR
  icases H with ⟨HB, HR⟩
  ihave H := (own_pair_emb ((Emb.inr : Emb (UP × Counters) (UB × (UP × Counters))).trans
    (embR (nD := nD) (τ := τ) (sig := sig) (Ix := HIx 1) (Val := Elt F) (Name := ℕ) (Lvl := ℕ) (A := UH) (B := UB × (UP × Counters)))) _ _) $$ HR
  icases H with ⟨HP, -⟩
  isplitl [HH]; · iexact HH
  isplitl [HB]; · iexact HB
  iexact HP

/-! ## The barrier cells, tile by tile -/

omit [FloatOps F] in
theorem bcellOf_injective : Function.Injective (bcellOf : DCI → GSem nD τ sig) := by
  rintro ⟨d, c, i⟩ ⟨d', c', i'⟩ e
  obtain ⟨hd, hp⟩ := Prod.mk.inj (Prod.mk.inj e).1
  obtain ⟨hc, hi⟩ := Proc.scVector.inj hp
  subst hd hc hi; rfl

omit [FloatOps F] in
/-- A family over the barrier cells is a family over the tiles. -/
theorem over_bCells (Φ : GSem nD τ sig → sProp 𝕄) : bigSep bCells Φ = bigSep Finset.univ fun x : DCI => Φ (bcellOf x) := by
  unfold bCells
  exact SparseCore.bigSep_image_of_injOn (fun _ _ _ _ e => bcellOf_injective e) Φ

omit [FloatOps F] in
/-- The duty tokens, by the tile that holds them: tile i's token in each cell of its core. -/
theorem over_bToks : (bigSep bToks fun x => (dutyTok EB x.1 x.2.1 x.2.2 : sProp 𝕄))
    = bigSep Finset.univ fun x : DCI => bigSep Finset.univ fun j : Fin (grid1.bound 1) => dutyTok EB (bcell x.1 x.2.1 (j.castLE hsub1)) 0 x.2.2.val := by
  unfold bToks
  rw [SparseCore.bigSep_image_of_injOn, bigSep_univ_prod]
  rintro ⟨⟨d, c, i⟩, j⟩ - ⟨⟨d', c', i'⟩, j'⟩ - e
  obtain ⟨hg, hn⟩ := Prod.mk.inj e
  obtain ⟨hd, hp⟩ := Prod.mk.inj (Prod.mk.inj hg).1
  obtain ⟨hc, hj⟩ := Proc.scVector.inj hp
  have hi : i = i' := Fin.ext (Prod.mk.inj hn).2
  have hj' : j = j' := Fin.ext (congrArg Fin.val hj)
  subst hd hc hi hj'; rfl

/-- Every barrier semaphore reads zero: they are among the free semaphores of the vector subcores. -/
theorem barrier_sems : ((K (F := F)).freeSems0 : sProp 𝕄) ⊢ bigSep bCells fun g => semVal g 0 := by
  rw [over_bCells]
  unfold SparseCore.Cfg.freeSems0
  refine sep_elim_right.trans (bigSep_mono fun x _ => ?_)
  unfold SparseCore.Cfg.vcSems0
  exact bigSep_elim (Φ := fun sm : SemLoc sig => (semVal (V x.1 x.2.1 x.2.2, sm) 0 : sProp 𝕄))
    (Finset.mem_erase.mpr ⟨fun h => sc_bar0_ne_go (SemLoc.reg.inj h), Finset.mem_filter.mpr ⟨Finset.mem_univ _, by decide⟩⟩)

/-- The cells' invariants, allocated together, from the counters at zero and the round states at zero. -/
theorem barrier_invs : iprop((bigSep bCells fun g => (semVal g 0 : sProp 𝕄)) ∗ bigSep bCells fun g => roundState EB (bRd (F := F) m) g 0)
    ⊢ |={Set.univ}=> iprop(∃ κ : GSem nD τ sig → ℕ, bigSep bCells fun g => cellInv EB (bRd (F := F) m) (κ g) g) := by
  refine (Rounds.bodies_intro EB (bRd (F := F) m) bCells).trans ((inv_alloc_family bCells (Rounds.body EB (bRd (F := F) m)) ∅ (E := Set.univ)).trans ?_)
  iintro H
  imod H with ⟨%κ, -, Hinv⟩
  imodintro; iexists κ; iexact Hinv

/-! ## The staging cells -/

/-- The staging cells' launch element funds, on every device, their rounds and the duty tokens of the one pipeline. -/
theorem staging : (BI.own (EP (pp (F := F))) : sProp 𝕄) ⊢ |==> bigSep Finset.univ fun d : Dev nD => G (F := F) d := by
  unfold pp G
  refine (Pipeline.fund_ghost (cfgsP (F := F)) EP (cellOfP_inj (F := F))).trans (BI.bupd_mono ?_)
  rw [bigSep_sep']
  refine Idealize.SL.BI.sep_mono (Entails.of_eq (bigSep_congr fun d _ => bigSep_univ_of_subsingleton (0 : Fin 1)))
    (Entails.of_eq (bigSep_congr fun d _ => bigSep_univ_of_subsingleton (0 : Fin 1)))

/-! ## The credit for the arrivals -/

omit [FloatOps F] in
/-- n units at one cell and index, one by one, are n there. -/
theorem sum_units (g : GSem nD τ sig) (ι : HIx 1) : ∀ n : ℕ, ∑ _ : Fin n, tallyAt g ι 1 = (tallyAt g ι n : CellTallies nD τ sig (HIx 1))
  | 0 => by simp
  | n + 1 => by rw [Fin.sum_univ_succ, sum_units g ι n, tallyAt_add, Nat.add_comm]

/-- From the launch on a tile owes its sixteen arrivals at the barrier and nothing else of the kernel's own. -/
theorem oxFrom_V (d : Dev nD) (c : Fin τ.nSC) (i : Fin τ.nSub) : (P (F := F) m).oxFrom 0 (V d c i) = oxV d c := by
  rw [show (0 : ℕ) = (0 : Fin 1).val from rfl, (P m).oxFrom_step, (P m).oxFrom_end _ (n := (0 : Fin 1).val + 1) le_rfl, add_zero]; rfl

omit [FloatOps F] in
/-- The grid's tile numbers are the core's tiles. -/
theorem bigSep_gridTiles (Ψ : Fin τ.nSub → sProp 𝕄) :
    (bigSep Finset.univ fun j : Fin (grid1.bound 1) => Ψ (j.castLE hsub1)) = bigSep Finset.univ Ψ :=
  bigSep_congr fun _ _ => congrArg Ψ (Fin.ext rfl)

/-- The credit for all the arrivals, regrouped by the cell they arrive at: each tile the sixteen units of its own cell
    (one from every tile of its core). -/
theorem arrival_credit : ((P (F := F) m).oxCred : sProp 𝕄)
    ⊢ bigSep Finset.univ fun x : DCI => cred (tallyAt (bcellOf x) (some 0) (grid1.bound 1)) := by
  unfold SparseCore.Cfg.Pay.oxCred
  rw [SparseCore.Cfg.bigSep_threads (fun thr : Thread nD τ => (cred ((P (F := F) m).oxFrom 0 thr) : sProp 𝕄))]
  refine sep_elim_right.trans (sep_elim_right.trans ?_)
  simp only [oxFrom_V]
  rw [bigSep_univ_prod, bigSep_univ_prod (fun x : DCI => (cred (tallyAt (bcellOf x) (some 0) (grid1.bound 1)) : sProp 𝕄))]
  refine bigSep_mono fun d _ => ?_
  rw [bigSep_univ_prod, bigSep_univ_prod (fun ci : Fin τ.nSC × Fin τ.nSub => (cred (tallyAt (bcellOf (d, ci)) (some 0) (grid1.bound 1)) : sProp 𝕄))]
  refine bigSep_mono fun c _ => ?_
  dsimp only
  unfold oxV
  simp only [SparseCore.Cfg.cred_finsum]
  rw [bigSep_univ_comm, ← bigSep_gridTiles (fun i => (cred (tallyAt (bcell d c i) (some 0) (grid1.bound 1)) : sProp 𝕄))]
  refine bigSep_mono fun j _ => ?_
  rw [← SparseCore.Cfg.cred_finsum, sum_units]
  exact BI.Entails.refl _

/-! ## The kits -/

/-- What every tile is handed alike: every barrier cell's invariant, and that each cell has reached round 0. -/
abbrev sharedPart : sProp 𝕄 :=
  iprop((∃ κ : GSem nD τ sig → ℕ, bigSep Finset.univ fun x : DCI => cellInv EB (bRd (F := F) m) (κ (bcellOf x)) (bcellOf x))
    ∗ bigSep Finset.univ fun x : DCI => reached EB (bcellOf x) 0)
/-- What is a tile's own: its cell's position at the origin of round 0, its duty token in each cell of its core, the
    credit for the sixteen units its cell collects. -/
abbrev tilePart (x : DCI) : sProp 𝕄 :=
  iprop(atPos EB (bcellOf x) 0 ∅ 0
    ∗ (bigSep Finset.univ fun j : Fin (grid1.bound 1) => dutyTok EB (bcell x.1 x.2.1 (j.castLE hsub1)) 0 x.2.2.val)
    ∗ cred (tallyAt (bcellOf x) (some 0) (grid1.bound 1)))

/-- One tile's kit: of what all share it keeps the sixteen cells of its own core. -/
theorem kit_of (x : DCI) : iprop(sharedPart (F := F) m ∗ tilePart (F := F) x) ⊢ bkit m x.1 x.2.1 x.2.2 := by
  obtain ⟨d, c, i⟩ := x
  unfold bkit
  iintro ⟨⟨⟨%κ, #Hinv⟩, #Hr⟩, Hat, Htok, Hcred⟩
  isplitr
  · iexists κ
    iapply (bigSep_intro_persistent (S := (Finset.univ : Finset (Fin (grid1.bound 1))))
      (R := bigSep Finset.univ fun x : DCI => cellInv EB (bRd (F := F) m) (κ (bcellOf x)) (bcellOf x))
      (Φ := fun j => cellInv EB (bRd (F := F) m) (κ (bcell d c (j.castLE hsub1))) (bcell d c (j.castLE hsub1)))
      fun j _ => bigSep_elim (Φ := fun x : DCI => (cellInv EB (bRd (F := F) m) (κ (bcellOf x)) (bcellOf x) : sProp 𝕄))
        (i := (d, c, j.castLE hsub1)) (Finset.mem_univ _))
    iexact Hinv
  isplitl [Htok]; · iexact Htok
  isplitr
  · iapply (bigSep_intro_persistent (S := (Finset.univ : Finset (Fin (grid1.bound 1))))
      (R := bigSep Finset.univ fun x : DCI => reached EB (bcellOf x) 0)
      (Φ := fun j => reached EB (bcell d c (j.castLE hsub1)) 0)
      fun j _ => bigSep_elim (Φ := fun x : DCI => (reached EB (bcellOf x) 0 : sProp 𝕄)) (i := (d, c, j.castLE hsub1)) (Finset.mem_univ _))
    iexact Hr
  isplitl [Hat]; · iexact Hat
  iexact Hcred

/-- What the kernel's proof consumes at its call, thread by thread: nothing on the TensorCore and the sequencers, -/
theorem Px_T (d : Dev nD) : (bigSep Finset.univ fun q : Fin 1 => (P (F := F) m).x q (SparseCore.T d)) = iprop(emp) :=
  bigSep_univ_of_subsingleton (0 : Fin 1)
theorem Px_S (d : Dev nD) (c : Fin τ.nSC) : (bigSep Finset.univ fun q : Fin 1 => (P (F := F) m).x q (S d c)) = iprop(emp) :=
  bigSep_univ_of_subsingleton (0 : Fin 1)
/-- the barrier kit on a tile. -/
theorem Px_V (d : Dev nD) (c : Fin τ.nSC) (i : Fin τ.nSub) :
    (bigSep Finset.univ fun q : Fin 1 => (P (F := F) m).x q (V d c i)) = bkit m d c i :=
  bigSep_univ_of_subsingleton (0 : Fin 1)

/-- Every tile its kit. -/
theorem deal_kits :
    iprop(sharedPart (F := F) m ∗ bigSep Finset.univ fun x : DCI => tilePart (F := F) x)
      ⊢ (bigSep Finset.univ fun thr : Thread nD τ => bigSep Finset.univ fun q : Fin 1 => (P (F := F) m).x q thr : sProp 𝕄) := by
  rw [SparseCore.Cfg.bigSep_threads (fun thr : Thread nD τ => bigSep Finset.univ fun q : Fin 1 => (P m).x q thr)]
  simp only [Px_T, Px_S, Px_V, bigSep_emp']
  iintro H
  isplitr; · iempintro
  isplitr; · iempintro
  iapply (bigSep_with_persistent (S := (Finset.univ : Finset DCI)) (R := sharedPart (F := F) m) (Φ := tilePart (F := F))
    (Ψ := fun x : DCI => bkit m x.1 x.2.1 x.2.2) fun x _ => kit_of m x)
  iexact H

theorem hu₀ : iprop(ownU (u₀ (F := F)) ∗ (P (F := F) m).oxCred ∗ (K (F := F)).freeSems0)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P m).x q thr) := by
  iintro ⟨Hu, Hcred, Hfree⟩
  ihave H := (u₀_split (F := F)) $$ Hu
  icases H with ⟨HH, HB, HP⟩
  imod (Rounds.fund EB (bRd (F := F) m) bCells bToks) $$ HB with ⟨Hst, #Hr, Hat, Htok⟩
  imod (staging (F := F)) $$ HP with HG
  ihave Hsems := (barrier_sems (F := F)) $$ Hfree
  imod (barrier_invs (F := F) m) $$ [Hsems Hst] with ⟨%κ, #Hinv⟩
  · isplitl [Hsems] <;> iassumption
  ihave Hcred' := (arrival_credit m) $$ Hcred
  ihave Hinv' := (Entails.of_eq (over_bCells (F := F) fun g => cellInv EB (bRd (F := F) m) (κ g) g)) $$ Hinv
  ihave Hr' := (Entails.of_eq (over_bCells (F := F) fun g => reached EB g 0)) $$ Hr
  ihave Hat' := (Entails.of_eq (over_bCells (F := F) fun g => atPos EB g 0 ∅ 0)) $$ Hat
  ihave Htok' := (Entails.of_eq (over_bToks (F := F))) $$ Htok
  imodintro
  isplitl [HH]; · iexact HH
  isplitl [HG]; · iexact HG
  iapply (deal_kits m)
  isplitr
  · isplitl; · iexists κ; iexact Hinv'
    iexact Hr'
  rw [bigSep_sep', bigSep_sep']
  isplitl [Hat']; · iexact Hat'
  isplitl [Htok']; · iexact Htok'
  iexact Hcred'

end Cert.Proof.LookupI

end
-- ==== Proof.ProjBody.lean ====
import proofs.«206855_g20126216749723_cont_sun_m_335_21_alg».proof.Proof.Gen.KernelIdeal.Launch
import proofs.«206855_g20126216749723_cont_sun_m_335_21_alg».proof.Proof.Gen.KernelIdeal.Skeleton
import proofs.«206855_g20126216749723_cont_sun_m_335_21_alg».proof.Proof.Gen.KernelIdeal.Points
import proofs.«206855_g20126216749723_cont_sun_m_335_21_alg».proof.Proof.Protocol
import Idealize.ShloMosaic.Lib.Pipeline.FrameBody
import Idealize.ShloMosaic.Lib.Pipeline.Value
import Idealize.ShloMosaic.Lib.Pipeline.Regions
import Idealize.ShloMosaic.Lib.SparseCore.Launch
import Idealize.ShloMosaic.Lib.Tactic

/-!
# The projection table @ W + b on the TensorCore, inside the SparseCore program

The program first computes proj = table @ W + b (shape [8, 128]) on the TensorCore and then gathers rows of
proj.  This module is about the first half alone.  The three operands are staged whole into the TensorCore's
vector memory, the body loads the three staged blocks, forms one matrix product accumulated on a zero block, adds
the bias row broadcast over the eight rows, and stores the sum into the staged result block, which is written back
whole to proj.  The statement proved: the operands are left as they were and proj ends holding the single
pure term projTerm table W b of the three operands.
-/

set_option maxRecDepth 16384

noncomputable section

namespace Cert.KernelIdeal.ProjRegion

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore (T)
open Idealize.ShloMosaic.SparseCore.Cfg (HIx Pay)
open Idealize.ShloMosaic.Pipeline (Dat Cfg Window BodyObligation cellOf)
open Cert.KernelIdeal.Gen
open Cert.Proof.LookupI (projTerm)

variable {F : FTy → Type} [FloatOps F]
variable {U : Type} [URA U]

local notation "𝕄" => MT nD τ sig (HIx 1) (Elt F) ℕ U ℕ

/-! ## The value -/

/-- The body's stored value, written over the values it loads, is that term. -/
theorem k0_pay1_eq (t : Vec F S8x256 .f32) (w : Vec F S256x128 .f32) (r : Vec F S1x128 .f32) : k0_pay1 t w r = projTerm t w r := rfl

/-! ## The body on whole staging blocks -/

theorem zeros2 : (![0, 0] : Fin 2 → Nat) = fun _ => 0 := by funext a; fin_cases a <;> rfl

set_option maxHeartbeats 1000000 in
/-- The body on whole staging blocks, the three operand blocks at contents x0, x1, x2 and the result block at
    anything: it runs to the continuation holding the operand blocks as they were and the result block at
    projTerm x0 x1 x2.  Three whole-block loads, the pure term, one whole-block store. -/
theorem sound_kernel [∀ e, Nonempty (Elt F e)] (c : Dev nD) (E : Set ℕ)
    (arg0 : Memref sig .tc .vmem S8x256 .f32) (harg0 : arg0.IsWhole) (arg1 : Memref sig .tc .vmem S256x128 .f32) (harg1 : arg1.IsWhole)
    (arg2 : Memref sig .tc .vmem S1x128 .f32) (harg2 : arg2.IsWhole) (arg3 : Memref sig .tc .vmem S8x128 .f32) (harg3 : arg3.IsWhole)
    (x0 : Vec F S8x256 .f32) (x1 : Vec F S256x128 .f32) (x2 : Vec F S1x128 .f32) (K : PUnit → sProp 𝕄) :
    iprop(owns (c : Thread nD τ) arg0 fullShare x0 ∗ owns (c : Thread nD τ) arg1 fullShare x1 ∗ owns (c : Thread nD τ) arg2 fullShare x2
        ∗ (∃ d, owns (c : Thread nD τ) arg3 fullShare d)
        ∗ (iprop(owns (c : Thread nD τ) arg0 fullShare x0 ∗ owns (c : Thread nD τ) arg1 fullShare x1 ∗ owns (c : Thread nD τ) arg2 fullShare x2
            ∗ owns (c : Thread nD τ) arg3 fullShare (projTerm x0 x1 x2)) -∗ K ⟨⟩))
      ⊢ wp frame (wpE (defs₀ (F := F)) Variants.none c none) E (cc0__proj_body arg0 harg0 arg1 harg1 arg2 harg2 arg3 harg3) K := by
  simp only [cc0__proj_body_eq_skeleton]; unfold cc0__proj_body_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  rw [View.read_writes_eq_canon _ _ _ (fun y => ⟨_, List.mem_singleton_self _, View.mem_set_unit_zero zeros2 inb_S8x128_S8x128_0_0 y⟩), View.canon_unit_zero zeros2]
  show k0_pay1 (View.ld (View.read (Elt F) arg0.view f0) (Rect.unit ![0, 0] S8x256.size inb_S8x256_S8x256_0_0))
      (View.ld (View.read (Elt F) arg1.view f1) (Rect.unit ![0, 0] S256x128.size inb_S256x128_S256x128_0_0))
      (View.ld (View.read (Elt F) arg2.view f2) (Rect.unit ![0, 0] S1x128.size inb_S1x128_S1x128_0_0)) = _
  rw [View.ld_unit_zero zeros2, View.ld_unit_zero zeros2, View.ld_unit_zero zeros2, k0_pay1_eq]

end Cert.KernelIdeal.ProjRegion

end
-- ==== Proof.ProjRegion.lean ====
import proofs.«206855_g20126216749723_cont_sun_m_335_21_alg».proof.Proof.ProjBody

/-!
# The projection region as one step of the TensorCore's program

The region stages the three operands whole, runs the body once (the grid has one point) and writes the staged
result block back whole.  Here the staged run is assembled from the body's triple: the proof data say that each
operand block is the operand array itself, that the result block is the one pure term of the three operands, and the
region step hands back the operands unchanged and the result array at that term.
-/

set_option maxRecDepth 16384

noncomputable section

namespace Cert.KernelIdeal.ProjRegion

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore (T)
open Idealize.ShloMosaic.SparseCore.Cfg (HIx Pay)
open Idealize.ShloMosaic.Pipeline (Dat Cfg Window BodyObligation cellOf)
open Cert.KernelIdeal.Gen
open Cert.Proof.LookupI (projTerm)

variable {F : FTy → Type} [FloatOps F]
variable {U : Type} [URA U]

local notation "𝕄" => MT nD τ sig (HIx 1) (Elt F) ℕ U ℕ

/-- The SparseCore configuration of the program, at the float instance. -/
abbrev K : SparseCore.Cfg τ sig (Pipeline.Sig Λ₀ (Fin 1) fun p => (pcfgs (F := F) p).Adm) 1 := sc (F := F)

/-! ## The proof data: what is staged, what the body leaves, what is written back -/

section Data

variable (tA : (c : Dev nD) → Buf (Elt F) ((c : Thread nD τ).loc main_arg1))
  (wA : (c : Dev nD) → Buf (Elt F) ((c : Thread nD τ).loc main_arg2))
  (rA : (c : Dev nD) → Buf (Elt F) ((c : Thread nD τ).loc main_v0))
  (oA : (c : Dev nD) → Buf (Elt F) ((c : Thread nD τ).loc main_v1))

/-- The entry contents of the four staged arrays on device c. -/
def entryOf (c : Dev nD) : (w : Fin cfg0.W) → Buf (Elt F) ((cfg0.win w).arr.view.loc (c : Thread nD τ))
  | ⟨0, _⟩ => tA c
  | ⟨1, _⟩ => wA c
  | ⟨2, _⟩ => rA c
  | ⟨3, _⟩ => oA c

/-- An operand window's block at the one point, read off its array. -/
def iblk (c : Dev nD) (w : Fin cfg0.W) (t : Fin cfg0.N) : ((cfg0.win w).xblock (cfg0.grid.coords t)).Idx → Elt F (cfg0.win w).elt :=
  ((cfg0.win w).blk t).view.read (Elt F) (entryOf tA wA rA oA c w)

/-- The proof data of the pipeline on device c: the arrays at their entry contents; after the body each operand block as
    staged and the result block at the term of the three operand blocks; no invariant of the body's own; full shares; the
    TensorCore owes throughout what it owes before the first SparseCore call, and has recorded only pairs at level 0. -/
def dat (c : Dev nD) : Dat τ (Elt F) (HIx 1) ℕ U ℕ cfg0 c where
  A w := entryOf tA wA rA oA c w
  after w t := match w with
    | ⟨0, _⟩ => iblk tA wA rA oA c 0 t
    | ⟨1, _⟩ => iblk tA wA rA oA c 1 t
    | ⟨2, _⟩ => iblk tA wA rA oA c 2 t
    | ⟨3, _⟩ => projTerm (iblk tA wA rA oA c 0 t) (iblk tA wA rA oA c 1 t) (iblk tA wA rA oA c 2 t)
  Φ _ := iprop(emp)
  q _ := fullShare
  owed _ := (K (F := F)).Otc c 0
  recorded _ := {p | (K (F := F)).lev ((T c : Thread nD τ), p.1) p.2 ≤ 0}

theorem A_eq (c : Dev nD) (w : Fin cfg0.W) : (dat (U := U) tA wA rA oA c).A w = entryOf tA wA rA oA c w := by dsimp only [dat]
theorem after0 (c : Dev nD) (t : Fin cfg0.N) : (dat (U := U) tA wA rA oA c).after 0 t = iblk tA wA rA oA c 0 t := by dsimp only [dat]
theorem after1 (c : Dev nD) (t : Fin cfg0.N) : (dat (U := U) tA wA rA oA c).after 1 t = iblk tA wA rA oA c 1 t := by dsimp only [dat]
theorem after2 (c : Dev nD) (t : Fin cfg0.N) : (dat (U := U) tA wA rA oA c).after 2 t = iblk tA wA rA oA c 2 t := by dsimp only [dat]
theorem after3 (c : Dev nD) (t : Fin cfg0.N) : (dat (U := U) tA wA rA oA c).after 3 t
    = projTerm (iblk tA wA rA oA c 0 t) (iblk tA wA rA oA c 1 t) (iblk tA wA rA oA c 2 t) := by dsimp only [dat]

/-- Each operand window is fetched at the point, whole: the body finds the operand's block. -/
theorem before0 (c : Dev nD) (t : Fin cfg0.N) (d) : (dat (U := U) tA wA rA oA c).before 0 t d = iblk tA wA rA oA c 0 t := by
  unfold Dat.before; rw [if_pos (fetch0_0 t)]; rfl
theorem before1 (c : Dev nD) (t : Fin cfg0.N) (d) : (dat (U := U) tA wA rA oA c).before 1 t d = iblk tA wA rA oA c 1 t := by
  unfold Dat.before; rw [if_pos (fetch0_1 t)]; rfl
theorem before2 (c : Dev nD) (t : Fin cfg0.N) (d) : (dat (U := U) tA wA rA oA c).before 2 t d = iblk tA wA rA oA c 2 t := by
  unfold Dat.before; rw [if_pos (fetch0_2 t)]; rfl

/-! ## The body obligation -/

/-- What the body is called with at the point, the windows one by one, -/
def bodyPre (c : Dev nD) (t : Fin cfg0.N) : sProp 𝕄 :=
  iprop((dat (U := U) tA wA rA oA c).Φ t.castSucc ∗ (dat (U := U) tA wA rA oA c).owesAt none t.castSucc
    ∗ (∃ d, owns (c : Thread nD τ) (st0_0 t) fullShare ((dat (U := U) tA wA rA oA c).before 0 t d))
    ∗ (∃ d, owns (c : Thread nD τ) (st0_1 t) fullShare ((dat (U := U) tA wA rA oA c).before 1 t d))
    ∗ (∃ d, owns (c : Thread nD τ) (st0_2 t) fullShare ((dat (U := U) tA wA rA oA c).before 2 t d))
    ∗ (∃ d, owns (c : Thread nD τ) (st0_3 t) fullShare ((dat (U := U) tA wA rA oA c).before 3 t d)))

/-- and what it returns. -/
def bodyPost (c : Dev nD) (t : Fin cfg0.N) : sProp 𝕄 :=
  iprop((dat (U := U) tA wA rA oA c).Φ t.succ ∗ (dat (U := U) tA wA rA oA c).owesAt none t.succ
    ∗ owns (c : Thread nD τ) (st0_0 t) fullShare ((dat (U := U) tA wA rA oA c).after 0 t)
    ∗ owns (c : Thread nD τ) (st0_1 t) fullShare ((dat (U := U) tA wA rA oA c).after 1 t)
    ∗ owns (c : Thread nD τ) (st0_2 t) fullShare ((dat (U := U) tA wA rA oA c).after 2 t)
    ∗ owns (c : Thread nD τ) (st0_3 t) fullShare ((dat (U := U) tA wA rA oA c).after 3 t))

/-- The body at the point: the operand blocks are the operands' (before0 … before2), so the body's triple applies; the
    invariant and what the TensorCore owes pass through unread. -/
theorem sound_body [∀ e, Nonempty (Elt F e)] (c : Dev nD) (t : Fin cfg0.N) :
    bodyPre (U := U) tA wA rA oA c t ⊢ wp frame (wpE (defs₀ (F := F)) Variants.none c none) Set.univ (bodyAt0 t) (fun _ => bodyPost (U := U) tA wA rA oA c t) := by
  unfold bodyPre bodyPost bodyAt0
  simp only [before0, before1, before2]
  rw [show (dat (U := U) tA wA rA oA c).Φ t.succ = (dat (U := U) tA wA rA oA c).Φ t.castSucc from rfl,
    show (dat (U := U) tA wA rA oA c).owesAt none t.succ = (dat (U := U) tA wA rA oA c).owesAt none t.castSucc from rfl,
    after0, after1, after2, after3]
  iintro ⟨HΦ, Ho, ⟨%d0, H0⟩, ⟨%d1, H1⟩, ⟨%d2, H2⟩, ⟨%d3, H3⟩⟩
  iapply (sound_kernel c Set.univ _ _ _ _ _ _ _ _ (iblk tA wA rA oA c 0 t) (iblk tA wA rA oA c 1 t) (iblk tA wA rA oA c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at the one point. -/
theorem body_obligation [∀ e, Nonempty (Elt F e)] (c : Dev nD) :
    BodyObligation (dat (U := U) tA wA rA oA c) (defs₀ (F := F)) Variants.none none Set.univ := fun t => by
  rw [bigSep_W0, bigSep_W0]
  exact sound_body tA wA rA oA c t

end Data

/-! ## With no grid, a block is its whole array -/

section Blocks

/-- The block's index into the array is the index itself: the index map is constantly zero. -/
theorem blk_emb0 (t : Fin cfg0.N) (j : S8x256.Idx) : ((cfg0.win 0).blk t).view.emb j = j := by
  funext a; apply Fin.ext
  match a with
  | ⟨0, _⟩ => show win0_0.index t (0 : Fin 2) * 8 + 1 * (j 0).val = (j 0).val; have h : win0_0.index t (0 : Fin 2) = 0 := rfl; omega
  | ⟨1, _⟩ => show win0_0.index t (1 : Fin 2) * 256 + 1 * (j 1).val = (j 1).val; have h : win0_0.index t (1 : Fin 2) = 0 := rfl; omega
theorem blk_emb1 (t : Fin cfg0.N) (j : S256x128.Idx) : ((cfg0.win 1).blk t).view.emb j = j := by
  funext a; apply Fin.ext
  match a with
  | ⟨0, _⟩ => show win0_1.index t (0 : Fin 2) * 256 + 1 * (j 0).val = (j 0).val; have h : win0_1.index t (0 : Fin 2) = 0 := rfl; omega
  | ⟨1, _⟩ => show win0_1.index t (1 : Fin 2) * 128 + 1 * (j 1).val = (j 1).val; have h : win0_1.index t (1 : Fin 2) = 0 := rfl; omega
theorem blk_emb2 (t : Fin cfg0.N) (j : S1x128.Idx) : ((cfg0.win 2).blk t).view.emb j = j := by
  funext a; apply Fin.ext
  match a with
  | ⟨0, _⟩ => show win0_2.index t (0 : Fin 2) * 1 + 1 * (j 0).val = (j 0).val; have h : win0_2.index t (0 : Fin 2) = 0 := rfl; omega
  | ⟨1, _⟩ => show win0_2.index t (1 : Fin 2) * 128 + 1 * (j 1).val = (j 1).val; have h : win0_2.index t (1 : Fin 2) = 0 := rfl; omega
theorem blk_emb3 (t : Fin cfg0.N) (j : S8x128.Idx) : ((cfg0.win 3).blk t).view.emb j = j := by
  funext a; apply Fin.ext
  match a with
  | ⟨0, _⟩ => show win0_3.index t (0 : Fin 2) * 8 + 1 * (j 0).val = (j 0).val; have h : win0_3.index t (0 : Fin 2) = 0 := rfl; omega
  | ⟨1, _⟩ => show win0_3.index t (1 : Fin 2) * 128 + 1 * (j 1).val = (j 1).val; have h : win0_3.index t (1 : Fin 2) = 0 := rfl; omega

end Blocks

/-! ## What the arrays hold after the region -/

section Values

variable (tA : (c : Dev nD) → Buf (Elt F) ((c : Thread nD τ).loc main_arg1))
  (wA : (c : Dev nD) → Buf (Elt F) ((c : Thread nD τ).loc main_arg2))
  (rA : (c : Dev nD) → Buf (Elt F) ((c : Thread nD τ).loc main_v0))
  (oA : (c : Dev nD) → Buf (Elt F) ((c : Thread nD τ).loc main_v1))

/-- Each operand's block is the operand. -/
theorem iblk0 (c : Dev nD) (t : Fin cfg0.N) : iblk tA wA rA oA c 0 t = tA c := by
  funext j; show tA c (((cfg0.win 0).blk t).view.emb j) = tA c j; rw [blk_emb0]
theorem iblk1 (c : Dev nD) (t : Fin cfg0.N) : iblk tA wA rA oA c 1 t = wA c := by
  funext j; show wA c (((cfg0.win 1).blk t).view.emb j) = wA c j; rw [blk_emb1]
theorem iblk2 (c : Dev nD) (t : Fin cfg0.N) : iblk tA wA rA oA c 2 t = rA c := by
  funext j; show rA c (((cfg0.win 2).blk t).view.emb j) = rA c j; rw [blk_emb2]

/-- The operands are never written. -/
theorem arr0 (c : Dev nD) (n : Nat) : (dat (U := U) tA wA rA oA c).arrAt 0 n = tA c := (dat (U := U) tA wA rA oA c).arrAt_in 0 rfl n
theorem arr1 (c : Dev nD) (n : Nat) : (dat (U := U) tA wA rA oA c).arrAt 1 n = wA c := (dat (U := U) tA wA rA oA c).arrAt_in 1 rfl n
theorem arr2 (c : Dev nD) (n : Nat) : (dat (U := U) tA wA rA oA c).arrAt 2 n = rA c := (dat (U := U) tA wA rA oA c).arrAt_in 2 rfl n

/-- What the point writes back is the whole of the term of the three operands. -/
theorem flushed3_eq (c : Dev nD) (t : Fin cfg0.N) :
    (dat (U := U) tA wA rA oA c).flushed 3 t = ((cfg0.win 3).blk t).view.read (Elt F) (projTerm (tA c) (wA c) (rA c)) := by
  show (cfg0.win 3).cut (grid0.coords t) ((dat (U := U) tA wA rA oA c).after 3 t) = _
  rw [after3, iblk0, iblk1, iblk2]
  funext j
  show projTerm (tA c) (wA c) (rA c) j = projTerm (tA c) (wA c) (rA c) (((cfg0.win 3).blk t).view.emb j)
  rw [blk_emb3]

/-- The result array after the region: the term of the three operands (the one block written back is the array). -/
theorem final3 (c : Dev nD) : (dat (U := U) tA wA rA oA c).arrAt 3 cfg0.N = projTerm (tA c) (wA c) (rA c) :=
  (dat (U := U) tA wA rA oA c).arrAt_eq_of_cover 3 _ (fun t _ => flushed3_eq tA wA rA oA c t) (fun i => ⟨t0_0, flush0_3 t0_0, by
    have h := ((cfg0.win 3).blk t0_0).view.emb_mem_set i
    rwa [blk_emb3] at h⟩)

end Values

/-- The pipeline's configurations at the one admissible contents: no prefetched table. -/
abbrev cfgsP : Fin 1 → Pipeline.Cfg sig Λ₀ := Pipeline.pin (pcfgs (F := F)) (fun p => (cfgs p).toPCfg_adm)

/-- A points-to at equal contents. -/
theorem pts_congr {ℓ : Loc nD τ sig} {f g : Buf (Elt F) ℓ} (h : f = g) : (ℓ ↦{fullShare} f : sProp 𝕄) ⊢ ℓ ↦{fullShare} g := by
  rw [h]

/-! ## The region as a step of the TensorCore's program -/

section Region

variable (tA : (c : Dev nD) → Buf (Elt F) ((c : Thread nD τ).loc main_arg1))
  (wA : (c : Dev nD) → Buf (Elt F) ((c : Thread nD τ).loc main_arg2))
  (rA : (c : Dev nD) → Buf (Elt F) ((c : Thread nD τ).loc main_v0))
  (oA : (c : Dev nD) → Buf (Elt F) ((c : Thread nD τ).loc main_v1))

/-- Nothing the TensorCore owes the launch protocol sits at the index of a kernel's own waits. -/
theorem Otc_none (c : Dev nD) (n : ℕ) (g : GSem nD τ sig) : (K (F := F)).Otc c n g none = 0 := by
  by_contra h
  have := SparseCore.Cfg.lev_of_Otc_pos (K := K (F := F)) (Nat.pos_of_ne_zero h)
  rw [SparseCore.Cfg.lev_none] at this; omega

/-- What the TensorCore owes, with its recorded waits all at level 0: the first conjunct of its state before the first
    SparseCore call. -/
abbrev owesPart (c : Dev nD) : sProp 𝕄 :=
  iprop(∃ W, ⌜(K (F := F)).WBelow (T c) W (8 * 0)⌝ ∗ owes (T c) ((K (F := F)).Otc c 0) W)

/-- The four arrays before the region, -/
abbrev arrPre (c : Dev nD) : sProp 𝕄 :=
  iprop(((T c : Thread nD τ).loc main_arg1 ↦{fullShare} tA c) ∗ ((T c : Thread nD τ).loc main_arg2 ↦{fullShare} wA c)
    ∗ ((T c : Thread nD τ).loc main_v0 ↦{fullShare} rA c) ∗ ((T c : Thread nD τ).loc main_v1 ↦{fullShare} oA c))
/-- and after it. -/
abbrev arrPost (c : Dev nD) : sProp 𝕄 :=
  iprop(((T c : Thread nD τ).loc main_arg1 ↦{fullShare} tA c) ∗ ((T c : Thread nD τ).loc main_arg2 ↦{fullShare} wA c)
    ∗ ((T c : Thread nD τ).loc main_v0 ↦{fullShare} rA c) ∗ ((T c : Thread nD τ).loc main_v1 ↦{fullShare} projTerm (tA c) (wA c) (rA c)))

theorem share_full (c : Dev nD) (w : Fin cfg0.W) : (dat (U := U) tA wA rA oA c).share w = fullShare :=
  (dat (U := U) tA wA rA oA c).share_full (fun _ => rfl) w

/-- The region's record: the layout facts, no semaphore of the kernel's own, the body obligation, the wait evidence
    (the staging cells are waited on at index none, below everything the TensorCore owes), and the entry and exit
    entailments between the thread's state and the pipeline's. -/
def seg [∀ e, Nonempty (Elt F e)] {lv : GSem nD τ sig → HIx 1 → ℕ} (hlv : (K (F := F)).Refines lv) :
    Pipeline.RegionSeg (Name := ℕ) (U := U) (pcfgs (F := F)) (fun p => (cfgs p).toPCfg_adm) (fun _ c => dat (U := U) tA wA rA oA c) none
      (defs₀ (F := F)) Variants.none (K (F := F)).L lv (0 : Fin 1) where
  win := winFacts0.to₀
  block_pos := block_pos0
  stage_whole := stage_whole0
  K := PEmpty
  osem := fun k => k.elim
  ho := Pipeline.OwnSemFacts.none _
  hbody c := (body_obligation tA wA rA oA c).loose
  hwaits c := Pipeline.cellsWaits_intro _ _ none 0 c fun w s t =>
    (K (F := F)).mayWait_none _ (Otc_none c 0) lv hlv
  pre c := iprop(owesPart c ∗ arrPre tA wA rA oA c)
  post c := iprop(owesPart c ∗ arrPost tA wA rA c)
  X _ := iprop(emp)
  Y _ := iprop(emp)
  Z _ := iprop(emp)
  hentry c := by
    rw [Pipeline.arrays_eq (cfgsP (F := F)) (fun _ c => dat (U := U) tA wA rA oA c) 0 c arr_whole0 (share_full tA wA rA oA c), bigSep_W0]
    iintro ⟨⟨⟨%W, %hW, HO⟩, H1, H2, H3, H4⟩, -, -⟩
    imodintro
    isplitl [H1 H2 H3 H4]
    · isplitl [H1]; · iexact H1
      isplitl [H2]; · iexact H2
      isplitl [H3]; · iexact H3
      iexact H4
    isplitr
    · unfold Pipeline.prefHeld; rw [Finset.univ_eq_empty, BI.bigSep_empty]; iempintro
    isplitl [HO]
    · iexists W; isplitr
      · ipureintro; exact fun p hp => Or.inl (hW p hp)
      iexact HO
    isplitr <;> iempintro
  hin c := by
    iintro -; iempintro
  hout c := by
    rw [Pipeline.ownSems0_none, scopedRest0_eq]
    iintro -
    isplitr; · iempintro
    isplitr <;> iempintro
  hexit c := by
    rw [Pipeline.arrays_eq (cfgsP (F := F)) (fun _ c => dat (U := U) tA wA rA oA c) 0 c arr_whole0 (share_full tA wA rA oA c), bigSep_W0]
    iintro ⟨⟨H1, H2, H3, H4⟩, ⟨%W, %hW, HO⟩, -, -⟩
    imodintro
    isplitl [HO]
    · iexists W; isplitr
      · ipureintro
        intro p hp
        rcases hW (Finset.mem_coe.mpr hp) with h | ⟨w, s, rfl⟩
        · exact h
        · exact Nat.le_of_eq rfl
      iexact HO
    isplitl [H1]; · iapply (pts_congr (arr0 tA wA rA oA c cfg0.N)); iexact H1
    isplitl [H2]; · iapply (pts_congr (arr1 tA wA rA oA c cfg0.N)); iexact H2
    isplitl [H3]; · iapply (pts_congr (arr2 tA wA rA oA c cfg0.N)); iexact H3
    iapply (pts_congr (final3 tA wA rA oA c)); iexact H4

end Region

/-! ## The region lemma -/

section Lemma

variable (tA : (c : Dev nD) → Buf (Elt F) ((c : Thread nD τ).loc main_arg1))
  (wA : (c : Dev nD) → Buf (Elt F) ((c : Thread nD τ).loc main_arg2))
  (rA : (c : Dev nD) → Buf (Elt F) ((c : Thread nD τ).loc main_v0))
  (oA : (c : Dev nD) → Buf (Elt F) ((c : Thread nD τ).loc main_v1))

/-- The projection region on the TensorCore of device d, inside the SparseCore program.  Holding the launch protocol's
    records, the TensorCore's state before the first SparseCore call, its region-boundary holdings, the staging cells'
    ghost state and duty tokens, and the four arrays whole (the operands at tA d, wA d, rA d, the result at anything):
    the region call ends with all of it given back, the operands as they were and the result array at
    projTerm (tA d) (wA d) (rA d). -/
theorem wp_projRegion_fam [∀ e, Nonempty (Elt F e)]
    (EH : Emb (URounds (GSem nD τ sig) ℕ) (MT nD τ sig (HIx 1) (Elt F) ℕ U ℕ))
    (EP : Emb (URounds (GSem nD τ sig) Unit) (MT nD τ sig (HIx 1) (Elt F) ℕ U ℕ)) [EP.LandsIn (upEmb : UEmb _ 𝕄)]
    (P : (K (F := F)).Pay (nD := nD) (Val := Elt F) (Name := ℕ) (U := U))
    {lv : GSem nD τ sig → HIx 1 → ℕ} (hlv : (K (F := F)).Refines lv) (κ : GSem nD τ sig → ℕ) (d : Dev nD) (Φ : PUnit → sProp 𝕄) :
    iprop((K (F := F)).ctx EH P κ lv ∗ (K (F := F)).tcSt EH d 0 ∗ boundary (T d : Thread nD τ)
        ∗ Pipeline.cellsGhost (cfgsP (F := F)) EP 0 d ∗ Pipeline.toksInit (cfgsP (F := F)) EP 0 d
        ∗ arrPre tA wA rA oA d
        ∗ (iprop((K (F := F)).tcSt EH d 0 ∗ boundary (T d : Thread nD τ) ∗ arrPost tA wA rA d) -∗ Φ ⟨⟩))
      ⊢ wp frame (wpE ((K (F := F)).defs (Pipeline.defs pcfgs defs₀)) Variants.none.lift (T d) none) Set.univ
          (Prog.lift (.customCall (SparseCore.inner (Pipeline.entry 0)) ())) Φ := by
  have hR := Pipeline.RegionSeg.wp (pcfgs (F := F)) (fun p => (cfgs p).toPCfg_adm) (fun _ c => dat (U := U) tA wA rA oA c) none cellOf_inj EP
    (defs₀ (F := F)) Variants.none (K (F := F)).L lv (seg tA wA rA oA hlv) d none (fun u h => nomatch h) (fun x => .ret x) Φ
  rw [show (seg (U := U) tA wA rA oA hlv).post d = iprop(owesPart d ∗ arrPost tA wA rA d) from rfl,
    show (seg (U := U) tA wA rA oA hlv).pre d = iprop(owesPart d ∗ arrPre tA wA rA oA d) from rfl] at hR
  unfold SparseCore.Cfg.tcSt
  iintro ⟨#Hctx, ⟨HO, Hrest⟩, Hbd, Hg, Ht, Harr, Hk⟩
  iapply ((K (F := F)).wp_liftProg (Pipeline.defs pcfgs defs₀) Variants.none.lift (T d) Set.univ none
    (Prog.lift (.customCall (Pipeline.entry 0) ())) Φ)
  iapply hR
  isplitl [Hk Hrest]
  · iintro ⟨Hbd, HO, Harr⟩
    rw [wp_ret]; imodintro
    iapply Hk
    isplitl [HO Hrest]; · isplitl [HO] <;> iassumption
    isplitl [Hbd] <;> iassumption
  isplitl [Hbd]; · iexact Hbd
  isplitl [HO Harr]; · isplitl [HO] <;> iassumption
  isplitr; · iapply (SparseCore.Cfg.ctx_levAts (K := K (F := F)) (EH := EH) (P := P) κ); iexact Hctx
  isplitl [Hg] <;> iassumption

end Lemma

end Cert.KernelIdeal.ProjRegion

end
-- ==== Proof.PreOK.lean ====
/- What the precondition says of the integer input, in the form the kernel's proof uses it: every one of the 16384
   index words, read as a natural number, is below 8 — it names a row of the 8-row table, and of its projection. -/
import proofs.«206855_g20126216749723_cont_sun_m_335_21_alg».proof.Proof.Protocol

namespace Cert.Proof.LookupI

open Cert.KernelIdeal Idealize.ShloMosaic

variable {F : FTy → Type}

/-- Every index word of the launch memory names a row of the table. -/
def PreOK (m : (ℓ : Loc nD τ sig) → Buf (Elt F) ℓ) : Prop :=
  ∀ (d : Dev nD) (i : Fin 16384), (m (xLoc d) (ValueIdx.ix1 i)).toNat < 8

end Cert.Proof.LookupI
-- ==== Proof.TileSetup.lean ====
/-
  A tile's share of the launch, opened.

  Tile (c, s) of the 2 x 16 grid is worker w = 2 s + c. Of the arrays in HBM it touches rows 4 w .. 4 w + 3 of the
  128 x 128 index array (its 512 words) and, for r = 0 .. 7, rows 512 w + 64 r .. 512 w + 64 r + 63 of the result (its
  chunk 8 w + r of the 256 chunks of 64 rows): the rectangles the program cuts out at the offsets it computes from the
  grid coordinates are exactly those blocks. Of the semaphores it owns eleven that the program uses: one per chunk for
  the eight gathers, one for the copies out, one for the fetch of its index words, one for tile 0's copy of the
  projected table; and of the buffers, its index scratch and its row buffer. What the sequencer hands a tile at its start
  and takes back at its end is stated here over the worker's number.
-/
import proofs.«206855_g20126216749723_cont_sun_m_335_21_alg».proof.Proof.Protocol
import proofs.«206855_g20126216749723_cont_sun_m_335_21_alg».proof.Proof.Gen.KernelIdeal.Skeleton

noncomputable section

namespace Cert.Proof.LookupI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

variable (m : (ℓ : Loc nD τ sig) → Buf (Elt F) ℓ) (ρ : Dev nD → PrngReg)

variable [FloatOps F]

local notation "pV" => (Memref.whole Cert.KernelIdeal.main_v1_scv : Memref Cert.KernelIdeal.sig Kind.scVector Space.hbm Cert.KernelIdeal.S8x128 EltTy.f32)
local notation "iV" => (Memref.whole Cert.KernelIdeal.main_v2_scv : Memref Cert.KernelIdeal.sig Kind.scVector Space.hbm Cert.KernelIdeal.S128x128 EltTy.i32)
local notation "oV" => (Memref.whole Cert.KernelIdeal.main_v3_scv : Memref Cert.KernelIdeal.sig Kind.scVector Space.hbm Cert.KernelIdeal.S16384x128 EltTy.f32)
local notation "xS" => (Memref.whole Cert.KernelIdeal.cc1_scratch0 : Memref Cert.KernelIdeal.sig Kind.scVector Space.vmem Cert.KernelIdeal.S4x128 EltTy.i32)
local notation "shV" => (Memref.whole Cert.KernelIdeal.cc1_scratch1 : Memref Cert.KernelIdeal.sig Kind.scVector Space.shared Cert.KernelIdeal.S8x128 EltTy.f32)
local notation "rS" => (Memref.whole Cert.KernelIdeal.cc1_scratch2 : Memref Cert.KernelIdeal.sig Kind.scVector Space.vmem Cert.KernelIdeal.S512x128 EltTy.f32)

section Tile

variable (d : Dev nD) (L : grid1.Coords)

/-- The tile's SparseCore and subcore, as the topology numbers them, and its thread. -/
abbrev cV (L : grid1.Coords) : Fin τ.nSC := (L 0).castLE hcore1
abbrev jV (L : grid1.Coords) : Fin τ.nSub := (L 1).castLE hsub1
abbrev thr (d : Dev nD) (L : grid1.Coords) : Thread nD τ := V d (cV L) (jV L)
omit [FloatOps F] in
theorem bound_zero : grid1.bound 0 = 2 := rfl
omit [FloatOps F] in
theorem bound_one : grid1.bound 1 = 16 := rfl
/-- The same two coordinates as numbers below 2 and 16, and the worker's number 2 s + c. -/
abbrev cL (L : grid1.Coords) : Fin 2 := Fin.cast bound_zero (L 0)
abbrev jL (L : grid1.Coords) : Fin 16 := Fin.cast bound_one (L 1)
abbrev wL (L : grid1.Coords) : Fin 32 := worker (cL L) (jL L)

/-- The tile's four rows of the index array, and chunk r of its rows of the result, as the program cuts them out. -/
abbrev iRowK (L : grid1.Coords) : Memref sig .scVector .hbm S4x128 .i32 :=
  (iV).slice (Rect.unit (s := S128x128) (k1_off1 L) S4x128.size (k1_off1_inb L)) (fun _ => rfl)
abbrev oChunkK (L : grid1.Coords) (r : Fin 8) : Memref sig .scVector .hbm S64x128 .f32 :=
  (oV).slice (Rect.unit (s := S16384x128) (k1_off2 L (BitVec.ofNat 32 (64 * r.val))) S64x128.size (k1_off2_inb L r)) (fun _ => rfl)

omit [FloatOps F] in
/-- The rows the program cuts out of the index array are worker w's block of four rows. -/
theorem set_iRowK : (iRowK L).view.set = iSet (wL L) := by
  show ((View.whole main_v2_scv : View sig .scVector _ _ _).slice (Rect.unit (s := S128x128) (k1_off1 L) S4x128.size (k1_off1_inb L))).set = (iBlock (wL L)).set
  rw [View.set_slice_whole]
  ext i
  rw [Rect.mem_set_unit, Rect.mem_set_unit, k1_off1_eq]
  refine forall_congr' fun a => ?_
  have h0 := (L 0).isLt
  have h1 := (L 1).isLt
  fin_cases a <;> simp [Shape.partIx, Shape.partSize, worker] <;> omega
omit [FloatOps F] in
/-- The rows the program cuts out of the result for chunk r are chunk 8 w + r. -/
theorem set_oChunkK (r : Fin 8) : (oChunkK L r).view.set = oChunkSet (chunkOf (wL L) r) := by
  show ((View.whole main_v3_scv : View sig .scVector _ _ _).slice (Rect.unit (s := S16384x128) (k1_off2 L (BitVec.ofNat 32 (64 * r.val))) S64x128.size (k1_off2_inb L r))).set = (oChunk (chunkOf (wL L) r)).set
  rw [View.set_slice_whole]
  ext i
  rw [Rect.mem_set_unit, Rect.mem_set_unit, k1_off2_eq]
  refine forall_congr' fun a => ?_
  have h0 := (L 0).isLt
  have h1 := (L 1).isLt
  have hr := r.isLt
  fin_cases a <;> simp [Shape.partIx, Shape.partSize, worker, chunkOf] <;> omega

omit [FloatOps F] in
theorem pts_iRowK (q : PosShare TreeShare) (f : Buf (Elt F) (iLoc d)) :
    ((iRowK L).view.loc (thr d L) ↦[(iRowK L).view.set]{q} f : sProp 𝕄) = iLoc d ↦[iSet (wL L)]{q} f := by
  rw [set_iRowK]
omit [FloatOps F] in
theorem pts_oChunkK (r : Fin 8) (f : Buf (Elt F) (oLoc d)) :
    ((oChunkK L r).view.loc (thr d L) ↦[(oChunkK L r).view.set]{fullShare} f : sProp 𝕄) = oLoc d ↦[oChunkSet (chunkOf (wL L) r)]{fullShare} f := by
  rw [set_oChunkK]
omit [FloatOps F] in
theorem pts_pV (q : PosShare TreeShare) (f : Buf (Elt F) (pLoc d)) :
    ((pV).view.loc (thr d L) ↦{q} f : sProp 𝕄) = pLoc d ↦{q} f := rfl
omit [FloatOps F] in
theorem pts_shV (q : PosShare TreeShare) (f : Buf (Elt F) (shLoc d (cV L))) :
    ((shV).view.loc (thr d L) ↦{q} f : sProp 𝕄) = shLoc d (cV L) ↦{q} f := rfl

/-- The tile's eleven DMA cells: one per chunk for the gathers, the copies' out, the index fetch's, and the one of
    tile 0's copy of the projected table. -/
abbrev gsemCell (d : Dev nD) (L : grid1.Coords) (r : Fin 8) : GSem nD τ sig :=
  (thr d L, SemLoc.dma (SemArray.squeeze (SemArray.slice cc1_scratch3 (Rect.unit (s := S8) ![r.val] S1.size (by decide +revert))) S_ squeezes_S1_S_).sem)
abbrev ssemCell (d : Dev nD) (L : grid1.Coords) : GSem nD τ sig := (thr d L, SemLoc.dma cc1_scratch4.sem)
abbrev isemCell (d : Dev nD) (L : grid1.Coords) : GSem nD τ sig := (thr d L, SemLoc.dma cc1_scratch5.sem)
abbrev psemCell (d : Dev nD) (L : grid1.Coords) : GSem nD τ sig := (thr d L, SemLoc.dma cc1_scoped0.sem)

/-- Chunk r's gather semaphore, apart from any tile. -/
abbrev gsemLoc (r : Fin 8) : SemLoc sig :=
  SemLoc.dma (SemArray.squeeze (SemArray.slice cc1_scratch3 (Rect.unit (s := S8) ![r.val] S1.size (by decide +revert))) S_ squeezes_S1_S_).sem

/-- The eleven semaphores are scoped ones of a vector subcore, and no two of them are the same. -/
theorem gsemLoc_scoped : ∀ r : Fin 8, (gsemLoc r).isScoped .scVector = true := by decide
theorem gsemLoc_ne_isem : ∀ r : Fin 8, gsemLoc r ≠ SemLoc.dma cc1_scratch5.sem := by decide
theorem gsemLoc_ne_psem : ∀ r : Fin 8, gsemLoc r ≠ SemLoc.dma cc1_scoped0.sem := by decide
theorem gsemLoc_ne_ssem : ∀ r : Fin 8, gsemLoc r ≠ SemLoc.dma cc1_scratch4.sem := by decide
theorem gsemLoc_injective : ∀ r r' : Fin 8, gsemLoc r = gsemLoc r' → r = r' := by decide
theorem psem_ne_isem : (SemLoc.dma cc1_scoped0.sem : SemLoc sig) ≠ SemLoc.dma cc1_scratch5.sem := by decide
theorem ssem_ne_psem : (SemLoc.dma cc1_scratch4.sem : SemLoc sig) ≠ SemLoc.dma cc1_scoped0.sem := by decide
theorem ssem_ne_isem : (SemLoc.dma cc1_scratch4.sem : SemLoc sig) ≠ SemLoc.dma cc1_scratch5.sem := by decide

/-- The tile's other scoped semaphores, each at zero: what is left of its own cells once the eleven are out. -/
def semsRest (d : Dev nD) (L : grid1.Coords) : sProp 𝕄 :=
  bigSep (((((ownCells (thr d L)).erase (isemCell d L)).erase (psemCell d L)).erase (ssemCell d L)) \ (Finset.univ.image (gsemCell d L)))
    fun g => semVal g 0

omit [FloatOps F] in
/-- The tile's scoped semaphores at zero are the eleven cells at zero and the rest. -/
theorem scopedSems0_tile :
    (scopedSems0 (thr d L) : sProp 𝕄)
      = iprop(semVal (isemCell d L) 0 ∗ semVal (psemCell d L) 0 ∗ semVal (ssemCell d L) 0
          ∗ (bigSep Finset.univ fun r : Fin 8 => semVal (gsemCell d L r) 0) ∗ semsRest d L) := by
  have hmem : ∀ r : Fin 8, gsemCell d L r ∈ ownCells (thr d L) := fun r => mem_ownCells.mpr ⟨rfl, gsemLoc_scoped r⟩
  have hsub : Finset.univ.image (gsemCell d L) ⊆ (((ownCells (thr d L)).erase (isemCell d L)).erase (psemCell d L)).erase (ssemCell d L) :=
    Finset.image_subset_iff.mpr fun r _ => Finset.mem_erase.mpr ⟨fun e => gsemLoc_ne_ssem r (congrArg Prod.snd e),
      Finset.mem_erase.mpr ⟨fun e => gsemLoc_ne_psem r (congrArg Prod.snd e), Finset.mem_erase.mpr ⟨fun e => gsemLoc_ne_isem r (congrArg Prod.snd e), hmem r⟩⟩⟩
  have hinj : Set.InjOn (gsemCell d L) (Finset.univ : Finset (Fin 8)) := fun r _ r' _ e => gsemLoc_injective r r' (congrArg Prod.snd e)
  rw [SparseCore.Cfg.scopedSems0_V]
  unfold SparseCore.Cfg.ownSems0 semsRest
  rw [SparseCore.bigSep_erase' ((mem_ownCells (g := isemCell d L)).mpr ⟨rfl, by
      show (SemLoc.dma cc1_scratch5.sem : SemLoc sig).isScoped .scVector = true; decide⟩),
    SparseCore.bigSep_erase' (Finset.mem_erase.mpr ⟨fun e => psem_ne_isem (congrArg Prod.snd e), (mem_ownCells (g := psemCell d L)).mpr ⟨rfl, by
      show (SemLoc.dma cc1_scoped0.sem : SemLoc sig).isScoped .scVector = true; decide⟩⟩),
    SparseCore.bigSep_erase' (Finset.mem_erase.mpr ⟨fun e => ssem_ne_psem (congrArg Prod.snd e), Finset.mem_erase.mpr ⟨fun e => ssem_ne_isem (congrArg Prod.snd e),
      (mem_ownCells (g := ssemCell d L)).mpr ⟨rfl, by show (SemLoc.dma cc1_scratch4.sem : SemLoc sig).isScoped .scVector = true; decide⟩⟩⟩),
    SparseCore.bigSep_sdiff_split' hsub, SparseCore.bigSep_image_of_injOn hinj]

/-- The tile's other buffers, each whole at some contents: what is left of its own once the index scratch and the row
    buffer are out. -/
def bufsRest (d : Dev nD) (L : grid1.Coords) : sProp 𝕄 :=
  bigSep (((ownRefs (τ := τ) (.scVector (cV L) (jV L))).erase ((Proc.scVector (cV L) (jV L)).devRef cc1_scratch0)).erase
      ((Proc.scVector (cV L) (jV L)).devRef cc1_scratch2))
    fun b => iprop(∃ f, ((d, b) : Loc nD τ sig) ↦{fullShare} f)

omit [FloatOps F] in
/-- The tile's scoped buffers are its index scratch and its row buffer, at some contents, and the rest. -/
theorem scopedBufs_tile (hF : (K (F := F)).Facts) :
    (scopedBufs (thr d L) : sProp 𝕄)
      = iprop((∃ f, (xS).view.loc (thr d L) ↦{fullShare} f) ∗ (∃ f, (rS).view.loc (thr d L) ↦{fullShare} f) ∗ bufsRest d L) := by
  rw [(K (F := F)).scopedBufs_V hF d (cV L) (jV L)]
  unfold SparseCore.Cfg.ownBufs bufsRest
  refine (SparseCore.bigSep_erase' (SparseCore.Cfg.mem_ownRefs_of_owner (p := Proc.scVector (cV L) (jV L))
    (b := (Proc.scVector (cV L) (jV L)).devRef cc1_scratch0) rfl)).trans ?_
  rw [SparseCore.bigSep_erase' (Finset.mem_erase.mpr ⟨fun e => absurd (Proc.devRef_injective _ e) (show (cc1_scratch2 : Ref sig .scVector) ≠ cc1_scratch0 by decide),
    SparseCore.Cfg.mem_ownRefs_of_owner (p := Proc.scVector (cV L) (jV L)) (b := (Proc.scVector (cV L) (jV L)).devRef cc1_scratch2) rfl⟩)]

/-- What the tile is handed at its start, over the worker's number. -/
theorem goOf_tile :
    (goOf m d (cV L) (jL L) : sProp 𝕄)
      = iprop(iRows m d (wL L) ∗ (bigSep Finset.univ fun r : Fin 8 => oChunkPts d (chunkOf (wL L) r) (m (oLoc d)))
          ∗ if jL L = 0 then iprop(pTok m d (cL L) ∗ ∃ f, shLoc d (cV L) ↦{fullShare} f) else iprop(emp)) := by
  have hc : cN (cV L) = cL L := Fin.ext rfl
  unfold goOf
  rw [hc]

/-- What the tile hands back at its end, over the worker's number. -/
theorem tdOf_tile :
    (tdOf m d (cV L) (jL L) : sProp 𝕄)
      = iprop((bigSep Finset.univ fun r : Fin 8 => oChunkPts d (chunkOf (wL L) r) (outVal m d)) ∗ shTok m d (cV L) (jL L)
          ∗ if jL L = 0 then shRest m d (cV L) else iprop(emp)) := by
  have hc : cN (cV L) = cL L := Fin.ext rfl
  unfold tdOf
  rw [hc]

end Tile

end Cert.Proof.LookupI

end
-- ==== Proof.TileFacts.lean ====
/- Facts of arithmetic and of values the tile's task rests on: a conjunction over the eight chunks written out, and that
   every index word the gathers read names a row of the shared copy of P — the index array is the 16384 index words of
   the launch memory laid out 128 to a row, each of them below 8 by the precondition, and what the index fetch lands in
   the tile's scratch is four rows of that array. -/
import proofs.«206855_g20126216749723_cont_sun_m_335_21_alg».proof.Proof.TileSetup
import proofs.«206855_g20126216749723_cont_sun_m_335_21_alg».proof.Proof.PreOK

noncomputable section

namespace Cert.Proof.LookupI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

variable (m : (ℓ : Loc nD τ sig) → Buf (Elt F) ℓ) (ρ : Dev nD → PrngReg)

variable [FloatOps F]

local notation "pV" => (Memref.whole Cert.KernelIdeal.main_v1_scv : Memref Cert.KernelIdeal.sig Kind.scVector Space.hbm Cert.KernelIdeal.S8x128 EltTy.f32)
local notation "iV" => (Memref.whole Cert.KernelIdeal.main_v2_scv : Memref Cert.KernelIdeal.sig Kind.scVector Space.hbm Cert.KernelIdeal.S128x128 EltTy.i32)
local notation "oV" => (Memref.whole Cert.KernelIdeal.main_v3_scv : Memref Cert.KernelIdeal.sig Kind.scVector Space.hbm Cert.KernelIdeal.S16384x128 EltTy.f32)
local notation "xS" => (Memref.whole Cert.KernelIdeal.cc1_scratch0 : Memref Cert.KernelIdeal.sig Kind.scVector Space.vmem Cert.KernelIdeal.S4x128 EltTy.i32)
local notation "shV" => (Memref.whole Cert.KernelIdeal.cc1_scratch1 : Memref Cert.KernelIdeal.sig Kind.scVector Space.shared Cert.KernelIdeal.S8x128 EltTy.f32)
local notation "rS" => (Memref.whole Cert.KernelIdeal.cc1_scratch2 : Memref Cert.KernelIdeal.sig Kind.scVector Space.vmem Cert.KernelIdeal.S512x128 EltTy.f32)

section Tile

variable (d : Dev nD) (L : grid1.Coords)

omit [FloatOps F] in
/-- A big conjunction over eight indices, written out. -/
theorem bigSep_fin8 (Φ : Fin 8 → sProp 𝕄) : (bigSep Finset.univ Φ : sProp 𝕄) = iprop(Φ 0 ∗ Φ 1 ∗ Φ 2 ∗ Φ 3 ∗ Φ 4 ∗ Φ 5 ∗ Φ 6 ∗ Φ 7) := by
  rw [show (Finset.univ : Finset (Fin 8)) = {0, 1, 2, 3, 4, 5, 6, 7} by decide,
    bigSep_insert (by decide), bigSep_insert (by decide), bigSep_insert (by decide), bigSep_insert (by decide),
    bigSep_insert (by decide), bigSep_insert (by decide), bigSep_insert (by decide), bigSep_singleton]
  rfl

/-- Every word of the index array laid out 128 to a row is an index word, so names a row of the table. -/
theorem idxVal_lt (hpre : PreOK m) (j : S128x128.Idx) : (idxVal m d j).toNat < 8 := by
  -- the word at (a, b) is index word 128 a + b: the one index of the source with the same row-major position
  have e : Shape.reshapeEquiv shapeCasts_S16384_S128x128 j = ValueIdx.ix1 ((Shape.reshapeEquiv shapeCasts_S16384_S128x128 j) 0) :=
    ValueIdx.eq_ix1 _
  show (m (xLoc d) (Shape.reshapeEquiv shapeCasts_S16384_S128x128 j)).toNat < 8
  rw [e]
  exact hpre d _

/-- THE OFFSETS ARE IN RANGE. Once the index fetch has landed — the tile's index scratch written whole with the fetched
    rows — every word that any 64-word piece of one row of the scratch reads is below 8, the number of rows of the shared
    copy the gather takes rows from. -/
theorem offs_inb (hpre : PreOK m) (fs : Buf (Elt F) ((thr d L).loc cc1_scratch0)) (pay : S4x128.Idx → Elt F .i32)
    (hpay : pay = (iRowK L).view.read (Elt F) (idxVal m d))
    (off : Fin 2 → ℕ) (hinb : ∀ a, off a + S1x64.size a ≤ S4x128.size a) (x : S64.Idx) :
    ((((xS).slice (Rect.unit (s := S4x128) off S1x64.size hinb) (fun _ => rfl)).squeeze S64 squeezes_S1x64_S64).view.read (Elt F)
        (View.write (Elt F) (xS).view fs pay Finset.univ) x).toNat < S8x128.size gathers_S8x128_S64x128.axis := by
  subst hpay
  have hw : View.write (Elt F) (xS).view fs ((iRowK L).view.read (Elt F) (idxVal m d)) Finset.univ
      = (iRowK L).view.read (Elt F) (idxVal m d) := View.write_whole_univ cc1_scratch0 fs _
  rw [hw]
  -- a word of the scratch is a word of the fetched rows, which is a word of the index array
  have hrow : ∀ y : S4x128.Idx, ((iRowK L).view.read (Elt F) (idxVal m d) y).toNat < 8 := fun y => by
    rw [show (iRowK L).view.read (Elt F) (idxVal m d) y = idxVal m d ((iRowK L).view.emb y) from (View.read_apply _ _).trans (cast_eq _ _)]
    exact idxVal_lt m d hpre _
  rw [View.read_apply, cast_eq]
  exact hrow _

end Tile

end Cert.Proof.LookupI

end
-- ==== Proof.TileTerms.lean ====
/- The terms of a tile's task: the blocks of its own buffers, what each transfer carries, and the contents they leave.
   Block t of the tile's 512 x 128 row buffer is rows 64 t .. 64 t + 63. Gather t takes its 64 offsets from the piece of
   the tile's index scratch that holds words 64 t .. 64 t + 63 of the tile's 512 index words — row t / 2 of the 4 x 128
   scratch, columns 64 (t mod 2) .. — and lands, in block t of the row buffer, row r := the row of the shared copy of P
   that offset r names. After the eight gathers the row buffer holds one function: its prior contents overwritten by
   the eight blocks. Copy-out t then carries block t to chunk t of the tile's part of the result. -/
import proofs.«206855_g20126216749723_cont_sun_m_335_21_alg».proof.Proof.TileSetup

noncomputable section

namespace Cert.Proof.LookupI

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem

variable {F : FTy → Type}
local notation "𝕄" => MT nD τ sig (HIx 1) (Elt F) ℕ UU ℕ
variable (m : (ℓ : Loc nD τ sig) → Buf (Elt F) ℓ)

local notation "iV" => (Memref.whole Cert.KernelIdeal.main_v2_scv : Memref Cert.KernelIdeal.sig Kind.scVector Space.hbm Cert.KernelIdeal.S128x128 EltTy.i32)
local notation "oV" => (Memref.whole Cert.KernelIdeal.main_v3_scv : Memref Cert.KernelIdeal.sig Kind.scVector Space.hbm Cert.KernelIdeal.S16384x128 EltTy.f32)
local notation "xS" => (Memref.whole Cert.KernelIdeal.cc1_scratch0 : Memref Cert.KernelIdeal.sig Kind.scVector Space.vmem Cert.KernelIdeal.S4x128 EltTy.i32)
local notation "shV" => (Memref.whole Cert.KernelIdeal.cc1_scratch1 : Memref Cert.KernelIdeal.sig Kind.scVector Space.shared Cert.KernelIdeal.S8x128 EltTy.f32)
local notation "rS" => (Memref.whole Cert.KernelIdeal.cc1_scratch2 : Memref Cert.KernelIdeal.sig Kind.scVector Space.vmem Cert.KernelIdeal.S512x128 EltTy.f32)

/-- A resource set aside for a later step: the same proposition under a name that is not opened meanwhile. -/
def aside (P : sProp 𝕄) : sProp 𝕄 := P
theorem aside_intro (P : sProp 𝕄) : P ⊢ aside P := BI.Entails.refl _
theorem aside_elim (P : sProp 𝕄) : aside P ⊢ P := BI.Entails.refl _

theorem rChunk_inb (t : Fin 8) : ∀ a, (![64 * t.val, 0] : Fin 2 → Nat) a + S64x128.size a ≤ S512x128.size a := by
  intro a
  have ht := t.isLt
  match a with
  | 0 => show 64 * t.val + 64 ≤ 512; omega
  | 1 => show 0 + 128 ≤ 128; omega
/-- Block t (64 rows) of the tile's own row buffer, as a rectangle and as the program's slice of the buffer. -/
abbrev rRect (t : Fin 8) : Rect S512x128 := Rect.unit (s := S512x128) ![64 * t.val, 0] S64x128.size (rChunk_inb t)
abbrev rChunkK (t : Fin 8) : Memref sig .scVector .vmem S64x128 .f32 := (rS).slice (rRect t) (fun _ => rfl)

theorem offs_inb' (t : Fin 8) : ∀ a, (![t.val / 2, 64 * (t.val % 2)] : Fin 2 → Nat) a + S1x64.size a ≤ S4x128.size a := by
  intro a
  have ht := t.isLt
  match a with
  | 0 => show t.val / 2 + 1 ≤ 4; omega
  | 1 => show 64 * (t.val % 2) + 64 ≤ 128; omega
/-- The piece of the index scratch gather t takes its offsets from: 64 words of row t / 2. -/
abbrev offsK (t : Fin 8) : Memref sig .scVector .vmem S64 .i32 :=
  ((xS).slice (Rect.unit (s := S4x128) ![t.val / 2, 64 * (t.val % 2)] S1x64.size (offs_inb' t)) (fun _ => rfl)).squeeze S64 squeezes_S1x64_S64

section Tile
variable (d : Dev nD) (L : grid1.Coords)

/-- What the index fetch lands in the tile's index scratch: the tile's four rows of the index array. -/
abbrev idxPay : S4x128.Idx → Elt F .i32 := ReadAs.same.apply ((iRowK L).view.read (Elt F) (idxVal m d))

variable [FloatOps F]

/-- The index scratch once the fetch has landed, whatever it held before. -/
abbrev idxLanded (fx : Buf (Elt F) ((xS).view.loc (thr d L))) : Buf (Elt F) ((xS).view.loc (thr d L)) :=
  View.write (Elt F) (xS).view fx (idxPay m d L) Finset.univ

/-- The offsets of gather t are in range (a hypothesis of this form is what each gather is issued under). -/
abbrev OffsOK (fx : Buf (Elt F) ((xS).view.loc (thr d L))) (t : Fin 8) : Prop :=
  ∀ x : S64.Idx, ((offsK t).view.read (Elt F) (idxLanded m d L fx) x).toNat < S8x128.size gathers_S8x128_S64x128.axis

/-- What gather t lands in block t of the row buffer: row r is the row of P (read through the whole shared copy) that
    offset r names. -/
abbrev gatherOf (fx : Buf (Elt F) ((xS).view.loc (thr d L))) (t : Fin 8) (hin : OffsOK m d L fx t) : S64x128.Idx → Elt F .f32 :=
  SparseCore.gatherPayload gathers_S8x128_S64x128
    (((shV).slice (Rect.unit (s := S8x128) ![0, 0] S8x128.size inb_S8x128_S8x128_0_0) (fun _ => rfl)).view.read (Elt F) (projVal m d))
    (SparseCore.rows ((offsK t).view.read (Elt F) (idxLanded m d L fx)) rfl hin)

/-- The row buffer after the eight gathers: its prior contents with the eight blocks written, the last issued first. -/
abbrev rowsLanded (fx : Buf (Elt F) ((xS).view.loc (thr d L))) (fr : Buf (Elt F) ((rS).view.loc (thr d L)))
    (hin : ∀ t, OffsOK m d L fx t) : Buf (Elt F) ((rS).view.loc (thr d L)) :=
  (rS).view.writes (Elt F) fr
    [⟨rRect 7, gatherOf m d L fx 7 (hin 7)⟩, ⟨rRect 6, gatherOf m d L fx 6 (hin 6)⟩, ⟨rRect 5, gatherOf m d L fx 5 (hin 5)⟩,
      ⟨rRect 4, gatherOf m d L fx 4 (hin 4)⟩, ⟨rRect 3, gatherOf m d L fx 3 (hin 3)⟩, ⟨rRect 2, gatherOf m d L fx 2 (hin 2)⟩,
      ⟨rRect 1, gatherOf m d L fx 1 (hin 1)⟩, ⟨rRect 0, gatherOf m d L fx 0 (hin 0)⟩]

/-- Chunk t of the tile's part of the result once copy-out t has landed: written whole with block t of the row buffer
    (at contents fR). -/
abbrev outLanded (fR : Buf (Elt F) ((rS).view.loc (thr d L))) (t : Fin 8) : Buf (Elt F) ((oChunkK L t).view.loc (thr d L)) :=
  (oChunkK L t).view.writes (Elt F) (m (oLoc d)) [⟨Rect.whole S64x128, ReadAs.same.apply ((rChunkK t).view.read (Elt F) fR)⟩]

/-- What copy-out t delivers: chunk t landed, and block t of the row buffer back. -/
abbrev outDeliv (fR : Buf (Elt F) ((rS).view.loc (thr d L))) (t : Fin 8) : sProp 𝕄 :=
  iprop(((oChunkK L t).view.loc (thr d L) ↦[(oChunkK L t).view.set]{fullShare} outLanded m d L fR t)
    ∗ ((rChunkK t).view.loc (thr d L) ↦[(rChunkK t).view.set]{fullShare} fR))

end Tile

end Cert.Proof.LookupI

end
-- ==== Proof.TileValue.lean ====
/- The value of a tile's part of the result.
   Worker w = 2 s + c holds index words 512 w .. 512 w + 511 (rows 4 w .. 4 w + 3 of the index array laid out 128 to a
   row). Gather t reads words 64 t .. 64 t + 63 of them — row t / 2 of the tile's scratch, columns 64 (t mod 2) .. — and
   lands in row 64 t + r of the tile's row buffer the row of P that word 64 t + r names; copy-out t carries rows
   64 t .. 64 t + 63 of the buffer to rows 512 w + 64 t .. of the result. So row 512 w + 64 t + r of the result is row
   x_{512 w + 64 t + r} of P, which is the result's value there. -/
import proofs.«206855_g20126216749723_cont_sun_m_335_21_alg».proof.Proof.TileTerms
import proofs.«206855_g20126216749723_cont_sun_m_335_21_alg».proof.Proof.TileFacts
import Idealize.ShloMosaic.Lib.Writes

noncomputable section

namespace Cert.Proof.LookupI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

variable (m : (ℓ : Loc nD τ sig) → Buf (Elt F) ℓ) (ρ : Dev nD → PrngReg)

variable [FloatOps F]

local notation "pV" => (Memref.whole Cert.KernelIdeal.main_v1_scv : Memref Cert.KernelIdeal.sig Kind.scVector Space.hbm Cert.KernelIdeal.S8x128 EltTy.f32)
local notation "iV" => (Memref.whole Cert.KernelIdeal.main_v2_scv : Memref Cert.KernelIdeal.sig Kind.scVector Space.hbm Cert.KernelIdeal.S128x128 EltTy.i32)
local notation "oV" => (Memref.whole Cert.KernelIdeal.main_v3_scv : Memref Cert.KernelIdeal.sig Kind.scVector Space.hbm Cert.KernelIdeal.S16384x128 EltTy.f32)
local notation "xS" => (Memref.whole Cert.KernelIdeal.cc1_scratch0 : Memref Cert.KernelIdeal.sig Kind.scVector Space.vmem Cert.KernelIdeal.S4x128 EltTy.i32)
local notation "shV" => (Memref.whole Cert.KernelIdeal.cc1_scratch1 : Memref Cert.KernelIdeal.sig Kind.scVector Space.shared Cert.KernelIdeal.S8x128 EltTy.f32)
local notation "rS" => (Memref.whole Cert.KernelIdeal.cc1_scratch2 : Memref Cert.KernelIdeal.sig Kind.scVector Space.vmem Cert.KernelIdeal.S512x128 EltTy.f32)

section Tile

variable (d : Dev nD) (L : grid1.Coords)

omit [FloatOps F] in
/-- Two indices of a rank-2 shape with the same two coordinates are the same. -/
theorem idx2_ext {n0 n1 : ℕ} {j j' : (⟨2, ![n0, n1]⟩ : Shape).Idx} (h0 : (j 0).val = (j' 0).val) (h1 : (j 1).val = (j' 1).val) : j = j' := by
  funext a
  match a with
  | ⟨0, _⟩ => exact Fin.ext h0
  | ⟨1, _⟩ => exact Fin.ext h1

omit [FloatOps F] in
/-- Offset r of gather t sits at row t / 2, column 64 (t mod 2) + r of the index scratch. -/
theorem offsK_emb (t : Fin 8) (r : Fin 64) :
    (offsK t).view.emb (ValueIdx.ix1 r)
      = ValueIdx.ix2 (⟨t.val / 2, by have := t.isLt; omega⟩ : Fin 4) (⟨64 * (t.val % 2) + r.val, by have := r.isLt; omega⟩ : Fin 128) := by
  have hsq : Shape.reshapeEquiv squeezes_S1x64_S64.numel_eq (ValueIdx.ix1 r) = ValueIdx.ix2 (0 : Fin 1) r :=
    Shape.reshapeEquiv_eq_of_rowMajor _ (by rw [Shape.rowMajor_val_one, Shape.rowMajor_val_two]; simp)
  show (Rect.unit (s := S4x128) ![t.val / 2, 64 * (t.val % 2)] S1x64.size (offs_inb' t)).emb (Shape.reshapeEquiv squeezes_S1x64_S64.numel_eq (ValueIdx.ix1 r)) = _
  rw [hsq]
  refine idx2_ext ?_ ?_
  · show t.val / 2 + 1 * 0 = t.val / 2; omega
  · show 64 * (t.val % 2) + 1 * r.val = 64 * (t.val % 2) + r.val; omega

/-- OFFSET r OF GATHER t IS INDEX WORD 512 w + 64 t + r: the scratch holds rows 4 w .. 4 w + 3 of the index array, so its
    word (t / 2, 64 (t mod 2) + r) is the array's word (4 w + t / 2, 64 (t mod 2) + r), the launch memory's word
    128 (4 w + t / 2) + 64 (t mod 2) + r. -/
theorem offs_word (fx : Buf (Elt F) ((xS).view.loc (thr d L))) (t : Fin 8) (r : Fin 64) :
    (offsK t).view.read (Elt F) (idxLanded m d L fx) (ValueIdx.ix1 r)
      = m (xLoc d) (ValueIdx.ix1 (⟨512 * (wL L).val + 64 * t.val + r.val, by have := (wL L).isLt; have := t.isLt; have := r.isLt; omega⟩ : Fin 16384)) := by
  have hw : idxLanded m d L fx = idxPay m d L := View.write_whole_univ cc1_scratch0 fx _
  rw [hw, View.read_apply, cast_eq]
  show (iRowK L).view.read (Elt F) (idxVal m d) _ = _
  rw [View.read_apply, cast_eq]
  show m (xLoc d) (Shape.reshapeEquiv shapeCasts_S16384_S128x128 _) = _
  congr 1
  refine Shape.reshapeEquiv_eq_of_rowMajor _ ?_
  rw [Shape.rowMajor_val_one, Shape.rowMajor_val_two, offsK_emb]
  show 512 * (2 * (L 1).val + (L 0).val) + 64 * t.val + r.val
    = (k1_off1 L 0 + 1 * (t.val / 2)) * 128 + (k1_off1 L 1 + 1 * (64 * (t.val % 2) + r.val))
  rw [k1_off1_eq]
  show 512 * (2 * (L 1).val + (L 0).val) + 64 * t.val + r.val
    = (8 * (L 1).val + 4 * (L 0).val + 1 * (t.val / 2)) * 128 + (0 + 1 * (64 * (t.val % 2) + r.val))
  omega

omit [FloatOps F] in
/-- In a shape of rank one the k-th index in row-major order is k. -/
theorem rowMajor_symm_one {n : ℕ} (k : Fin (⟨1, ![n]⟩ : Shape).numel) (hn : (⟨1, ![n]⟩ : Shape).numel = n) :
    (⟨1, ![n]⟩ : Shape).rowMajor.symm k = ValueIdx.ix1 (k.cast hn) := by
  rw [Equiv.symm_apply_eq]
  apply Fin.ext
  rw [Shape.rowMajor_val_one]
  rfl

/-- WHAT GATHER t LANDS AT (r, c): column c of the row of P that index word 512 w + 64 t + r names (the gather is along
    axis 0: the row is the one its offset names, the column the index's own). -/
theorem gatherOf_apply (hpre : PreOK m) (fx : Buf (Elt F) ((xS).view.loc (thr d L))) (t : Fin 8) (hin : OffsOK m d L fx t) (r : Fin 64) (c : Fin 128) :
    gatherOf m d L fx t hin (ValueIdx.ix2 r c)
      = projVal m d (ValueIdx.ix2 (Cert.EmbedProject.rowOf (m (xLoc d) (ValueIdx.ix1
          (⟨512 * (wL L).val + 64 * t.val + r.val, by have := (wL L).isLt; have := t.isLt; have := r.isLt; omega⟩ : Fin 16384)))) c) := by
  unfold gatherOf SparseCore.gatherPayload
  rw [View.read_apply, cast_eq]
  congr 1
  refine idx2_ext ?_ ?_
  · rw [Cert.EmbedProject.rowOf_val (hpre d _)]
    show 0 + 1 * (gathers_S8x128_S64x128.idx _ (ValueIdx.ix2 r c) gathers_S8x128_S64x128.axis).val = _
    rw [Shape.Gathers.idx_axis, Nat.zero_add, Nat.one_mul]
    unfold SparseCore.rows
    show ((offsK t).view.read (Elt F) (idxLanded m d L fx) (S64.rowMajor.symm _)).toNat = _
    rw [rowMajor_symm_one _ rfl]
    exact congrArg BitVec.toNat (offs_word m d L fx t r)
  · show 0 + 1 * (gathers_S8x128_S64x128.idx _ (ValueIdx.ix2 r c) (1 : Fin 2)).val = c.val
    rw [Shape.Gathers.idx_of_ne gathers_S8x128_S64x128 _ (ValueIdx.ix2 r c) (1 : Fin S8x128.rank) (by decide), Nat.zero_add, Nat.one_mul]
    rfl

/-- The row buffer's value once the gathers have landed, as one function of its index: row y of the buffer is the row of
    P that the tile's index word y names. -/
def rowsG (y : S512x128.Idx) : Elt F .f32 :=
  projVal m d (ValueIdx.ix2 (Cert.EmbedProject.rowOf (m (xLoc d) (ValueIdx.ix1
    (⟨512 * (wL L).val + (y 0).val, by have := (wL L).isLt; have := ValueIdx.idx2_lt0 y; omega⟩ : Fin 16384))))
    (⟨(y 1).val, ValueIdx.idx2_lt1 y⟩ : Fin 128))

/-- Block t as gathered agrees with that one function on its own rows. -/
theorem gather_agrees (hpre : PreOK m) (fx : Buf (Elt F) ((xS).view.loc (thr d L))) (t : Fin 8) (hin : OffsOK m d L fx t)
    (x : S64x128.Idx) : gatherOf m d L fx t hin x = rowsG m d L ((rRect t).emb x) := by
  obtain ⟨r, c, rfl⟩ : ∃ r c, x = ValueIdx.ix2 r c := ⟨x 0, x 1, ValueIdx.eq_ix2 x⟩
  rw [gatherOf_apply m d L hpre]
  unfold rowsG
  congr 1
  refine idx2_ext ?_ ?_
  · show (Cert.EmbedProject.rowOf _).val = (Cert.EmbedProject.rowOf _).val
    congr 4
    refine Fin.ext ?_
    show 512 * (wL L).val + 64 * t.val + r.val = 512 * (wL L).val + (64 * t.val + 1 * r.val)
    omega
  · show c.val = 0 + 1 * c.val
    omega

/-- Each of the eight blocks is among the pieces written. -/
theorem piece_mem (fx : Buf (Elt F) ((xS).view.loc (thr d L))) (hin : ∀ t, OffsOK m d L fx t) (t : Fin 8) :
    (⟨rRect t, gatherOf m d L fx t (hin t)⟩ : View.Piece (Elt F) S512x128 .f32) ∈
      ([⟨rRect 7, gatherOf m d L fx 7 (hin 7)⟩, ⟨rRect 6, gatherOf m d L fx 6 (hin 6)⟩, ⟨rRect 5, gatherOf m d L fx 5 (hin 5)⟩,
        ⟨rRect 4, gatherOf m d L fx 4 (hin 4)⟩, ⟨rRect 3, gatherOf m d L fx 3 (hin 3)⟩, ⟨rRect 2, gatherOf m d L fx 2 (hin 2)⟩,
        ⟨rRect 1, gatherOf m d L fx 1 (hin 1)⟩, ⟨rRect 0, gatherOf m d L fx 0 (hin 0)⟩] : List (View.Piece (Elt F) S512x128 .f32)) := by
  fin_cases t <;> repeat (first | exact List.mem_cons_self | apply List.mem_cons_of_mem)

/-- Block t of the row buffer after the eight gathers: every block written agrees with the one function, so whichever
    block an index lies in, the buffer reads that function there. -/
theorem rowsLanded_block (hpre : PreOK m) (fx : Buf (Elt F) ((xS).view.loc (thr d L))) (fr : Buf (Elt F) ((rS).view.loc (thr d L)))
    (hin : ∀ t, OffsOK m d L fx t) (t : Fin 8) (x : S64x128.Idx) :
    rowsLanded m d L fx fr hin ((rRect t).emb x) = rowsG m d L ((rRect t).emb x) := by
  refine View.read_writes_apply_of_pieces (rS).view fr (rowsG m d L) _ ?_ ((rRect t).emb x)
    ⟨⟨rRect t, gatherOf m d L fx t (hin t)⟩, piece_mem m d L fx hin t, ?_⟩
  · intro p hp
    simp only [List.mem_cons, List.not_mem_nil, or_false] at hp
    rcases hp with rfl | rfl | rfl | rfl | rfl | rfl | rfl | rfl <;> exact gather_agrees m d L hpre fx _ _
  · rw [← Rect.map_emb_univ]; exact Finset.mem_map_of_mem _ (Finset.mem_univ x)

/-- Chunk t once copy-out t has landed: at the element under local index x it holds what block t of the row buffer held
    at x. -/
theorem outLanded_apply (fR : Buf (Elt F) ((rS).view.loc (thr d L))) (t : Fin 8) (x : S64x128.Idx) :
    outLanded m d L fR t ((oChunkK L t).view.emb x) = fR ((rRect t).emb x) := by
  have h := View.read_writes_cons_emb (oChunkK L t).view (m (oLoc d)) (Rect.whole S64x128)
    (ReadAs.same.apply ((rChunkK t).view.read (Elt F) fR)) [] x
  rw [View.read_apply, cast_eq, Rect.emb_whole_apply] at h
  refine Eq.trans h ?_
  show (rChunkK t).view.read (Elt F) fR x = _
  rw [View.read_apply, cast_eq]
  rfl

/-- ROW r OF CHUNK t IS ROW x_{512 w + 64 t + r} OF P. Once the eight gathers have landed in the row buffer and copy-out t
    has carried block t out, chunk t of the tile's part of the result agrees with the result's value on its own rows. -/
theorem landed_eq (hpre : PreOK m) (fx : Buf (Elt F) ((xS).view.loc (thr d L))) (fr : Buf (Elt F) ((rS).view.loc (thr d L)))
    (hin : ∀ t, OffsOK m d L fx t) (t : Fin 8) :
    ∀ i ∈ (oChunkK L t).view.set, outLanded m d L (rowsLanded m d L fx fr hin) t i = outVal m d i := by
  intro i hi
  obtain ⟨x, -, rfl⟩ := Finset.mem_map.mp hi
  rw [outLanded_apply, rowsLanded_block m d L hpre]
  unfold rowsG outVal
  congr 1
  refine idx2_ext ?_ ?_
  · show (Cert.EmbedProject.rowOf _).val = (Cert.EmbedProject.rowOf _).val
    congr 4
    refine Fin.ext ?_
    show 512 * (2 * (L 1).val + (L 0).val) + (64 * t.val + 1 * (x 0).val) = k1_off2 L (BitVec.ofNat 32 (64 * t.val)) 0 + 1 * (x 0).val
    rw [k1_off2_eq]
    show 512 * (2 * (L 1).val + (L 0).val) + (64 * t.val + 1 * (x 0).val) = 1024 * (L 1).val + 512 * (L 0).val + 64 * t.val + 1 * (x 0).val
    omega
  · show 0 + 1 * (x 1).val = k1_off2 L (BitVec.ofNat 32 (64 * t.val)) 1 + 1 * (x 1).val
    rw [k1_off2_eq]
    show 0 + 1 * (x 1).val = 0 + 1 * (x 1).val
    rfl

/-- the same as an equation of what the tile holds: -/
theorem chunk_landed (hpre : PreOK m) (fx : Buf (Elt F) ((xS).view.loc (thr d L))) (fr : Buf (Elt F) ((rS).view.loc (thr d L)))
    (hin : ∀ t, OffsOK m d L fx t) (t : Fin 8) :
    ((oChunkK L t).view.loc (thr d L) ↦[(oChunkK L t).view.set]{fullShare} outLanded m d L (rowsLanded m d L fx fr hin) t : sProp 𝕄)
      = oLoc d ↦[oChunkSet (chunkOf (wL L) t)]{fullShare} outVal m d := by
  rw [pointsTo_congr (landed_eq m d L hpre fx fr hin t), pts_oChunkK]

end Tile

end Cert.Proof.LookupI

end
-- ==== Proof.TileRows.lean ====
/-
  The tile's row buffer is its eight blocks of 64 rows.

  Block t of the 512 x 128 row buffer is rows 64 t .. 64 t + 63: the t-th of the eight equal parts of the buffer along
  its rows. Distinct parts are disjoint and the eight together are every row. So holding each block, all at one
  contents, is holding the whole buffer at those contents.
-/
import proofs.«206855_g20126216749723_cont_sun_m_335_21_alg».proof.Proof.TileTerms

noncomputable section

namespace Cert.Proof.LookupI

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem

variable {F : FTy → Type}
local notation "𝕄" => MT nD τ sig (HIx 1) (Elt F) ℕ UU ℕ
variable (m : (ℓ : Loc nD τ sig) → Buf (Elt F) ℓ)

local notation "rS" => (Memref.whole Cert.KernelIdeal.cc1_scratch2 : Memref Cert.KernelIdeal.sig Kind.scVector Space.vmem Cert.KernelIdeal.S512x128 EltTy.f32)

/-- The row buffer's 512 rows cut into eight equal parts. -/
theorem hdivR : 8 ∣ S512x128.size 0 := ⟨64, rfl⟩
/-- Part t: rows 64 t .. 64 t + 63. -/
abbrev rSet (t : Fin 8) : Finset S512x128.Idx := (Rect.part (s := S512x128) (a₀ := 0) hdivR t).set

theorem rSets_disjoint : ∀ t ∈ (Finset.univ : Finset (Fin 8)), ∀ t' ∈ (Finset.univ : Finset (Fin 8)), t ≠ t' → Disjoint (rSet t) (rSet t') :=
  fun _ _ _ _ h => Rect.part_disjoint hdivR h
theorem rSets_cover : (Finset.univ : Finset (Fin 8)).biUnion rSet = Finset.univ := Rect.biUnion_part hdivR

/-- Block t, as the program cuts it out of the row buffer, is part t. -/
theorem set_rChunkK (t : Fin 8) : (rChunkK t).view.set = rSet t := by
  show ((View.whole cc1_scratch2 : View sig .scVector _ _ _).slice (rRect t)).set = (Rect.part (s := S512x128) (a₀ := 0) hdivR t).set
  rw [View.set_slice_whole]
  ext i
  rw [Rect.mem_set_unit, Rect.mem_set_unit]
  refine forall_congr' fun a => ?_
  have ht := t.isLt
  fin_cases a <;> simp [Shape.partIx, Shape.partSize] <;> omega

section Tile
variable (d : Dev nD) (L : grid1.Coords)

/-- The eight blocks of 64 rows are the whole row buffer: held block by block at one contents, it is held whole. -/
theorem rows_rejoin (f : Buf (Elt F) ((rS).view.loc (thr d L))) :
    (bigSep Finset.univ fun t : Fin 8 => ((rChunkK t).view.loc (thr d L) ↦[(rChunkK t).view.set]{fullShare} f : sProp 𝕄))
      ⊢ ((rS).view.loc (thr d L) ↦{fullShare} f : sProp 𝕄) := by
  refine Entails.of_eq ?_
  have hb : (bigSep Finset.univ fun t : Fin 8 => ((rChunkK t).view.loc (thr d L) ↦[(rChunkK t).view.set]{fullShare} f : sProp 𝕄))
      = bigSep Finset.univ fun t : Fin 8 => ((rS).view.loc (thr d L) ↦[rSet t]{fullShare} f : sProp 𝕄) :=
    bigSep_congr fun t _ => by rw [set_rChunkK]
  rw [hb, ← pointsTo_biUnion Finset.univ (ℓ := (rS).view.loc (thr d L)) rSet rSets_disjoint, rSets_cover]

end Tile

end Cert.Proof.LookupI

end
-- ==== Proof.TileTask.lean ====
/- The task of one tile of the lookup kernel.
   Tile (c, s) of device d is worker w = 2 s + c. Its task: start the fetch of its four rows of the index array into
   its own memory; if it is tile 0 of its core, copy the projected table P from HBM into the core's shared memory and
   wait for that copy; arrive at the subcore barrier of the core's sixteen tiles (tile 0's arrival hands every tile a
   read share of the shared copy of P) and wait there; wait for the index fetch; start eight gathers, one per block of
   64 index words, each of the rows of P those words name into the matching 64 rows of its own 512 x 128 buffer, each
   on a semaphore of its own, each reading the shared copy through a share of the tile's share; then, block by block,
   wait for the gather and start the copy of the 64 finished rows out to chunk 8 w + j of the result, all eight copies
   on one semaphore — a counted batch: only the eighth wait knows that every copy has landed —; and wait eight times.
   What it holds at its end: its eight chunks of the result, row i of which is row x_i of P (every index word names a
   row: the precondition), its read share of the shared copy put together again (tile 0: also what was left beside the
   sixteen shares), and its scratch and cells as they were handed. -/
import proofs.«206855_g20126216749723_cont_sun_m_335_21_alg».proof.Proof.PreOK
import proofs.«206855_g20126216749723_cont_sun_m_335_21_alg».proof.Proof.Gen.KernelIdeal.Skeleton
import proofs.«206855_g20126216749723_cont_sun_m_335_21_alg».proof.Proof.TileSetup
import proofs.«206855_g20126216749723_cont_sun_m_335_21_alg».proof.Proof.TileFacts
import proofs.«206855_g20126216749723_cont_sun_m_335_21_alg».proof.Proof.TileTerms
import proofs.«206855_g20126216749723_cont_sun_m_335_21_alg».proof.Proof.TileValue
import proofs.«206855_g20126216749723_cont_sun_m_335_21_alg».proof.Proof.TileRows

noncomputable section

namespace Cert.Proof.LookupI

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
local notation "𝕄" => MT nD τ sig (HIx 1) (Elt F) ℕ UU ℕ
variable (m : (ℓ : Loc nD τ sig) → Buf (Elt F) ℓ) (ρ : Dev nD → PrngReg)
variable [FloatOps F]

local notation "pV" => (Memref.whole Cert.KernelIdeal.main_v1_scv : Memref Cert.KernelIdeal.sig Kind.scVector Space.hbm Cert.KernelIdeal.S8x128 EltTy.f32)
local notation "iV" => (Memref.whole Cert.KernelIdeal.main_v2_scv : Memref Cert.KernelIdeal.sig Kind.scVector Space.hbm Cert.KernelIdeal.S128x128 EltTy.i32)
local notation "oV" => (Memref.whole Cert.KernelIdeal.main_v3_scv : Memref Cert.KernelIdeal.sig Kind.scVector Space.hbm Cert.KernelIdeal.S16384x128 EltTy.f32)
local notation "xS" => (Memref.whole Cert.KernelIdeal.cc1_scratch0 : Memref Cert.KernelIdeal.sig Kind.scVector Space.vmem Cert.KernelIdeal.S4x128 EltTy.i32)
local notation "shV" => (Memref.whole Cert.KernelIdeal.cc1_scratch1 : Memref Cert.KernelIdeal.sig Kind.scVector Space.shared Cert.KernelIdeal.S8x128 EltTy.f32)
local notation "rS" => (Memref.whole Cert.KernelIdeal.cc1_scratch2 : Memref Cert.KernelIdeal.sig Kind.scVector Space.vmem Cert.KernelIdeal.S512x128 EltTy.f32)

section Tile
variable (d : Dev nD) (L : grid1.Coords)

/-- The test of `pl.when`: the tile's number within its core is 0. -/
abbrev isFirst (L : grid1.Coords) : Prop :=
  Scalar.cmpi .ne (Scalar.extui (Scalar.cmpi .eq (BitVec.ofNat 32 (L 1).val) 0#32)) 0#32 = 1#1

omit [FloatOps F] in
theorem isFirst_iff : ∀ L : grid1.Coords, isFirst L ↔ (jV L).val = 0 := by decide +revert

/-- What the tile's own barrier round collected holds tile 0's arrival: the tile's read share of the shared copy. -/
theorem own_token : (bigSep ((bRd (F := F) m).duties (bcell d (cV L) (jV L)) 0 \ ∅) fun n => (bRd (F := F) m).payload (bcell d (cV L) (jV L)) 0 n)
    ⊢ (shTok m d (cV L) (jL L) : sProp 𝕄) := by
  rw [Finset.sdiff_empty, bRd_duties₀]
  refine (bigSep_elim (i := 0) (Finset.mem_image.mpr ⟨(⟨0, by decide⟩ : Fin τ.nSub), Finset.mem_univ _, rfl⟩)).trans ?_
  show bPay m (bcell d (cV L) (jV L)) 0 ⊢ _
  unfold bPay; dsimp only
  rw [if_pos rfl]
  exact BI.Entails.refl _

/-- What a tile holds of its own when its task starts: its index scratch and row buffer and its eleven transfer cells, spelt as
    the program addresses them, and the rest of its scoped storage, which the task never touches. -/
def tileOwn (d : Dev nD) (L : grid1.Coords) : sProp 𝕄 :=
  iprop((∃ fx, (xS).view.loc (thr d L) ↦{fullShare} fx) ∗ (∃ fr, (rS).view.loc (thr d L) ↦{fullShare} fr)
    ∗ semVal (isemCell d L) 0 ∗ semVal (psemCell d L) 0 ∗ semVal (ssemCell d L) 0 ∗ (bigSep Finset.univ fun r : Fin 8 => semVal (gsemCell d L r) 0)
    ∗ bufsRest d L ∗ semsRest d L)

set_option maxRecDepth 200000 in
/-- THE TASK OF A TILE THAT IS NOT TILE 0 OF ITS CORE. -/
theorem tile_other (hF : (K (F := F)).Facts) (hpre : PreOK m) (O : CellTallies nD τ sig (HIx 1)) (W : Waits sig (HIx 1)) (hO : ∀ g, O g none = 0)
    (hOlev : ∀ g ι, 0 < O g ι → 8 * (0 : Fin 1).val + 6 ≤ (K (F := F)).lev g ι)
    (hs : ¬ isFirst L) :
    iprop(levAts (K (F := F)).L (K (F := F)).lev ∗ bkit m d (cV L) (jV L)
        ∗ iRows m d (wL L) ∗ (bigSep Finset.univ fun r : Fin 8 => oChunkPts d (chunkOf (wL L) r) (m (oLoc d)))
        ∗ tileOwn d L ∗ owes (thr d L) (O + oxV d (cV L)) W)
      ⊢ wp frame (wpE (defs₀ (F := F)) 𝒱₀ (thr d L) none) Set.univ
          (cc1_gather_k L pV (Memref.isWhole_whole _) iV (Memref.isWhole_whole _) oV (Memref.isWhole_whole _) xS (Memref.isWhole_whole _)
            shV (Memref.isWhole_whole _) rS (Memref.isWhole_whole _) cc1_scratch3 cc1_scratch4 cc1_scratch5 cc1_scoped0)
          fun _ => iprop((bigSep Finset.univ fun r : Fin 8 => oChunkPts d (chunkOf (wL L) r) (outVal m d)) ∗ shTok m d (cV L) (jL L)
            ∗ tileOwn d L ∗ ∃ W', ⌜∀ p ∈ W', p ∈ W ∨ p.2 = none ∨ p.2 = some (0 : Fin 1)⌝ ∗ owes (thr d L) O W') := by
  have hs' : (jV L).val ≠ 0 := fun h => hs ((isFirst_iff L).mpr h)
  simp only [cc1_gather_k_eq_skeleton]; unfold cc1_gather_k_skel
  simp only [k1_part1_eq_skeleton]; unfold k1_part1_skel
  unfold bkit tileOwn
  iintro ⟨#Hlv, ⟨⟨%κ, #Hinv⟩, Htoks, #Hrch, Hat, Hcred⟩, Hi, Hos, ⟨⟨%fx, Hx⟩, ⟨%fr, Hr⟩, Hsem, Hpsem, Hssem, Hgsems, Hbr, Hsr⟩, HO⟩
  ihave Hi := (Entails.of_eq (pts_iRowK (F := F) d L _ _).symm) $$ Hi
  ihave Hos' := (Entails.of_eq (bigSep_fin8 (F := F) _)) $$ Hos
  icases Hos' with ⟨Ho0, Ho1, Ho2, Ho3, Ho4, Ho5, Ho6, Ho7⟩
  ihave Ho0 := (Entails.of_eq (pts_oChunkK (F := F) d L 0 _).symm) $$ Ho0
  ihave Ho1 := (Entails.of_eq (pts_oChunkK (F := F) d L 1 _).symm) $$ Ho1
  ihave Ho2 := (Entails.of_eq (pts_oChunkK (F := F) d L 2 _).symm) $$ Ho2
  ihave Ho3 := (Entails.of_eq (pts_oChunkK (F := F) d L 3 _).symm) $$ Ho3
  ihave Ho4 := (Entails.of_eq (pts_oChunkK (F := F) d L 4 _).symm) $$ Ho4
  ihave Ho5 := (Entails.of_eq (pts_oChunkK (F := F) d L 5 _).symm) $$ Ho5
  ihave Ho6 := (Entails.of_eq (pts_oChunkK (F := F) d L 6 _).symm) $$ Ho6
  ihave Ho7 := (Entails.of_eq (pts_oChunkK (F := F) d L 7 _).symm) $$ Ho7
  ihave Hgs' := (Entails.of_eq (bigSep_fin8 (F := F) _)) $$ Hgsems
  icases Hgs' with ⟨Hg0, Hg1, Hg2, Hg3, Hg4, Hg5, Hg6, Hg7⟩
  ihave Hssem' := (aside_intro (F := F) _) $$ Hssem
  have hO' : ∀ g, (O + oxV d (cV L)) g none = 0 := fun g => by rw [Pi.add_apply, Finsupp.add_apply, hO g, oxV_none]
  ihave Hmw1 := (show levAts (K (F := F)).L (K (F := F)).lev ⊢ Transfers.MayWaits (thr d L) (default : HIx 1) (O + oxV d (cV L)) from
    (K (F := F)).mayWaits_none (thr := thr d L) hO') $$ Hlv
  ihave Hmw2 := (show levAts (K (F := F)).L (K (F := F)).lev ⊢ Transfers.MayWaits (thr d L) (default : HIx 1) O from
    (K (F := F)).mayWaits_none (thr := thr d L) hO) $$ Hlv
  -- the index fetch is started; the branch of tile 0 is not taken
  sl_exec
  rw [Prog.bind_assoc]
  -- THE BARRIER: each of this tile's sixteen arrivals carries nothing (its number is not 0)
  have hpay : ∀ j : Fin (grid1.bound 1), (bRd (F := F) m).payload (bcell d (cV L) (j.castLE hsub1)) 0 (jV L).val = (iprop(emp) : sProp 𝕄) :=
    fun j => if_neg hs'
  iapply (SparseCore.wp_subcoreBarrier 𝒱₀ none EB (bRd (F := F) m) d (sc := cV L) (i := jV L) sc_bar0 (grid1.bound 1) hsub1 (L 1) rfl κ (fun _ => 0) (jV L).val
      (fun j => bRd_mem₀ m d _ _ _) (fun _ => rfl) (bRd_expect m d _ _) (some 0) O _) $$ [HO Htoks Hcred Hat]
  · isplitr; · iexact Hinv
    isplitl [HO]; · iexact HO
    isplitl [Htoks]
    · rw [bigSep_sep', bigSep_sep']
      isplitl [Htoks]; · iexact Htoks
      isplitr
      · rw [bigSep_congr fun j _ => hpay j, bigSep_emp']; iempintro
      iexact Hrch
    isplitl [Hcred]; · iexact Hcred
    isplitl [Hat]; · iexact Hat
    iapply ((K (F := F)).mayOwe_of_bound (thr := thr d L) 3 (fun p hp => by
        rw [Finset.mem_singleton] at hp; subst hp
        show (K (F := F)).lev (bcell d (cV L) (jV L)) (some 0) ≤ 3
        rw [(K (F := F)).lev_V_reg d _ _ (show (sc_bar0 : Sem sig) ≠ (K (F := F)).go from sc_bar0_ne_go)]; exact le_rfl)
      (fun g ι hg => lt_of_lt_of_le (by decide) (hOlev g ι hg)))
    iexact Hlv
  iintro ⟨HO, Hat, -, Hgot⟩
  -- the tile's own round collected tile 0's arrival: its read share of the shared copy of P; eight gathers will read it at
  -- once, so it goes out as eight read shares
  ihave Htok := (own_token (F := F) m d L) $$ Hgot
  ihave Hsh := (Entails.of_eq (pts_shV (F := F) d L _ _).symm) $$ Htok
  ihave Hsp := (Transfers.pointsTo_toks_split (S := Finset.univ) (f := projVal m d) (Transfers.shareTok fullShare 16 (jL L)) 8) $$ Hsh
  icases Hsp with ⟨Hsh0, Hsh8⟩
  ihave Hsh8' := (Entails.of_eq (bigSep_fin8 (F := F) _)) $$ Hsh8
  icases Hsh8' with ⟨Ht0, Ht1, Ht2, Ht3, Ht4, Ht5, Ht6, Ht7⟩
  -- the index fetch is waited for
  sl_exec
  -- the offsets of the eight gathers are in range: each 64-word piece of the fetched rows holds index words
  have hin0 := offs_inb m d L hpre fx (tile_other.sl.dma0 m d L) rfl ![0, 0] inb_S4x128_S1x64_0_0
  have hin1 := offs_inb m d L hpre fx (tile_other.sl.dma0 m d L) rfl ![0, 64] inb_S4x128_S1x64_0_64
  have hin2 := offs_inb m d L hpre fx (tile_other.sl.dma0 m d L) rfl ![1, 0] inb_S4x128_S1x64_1_0
  have hin3 := offs_inb m d L hpre fx (tile_other.sl.dma0 m d L) rfl ![1, 64] inb_S4x128_S1x64_1_64
  have hin4 := offs_inb m d L hpre fx (tile_other.sl.dma0 m d L) rfl ![2, 0] inb_S4x128_S1x64_2_0
  have hin5 := offs_inb m d L hpre fx (tile_other.sl.dma0 m d L) rfl ![2, 64] inb_S4x128_S1x64_2_64
  have hin6 := offs_inb m d L hpre fx (tile_other.sl.dma0 m d L) rfl ![3, 0] inb_S4x128_S1x64_3_0
  have hin7 := offs_inb m d L hpre fx (tile_other.sl.dma0 m d L) rfl ![3, 64] inb_S4x128_S1x64_3_64
  -- the eight gathers are started; the first is waited for
  sl_exec
  -- the eight copies out all complete on one semaphore: a counted batch, its deliveries stated now that the row buffer's contents are known
  ihave Hssem := (aside_elim (F := F) _) $$ Hssem'
  imod (Transfers.batch_alloc' countersEmb (thr d L) (default : HIx 1) ((oChunkK L 0).view.amount (SemLoc.dma (sig := sig) cc1_scratch4.sem))
      (outDeliv m d L (rowsLanded m d L fx fr (fun t => match t with
        | 0 => hin0 | 1 => hin1 | 2 => hin2 | 3 => hin3 | 4 => hin4 | 5 => hin5 | 6 => hin6 | 7 => hin7)))
      (sm := .dma cc1_scratch4.sem) (E := Set.univ)) $$ Hssem with HB
  sl_exec
  sl_step
  -- the eight chunks of the tile's part of the result: each landed at the result's value on its rows
  isplitl [HB_dst0 HB_dst1 HB_dst2 HB_dst3 HB_dst4 HB_dst5 HB_dst6 HB_dst7]
  · iapply (Entails.of_eq (bigSep_fin8 (F := F) _).symm)
    isplitl [HB_dst0]; · iapply (Entails.of_eq (chunk_landed (F := F) m d L hpre fx fr _ 0)); iexact HB_dst0
    isplitl [HB_dst1]; · iapply (Entails.of_eq (chunk_landed (F := F) m d L hpre fx fr _ 1)); iexact HB_dst1
    isplitl [HB_dst2]; · iapply (Entails.of_eq (chunk_landed (F := F) m d L hpre fx fr _ 2)); iexact HB_dst2
    isplitl [HB_dst3]; · iapply (Entails.of_eq (chunk_landed (F := F) m d L hpre fx fr _ 3)); iexact HB_dst3
    isplitl [HB_dst4]; · iapply (Entails.of_eq (chunk_landed (F := F) m d L hpre fx fr _ 4)); iexact HB_dst4
    isplitl [HB_dst5]; · iapply (Entails.of_eq (chunk_landed (F := F) m d L hpre fx fr _ 5)); iexact HB_dst5
    isplitl [HB_dst6]; · iapply (Entails.of_eq (chunk_landed (F := F) m d L hpre fx fr _ 6)); iexact HB_dst6
    iapply (Entails.of_eq (chunk_landed (F := F) m d L hpre fx fr _ 7)); iexact HB_dst7
  -- the tile's read share of the shared copy, put together again from its eight parts
  isplitl [Hsh0 Ht0 Ht1 Ht2 Ht3 Ht4 Ht5 Ht6 Ht7]
  · iapply (Entails.of_eq (pts_shV (F := F) d L _ _))
    iapply (Transfers.pointsTo_toks_join (S := Finset.univ) (f := projVal m d) (Transfers.shareTok fullShare 16 (jL L)) 8)
    isplitl [Hsh0]; · iexact Hsh0
    iapply (Entails.of_eq (bigSep_fin8 (F := F) _).symm)
    isplitl [Ht0]; · iexact Ht0
    isplitl [Ht1]; · iexact Ht1
    isplitl [Ht2]; · iexact Ht2
    isplitl [Ht3]; · iexact Ht3
    isplitl [Ht4]; · iexact Ht4
    isplitl [Ht5]; · iexact Ht5
    isplitl [Ht6]; · iexact Ht6
    iexact Ht7
  -- its own buffers and cells, as they were handed: the index scratch, the row buffer joined from its eight blocks, every cell at zero
  isplitl [Hx HB_src0 HB_src1 HB_src2 HB_src3 HB_src4 HB_src5 HB_src6 HB_src7 Hsem Hpsem HB Hg0 Hg1 Hg2 Hg3 Hg4 Hg5 Hg6 Hg7 Hbr Hsr]
  · isplitl [Hx]; · iexists _; iexact Hx
    isplitl [HB_src0 HB_src1 HB_src2 HB_src3 HB_src4 HB_src5 HB_src6 HB_src7]
    · iexists _
      iapply (rows_rejoin (F := F) d L _)
      iapply (Entails.of_eq (bigSep_fin8 (F := F) _).symm)
      isplitl [HB_src0]; · iexact HB_src0
      isplitl [HB_src1]; · iexact HB_src1
      isplitl [HB_src2]; · iexact HB_src2
      isplitl [HB_src3]; · iexact HB_src3
      isplitl [HB_src4]; · iexact HB_src4
      isplitl [HB_src5]; · iexact HB_src5
      isplitl [HB_src6]; · iexact HB_src6
      iexact HB_src7
    isplitl [Hsem]; · iexact Hsem
    isplitl [Hpsem]; · iexact Hpsem
    isplitl [HB]; · iexact HB
    isplitl [Hg0 Hg1 Hg2 Hg3 Hg4 Hg5 Hg6 Hg7]
    · iapply (Entails.of_eq (bigSep_fin8 (F := F) _).symm)
      isplitl [Hg0]; · iexact Hg0
      isplitl [Hg1]; · iexact Hg1
      isplitl [Hg2]; · iexact Hg2
      isplitl [Hg3]; · iexact Hg3
      isplitl [Hg4]; · iexact Hg4
      isplitl [Hg5]; · iexact Hg5
      isplitl [Hg6]; · iexact Hg6
      iexact Hg7
    isplitl [Hbr]; · iexact Hbr
    iexact Hsr
  -- what it owes is what it was handed; every wait it recorded is at the kernel's own index or at the call's
  iexists _; isplitr
  swap; · iexact HO
  ipureintro; intro p hp
  repeat (rcases Finset.mem_insert.mp hp with hp | hp; · first | exact .inr (.inl (hp ▸ rfl)) | exact .inr (.inr (hp ▸ rfl)))
  exact .inl hp

/-- The shared memory once tile 0's copy of P has landed: whatever it held, it holds P. -/
theorem sh_filled (fsh : Buf (Elt F) ((shV).view.loc (thr d L))) (pay : S8x128.Idx → Elt F .f32)
    (hpay : pay = (pV).view.read (Elt F) (projVal m d)) :
    View.write (Elt F) (shV).view fsh pay Finset.univ = projVal m d := by
  subst hpay
  exact (View.write_whole_univ (Val := Elt F) cc1_scratch1 fsh _).trans rfl

/-- Tile 0's sixteen arrivals: its arrival at tile j's cell carries read share j of the shared copy. -/
theorem arrivals_first (hs0 : (jV L).val = 0) :
    (bigSep Finset.univ fun i : Fin 16 => ((shV).view.loc (thr d L) ↦{Transfers.shareTok fullShare 16 i} projVal m d : sProp 𝕄))
      ⊢ bigSep Finset.univ fun j : Fin (grid1.bound 1) => (bRd (F := F) m).payload (bcell d (cV L) (j.castLE hsub1)) 0 (jV L).val := by
  show (bigSep (Finset.univ : Finset (Fin 16)) _) ⊢ bigSep (Finset.univ : Finset (Fin 16)) _
  refine bigSep_mono fun j _ => ?_
  show _ ⊢ bPay m (bcell d (cV L) (j.castLE hsub1)) (jV L).val
  unfold bPay; dsimp only
  rw [if_pos hs0]
  exact Entails.of_eq (pts_shV (F := F) d L _ _)

set_option maxRecDepth 200000 in
/-- THE TASK OF TILE 0 OF A CORE: it also fills the core's shared memory with P and hands every tile its read share of it. -/
theorem tile_zero (hF : (K (F := F)).Facts) (hpre : PreOK m) (O : CellTallies nD τ sig (HIx 1)) (W : Waits sig (HIx 1)) (hO : ∀ g, O g none = 0)
    (hOlev : ∀ g ι, 0 < O g ι → 8 * (0 : Fin 1).val + 6 ≤ (K (F := F)).lev g ι)
    (hs : isFirst L) :
    iprop(levAts (K (F := F)).L (K (F := F)).lev ∗ bkit m d (cV L) (jV L)
        ∗ iRows m d (wL L) ∗ (bigSep Finset.univ fun r : Fin 8 => oChunkPts d (chunkOf (wL L) r) (m (oLoc d)))
        ∗ (pTok m d (cL L) ∗ ∃ f, shLoc d (cV L) ↦{fullShare} f)
        ∗ tileOwn d L ∗ owes (thr d L) (O + oxV d (cV L)) W)
      ⊢ wp frame (wpE (defs₀ (F := F)) 𝒱₀ (thr d L) none) Set.univ
          (cc1_gather_k L pV (Memref.isWhole_whole _) iV (Memref.isWhole_whole _) oV (Memref.isWhole_whole _) xS (Memref.isWhole_whole _)
            shV (Memref.isWhole_whole _) rS (Memref.isWhole_whole _) cc1_scratch3 cc1_scratch4 cc1_scratch5 cc1_scoped0)
          fun _ => iprop((bigSep Finset.univ fun r : Fin 8 => oChunkPts d (chunkOf (wL L) r) (outVal m d)) ∗ shTok m d (cV L) (jL L) ∗ shRest m d (cV L)
            ∗ tileOwn d L ∗ ∃ W', ⌜∀ p ∈ W', p ∈ W ∨ p.2 = none ∨ p.2 = some (0 : Fin 1)⌝ ∗ owes (thr d L) O W') := by
  have hs0 : (jV L).val = 0 := (isFirst_iff L).mp hs
  simp only [cc1_gather_k_eq_skeleton]; unfold cc1_gather_k_skel
  simp only [k1_part1_eq_skeleton]; unfold k1_part1_skel
  unfold bkit tileOwn
  iintro ⟨#Hlv, ⟨⟨%κ, #Hinv⟩, Htoks, #Hrch, Hat, Hcred⟩, Hi, Hos, ⟨Hp, ⟨%fsh, Hshw⟩⟩, ⟨⟨%fx, Hx⟩, ⟨%fr, Hr⟩, Hsem, Hpsem, Hssem, Hgsems, Hbr, Hsr⟩, HO⟩
  ihave Hi := (Entails.of_eq (pts_iRowK (F := F) d L _ _).symm) $$ Hi
  ihave Hos' := (Entails.of_eq (bigSep_fin8 (F := F) _)) $$ Hos
  icases Hos' with ⟨Ho0, Ho1, Ho2, Ho3, Ho4, Ho5, Ho6, Ho7⟩
  ihave Ho0 := (Entails.of_eq (pts_oChunkK (F := F) d L 0 _).symm) $$ Ho0
  ihave Ho1 := (Entails.of_eq (pts_oChunkK (F := F) d L 1 _).symm) $$ Ho1
  ihave Ho2 := (Entails.of_eq (pts_oChunkK (F := F) d L 2 _).symm) $$ Ho2
  ihave Ho3 := (Entails.of_eq (pts_oChunkK (F := F) d L 3 _).symm) $$ Ho3
  ihave Ho4 := (Entails.of_eq (pts_oChunkK (F := F) d L 4 _).symm) $$ Ho4
  ihave Ho5 := (Entails.of_eq (pts_oChunkK (F := F) d L 5 _).symm) $$ Ho5
  ihave Ho6 := (Entails.of_eq (pts_oChunkK (F := F) d L 6 _).symm) $$ Ho6
  ihave Ho7 := (Entails.of_eq (pts_oChunkK (F := F) d L 7 _).symm) $$ Ho7
  ihave Hgs' := (Entails.of_eq (bigSep_fin8 (F := F) _)) $$ Hgsems
  icases Hgs' with ⟨Hg0, Hg1, Hg2, Hg3, Hg4, Hg5, Hg6, Hg7⟩
  ihave Hssem' := (aside_intro (F := F) _) $$ Hssem
  ihave Hp := (Entails.of_eq (pts_pV (F := F) d L _ _).symm) $$ Hp
  ihave Hshw := (Entails.of_eq (pts_shV (F := F) d L _ _).symm) $$ Hshw
  have hO' : ∀ g, (O + oxV d (cV L)) g none = 0 := fun g => by rw [Pi.add_apply, Finsupp.add_apply, hO g, oxV_none]
  ihave Hmw1 := (show levAts (K (F := F)).L (K (F := F)).lev ⊢ Transfers.MayWaits (thr d L) (default : HIx 1) (O + oxV d (cV L)) from
    (K (F := F)).mayWaits_none (thr := thr d L) hO') $$ Hlv
  ihave Hmw2 := (show levAts (K (F := F)).L (K (F := F)).lev ⊢ Transfers.MayWaits (thr d L) (default : HIx 1) O from
    (K (F := F)).mayWaits_none (thr := thr d L) hO) $$ Hlv
  -- the index fetch is started; P is copied from HBM into the core's shared memory, and the copy waited for
  sl_exec
  rw [Prog.bind_assoc]
  -- the shared memory now holds P, whatever it held: it goes out as sixteen read shares and a remainder
  ihave Hshw := (Entails.of_eq (congrArg (fun f => ((shV).view.loc (thr d L) ↦{fullShare} f : sProp 𝕄)) (sh_filled (F := F) m d L fsh (tile_zero.sl.dma0_1 m d) rfl))) $$ Hshw
  ihave Hsp16 := (Transfers.pointsTo_toks_split (S := Finset.univ) (f := projVal m d) fullShare 16) $$ Hshw
  icases Hsp16 with ⟨Hrest, Htok16⟩
  -- THE BARRIER: tile 0's arrival at tile j's cell carries tile j's read share
  ihave Hpays := (arrivals_first (F := F) m d L hs0) $$ Htok16
  iapply (SparseCore.wp_subcoreBarrier 𝒱₀ none EB (bRd (F := F) m) d (sc := cV L) (i := jV L) sc_bar0 (grid1.bound 1) hsub1 (L 1) rfl κ (fun _ => 0) (jV L).val
      (fun j => bRd_mem₀ m d _ _ _) (fun _ => rfl) (bRd_expect m d _ _) (some 0) O _) $$ [HO Htoks Hpays Hcred Hat]
  · isplitr; · iexact Hinv
    isplitl [HO]; · iexact HO
    isplitl [Htoks Hpays]
    · rw [bigSep_sep', bigSep_sep']
      isplitl [Htoks]; · iexact Htoks
      isplitl [Hpays]; · iexact Hpays
      iexact Hrch
    isplitl [Hcred]; · iexact Hcred
    isplitl [Hat]; · iexact Hat
    iapply ((K (F := F)).mayOwe_of_bound (thr := thr d L) 3 (fun p hp => by
        rw [Finset.mem_singleton] at hp; subst hp
        show (K (F := F)).lev (bcell d (cV L) (jV L)) (some 0) ≤ 3
        rw [(K (F := F)).lev_V_reg d _ _ (show (sc_bar0 : Sem sig) ≠ (K (F := F)).go from sc_bar0_ne_go)]; exact le_rfl)
      (fun g ι hg => lt_of_lt_of_le (by decide) (hOlev g ι hg)))
    iexact Hlv
  iintro ⟨HO, Hat, -, Hgot⟩
  -- the tile's own round collected tile 0's arrival: its read share of the shared copy of P; eight gathers will read it at
  -- once, so it goes out as eight read shares
  ihave Htok := (own_token (F := F) m d L) $$ Hgot
  ihave Hsh := (Entails.of_eq (pts_shV (F := F) d L _ _).symm) $$ Htok
  ihave Hsp := (Transfers.pointsTo_toks_split (S := Finset.univ) (f := projVal m d) (Transfers.shareTok fullShare 16 (jL L)) 8) $$ Hsh
  icases Hsp with ⟨Hsh0, Hsh8⟩
  ihave Hsh8' := (Entails.of_eq (bigSep_fin8 (F := F) _)) $$ Hsh8
  icases Hsh8' with ⟨Ht0, Ht1, Ht2, Ht3, Ht4, Ht5, Ht6, Ht7⟩
  -- the index fetch is waited for
  sl_exec
  -- the offsets of the eight gathers are in range: each 64-word piece of the fetched rows holds index words
  have hin0 := offs_inb m d L hpre fx (tile_zero.sl.dma0 m d L) rfl ![0, 0] inb_S4x128_S1x64_0_0
  have hin1 := offs_inb m d L hpre fx (tile_zero.sl.dma0 m d L) rfl ![0, 64] inb_S4x128_S1x64_0_64
  have hin2 := offs_inb m d L hpre fx (tile_zero.sl.dma0 m d L) rfl ![1, 0] inb_S4x128_S1x64_1_0
  have hin3 := offs_inb m d L hpre fx (tile_zero.sl.dma0 m d L) rfl ![1, 64] inb_S4x128_S1x64_1_64
  have hin4 := offs_inb m d L hpre fx (tile_zero.sl.dma0 m d L) rfl ![2, 0] inb_S4x128_S1x64_2_0
  have hin5 := offs_inb m d L hpre fx (tile_zero.sl.dma0 m d L) rfl ![2, 64] inb_S4x128_S1x64_2_64
  have hin6 := offs_inb m d L hpre fx (tile_zero.sl.dma0 m d L) rfl ![3, 0] inb_S4x128_S1x64_3_0
  have hin7 := offs_inb m d L hpre fx (tile_zero.sl.dma0 m d L) rfl ![3, 64] inb_S4x128_S1x64_3_64
  -- the eight gathers are started; the first is waited for
  sl_exec
  -- the eight copies out all complete on one semaphore: a counted batch, its deliveries stated now that the row buffer's contents are known
  ihave Hssem := (aside_elim (F := F) _) $$ Hssem'
  imod (Transfers.batch_alloc' countersEmb (thr d L) (default : HIx 1) ((oChunkK L 0).view.amount (SemLoc.dma (sig := sig) cc1_scratch4.sem))
      (outDeliv m d L (rowsLanded m d L fx fr (fun t => match t with
        | 0 => hin0 | 1 => hin1 | 2 => hin2 | 3 => hin3 | 4 => hin4 | 5 => hin5 | 6 => hin6 | 7 => hin7)))
      (sm := .dma cc1_scratch4.sem) (E := Set.univ)) $$ Hssem with HB
  sl_exec
  sl_step
  -- the eight chunks of the tile's part of the result: each landed at the result's value on its rows
  isplitl [HB_dst0 HB_dst1 HB_dst2 HB_dst3 HB_dst4 HB_dst5 HB_dst6 HB_dst7]
  · iapply (Entails.of_eq (bigSep_fin8 (F := F) _).symm)
    isplitl [HB_dst0]; · iapply (Entails.of_eq (chunk_landed (F := F) m d L hpre fx fr _ 0)); iexact HB_dst0
    isplitl [HB_dst1]; · iapply (Entails.of_eq (chunk_landed (F := F) m d L hpre fx fr _ 1)); iexact HB_dst1
    isplitl [HB_dst2]; · iapply (Entails.of_eq (chunk_landed (F := F) m d L hpre fx fr _ 2)); iexact HB_dst2
    isplitl [HB_dst3]; · iapply (Entails.of_eq (chunk_landed (F := F) m d L hpre fx fr _ 3)); iexact HB_dst3
    isplitl [HB_dst4]; · iapply (Entails.of_eq (chunk_landed (F := F) m d L hpre fx fr _ 4)); iexact HB_dst4
    isplitl [HB_dst5]; · iapply (Entails.of_eq (chunk_landed (F := F) m d L hpre fx fr _ 5)); iexact HB_dst5
    isplitl [HB_dst6]; · iapply (Entails.of_eq (chunk_landed (F := F) m d L hpre fx fr _ 6)); iexact HB_dst6
    iapply (Entails.of_eq (chunk_landed (F := F) m d L hpre fx fr _ 7)); iexact HB_dst7
  -- the tile's read share of the shared copy, put together again from its eight parts
  isplitl [Hsh0 Ht0 Ht1 Ht2 Ht3 Ht4 Ht5 Ht6 Ht7]
  · iapply (Entails.of_eq (pts_shV (F := F) d L _ _))
    iapply (Transfers.pointsTo_toks_join (S := Finset.univ) (f := projVal m d) (Transfers.shareTok fullShare 16 (jL L)) 8)
    isplitl [Hsh0]; · iexact Hsh0
    iapply (Entails.of_eq (bigSep_fin8 (F := F) _).symm)
    isplitl [Ht0]; · iexact Ht0
    isplitl [Ht1]; · iexact Ht1
    isplitl [Ht2]; · iexact Ht2
    isplitl [Ht3]; · iexact Ht3
    isplitl [Ht4]; · iexact Ht4
    isplitl [Ht5]; · iexact Ht5
    isplitl [Ht6]; · iexact Ht6
    iexact Ht7
  -- what is left of the shared copy beside the sixteen shares
  isplitl [Hrest]; · iapply (Entails.of_eq (pts_shV (F := F) d L _ _)); iexact Hrest
  -- its own buffers and cells, as they were handed: the index scratch, the row buffer joined from its eight blocks, every cell at zero
  isplitl [Hx HB_src0 HB_src1 HB_src2 HB_src3 HB_src4 HB_src5 HB_src6 HB_src7 Hsem Hpsem HB Hg0 Hg1 Hg2 Hg3 Hg4 Hg5 Hg6 Hg7 Hbr Hsr]
  · isplitl [Hx]; · iexists _; iexact Hx
    isplitl [HB_src0 HB_src1 HB_src2 HB_src3 HB_src4 HB_src5 HB_src6 HB_src7]
    · iexists _
      iapply (rows_rejoin (F := F) d L _)
      iapply (Entails.of_eq (bigSep_fin8 (F := F) _).symm)
      isplitl [HB_src0]; · iexact HB_src0
      isplitl [HB_src1]; · iexact HB_src1
      isplitl [HB_src2]; · iexact HB_src2
      isplitl [HB_src3]; · iexact HB_src3
      isplitl [HB_src4]; · iexact HB_src4
      isplitl [HB_src5]; · iexact HB_src5
      isplitl [HB_src6]; · iexact HB_src6
      iexact HB_src7
    isplitl [Hsem]; · iexact Hsem
    isplitl [Hpsem]; · iexact Hpsem
    isplitl [HB]; · iexact HB
    isplitl [Hg0 Hg1 Hg2 Hg3 Hg4 Hg5 Hg6 Hg7]
    · iapply (Entails.of_eq (bigSep_fin8 (F := F) _).symm)
      isplitl [Hg0]; · iexact Hg0
      isplitl [Hg1]; · iexact Hg1
      isplitl [Hg2]; · iexact Hg2
      isplitl [Hg3]; · iexact Hg3
      isplitl [Hg4]; · iexact Hg4
      isplitl [Hg5]; · iexact Hg5
      isplitl [Hg6]; · iexact Hg6
      iexact Hg7
    isplitl [Hbr]; · iexact Hbr
    iexact Hsr
  -- what it owes is what it was handed; every wait it recorded is at the kernel's own index or at the call's
  iexists _; isplitr
  swap; · iexact HO
  ipureintro; intro p hp
  repeat (rcases Finset.mem_insert.mp hp with hp | hp; · first | exact .inr (.inl (hp ▸ rfl)) | exact .inr (.inr (hp ▸ rfl)))
  exact .inl hp

end Tile

end Cert.Proof.LookupI

end
-- ==== Proof.TileBody.lean ====
/- Every tile's task as the launch theorem asks for it.
   The two cases of the task — tile 0 of a core, which also fills the shared memory, and the other fifteen — are proved
   over the tile's buffers, cells and rows spelt out. Here they are put behind the launch's own vocabulary: what a tile
   is handed at its start (its rows, tile 0 also its core's share of P in HBM and the shared memory) and hands back at
   its end (its chunks of the result at their value, its read share of the shared copy, tile 0 also the remainder), and
   its scoped storage, opened into those buffers, cells and the rest; then the body table's row for a vector subcore is
   the kernel at that subcore's coordinates. -/
import proofs.«206855_g20126216749723_cont_sun_m_335_21_alg».proof.Proof.TileTask

noncomputable section

namespace Cert.Proof.LookupI

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
local notation "𝕄" => MT nD τ sig (HIx 1) (Elt F) ℕ UU ℕ
variable (m : (ℓ : Loc nD τ sig) → Buf (Elt F) ℓ) (ρ : Dev nD → PrngReg)
variable [FloatOps F]

local notation "pV" => (Memref.whole Cert.KernelIdeal.main_v1_scv : Memref Cert.KernelIdeal.sig Kind.scVector Space.hbm Cert.KernelIdeal.S8x128 EltTy.f32)
local notation "iV" => (Memref.whole Cert.KernelIdeal.main_v2_scv : Memref Cert.KernelIdeal.sig Kind.scVector Space.hbm Cert.KernelIdeal.S128x128 EltTy.i32)
local notation "oV" => (Memref.whole Cert.KernelIdeal.main_v3_scv : Memref Cert.KernelIdeal.sig Kind.scVector Space.hbm Cert.KernelIdeal.S16384x128 EltTy.f32)
local notation "xS" => (Memref.whole Cert.KernelIdeal.cc1_scratch0 : Memref Cert.KernelIdeal.sig Kind.scVector Space.vmem Cert.KernelIdeal.S4x128 EltTy.i32)
local notation "shV" => (Memref.whole Cert.KernelIdeal.cc1_scratch1 : Memref Cert.KernelIdeal.sig Kind.scVector Space.shared Cert.KernelIdeal.S8x128 EltTy.f32)
local notation "rS" => (Memref.whole Cert.KernelIdeal.cc1_scratch2 : Memref Cert.KernelIdeal.sig Kind.scVector Space.vmem Cert.KernelIdeal.S512x128 EltTy.f32)

section Tile
variable (d : Dev nD) (L : grid1.Coords)

/-! ## The regroupings: the launch's grouping of a tile's resources against the task's -/

theorem pre_first (O : CellTallies nD τ sig (HIx 1)) (W : Waits sig (HIx 1)) :
    iprop(levAts (K (F := F)).L (K (F := F)).lev ∗ bkit m d (cV L) (jV L)
        ∗ (iRows m d (wL L) ∗ (bigSep Finset.univ fun r : Fin 8 => oChunkPts d (chunkOf (wL L) r) (m (oLoc d))) ∗ iprop(pTok m d (cL L) ∗ ∃ f, shLoc d (cV L) ↦{fullShare} f))
        ∗ ((∃ fx, (xS).view.loc (thr d L) ↦{fullShare} fx) ∗ (∃ fr, (rS).view.loc (thr d L) ↦{fullShare} fr) ∗ bufsRest d L)
        ∗ (semVal (isemCell d L) 0 ∗ semVal (psemCell d L) 0 ∗ semVal (ssemCell d L) 0 ∗ (bigSep Finset.univ fun r : Fin 8 => semVal (gsemCell d L r) 0) ∗ semsRest d L)
        ∗ owes (thr d L) (O + oxV d (cV L)) W)
      ⊢ iprop(levAts (K (F := F)).L (K (F := F)).lev ∗ bkit m d (cV L) (jV L)
        ∗ iRows m d (wL L) ∗ (bigSep Finset.univ fun r : Fin 8 => oChunkPts d (chunkOf (wL L) r) (m (oLoc d)))
        ∗ (pTok m d (cL L) ∗ ∃ f, shLoc d (cV L) ↦{fullShare} f)
        ∗ tileOwn d L ∗ owes (thr d L) (O + oxV d (cV L)) W) := by
  unfold tileOwn
  iintro ⟨Hlv, Hk, ⟨Hi, Hos, Hp⟩, ⟨Hx, Hr, Hbr⟩, ⟨Hsem, Hpsem, Hssem, Hgs, Hsr⟩, HO⟩
  isplitl [Hlv]; · iexact Hlv
  isplitl [Hk]; · iexact Hk
  isplitl [Hi]; · iexact Hi
  isplitl [Hos]; · iexact Hos
  isplitl [Hp]; · iexact Hp
  isplitl [Hx Hr Hbr Hsem Hpsem Hssem Hgs Hsr]
  · isplitl [Hx]; · iexact Hx
    isplitl [Hr]; · iexact Hr
    isplitl [Hsem]; · iexact Hsem
    isplitl [Hpsem]; · iexact Hpsem
    isplitl [Hssem]; · iexact Hssem
    isplitl [Hgs]; · iexact Hgs
    isplitl [Hbr]; · iexact Hbr
    iexact Hsr
  iexact HO

theorem post_first (O : CellTallies nD τ sig (HIx 1)) (W : Waits sig (HIx 1)) :
    iprop((bigSep Finset.univ fun r : Fin 8 => oChunkPts d (chunkOf (wL L) r) (outVal m d)) ∗ shTok m d (cV L) (jL L) ∗ shRest m d (cV L)
        ∗ tileOwn d L ∗ ∃ W', ⌜∀ p ∈ W', p ∈ W ∨ p.2 = none ∨ p.2 = some (0 : Fin 1)⌝ ∗ owes (thr d L) O W')
      ⊢ iprop(((bigSep Finset.univ fun r : Fin 8 => oChunkPts d (chunkOf (wL L) r) (outVal m d)) ∗ shTok m d (cV L) (jL L) ∗ shRest m d (cV L))
        ∗ ((∃ fx, (xS).view.loc (thr d L) ↦{fullShare} fx) ∗ (∃ fr, (rS).view.loc (thr d L) ↦{fullShare} fr) ∗ bufsRest d L)
        ∗ (semVal (isemCell d L) 0 ∗ semVal (psemCell d L) 0 ∗ semVal (ssemCell d L) 0 ∗ (bigSep Finset.univ fun r : Fin 8 => semVal (gsemCell d L r) 0) ∗ semsRest d L)
        ∗ ∃ W', ⌜∀ p ∈ W', p ∈ W ∨ p.2 = none ∨ p.2 = some (0 : Fin 1)⌝ ∗ owes (thr d L) O W') := by
  unfold tileOwn
  iintro ⟨Hos, Htok, Hrest, ⟨Hx, Hr, Hsem, Hpsem, Hssem, Hgs, Hbr, Hsr⟩, HO⟩
  isplitl [Hos Htok Hrest]
  · isplitl [Hos]; · iexact Hos
    isplitl [Htok]; · iexact Htok
    iexact Hrest
  isplitl [Hx Hr Hbr]
  · isplitl [Hx]; · iexact Hx
    isplitl [Hr]; · iexact Hr
    iexact Hbr
  isplitl [Hsem Hpsem Hssem Hgs Hsr]
  · isplitl [Hsem]; · iexact Hsem
    isplitl [Hpsem]; · iexact Hpsem
    isplitl [Hssem]; · iexact Hssem
    isplitl [Hgs]; · iexact Hgs
    iexact Hsr
  iexact HO

theorem pre_other (O : CellTallies nD τ sig (HIx 1)) (W : Waits sig (HIx 1)) :
    iprop(levAts (K (F := F)).L (K (F := F)).lev ∗ bkit m d (cV L) (jV L)
        ∗ (iRows m d (wL L) ∗ (bigSep Finset.univ fun r : Fin 8 => oChunkPts d (chunkOf (wL L) r) (m (oLoc d))) ∗ iprop(emp))
        ∗ ((∃ fx, (xS).view.loc (thr d L) ↦{fullShare} fx) ∗ (∃ fr, (rS).view.loc (thr d L) ↦{fullShare} fr) ∗ bufsRest d L)
        ∗ (semVal (isemCell d L) 0 ∗ semVal (psemCell d L) 0 ∗ semVal (ssemCell d L) 0 ∗ (bigSep Finset.univ fun r : Fin 8 => semVal (gsemCell d L r) 0) ∗ semsRest d L)
        ∗ owes (thr d L) (O + oxV d (cV L)) W)
      ⊢ iprop(levAts (K (F := F)).L (K (F := F)).lev ∗ bkit m d (cV L) (jV L)
        ∗ iRows m d (wL L) ∗ (bigSep Finset.univ fun r : Fin 8 => oChunkPts d (chunkOf (wL L) r) (m (oLoc d)))
        ∗ tileOwn d L ∗ owes (thr d L) (O + oxV d (cV L)) W) := by
  unfold tileOwn
  iintro ⟨Hlv, Hk, ⟨Hi, Hos, -⟩, ⟨Hx, Hr, Hbr⟩, ⟨Hsem, Hpsem, Hssem, Hgs, Hsr⟩, HO⟩
  isplitl [Hlv]; · iexact Hlv
  isplitl [Hk]; · iexact Hk
  isplitl [Hi]; · iexact Hi
  isplitl [Hos]; · iexact Hos
  isplitl [Hx Hr Hbr Hsem Hpsem Hssem Hgs Hsr]
  · isplitl [Hx]; · iexact Hx
    isplitl [Hr]; · iexact Hr
    isplitl [Hsem]; · iexact Hsem
    isplitl [Hpsem]; · iexact Hpsem
    isplitl [Hssem]; · iexact Hssem
    isplitl [Hgs]; · iexact Hgs
    isplitl [Hbr]; · iexact Hbr
    iexact Hsr
  iexact HO

theorem post_other (O : CellTallies nD τ sig (HIx 1)) (W : Waits sig (HIx 1)) :
    iprop((bigSep Finset.univ fun r : Fin 8 => oChunkPts d (chunkOf (wL L) r) (outVal m d)) ∗ shTok m d (cV L) (jL L)
        ∗ tileOwn d L ∗ ∃ W', ⌜∀ p ∈ W', p ∈ W ∨ p.2 = none ∨ p.2 = some (0 : Fin 1)⌝ ∗ owes (thr d L) O W')
      ⊢ iprop(((bigSep Finset.univ fun r : Fin 8 => oChunkPts d (chunkOf (wL L) r) (outVal m d)) ∗ shTok m d (cV L) (jL L) ∗ iprop(emp))
        ∗ ((∃ fx, (xS).view.loc (thr d L) ↦{fullShare} fx) ∗ (∃ fr, (rS).view.loc (thr d L) ↦{fullShare} fr) ∗ bufsRest d L)
        ∗ (semVal (isemCell d L) 0 ∗ semVal (psemCell d L) 0 ∗ semVal (ssemCell d L) 0 ∗ (bigSep Finset.univ fun r : Fin 8 => semVal (gsemCell d L r) 0) ∗ semsRest d L)
        ∗ ∃ W', ⌜∀ p ∈ W', p ∈ W ∨ p.2 = none ∨ p.2 = some (0 : Fin 1)⌝ ∗ owes (thr d L) O W') := by
  unfold tileOwn
  iintro ⟨Hos, Htok, ⟨Hx, Hr, Hsem, Hpsem, Hssem, Hgs, Hbr, Hsr⟩, HO⟩
  isplitl [Hos Htok]
  · isplitl [Hos]; · iexact Hos
    isplitl [Htok]; · iexact Htok
    iempintro
  isplitl [Hx Hr Hbr]
  · isplitl [Hx]; · iexact Hx
    isplitl [Hr]; · iexact Hr
    iexact Hbr
  isplitl [Hsem Hpsem Hssem Hgs Hsr]
  · isplitl [Hsem]; · iexact Hsem
    isplitl [Hpsem]; · iexact Hpsem
    isplitl [Hssem]; · iexact Hssem
    isplitl [Hgs]; · iexact Hgs
    iexact Hsr
  iexact HO

/-- THE TASK OF ANY TILE, from what the launch hands it at its start to what it hands back at its end. -/
theorem tile_body (hF : (K (F := F)).Facts) (hpre : PreOK m) (O : CellTallies nD τ sig (HIx 1)) (W : Waits sig (HIx 1)) (hO : ∀ g, O g none = 0)
    (hOlev : ∀ g ι, 0 < O g ι → 8 * (0 : Fin 1).val + 6 ≤ (K (F := F)).lev g ι) :
    iprop(levAts (K (F := F)).L (K (F := F)).lev ∗ bkit m d (cV L) (jV L) ∗ goOf m d (cV L) (jL L)
        ∗ scopedBufs (thr d L) ∗ scopedSems0 (thr d L) ∗ owes (thr d L) (O + oxV d (cV L)) W)
      ⊢ wp frame (wpE (defs₀ (F := F)) 𝒱₀ (thr d L) none) Set.univ
          (cc1_gather_k L pV (Memref.isWhole_whole _) iV (Memref.isWhole_whole _) oV (Memref.isWhole_whole _) xS (Memref.isWhole_whole _)
            shV (Memref.isWhole_whole _) rS (Memref.isWhole_whole _) cc1_scratch3 cc1_scratch4 cc1_scratch5 cc1_scoped0)
          fun _ => iprop(tdOf m d (cV L) (jL L) ∗ scopedBufs (thr d L) ∗ scopedSems0 (thr d L)
            ∗ ∃ W', ⌜∀ p ∈ W', p ∈ W ∨ p.2 = none ∨ p.2 = some (0 : Fin 1)⌝ ∗ owes (thr d L) O W') := by
  rw [scopedBufs_tile (F := F) d L hF, scopedSems0_tile (F := F) d L, goOf_tile (F := F) m d L, tdOf_tile (F := F) m d L]
  by_cases hs : isFirst L
  · have hj : jL L = 0 := Fin.ext ((isFirst_iff L).mp hs)
    rw [if_pos hj, if_pos hj]
    exact (pre_first (F := F) m d L O W).trans ((tile_zero m d L hF hpre O W hO hOlev hs).trans (wp_mono frame _ _ fun _ => post_first (F := F) m d L O W))
  · have hj : jL L ≠ 0 := fun h => hs ((isFirst_iff L).mpr (congrArg Fin.val h))
    rw [if_neg hj, if_neg hj]
    exact (pre_other (F := F) m d L O W).trans ((tile_other m d L hF hpre O W hO hOlev hs).trans (wp_mono frame _ _ fun _ => post_other (F := F) m d L O W))

end Tile

/-! ## The obligation -/

/-- A tile's coordinates in the kernel's grid: its core, its number within the core. -/
def coordsV (c : Fin (grid1.bound 0)) (s : Fin (grid1.bound 1)) : grid1.Coords :=
  fun | 0 => c | 1 => s | ⟨_ + 2, h⟩ => absurd h (Nat.not_lt.2 (Nat.le_add_left _ _))

/-- The body table's row for a vector subcore is the kernel at that subcore's coordinates. -/
theorem defs₀_vector (c : Fin τ.nSC) (s : Fin τ.nSub) :
    defs₀ (F := F) (.scVector c s) 1 ()
      = SparseCore.onTile hcore1 hsub1 (fun c s => cc1_gather_k (coordsV c s) pV (Memref.isWhole_whole _) iV (Memref.isWhole_whole _)
          oV (Memref.isWhole_whole _) xS (Memref.isWhole_whole _) shV (Memref.isWhole_whole _) rS (Memref.isWhole_whole _)
          cc1_scratch3 cc1_scratch4 cc1_scratch5 cc1_scoped0) ⟨⟩ c s := rfl

set_option maxRecDepth 16384 in
/-- The launch theorem's obligation for the one vector-subcore call: every tile's task, from what it is handed at its
    start to what it hands back at its end. -/
theorem tileObl (hF : (K (F := F)).Facts) (hpre : PreOK m) : (K (F := F)).TileObl (D (F := F)) 𝒱 (P m) v₀ 0 := by
  intro d c i O W hO hOlev _
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body m d (coordsV ⟨_, hci.1⟩ ⟨_, hci.2⟩) hF hpre O W hO hOlev

end Cert.Proof.LookupI

end
-- ==== Proof.Main.lean ====
import proofs.«206855_g20126216749723_cont_sun_m_335_21_alg».proof.Proof.Protocol
import proofs.«206855_g20126216749723_cont_sun_m_335_21_alg».proof.Proof.Split
import proofs.«206855_g20126216749723_cont_sun_m_335_21_alg».proof.Proof.LaunchElem
import proofs.«206855_g20126216749723_cont_sun_m_335_21_alg».proof.Proof.ProjRegion
import proofs.«206855_g20126216749723_cont_sun_m_335_21_alg».proof.Proof.TileBody
import Idealize.ShloMosaic.Lib.StableHlo.Run

/-!
# The TensorCore's program, and the run of the whole lookup

The TensorCore lays the bias out as a row, projects the table once (the product with W plus the bias row: the array
P), lays the index words out 128 to a row, and starts the SparseCore kernel, which writes row x_i of P to row i of the
result.  Here: that program step by step from what the launch deals the TensorCore, ending with the four arguments
unchanged and the result at the lookup of rows of P; how the final memory reads that; and the launch theorem applied.
-/

noncomputable section

namespace Cert.Proof.LookupI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)
variable [FloatOps F]

/-! ## The TensorCore's arrays -/

abbrev a0' : DevRef τ sig := Proc.devRef .tc (main_arg0 : Ref sig .tc)
abbrev a3' : DevRef τ sig := Proc.devRef .tc (main_arg3 : Ref sig .tc)
abbrev v0' : DevRef τ sig := Proc.devRef .tc (main_v0 : Ref sig .tc)
abbrev v2' : DevRef τ sig := Proc.devRef .tc (main_v2 : Ref sig .tc)

/-- The bias laid out as a row; the index words laid out 128 to a row. -/
abbrev opRow : HloOp τ sig (Elt F) := StableHlo.reshape main_arg3 main_v0 rfl shapeCasts_S128_S1x128
abbrev opIdx : HloOp τ sig (Elt F) := StableHlo.reshape main_arg0 main_v2 rfl shapeCasts_S16384_S128x128

/-- The launch valuation. -/
def V0 (d : Dev nD) : Valuation τ sig (Elt F) := fun b => m (d, b)

omit [FloatOps F] in
/-- The TensorCore's eight arrays, all unscoped, one by one. -/
theorem unscopedBufs_eq (d : Dev nD) (W : (b : Ref sig .tc) → Buf (Elt F) ((d.tc : Thread nD τ).loc b)) :
    (unscopedBufs d W : sProp 𝕄) = iprop((xLoc d ↦{fullShare} W main_arg0) ∗ (tLoc d ↦{fullShare} W main_arg1) ∗ (wLoc d ↦{fullShare} W main_arg2)
      ∗ (bLoc d ↦{fullShare} W main_arg3) ∗ (rLoc d ↦{fullShare} W main_v0) ∗ (pLoc d ↦{fullShare} W main_v1) ∗ (iLoc d ↦{fullShare} W main_v2)
      ∗ (oLoc d ↦{fullShare} W main_v3)) := by
  unfold unscopedBufs
  rw [show (Finset.univ.filter fun b : Ref sig .tc => ¬ b.isScoped) = {main_arg0, main_arg1, main_arg2, main_arg3, main_v0, main_v1, main_v2, main_v3} by decide,
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

omit [FloatOps F] in
/-- Two distinct arrays held whole. -/
theorem held_pair (d : Dev nD) {a b : DevRef τ sig} (hab : a ∉ ({b} : Finset (DevRef τ sig))) (W : Valuation τ sig (Elt F)) :
    (held (T d) {a, b} W : sProp 𝕄) = iprop((((d, a) : Loc nD τ sig) ↦{fullShare} W a) ∗ (((d, b) : Loc nD τ sig) ↦{fullShare} W b)) := by
  unfold held
  rw [SparseCore.bigSep_insert' hab, bigSep_singleton]

theorem hRow : (opRow (F := F)).bufs ⊆ ({a3', v0'} : Finset (DevRef τ sig)) := show ({a3', v0'} : Finset (DevRef τ sig)) ⊆ {a3', v0'} from Finset.Subset.refl _
theorem hIdx : (opIdx (F := F)).bufs ⊆ ({a0', v2'} : Finset (DevRef τ sig)) := show ({a0', v2'} : Finset (DevRef τ sig)) ⊆ {a0', v2'} from Finset.Subset.refl _

/-- After the first layout the row array holds the bias as a row, the bias is as it was; -/
theorem row_v0 (d : Dev nD) : (opRow (F := F)).result (V0 m d) v0' = rowVal m d :=
  (StableHlo.reshape_result main_arg3 main_v0 rfl shapeCasts_S128_S1x128 _ _ (V0 m d)).trans rfl
theorem row_a3 (d : Dev nD) : (opRow (F := F)).result (V0 m d) a3' = m (bLoc d) :=
  (opRow (F := F)).result_of_not_mem (V0 m d) (b := a3') (show a3' ∉ ({v0'} : Finset (DevRef τ sig)) by decide)
/-- after the second the index array holds the words 128 to a row, the words are as they were. -/
theorem idx_v2 (d : Dev nD) : (opIdx (F := F)).result (V0 m d) v2' = idxVal m d :=
  (StableHlo.reshape_result main_arg0 main_v2 rfl shapeCasts_S16384_S128x128 _ _ (V0 m d)).trans rfl
theorem idx_a0 (d : Dev nD) : (opIdx (F := F)).result (V0 m d) a0' = m (xLoc d) :=
  (opIdx (F := F)).result_of_not_mem (V0 m d) (b := a0') (show a0' ∉ ({v2'} : Finset (DevRef τ sig)) by decide)

omit [FloatOps F] in
theorem held_row0 (d : Dev nD) : (held (T d) {a3', v0'} (V0 m d) : sProp 𝕄) = iprop((bLoc d ↦{fullShare} m (bLoc d)) ∗ (rLoc d ↦{fullShare} m (rLoc d))) := by
  rw [held_pair d (by decide)]; rfl
theorem held_row (d : Dev nD) : (held (T d) {a3', v0'} ((opRow (F := F)).result (V0 m d)) : sProp 𝕄)
    = iprop((bLoc d ↦{fullShare} m (bLoc d)) ∗ (rLoc d ↦{fullShare} rowVal m d)) := by
  rw [held_pair d (by decide), row_a3, row_v0]
omit [FloatOps F] in
theorem held_idx0 (d : Dev nD) : (held (T d) {a0', v2'} (V0 m d) : sProp 𝕄) = iprop((xLoc d ↦{fullShare} m (xLoc d)) ∗ (iLoc d ↦{fullShare} m (iLoc d))) := by
  rw [held_pair d (by decide)]; rfl
theorem held_idx (d : Dev nD) : (held (T d) {a0', v2'} ((opIdx (F := F)).result (V0 m d)) : sProp 𝕄)
    = iprop((xLoc d ↦{fullShare} m (xLoc d)) ∗ (iLoc d ↦{fullShare} idxVal m d)) := by
  rw [held_pair d (by decide), idx_a0, idx_v2]

/-! ## @main on the TensorCore -/

/-- What @main leaves the claim: the four arguments at their launch contents, the result at the lookup. -/
abbrev FIN (d : Dev nD) : sProp 𝕄 :=
  iprop((xLoc d ↦{fullShare} m (xLoc d)) ∗ (tLoc d ↦{fullShare} m (tLoc d)) ∗ (wLoc d ↦{fullShare} m (wLoc d)) ∗ (bLoc d ↦{fullShare} m (bLoc d)) ∗ (oLoc d ↦{fullShare} outVal m d))

theorem hmain [∀ e, Nonempty (Elt F e)] (κ : GSem nD τ sig → ℕ) (d : Dev nD) :
    iprop((K (F := F)).ctx EH (P m) κ ∗ (K (F := F)).tcSt EH d 0 ∗ (K (F := F)).tcRes m ρ d ∗ G (F := F) d)
      ⊢ wp frame (wpE ((K (F := F)).defs (D (F := F))) 𝒱 (SparseCore.T d) none) Set.univ (main d) fun _ => iprop((K (F := F)).tcSt EH d 1 ∗ FIN m d) := by
  unfold SparseCore.Cfg.tcRes G
  rw [unscopedBufs_eq]
  simp only [main, wp_bind, wp_pure]
  iintro ⟨#Hctx, Hst, ⟨Hb, ⟨Hx, Ht, Hw, Hbias, Hr, Hp, Hi, Ho⟩, -, -⟩, ⟨Hg, Htk⟩⟩
  -- the bias laid out as a row
  iapply (wp_hlo_within 𝒱 (SparseCore.T d) none Set.univ (op := opRow) (S := {a3', v0'}) hRow (V := V0 m d)) $$ [Hb Hbias Hr]
  · isplitl [Hb]; · iexact Hb
    rw [held_row0]
    isplitl [Hbias] <;> iassumption
  iintro ⟨Hb, Hheld⟩
  ihave Hh := (Entails.of_eq (held_row m d)) $$ Hheld
  icases Hh with ⟨Hbias, Hr⟩
  rw [wp_ret]; imodintro
  -- the projection: P at the product plus the bias row
  iapply (Cert.KernelIdeal.ProjRegion.wp_projRegion_fam (U := UU) (fun c => m (tLoc c)) (fun c => m (wLoc c)) (fun c => rowVal m c) (fun c => m (pLoc c))
    EH EP (P m) ((K (F := F)).refines_self) κ d _)
  isplitr; · iexact Hctx
  isplitl [Hst]; · iexact Hst
  isplitl [Hb]; · iexact Hb
  isplitl [Hg]; · iexact Hg
  isplitl [Htk]; · iexact Htk
  isplitl [Ht Hw Hr Hp]
  · isplitl [Ht]; · iexact Ht
    isplitl [Hw]; · iexact Hw
    isplitl [Hr]; · iexact Hr
    iexact Hp
  iintro ⟨Hst, Hb, Ht, Hw, Hr, Hp⟩
  -- the index words laid out 128 to a row
  iapply (wp_hlo_within 𝒱 (SparseCore.T d) none Set.univ (op := opIdx) (S := {a0', v2'}) hIdx (V := V0 m d)) $$ [Hb Hx Hi]
  · isplitl [Hb]; · iexact Hb
    rw [held_idx0]
    isplitl [Hx] <;> iassumption
  iintro ⟨Hb, Hheld⟩
  ihave Hh := (Entails.of_eq (held_idx m d)) $$ Hheld
  icases Hh with ⟨Hx, Hi⟩
  rw [wp_ret]; imodintro
  -- the call: each core its read token of P and its workers' rows and chunks; back, the chunks at the lookup
  iapply ((K (F := F)).wp_run (D (F := F)) 𝒱 (EH := EH) (P := P m) κ d 0) $$ [Hst Hp Hi Ho Hx Ht Hw Hbias]
  isplitr; · iexact Hctx
  isplitl [Hst]; · iexact Hst
  isplitl [Hp Hi Ho]
  · ihave Hs := (st_all m d) $$ [Hp Hi Ho]
    · isplitl [Hp]; · iexact Hp
      isplitl [Hi] <;> iassumption
    icases Hs with ⟨-, Hs⟩
    iexact Hs
  iintro ⟨Hst, Hdn⟩
  ihave Ho := (dn_all m d) $$ Hdn
  imodintro
  isplitl [Hst]; · iexact Hst
  isplitl [Hx]; · iexact Hx
  isplitl [Ht]; · iexact Ht
  isplitl [Hw]; · iexact Hw
  isplitl [Hbias]; · iexact Hbias
  iexact Ho

/-! ## The final memory -/

def fq (d : Dev nD) (s' : Phys nD τ sig (Elt F)) : Prop :=
  s'.mem.mem (oLoc d) = outVal m d ∧ s'.mem.mem (xLoc d) = m (xLoc d) ∧ s'.mem.mem (tLoc d) = m (tLoc d) ∧ s'.mem.mem (wLoc d) = m (wLoc d) ∧ s'.mem.mem (bLoc d) = m (bLoc d)

theorem hfin (d : Dev nD) (s' : Phys nD τ sig (Elt F)) : iprop(FIN m d ∗ SI s') ⊢ (⌜fq m d s'⌝ : sProp 𝕄) := by
  iintro ⟨⟨Hx, Ht, Hw, Hb, Ho⟩, HSI⟩
  icombine HSI Hx gives %hx
  icombine HSI Ht gives %ht
  icombine HSI Hw gives %hw
  icombine HSI Hb gives %hb
  icombine HSI Ho gives %ho
  ipureintro
  exact ⟨funext fun i => ho i (Finset.mem_univ i), funext fun i => hx i (Finset.mem_univ i), funext fun i => ht i (Finset.mem_univ i),
    funext fun i => hw i (Finset.mem_univ i), funext fun i => hb i (Finset.mem_univ i)⟩

def QC : PUnit × MemSt nD τ sig (Elt F) → Prop := fun r => ∀ c : Dev nD,
  r.2.mem (oLoc c) = outVal m c ∧ r.2.mem (xLoc c) = m (xLoc c) ∧ r.2.mem (tLoc c) = m (tLoc c) ∧ r.2.mem (wLoc c) = m (wLoc c) ∧ r.2.mem (bLoc c) = m (bLoc c)

/-! ## The run -/

theorem run_main [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m facts hpre)
    (fun q _ => match q with | 0 => vecSplit m)
    m ρ main (G (F := F)) (FIN m) (u₀ (F := F)) (hu₀ m) (hmain m ρ) (fq m) (hfin m) (QC m) (fun _ h => h)

end Cert.Proof.LookupI

end
-- ==== Proof.MainPre.lean ====
import proofs.«206855_g20126216749723_cont_sun_m_335_21_alg».proof.Defs
import proofs.«206855_g20126216749723_cont_sun_m_335_21_alg».proof.Proof.Main
import proofs.«206855_g20126216749723_cont_sun_m_335_21_alg».proof.Proof.IndexRange
import proofs.«206855_g20126216749723_cont_sun_m_335_21_alg».proof.Proof.Gen.Pre_input_domain

/-!
# The lookup's run under the stated precondition

The precondition says every index word is between 0 and 7; read as a natural number each word is then below 8, which is
what the tiles' gathers ask.  With it the run of the whole program ends at the lookup of rows of the projected table.
-/

noncomputable section

namespace Cert.Proof.LookupI

open Cert.KernelIdeal Cert.KernelIdeal.Gen
open Idealize.ShloMosaic Idealize.SL.Sem

/-- Under the precondition every index word names a row of the projected table. -/
theorem ok_of_pre (m : (ℓ : Loc nD τ sig) → Buf (Elt Ideal) ℓ)
    (h : Cert.Pre_KernelIdeal (hPre_input_domain := Cert.Pre_input_domain.Gen.facts) m) : PreOK (F := Ideal) m :=
  fun d i => (@Cert.EmbedProject.index_lt_eight Ideal _ Cert.Pre_input_domain.Gen.facts (m (xLoc d)) (m (tLoc d)) (m (wLoc d)) (m (bLoc d)) (h d) i).1

/-- The run on the extended reals under the precondition: the result is the lookup, the arguments are unchanged. -/
theorem value_run (m : (ℓ : Loc nD τ sig) → Buf (Elt Ideal) ℓ) (ρ : Dev nD → PrngReg)
    (h : Cert.Pre_KernelIdeal (hPre_input_domain := Cert.Pre_input_domain.Gen.facts) m) :
    θ_run (Cert.KernelIdeal.defs (F := Ideal)) (Cert.KernelIdeal.threads (F := Ideal)) ⟨m, fun _ => 0, ρ⟩ (QC (F := Ideal) m) :=
  run_main m ρ (ok_of_pre m h)

end Cert.Proof.LookupI

end
-- ==== Proof.ProtocolB.lean ====
/- The protocol of the lookup kernel: what its threads hold, hand over and owe.
   The program: on the TensorCore the bias b is laid out as a row, the 8 x 256 table is projected once through W with the
   bias added (an 8 x 128 array P), the 16384 index words are laid out as a 128 x 128 array, and a SparseCore kernel
   runs on 2 cores x 16 vector subcores. Tile (c, s) is worker w = 2 s + c: it fetches rows 4 w .. 4 w + 3 of the index
   array (its 512 words) into its own memory; tile 0 of each core copies P into the core's shared memory; the 16 tiles of
   a core meet at the subcore barrier; each tile then gathers, 64 words at a time, the rows of the shared copy of P its
   words name into a 512 x 128 buffer of its own, and copies each finished block of 64 rows out to rows
   512 w + 64 j .. of the result.
   What is fixed here: the values of the intermediate arrays as functions of the launch memory (so that every
   hand-over can name its contents), the blocks of rows each tile owns, the barrier's schedule (tile 0's arrival hands
   every tile a read share of the shared copy of P), and what each handshake of the launch carries. -/
import proofs.«206855_g20126216749723_cont_sun_m_335_21_alg».proof.Kernel
import proofs.«206855_g20126216749723_cont_sun_m_335_21_alg».proof.Proof.Gen.Kernel
import proofs.«206855_g20126216749723_cont_sun_m_335_21_alg».proof.Proof.LookupSpec
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic

noncomputable section

namespace Cert.Proof.LookupB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev coreOf (c : Fin ((K (F := F)).nCore 0)) : Fin τ.nSC := (K (F := F)).core 0 c
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the barrier cells' rounds, the rounds of the projection's staging
cells, the transfers' counters (rightmost, where the transfer rules look for them) -/

abbrev UH : Type := URounds (GSem nD τ sig) ℕ
abbrev UB : Type := URounds (GSem nD τ sig) ℕ
abbrev UP : Type := URounds (GSem nD τ sig) Unit
abbrev UU : Type := UH × (UB × (UP × Counters))

local notation "𝕄" => MT nD τ sig (HIx 1) (Elt F) ℕ UU ℕ

abbrev EH : Emb UH (MT nD τ sig (HIx 1) (Elt F) ℕ UU ℕ) := embL
/-- The barrier cells' rounds: the left half of the right factor. -/
def EB : Emb UB (MT nD τ sig (HIx 1) (Elt F) ℕ UU ℕ) :=
  (Emb.inl : Emb UB (UB × (UP × Counters))).trans embR
/-- The staging cells' rounds: the left half of what is right of that. -/
def EP : Emb UP (MT nD τ sig (HIx 1) (Elt F) ℕ UU ℕ) :=
  (Emb.inl : Emb UP (UP × Counters)).trans ((Emb.inr : Emb (UP × Counters) (UB × (UP × Counters))).trans embR)
instance EB_landsIn : (EB : Emb UB 𝕄).LandsIn (upEmb : UEmb _ 𝕄) := by unfold EB; infer_instance
instance EP_landsIn : (EP : Emb UP 𝕄).LandsIn (upEmb : UEmb _ 𝕄) := by unfold EP; infer_instance
/-- The transfers' counters are found in the rightmost factor. -/
example : CountersIn UU := inferInstance

/-! ## The launch memory, the arrays and their values -/

variable (m : (ℓ : Loc nD τ sig) → Buf (Elt F) ℓ) (ρ : Dev nD → PrngReg)

abbrev xLoc (d : Dev nD) : Loc nD τ sig := (SparseCore.T d).loc main_arg0      -- the 16384 index words
abbrev tLoc (d : Dev nD) : Loc nD τ sig := (SparseCore.T d).loc main_arg1      -- the table, 8 x 256
abbrev wLoc (d : Dev nD) : Loc nD τ sig := (SparseCore.T d).loc main_arg2      -- W, 256 x 128
abbrev bLoc (d : Dev nD) : Loc nD τ sig := (SparseCore.T d).loc main_arg3      -- b, 128
abbrev rLoc (d : Dev nD) : Loc nD τ sig := (SparseCore.T d).loc main_v0        -- b as a row, 1 x 128
abbrev pLoc (d : Dev nD) : Loc nD τ sig := (SparseCore.T d).loc main_v1        -- P, the projected table, 8 x 128
abbrev iLoc (d : Dev nD) : Loc nD τ sig := (SparseCore.T d).loc main_v2        -- the index words as 128 x 128
abbrev oLoc (d : Dev nD) : Loc nD τ sig := (SparseCore.T d).loc main_v3        -- the result, 16384 x 128

/-- Core c's shared memory, as every tile of the core addresses it: the copy of P. -/
abbrev shRef (c : Fin τ.nSC) : DevRef τ sig := ⟨.shared, ⟨0, by decide⟩, c⟩
abbrev shLoc (d : Dev nD) (c : Fin τ.nSC) : Loc nD τ sig := (d, shRef c)

variable [FloatOps F]

/-- The bias laid out as a row: the same 128 numbers. -/
def rowVal (d : Dev nD) : FVec F S1x128 .f32 := shapeCast S1x128 (m (bLoc d)) shapeCasts_S128_S1x128
/-- The index words laid out 128 to a row: word 128 a + b at (a, b). -/
def idxVal (d : Dev nD) : IVec S128x128 32 := shapeCast S128x128 (m (xLoc d)) shapeCasts_S16384_S128x128

/-- What the projection's body stores, as one term of its three loaded blocks: the product into a zero accumulator
    plus the bias row on every row. -/
def projTerm (t : FVec F S8x256 .f32) (w : FVec F S256x128 .f32) (r : FVec F S1x128 .f32) : FVec F S8x128 .f32 :=
  addf (matmul dot_S8x256_S256x128_S8x128_1_0_0_1_n_n none t w (constant S8x128 .f32 0x00000000#32))
    (broadcastTo S8x128 (shapeCast S1x128 r shapeCasts_S1x128_S1x128) broadcasts_S1x128_S8x128)

/-- P as the launch memory determines it. -/
def projVal (d : Dev nD) : FVec F S8x128 .f32 := projTerm (m (tLoc d)) (m (wLoc d)) (rowVal m d)

/-- THE RESULT as the launch memory determines it: row i is row x_i of P (x_i read as in the specification: the word
    as a natural number when below 8). It only moves entries of P, so it is the same definition at every float
    instance. -/
def outVal (d : Dev nD) : FVec F S16384x128 .f32 :=
  fun j => projVal m d (ValueIdx.ix2 (Cert.EmbedProject.rowOf (m (xLoc d) (ValueIdx.ix1 (⟨(j 0).val, ValueIdx.idx2_lt0 j⟩ : Fin 16384))))
    (⟨(j 1).val, ValueIdx.idx2_lt1 j⟩ : Fin 128))

/-! ## The blocks of rows -/

theorem hdivO : 32 ∣ S16384x128.size 0 := ⟨512, rfl⟩
theorem hdivI : 32 ∣ S128x128.size 0 := ⟨4, rfl⟩
/-- Worker w's 512 rows of the result, and its 4 rows of the index array. -/
abbrev oBlock (w : Fin 32) : Rect S16384x128 := Rect.part (s := S16384x128) (a₀ := 0) hdivO w
abbrev iBlock (w : Fin 32) : Rect S128x128 := Rect.part (s := S128x128) (a₀ := 0) hdivI w
abbrev oSet (w : Fin 32) : Finset S16384x128.Idx := (oBlock w).set
abbrev iSet (w : Fin 32) : Finset S128x128.Idx := (iBlock w).set

/-- The worker number of tile s of core c. -/
def worker (c : Fin 2) (s : Fin 16) : Fin 32 := ⟨2 * s.val + c.val, by omega⟩

theorem worker_injective : Function.Injective (fun cs : Fin 2 × Fin 16 => worker cs.1 cs.2) := by
  rintro ⟨c, s⟩ ⟨c', s'⟩ h
  have h' : 2 * s.val + c.val = 2 * s'.val + c'.val := congrArg Fin.val h
  have hc : c.val = c'.val := by omega
  have hs : s.val = s'.val := by omega
  exact Prod.ext (Fin.ext hc) (Fin.ext hs)

/-! ## The chunks of the result: 256 blocks of 64 rows; worker w copies out chunks 8 w .. 8 w + 7 -/

theorem hdivC : 256 ∣ S16384x128.size 0 := ⟨64, rfl⟩
abbrev oChunk (k : Fin 256) : Rect S16384x128 := Rect.part (s := S16384x128) (a₀ := 0) hdivC k
abbrev oChunkSet (k : Fin 256) : Finset S16384x128.Idx := (oChunk k).set
/-- Chunk j of worker w. -/
def chunkOf (w : Fin 32) (j : Fin 8) : Fin 256 := ⟨8 * w.val + j.val, by omega⟩

theorem chunkOf_injective : Function.Injective (fun wj : Fin 32 × Fin 8 => chunkOf wj.1 wj.2) := by
  rintro ⟨w, j⟩ ⟨w', j'⟩ h
  have h' : 8 * w.val + j.val = 8 * w'.val + j'.val := congrArg Fin.val h
  have hj : j.val < 8 := j.isLt
  have hj' : j'.val < 8 := j'.isLt
  have hw : w.val = w'.val := by omega
  have hjj : j.val = j'.val := by omega
  exact Prod.ext (Fin.ext hw) (Fin.ext hjj)

theorem nSub_eq : τ.nSub = 16 := rfl
theorem nSC_eq : τ.nSC = 2 := rfl
/-- A tile's coordinates as the numbers the blocks are indexed by. -/
abbrev cN (c : Fin τ.nSC) : Fin 2 := Fin.cast nSC_eq c
abbrev sN (s : Fin τ.nSub) : Fin 16 := Fin.cast nSub_eq s

/-! ## The barrier cells -/

/-- Tile (c, j)'s barrier semaphore on device d. -/
abbrev bcell (d : Dev nD) (c : Fin τ.nSC) (j : Fin τ.nSub) : GSem nD τ sig := (V d c j, .reg sc_bar0)

omit [FloatOps F] in
theorem sc_bar0_ne_go : (sc_bar0 : Sem sig) ≠ sc_go := by decide

def isBar (g : GSem nD τ sig) : Bool :=
  match g with
  | ((_, .scVector _ _), sm) => decide (sm = .reg sc_bar0)
  | _ => false

omit [FloatOps F] in
@[simp] theorem isBar_bcell (d : Dev nD) (c : Fin τ.nSC) (j : Fin τ.nSub) : isBar (bcell d c j) = true := by simp [isBar]

/-- Read token j (of 16) of core c's shared copy of P, at P's value. -/
abbrev shTok (d : Dev nD) (c : Fin τ.nSC) (j : Fin 16) : sProp 𝕄 := shLoc d c ↦{Transfers.shareTok fullShare 16 j} projVal m d
/-- What is left of the shared copy once the 16 tokens are out. -/
abbrev shRest (d : Dev nD) (c : Fin τ.nSC) : sProp 𝕄 := shLoc d c ↦{Transfers.shareDrop fullShare 16} projVal m d

/-- What an arrival at tile j's barrier cell hands over: tile 0's arrival, which comes after tile 0 has filled the
    shared memory with P and waited for the copy, hands tile j its read token of it; the other arrivals, nothing. -/
def bPay (g : GSem nD τ sig) (n : ℕ) : sProp 𝕄 :=
  match g with
  | ((d, .scVector c j), _) => if n = 0 then shTok m d c (sN j) else iprop(emp)
  | _ => iprop(emp)

/-- The barrier cells' schedule: one round on each, of one unit duty per tile of the core, named by the tile's
    number. -/
def bRd : Rounds.Schedule (GSem nD τ sig) ℕ 𝕄 where
  duties g r := if isBar g ∧ r = 0 then (Finset.univ : Finset (Fin τ.nSub)).image Fin.val else ∅
  amount _ _ _ := 1
  payload g _ n := bPay m g n
  amount_pos _ _ _ _ := Nat.one_pos

instance bRd_payload_storable (g : GSem nD τ sig) (r n : ℕ) : BI.Storable (upEmb : UEmb _ 𝕄) ((bRd (F := F) m).payload g r n) := by
  show BI.Storable upEmb (bPay m g n)
  unfold bPay
  rcases g with ⟨⟨d, _ | c | ⟨c, i⟩⟩, sm⟩ <;> dsimp only <;> (repeat' split) <;> infer_instance

omit [FloatOps F] in
theorem bigSep_emp' {I : Type} (s : Finset I) : (bigSep s fun _ => iprop(emp)) = (iprop(emp) : sProp 𝕄) := bigSep_emp_const s

theorem bRd_duties₀ (d : Dev nD) (c : Fin τ.nSC) (j : Fin τ.nSub) :
    (bRd (F := F) m).duties (bcell d c j) 0 = (Finset.univ : Finset (Fin τ.nSub)).image Fin.val := by
  simp [bRd, isBar]
theorem bRd_mem₀ (d : Dev nD) (c : Fin τ.nSC) (j i : Fin τ.nSub) : i.val ∈ (bRd (F := F) m).duties (bcell d c j) 0 := by
  rw [bRd_duties₀]; exact Finset.mem_image_of_mem _ (Finset.mem_univ i)
theorem bRd_expect (d : Dev nD) (c : Fin τ.nSC) (j : Fin τ.nSub) : 0 + grid1.bound 1 = (bRd (F := F) m).expect (bcell d c j) 0 := by
  unfold Rounds.Schedule.expect; rw [bRd_duties₀]
  show 0 + 16 = ∑ x ∈ (Finset.univ : Finset (Fin 16)).image Fin.val, 1
  rw [Finset.sum_const, Finset.card_image_of_injective _ Fin.val_injective]; rfl

/-- What a tile owes for the barrier from the launch: one unit on the cell of every tile of its core, at the call's
    index. -/
def oxV (d : Dev nD) (c : Fin τ.nSC) : CellTallies nD τ sig (HIx 1) := ∑ j : Fin (grid1.bound 1), tallyAt (bcell d c (j.castLE hsub1)) (some 0) 1

omit [FloatOps F] in
theorem oxV_none (d : Dev nD) (c : Fin τ.nSC) (g : GSem nD τ sig) : oxV d c g none = 0 := by
  unfold oxV
  rw [Finset.sum_apply, Finsupp.finsetSum_apply]
  exact Finset.sum_eq_zero fun j _ => by rw [tallyAt_apply, if_neg (fun e => nomatch e.2)]

omit [FloatOps F] in
theorem oxV_apply_pos {d : Dev nD} {c : Fin τ.nSC} {g : GSem nD τ sig} {ι : HIx 1} (h : 0 < oxV d c g ι) :
    ∃ j : Fin (grid1.bound 1), g = bcell d c (j.castLE hsub1) ∧ ι = some 0 := by
  unfold oxV at h
  rw [Finset.sum_apply, Finsupp.finsetSum_apply] at h
  obtain ⟨j, -, hj⟩ := Finset.exists_ne_zero_of_sum_ne_zero (Nat.pos_iff_ne_zero.mp h)
  rw [tallyAt_apply] at hj
  split at hj
  · next e => exact ⟨j, e.1, e.2⟩
  · exact absurd rfl hj

/-- A tile's barrier kit, dealt it at the launch: the invariant of every tile's cell of its core, its duty token in
    each of those rounds, that each has reached round 0, its own cell's position at the origin of round 0, and the
    credit for the sixteen units its own round collects. -/
def bkit (d : Dev nD) (c : Fin τ.nSC) (i : Fin τ.nSub) : sProp 𝕄 :=
  iprop((∃ κ : GSem nD τ sig → ℕ, bigSep Finset.univ fun j : Fin (grid1.bound 1) =>
      cellInv EB (bRd (F := F) m) (κ (bcell d c (j.castLE hsub1))) (bcell d c (j.castLE hsub1)))
    ∗ (bigSep Finset.univ fun j : Fin (grid1.bound 1) => dutyTok EB (bcell d c (j.castLE hsub1)) 0 i.val)
    ∗ (bigSep Finset.univ fun j : Fin (grid1.bound 1) => reached EB (bcell d c (j.castLE hsub1)) 0)
    ∗ atPos EB (bcell d c i) 0 ∅ 0
    ∗ cred (tallyAt (bcell d c i) (some 0) (grid1.bound 1)))

/-! ## What the handshakes carry -/

/-- Worker w's rows of the index array at their value, and chunk k of the result at contents f. -/
abbrev iRows (d : Dev nD) (w : Fin 32) : sProp 𝕄 := iLoc d ↦[iSet w]{fullShare} idxVal m d
abbrev oChunkPts (d : Dev nD) (k : Fin 256) (f : Buf (Elt F) (oLoc d)) : sProp 𝕄 := oLoc d ↦[oChunkSet k]{fullShare} f
/-- Core c's read token (of 2) of P in HBM: only tile 0 of the core reads it. -/
abbrev pTok (d : Dev nD) (c : Fin 2) : sProp 𝕄 := pLoc d ↦{Transfers.shareTok fullShare 2 c} projVal m d

/-- What tile s of core c is handed at its start and hands back at its end. -/
def goOf (d : Dev nD) (c : Fin τ.nSC) (s : Fin 16) : sProp 𝕄 :=
  iprop(iRows m d (worker (cN c) s) ∗ (bigSep Finset.univ fun j : Fin 8 => oChunkPts d (chunkOf (worker (cN c) s) j) (m (oLoc d)))
    ∗ if s = 0 then iprop(pTok m d (cN c) ∗ ∃ f, shLoc d c ↦{fullShare} f) else iprop(emp))
def tdOf (d : Dev nD) (c : Fin τ.nSC) (s : Fin 16) : sProp 𝕄 :=
  iprop((bigSep Finset.univ fun j : Fin 8 => oChunkPts d (chunkOf (worker (cN c) s) j) (outVal m d))
    ∗ shTok m d c s ∗ if s = 0 then shRest m d c else iprop(emp))
/-- What the call hands core c and takes back from it. -/
def stOf (d : Dev nD) (c : Fin τ.nSC) : sProp 𝕄 :=
  iprop(pTok m d (cN c) ∗ bigSep Finset.univ fun s : Fin 16 =>
    iprop(iRows m d (worker (cN c) s) ∗ bigSep Finset.univ fun j : Fin 8 => oChunkPts d (chunkOf (worker (cN c) s) j) (m (oLoc d))))
def dnOf (d : Dev nD) (c : Fin τ.nSC) : sProp 𝕄 :=
  bigSep Finset.univ fun s : Fin 16 => bigSep Finset.univ fun j : Fin 8 => oChunkPts d (chunkOf (worker (cN c) s) j) (outVal m d)

instance goOf_storable (d : Dev nD) (c : Fin τ.nSC) (s : Fin 16) : BI.Storable (upEmb : UEmb _ 𝕄) (goOf m d c s) := by
  unfold goOf; split <;> infer_instance
instance tdOf_storable (d : Dev nD) (c : Fin τ.nSC) (s : Fin 16) : BI.Storable (upEmb : UEmb _ 𝕄) (tdOf m d c s) := by
  unfold tdOf; split <;> infer_instance
instance stOf_storable (d : Dev nD) (c : Fin τ.nSC) : BI.Storable (upEmb : UEmb _ 𝕄) (stOf m d c) := by
  unfold stOf; infer_instance
instance dnOf_storable (d : Dev nD) (c : Fin τ.nSC) : BI.Storable (upEmb : UEmb _ 𝕄) (dnOf m d c) := by
  unfold dnOf; infer_instance

/-- The one call: each core its token of P and its tiles' rows; each tile its rows, tile 0 also the token and the shared
    memory; every tile's proof consumes its barrier kit and owes its sixteen arrivals. -/
def P : (K (F := F)).Pay (nD := nD) (Val := Elt F) (Name := ℕ) (U := UU) where
  st := fun q d c => match q with | 0 => stOf m d (coreOf c)
  dn := fun q d c => match q with | 0 => dnOf m d (coreOf c)
  go := fun q d c i => match q with | 0 => goOf m d (coreOf c) (Fin.cast nSub_zero i)
  td := fun q d c i => match q with | 0 => tdOf m d (coreOf c) (Fin.cast nSub_zero i)
  x := fun _ thr => match thr with
    | (d, .scVector c i) => bkit m d c i
    | _ => iprop(emp)
  ox := fun _ thr => match thr with
    | (d, .scVector c _) => oxV d c
    | _ => 0
  ox_band := by
    intro q thr g ι h
    obtain rfl : q = 0 := Subsingleton.elim _ _
    rcases thr with ⟨d, _ | c | ⟨c, i⟩⟩
    · exact absurd h (lt_irrefl 0)
    · exact absurd h (lt_irrefl 0)
    · dsimp only at h
      obtain ⟨j, rfl, rfl⟩ := oxV_apply_pos h
      rw [(K (F := F)).lev_V_reg d c (j.castLE hsub1) (show (sc_bar0 : Sem sig) ≠ (K (F := F)).go from sc_bar0_ne_go)]; exact ⟨le_rfl, by decide⟩
  ox_tc := fun _ _ => rfl
  ox_sc := fun _ _ _ h => absurd rfl h
  ox_vc := by
    intro q d c i _
    obtain rfl : q = 0 := Subsingleton.elim _ _
    exact ⟨rfl, c.isLt, i.isLt⟩

instance P_storable : (P (F := F) m).IsStorable where
  st q d c := match q with | 0 => (inferInstance : BI.Storable (upEmb : UEmb _ 𝕄) (stOf m d (coreOf c)))
  dn q d c := match q with | 0 => (inferInstance : BI.Storable (upEmb : UEmb _ 𝕄) (dnOf m d (coreOf c)))
  go q d c i := match q with | 0 => (inferInstance : BI.Storable (upEmb : UEmb _ 𝕄) (goOf m d (coreOf c) (Fin.cast nSub_zero i)))
  td q d c i := match q with | 0 => (inferInstance : BI.Storable (upEmb : UEmb _ 𝕄) (tdOf m d (coreOf c) (Fin.cast nSub_zero i)))

end Cert.Proof.LookupB

end
-- ==== Proof.SplitB.lean ====
/- How the call's operands split among the tiles and how the results gather.
   The index array (128 x 128) is cut into 32 blocks of 4 rows, one per worker; the result (16384 x 128) into 256 chunks
   of 64 rows, worker w owning chunks 8 w .. 8 w + 7. Core c is handed its read token of P and the rows and chunks of
   its sixteen workers 2 s + c; tile 0 of the core is handed the token and the core's shared memory whole, and each
   tile hands back its read token of the shared copy of P. -/
import proofs.«206855_g20126216749723_cont_sun_m_335_21_alg».proof.Proof.ProtocolB

noncomputable section

namespace Cert.Proof.LookupB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

variable (m : (ℓ : Loc nD τ sig) → Buf (Elt F) ℓ) (ρ : Dev nD → PrngReg)
variable [FloatOps F]

/-! ## Reindexing: a core's tiles, the workers by core and tile, the chunks by worker and position -/

omit [FloatOps F] in
/-- The call's tiles of a core are the sixteen tile numbers. -/
theorem bigSep_tiles (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

/-- Every worker number is 2 s + c for exactly one core c and tile s. -/
def workerEquiv : Fin 2 × Fin 16 ≃ Fin 32 :=
  Equiv.ofBijective (fun cs => worker cs.1 cs.2)
    ((Fintype.bijective_iff_injective_and_card _).mpr ⟨worker_injective, by simp⟩)

/-- Every chunk number is 8 w + j for exactly one worker w and position j. -/
def chunkEquiv : Fin 32 × Fin 8 ≃ Fin 256 :=
  Equiv.ofBijective (fun wj => chunkOf wj.1 wj.2)
    ((Fintype.bijective_iff_injective_and_card _).mpr ⟨chunkOf_injective, by simp⟩)

omit [FloatOps F] in
/-- A family over the 32 workers, grouped by core and then by tile. -/
theorem bigSep_workers (Φ : Fin 32 → sProp 𝕄) :
    bigSep Finset.univ Φ = bigSep Finset.univ fun c : Fin 2 => bigSep Finset.univ fun s : Fin 16 => Φ (worker c s) := by
  rw [bigSep_univ_equiv workerEquiv Φ, bigSep_univ_prod]; rfl

omit [FloatOps F] in
/-- A family over the 256 chunks, grouped by core, tile and position. -/
theorem bigSep_chunks (Ψ : Fin 256 → sProp 𝕄) :
    bigSep Finset.univ Ψ = bigSep Finset.univ fun c : Fin 2 => bigSep Finset.univ fun s : Fin 16 => bigSep Finset.univ fun j : Fin 8 => Ψ (chunkOf (worker c s) j) := by
  rw [bigSep_univ_equiv chunkEquiv Ψ, bigSep_univ_prod, bigSep_workers]; rfl

/-! ## The arrays cut into their blocks -/

omit [FloatOps F] in
theorem iSets_disjoint : ∀ w ∈ (Finset.univ : Finset (Fin 32)), ∀ w' ∈ (Finset.univ : Finset (Fin 32)), w ≠ w' → Disjoint (iSet w) (iSet w') :=
  fun _ _ _ _ h => Rect.part_disjoint hdivI h
omit [FloatOps F] in
theorem iSets_cover : (Finset.univ : Finset (Fin 32)).biUnion iSet = Finset.univ := Rect.biUnion_part hdivI
omit [FloatOps F] in
theorem oChunks_disjoint : ∀ k ∈ (Finset.univ : Finset (Fin 256)), ∀ k' ∈ (Finset.univ : Finset (Fin 256)), k ≠ k' → Disjoint (oChunkSet k) (oChunkSet k') :=
  fun _ _ _ _ h => Rect.part_disjoint hdivC h
omit [FloatOps F] in
theorem oChunks_cover : (Finset.univ : Finset (Fin 256)).biUnion oChunkSet = Finset.univ := Rect.biUnion_part hdivC

omit [FloatOps F] in
/-- The index array whole is its 32 blocks of 4 rows. -/
theorem iPts_blocks (d : Dev nD) (f : Buf (Elt F) (iLoc d)) :
    (iLoc d ↦{fullShare} f : sProp 𝕄) = bigSep Finset.univ fun w : Fin 32 => iLoc d ↦[iSet w]{fullShare} f := by
  rw [← pointsTo_biUnion Finset.univ (ℓ := iLoc d) iSet iSets_disjoint, iSets_cover]
omit [FloatOps F] in
/-- The result whole is its 256 chunks of 64 rows. -/
theorem oPts_chunks (d : Dev nD) (f : Buf (Elt F) (oLoc d)) :
    (oLoc d ↦{fullShare} f : sProp 𝕄) = bigSep Finset.univ fun k : Fin 256 => oLoc d ↦[oChunkSet k]{fullShare} f := by
  rw [← pointsTo_biUnion Finset.univ (ℓ := oLoc d) oChunkSet oChunks_disjoint, oChunks_cover]

/-! ## What the call hands the cores, and takes back -/

/-- What the cores are handed, the core as a number: its read token of P, its workers' rows and chunks. -/
theorem st_eq (d : Dev nD) :
    (bigSep Finset.univ fun c : Fin ((K (F := F)).nCore 0) => (P m).st 0 d c)
      = bigSep Finset.univ fun c : Fin 2 => iprop(pTok m d c ∗ bigSep Finset.univ fun s : Fin 16 =>
          iprop(iRows m d (worker c s) ∗ bigSep Finset.univ fun j : Fin 8 => oChunkPts d (chunkOf (worker c s) j) (m (oLoc d)))) :=
  bigSep_congr fun c _ => by
    show stOf m d (coreOf c) = _
    unfold stOf
    rw [show cN (coreOf c) = c from Fin.ext rfl]

/-- What the cores hand back: their workers' chunks at the result's value. -/
theorem dn_eq (d : Dev nD) :
    (bigSep Finset.univ fun c : Fin ((K (F := F)).nCore 0) => (P m).dn 0 d c)
      = bigSep Finset.univ fun c : Fin 2 => bigSep Finset.univ fun s : Fin 16 => bigSep Finset.univ fun j : Fin 8 =>
          oChunkPts d (chunkOf (worker c s) j) (outVal m d) :=
  bigSep_congr fun c _ => by
    show dnOf m d (coreOf c) = _
    unfold dnOf
    rw [show cN (coreOf c) = c from Fin.ext rfl]

/-! ## A core's operands split among its tiles -/

omit [FloatOps F] in
/-- The core's shared memory is among the sequencer's own buffers: it, whole at some contents, and the rest. -/
theorem ownBufs_seq (d : Dev nD) (c : Fin τ.nSC) :
    (ownBufs (S d c) : sProp 𝕄)
      = iprop((∃ f, shLoc d c ↦{fullShare} f)
          ∗ bigSep ((ownRefs (τ := τ) (.scScalar c)).erase (shRef c)) fun b => iprop(∃ f, ((d, b) : Loc nD τ sig) ↦{fullShare} f)) := by
  unfold SparseCore.Cfg.ownBufs
  exact SparseCore.bigSep_erase' ((mem_ownRefs (p := Proc.scScalar c) (b := shRef c)).mpr rfl)

omit [FloatOps F] in
/-- A family over the tiles that is X at tile 0 and nothing elsewhere is X. -/
theorem bigSep_at_zero (X : sProp 𝕄) : (bigSep Finset.univ fun s : Fin 16 => if s = 0 then X else iprop(emp)) ⊣⊢ X := by
  rw [bigSep_univ_at _ (0 : Fin 16), if_pos rfl,
    bigSep_congr (s := (Finset.univ : Finset (Fin 16)).erase 0) (Ψ := fun _ => iprop(emp)) fun s hs => if_neg (Finset.ne_of_mem_erase hs),
    bigSep_emp']
  exact sep_emp

/-- Core c's split. Out: every tile its block of index rows and its eight chunks of the result; tile 0 also the core's
    read token of P and the shared memory whole. Back: every tile its chunks at the result's value and read token s (of
    sixteen) of the shared copy of P, tile 0 also what is left of that copy beside the sixteen tokens; tokens and
    remainder join to the shared memory whole, which returns to the sequencer's buffers. The index rows are not handed
    back. -/
theorem split_core (d : Dev nD) (c : Fin τ.nSC) :
    iprop(stOf m d c ∗ ownBufs (S d c)) ⊢ |={Set.univ}=> iprop((bigSep Finset.univ fun s : Fin 16 => goOf m d c s)
      ∗ ((bigSep Finset.univ fun s : Fin 16 => tdOf m d c s) -∗ iprop(dnOf m d c ∗ ownBufs (S d c)))) := by
  unfold goOf tdOf stOf dnOf
  rw [ownBufs_seq]
  simp only [bigSep_sep']
  iintro ⟨⟨Hp, Hi, Ho⟩, ⟨%f, Hsh⟩, Hrest⟩
  imodintro
  isplitl [Hp Hi Ho Hsh]
  · isplitl [Hi]; · iexact Hi
    isplitl [Ho]; · iexact Ho
    iapply (bigSep_at_zero _).2
    isplitl [Hp]; · iexact Hp
    iexists f; iexact Hsh
  iintro ⟨Ho, Ht, Hr⟩
  isplitl [Ho]; · iexact Ho
  isplitl [Ht Hr]
  · iexists (projVal m d)
    iapply (Transfers.pointsTo_toks_join fullShare 16)
    isplitl [Hr]
    · iapply (bigSep_at_zero _).1; iexact Hr
    iexact Ht
  iexact Hrest

theorem vecSplit : (K (F := F)).VecSplit (P m) 0 := by
  intro d c
  have h := split_core m d (coreOf c)
  rw [← bigSep_tiles (F := F) (fun s => goOf m d (coreOf c) s), ← bigSep_tiles (F := F) (fun s => tdOf m d (coreOf c) s)] at h
  exact h

/-- What @main hands the call: P's two read tokens, one per core, the remainder kept; the index array as the 32
    workers' blocks; the result as its 256 chunks; both regrouped by core and tile. -/
theorem st_all (d : Dev nD) :
    iprop((pLoc d ↦{fullShare} projVal m d) ∗ (iLoc d ↦{fullShare} idxVal m d) ∗ (oLoc d ↦{fullShare} m (oLoc d)))
      ⊢ iprop((pLoc d ↦{Transfers.shareDrop fullShare 2} projVal m d) ∗ bigSep Finset.univ fun c : Fin ((K (F := F)).nCore 0) => (P m).st 0 d c) := by
  rw [st_eq, bigSep_sep']
  simp only [bigSep_sep']
  rw [iPts_blocks, oPts_chunks, bigSep_workers (fun w => iLoc d ↦[iSet w]{fullShare} idxVal m d),
    bigSep_chunks (fun k => oLoc d ↦[oChunkSet k]{fullShare} m (oLoc d))]
  iintro ⟨Hp, Hi, Ho⟩
  ihave Hp' := (Transfers.pointsTo_toks_split fullShare 2) $$ Hp
  icases Hp' with ⟨Hd, Ht⟩
  isplitl [Hd]; · iexact Hd
  isplitl [Ht]; · iexact Ht
  isplitl [Hi]; · iexact Hi
  iexact Ho

/-- The 256 chunks, all at the result's value, are the result whole. -/
theorem dn_all (d : Dev nD) :
    (bigSep Finset.univ fun c : Fin ((K (F := F)).nCore 0) => (P m).dn 0 d c) ⊢ (oLoc d ↦{fullShare} outVal m d : sProp 𝕄) :=
  Entails.of_eq (by rw [dn_eq, oPts_chunks, bigSep_chunks (fun k => oLoc d ↦[oChunkSet k]{fullShare} outVal m d)])

end Cert.Proof.LookupB

end
-- ==== Proof.LaunchElemB.lean ====
/- The launch element of the ghost state: the handshakes' rounds, the barrier cells' rounds (one cell per tile of
   either core, sixteen unit duties each, named by the arriving tile), the rounds of the projection's staging cells, and
   the transfers' counters. From it and the credit for the tiles' arrivals each tile is dealt its barrier kit, and the
   TensorCore the funded rounds of its staging cells. -/
import proofs.«206855_g20126216749723_cont_sun_m_335_21_alg».proof.Proof.ProtocolB
import proofs.«206855_g20126216749723_cont_sun_m_335_21_alg».proof.Proof.Gen.Kernel.Launch
import Idealize.ShloMosaic.Lib.Pipeline.Sound

noncomputable section

namespace Cert.Proof.LookupB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

variable (m : (ℓ : Loc nD τ sig) → Buf (Elt F) ℓ) (ρ : Dev nD → PrngReg)
variable [FloatOps F]

/-- The projection's pipeline configurations, at the one admissible contents (no prefetched table). -/
abbrev cfgsP : Fin 1 → Pipeline.Cfg sig Λ₀ := Pipeline.pin (pcfgs (F := F)) (fun p => (cfgs p).toPCfg_adm)

/-- The staging cells are pairwise distinct. -/
theorem cellOfP_inj : Function.Injective (Pipeline.cellOf (nD := nD) (τ := τ) (cfgsP (F := F))) := cellOf_inj

/-- What @main's proof starts from on device d beyond what the launch deals the TensorCore: the funded rounds of the
    projection's staging cells. -/
def G (d : Dev nD) : sProp 𝕄 := iprop(Pipeline.cellsGhost (cfgsP (F := F)) EP 0 d ∗ Pipeline.toksInit (cfgsP (F := F)) EP 0 d)

/-- A tile of a device: the device, the core, the tile's number. -/
abbrev DCI : Type := Dev nD × Fin τ.nSC × Fin τ.nSub
/-- The barrier cell of a tile. -/
abbrev bcellOf (x : DCI) : GSem nD τ sig := bcell x.1 x.2.1 x.2.2

/-- The barrier cells: one per tile of either core of every device. -/
def bCells : Finset (GSem nD τ sig) := Finset.univ.image bcellOf
/-- Tile i's duty in round 0 of tile j's cell, for every pair of tiles of a core. -/
def bToks : Finset (GSem nD τ sig × ℕ × ℕ) :=
  Finset.univ.image fun x : DCI × Fin (grid1.bound 1) => (bcell x.1.1 x.1.2.1 (x.2.castLE hsub1), 0, x.1.2.2.val)

/-- The staging cells' launch element. -/
def pp : UP := initOf (Pipeline.cells (cfgsP (F := F)) (cellOfP_inj (F := F))) (Pipeline.launchToks (cfgsP (F := F)) (cellOfP_inj (F := F)))

/-- The launch element: the handshakes' cells and tokens, the barrier cells and their duty tokens, the staging cells and
    theirs, and no transfer counted yet. -/
def u₀ : UU := (initOf (K (F := F)).hsCells (K (F := F)).hsToks, (initOf bCells bToks, (pp (F := F), 1)))

/-! ## The element splits into its components -/

/-- The launch element is the handshakes' rounds, the barrier cells' rounds and the staging cells' rounds, each owned
    through its embedding (the counters are not needed at the launch). -/
theorem u₀_split : (ownU (u₀ (F := F)) : sProp 𝕄)
    ⊢ iprop(BI.own (EH (initOf (K (F := F)).hsCells (K (F := F)).hsToks)) ∗ BI.own (EB (initOf bCells bToks)) ∗ BI.own (EP (pp (F := F)))) := by
  unfold u₀
  iintro Hu
  ihave H := (ownU_pair _ _) $$ Hu
  icases H with ⟨HH, HR⟩
  ihave H := (own_pair_emb (embR (nD := nD) (τ := τ) (sig := sig) (Ix := HIx 1) (Val := Elt F) (Name := ℕ) (Lvl := ℕ) (A := UH) (B := UB × (UP × Counters))) _ _) $$ HR
  icases H with ⟨HB, HR⟩
  ihave H := (own_pair_emb ((Emb.inr : Emb (UP × Counters) (UB × (UP × Counters))).trans
    (embR (nD := nD) (τ := τ) (sig := sig) (Ix := HIx 1) (Val := Elt F) (Name := ℕ) (Lvl := ℕ) (A := UH) (B := UB × (UP × Counters)))) _ _) $$ HR
  icases H with ⟨HP, -⟩
  isplitl [HH]; · iexact HH
  isplitl [HB]; · iexact HB
  iexact HP

/-! ## The barrier cells, tile by tile -/

omit [FloatOps F] in
theorem bcellOf_injective : Function.Injective (bcellOf : DCI → GSem nD τ sig) := by
  rintro ⟨d, c, i⟩ ⟨d', c', i'⟩ e
  obtain ⟨hd, hp⟩ := Prod.mk.inj (Prod.mk.inj e).1
  obtain ⟨hc, hi⟩ := Proc.scVector.inj hp
  subst hd hc hi; rfl

omit [FloatOps F] in
/-- A family over the barrier cells is a family over the tiles. -/
theorem over_bCells (Φ : GSem nD τ sig → sProp 𝕄) : bigSep bCells Φ = bigSep Finset.univ fun x : DCI => Φ (bcellOf x) := by
  unfold bCells
  exact SparseCore.bigSep_image_of_injOn (fun _ _ _ _ e => bcellOf_injective e) Φ

omit [FloatOps F] in
/-- The duty tokens, by the tile that holds them: tile i's token in each cell of its core. -/
theorem over_bToks : (bigSep bToks fun x => (dutyTok EB x.1 x.2.1 x.2.2 : sProp 𝕄))
    = bigSep Finset.univ fun x : DCI => bigSep Finset.univ fun j : Fin (grid1.bound 1) => dutyTok EB (bcell x.1 x.2.1 (j.castLE hsub1)) 0 x.2.2.val := by
  unfold bToks
  rw [SparseCore.bigSep_image_of_injOn, bigSep_univ_prod]
  rintro ⟨⟨d, c, i⟩, j⟩ - ⟨⟨d', c', i'⟩, j'⟩ - e
  obtain ⟨hg, hn⟩ := Prod.mk.inj e
  obtain ⟨hd, hp⟩ := Prod.mk.inj (Prod.mk.inj hg).1
  obtain ⟨hc, hj⟩ := Proc.scVector.inj hp
  have hi : i = i' := Fin.ext (Prod.mk.inj hn).2
  have hj' : j = j' := Fin.ext (congrArg Fin.val hj)
  subst hd hc hi hj'; rfl

/-- Every barrier semaphore reads zero: they are among the free semaphores of the vector subcores. -/
theorem barrier_sems : ((K (F := F)).freeSems0 : sProp 𝕄) ⊢ bigSep bCells fun g => semVal g 0 := by
  rw [over_bCells]
  unfold SparseCore.Cfg.freeSems0
  refine sep_elim_right.trans (bigSep_mono fun x _ => ?_)
  unfold SparseCore.Cfg.vcSems0
  exact bigSep_elim (Φ := fun sm : SemLoc sig => (semVal (V x.1 x.2.1 x.2.2, sm) 0 : sProp 𝕄))
    (Finset.mem_erase.mpr ⟨fun h => sc_bar0_ne_go (SemLoc.reg.inj h), Finset.mem_filter.mpr ⟨Finset.mem_univ _, by decide⟩⟩)

/-- The cells' invariants, allocated together, from the counters at zero and the round states at zero. -/
theorem barrier_invs : iprop((bigSep bCells fun g => (semVal g 0 : sProp 𝕄)) ∗ bigSep bCells fun g => roundState EB (bRd (F := F) m) g 0)
    ⊢ |={Set.univ}=> iprop(∃ κ : GSem nD τ sig → ℕ, bigSep bCells fun g => cellInv EB (bRd (F := F) m) (κ g) g) := by
  refine (Rounds.bodies_intro EB (bRd (F := F) m) bCells).trans ((inv_alloc_family bCells (Rounds.body EB (bRd (F := F) m)) ∅ (E := Set.univ)).trans ?_)
  iintro H
  imod H with ⟨%κ, -, Hinv⟩
  imodintro; iexists κ; iexact Hinv

/-! ## The staging cells -/

/-- The staging cells' launch element funds, on every device, their rounds and the duty tokens of the one pipeline. -/
theorem staging : (BI.own (EP (pp (F := F))) : sProp 𝕄) ⊢ |==> bigSep Finset.univ fun d : Dev nD => G (F := F) d := by
  unfold pp G
  refine (Pipeline.fund_ghost (cfgsP (F := F)) EP (cellOfP_inj (F := F))).trans (BI.bupd_mono ?_)
  rw [bigSep_sep']
  refine Idealize.SL.BI.sep_mono (Entails.of_eq (bigSep_congr fun d _ => bigSep_univ_of_subsingleton (0 : Fin 1)))
    (Entails.of_eq (bigSep_congr fun d _ => bigSep_univ_of_subsingleton (0 : Fin 1)))

/-! ## The credit for the arrivals -/

omit [FloatOps F] in
/-- n units at one cell and index, one by one, are n there. -/
theorem sum_units (g : GSem nD τ sig) (ι : HIx 1) : ∀ n : ℕ, ∑ _ : Fin n, tallyAt g ι 1 = (tallyAt g ι n : CellTallies nD τ sig (HIx 1))
  | 0 => by simp
  | n + 1 => by rw [Fin.sum_univ_succ, sum_units g ι n, tallyAt_add, Nat.add_comm]

/-- From the launch on a tile owes its sixteen arrivals at the barrier and nothing else of the kernel's own. -/
theorem oxFrom_V (d : Dev nD) (c : Fin τ.nSC) (i : Fin τ.nSub) : (P (F := F) m).oxFrom 0 (V d c i) = oxV d c := by
  rw [show (0 : ℕ) = (0 : Fin 1).val from rfl, (P m).oxFrom_step, (P m).oxFrom_end _ (n := (0 : Fin 1).val + 1) le_rfl, add_zero]; rfl

omit [FloatOps F] in
/-- The grid's tile numbers are the core's tiles. -/
theorem bigSep_gridTiles (Ψ : Fin τ.nSub → sProp 𝕄) :
    (bigSep Finset.univ fun j : Fin (grid1.bound 1) => Ψ (j.castLE hsub1)) = bigSep Finset.univ Ψ :=
  bigSep_congr fun _ _ => congrArg Ψ (Fin.ext rfl)

/-- The credit for all the arrivals, regrouped by the cell they arrive at: each tile the sixteen units of its own cell
    (one from every tile of its core). -/
theorem arrival_credit : ((P (F := F) m).oxCred : sProp 𝕄)
    ⊢ bigSep Finset.univ fun x : DCI => cred (tallyAt (bcellOf x) (some 0) (grid1.bound 1)) := by
  unfold SparseCore.Cfg.Pay.oxCred
  rw [SparseCore.Cfg.bigSep_threads (fun thr : Thread nD τ => (cred ((P (F := F) m).oxFrom 0 thr) : sProp 𝕄))]
  refine sep_elim_right.trans (sep_elim_right.trans ?_)
  simp only [oxFrom_V]
  rw [bigSep_univ_prod, bigSep_univ_prod (fun x : DCI => (cred (tallyAt (bcellOf x) (some 0) (grid1.bound 1)) : sProp 𝕄))]
  refine bigSep_mono fun d _ => ?_
  rw [bigSep_univ_prod, bigSep_univ_prod (fun ci : Fin τ.nSC × Fin τ.nSub => (cred (tallyAt (bcellOf (d, ci)) (some 0) (grid1.bound 1)) : sProp 𝕄))]
  refine bigSep_mono fun c _ => ?_
  dsimp only
  unfold oxV
  simp only [SparseCore.Cfg.cred_finsum]
  rw [bigSep_univ_comm, ← bigSep_gridTiles (fun i => (cred (tallyAt (bcell d c i) (some 0) (grid1.bound 1)) : sProp 𝕄))]
  refine bigSep_mono fun j _ => ?_
  rw [← SparseCore.Cfg.cred_finsum, sum_units]
  exact BI.Entails.refl _

/-! ## The kits -/

/-- What every tile is handed alike: every barrier cell's invariant, and that each cell has reached round 0. -/
abbrev sharedPart : sProp 𝕄 :=
  iprop((∃ κ : GSem nD τ sig → ℕ, bigSep Finset.univ fun x : DCI => cellInv EB (bRd (F := F) m) (κ (bcellOf x)) (bcellOf x))
    ∗ bigSep Finset.univ fun x : DCI => reached EB (bcellOf x) 0)
/-- What is a tile's own: its cell's position at the origin of round 0, its duty token in each cell of its core, the
    credit for the sixteen units its cell collects. -/
abbrev tilePart (x : DCI) : sProp 𝕄 :=
  iprop(atPos EB (bcellOf x) 0 ∅ 0
    ∗ (bigSep Finset.univ fun j : Fin (grid1.bound 1) => dutyTok EB (bcell x.1 x.2.1 (j.castLE hsub1)) 0 x.2.2.val)
    ∗ cred (tallyAt (bcellOf x) (some 0) (grid1.bound 1)))

/-- One tile's kit: of what all share it keeps the sixteen cells of its own core. -/
theorem kit_of (x : DCI) : iprop(sharedPart (F := F) m ∗ tilePart (F := F) x) ⊢ bkit m x.1 x.2.1 x.2.2 := by
  obtain ⟨d, c, i⟩ := x
  unfold bkit
  iintro ⟨⟨⟨%κ, #Hinv⟩, #Hr⟩, Hat, Htok, Hcred⟩
  isplitr
  · iexists κ
    iapply (bigSep_intro_persistent (S := (Finset.univ : Finset (Fin (grid1.bound 1))))
      (R := bigSep Finset.univ fun x : DCI => cellInv EB (bRd (F := F) m) (κ (bcellOf x)) (bcellOf x))
      (Φ := fun j => cellInv EB (bRd (F := F) m) (κ (bcell d c (j.castLE hsub1))) (bcell d c (j.castLE hsub1)))
      fun j _ => bigSep_elim (Φ := fun x : DCI => (cellInv EB (bRd (F := F) m) (κ (bcellOf x)) (bcellOf x) : sProp 𝕄))
        (i := (d, c, j.castLE hsub1)) (Finset.mem_univ _))
    iexact Hinv
  isplitl [Htok]; · iexact Htok
  isplitr
  · iapply (bigSep_intro_persistent (S := (Finset.univ : Finset (Fin (grid1.bound 1))))
      (R := bigSep Finset.univ fun x : DCI => reached EB (bcellOf x) 0)
      (Φ := fun j => reached EB (bcell d c (j.castLE hsub1)) 0)
      fun j _ => bigSep_elim (Φ := fun x : DCI => (reached EB (bcellOf x) 0 : sProp 𝕄)) (i := (d, c, j.castLE hsub1)) (Finset.mem_univ _))
    iexact Hr
  isplitl [Hat]; · iexact Hat
  iexact Hcred

/-- What the kernel's proof consumes at its call, thread by thread: nothing on the TensorCore and the sequencers, -/
theorem Px_T (d : Dev nD) : (bigSep Finset.univ fun q : Fin 1 => (P (F := F) m).x q (SparseCore.T d)) = iprop(emp) :=
  bigSep_univ_of_subsingleton (0 : Fin 1)
theorem Px_S (d : Dev nD) (c : Fin τ.nSC) : (bigSep Finset.univ fun q : Fin 1 => (P (F := F) m).x q (S d c)) = iprop(emp) :=
  bigSep_univ_of_subsingleton (0 : Fin 1)
/-- the barrier kit on a tile. -/
theorem Px_V (d : Dev nD) (c : Fin τ.nSC) (i : Fin τ.nSub) :
    (bigSep Finset.univ fun q : Fin 1 => (P (F := F) m).x q (V d c i)) = bkit m d c i :=
  bigSep_univ_of_subsingleton (0 : Fin 1)

/-- Every tile its kit. -/
theorem deal_kits :
    iprop(sharedPart (F := F) m ∗ bigSep Finset.univ fun x : DCI => tilePart (F := F) x)
      ⊢ (bigSep Finset.univ fun thr : Thread nD τ => bigSep Finset.univ fun q : Fin 1 => (P (F := F) m).x q thr : sProp 𝕄) := by
  rw [SparseCore.Cfg.bigSep_threads (fun thr : Thread nD τ => bigSep Finset.univ fun q : Fin 1 => (P m).x q thr)]
  simp only [Px_T, Px_S, Px_V, bigSep_emp']
  iintro H
  isplitr; · iempintro
  isplitr; · iempintro
  iapply (bigSep_with_persistent (S := (Finset.univ : Finset DCI)) (R := sharedPart (F := F) m) (Φ := tilePart (F := F))
    (Ψ := fun x : DCI => bkit m x.1 x.2.1 x.2.2) fun x _ => kit_of m x)
  iexact H

theorem hu₀ : iprop(ownU (u₀ (F := F)) ∗ (P (F := F) m).oxCred ∗ (K (F := F)).freeSems0)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P m).x q thr) := by
  iintro ⟨Hu, Hcred, Hfree⟩
  ihave H := (u₀_split (F := F)) $$ Hu
  icases H with ⟨HH, HB, HP⟩
  imod (Rounds.fund EB (bRd (F := F) m) bCells bToks) $$ HB with ⟨Hst, #Hr, Hat, Htok⟩
  imod (staging (F := F)) $$ HP with HG
  ihave Hsems := (barrier_sems (F := F)) $$ Hfree
  imod (barrier_invs (F := F) m) $$ [Hsems Hst] with ⟨%κ, #Hinv⟩
  · isplitl [Hsems] <;> iassumption
  ihave Hcred' := (arrival_credit m) $$ Hcred
  ihave Hinv' := (Entails.of_eq (over_bCells (F := F) fun g => cellInv EB (bRd (F := F) m) (κ g) g)) $$ Hinv
  ihave Hr' := (Entails.of_eq (over_bCells (F := F) fun g => reached EB g 0)) $$ Hr
  ihave Hat' := (Entails.of_eq (over_bCells (F := F) fun g => atPos EB g 0 ∅ 0)) $$ Hat
  ihave Htok' := (Entails.of_eq (over_bToks (F := F))) $$ Htok
  imodintro
  isplitl [HH]; · iexact HH
  isplitl [HG]; · iexact HG
  iapply (deal_kits m)
  isplitr
  · isplitl; · iexists κ; iexact Hinv'
    iexact Hr'
  rw [bigSep_sep', bigSep_sep']
  isplitl [Hat']; · iexact Hat'
  isplitl [Htok']; · iexact Htok'
  iexact Hcred'

end Cert.Proof.LookupB

end
-- ==== Proof.ProjBodyB.lean ====
import proofs.«206855_g20126216749723_cont_sun_m_335_21_alg».proof.Proof.Gen.Kernel.Launch
import proofs.«206855_g20126216749723_cont_sun_m_335_21_alg».proof.Proof.Gen.Kernel.Skeleton
import proofs.«206855_g20126216749723_cont_sun_m_335_21_alg».proof.Proof.Gen.Kernel.Points
import proofs.«206855_g20126216749723_cont_sun_m_335_21_alg».proof.Proof.ProtocolB
import Idealize.ShloMosaic.Lib.Pipeline.FrameBody
import Idealize.ShloMosaic.Lib.Pipeline.Value
import Idealize.ShloMosaic.Lib.Pipeline.Regions
import Idealize.ShloMosaic.Lib.SparseCore.Launch
import Idealize.ShloMosaic.Lib.Tactic

/-!
# The projection table @ W + b on the TensorCore, inside the SparseCore program

The program first computes proj = table @ W + b (shape [8, 128]) on the TensorCore and then gathers rows of
proj.  This module is about the first half alone.  The three operands are staged whole into the TensorCore's
vector memory, the body loads the three staged blocks, forms one matrix product accumulated on a zero block, adds
the bias row broadcast over the eight rows, and stores the sum into the staged result block, which is written back
whole to proj.  The statement proved: the operands are left as they were and proj ends holding the single
pure term projTerm table W b of the three operands.
-/

set_option maxRecDepth 16384

noncomputable section

namespace Cert.Kernel.ProjRegion

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore (T)
open Idealize.ShloMosaic.SparseCore.Cfg (HIx Pay)
open Idealize.ShloMosaic.Pipeline (Dat Cfg Window BodyObligation cellOf)
open Cert.Kernel.Gen
open Cert.Proof.LookupB (projTerm)

variable {F : FTy → Type} [FloatOps F]
variable {U : Type} [URA U]

local notation "𝕄" => MT nD τ sig (HIx 1) (Elt F) ℕ U ℕ

/-! ## The value -/

/-- The body's stored value, written over the values it loads, is that term. -/
theorem k0_pay1_eq (t : Vec F S8x256 .f32) (w : Vec F S256x128 .f32) (r : Vec F S1x128 .f32) : k0_pay1 t w r = projTerm t w r := rfl

/-! ## The body on whole staging blocks -/

theorem zeros2 : (![0, 0] : Fin 2 → Nat) = fun _ => 0 := by funext a; fin_cases a <;> rfl

set_option maxHeartbeats 1000000 in
/-- The body on whole staging blocks, the three operand blocks at contents x0, x1, x2 and the result block at
    anything: it runs to the continuation holding the operand blocks as they were and the result block at
    projTerm x0 x1 x2.  Three whole-block loads, the pure term, one whole-block store. -/
theorem sound_kernel [∀ e, Nonempty (Elt F e)] (c : Dev nD) (E : Set ℕ)
    (arg0 : Memref sig .tc .vmem S8x256 .f32) (harg0 : arg0.IsWhole) (arg1 : Memref sig .tc .vmem S256x128 .f32) (harg1 : arg1.IsWhole)
    (arg2 : Memref sig .tc .vmem S1x128 .f32) (harg2 : arg2.IsWhole) (arg3 : Memref sig .tc .vmem S8x128 .f32) (harg3 : arg3.IsWhole)
    (x0 : Vec F S8x256 .f32) (x1 : Vec F S256x128 .f32) (x2 : Vec F S1x128 .f32) (K : PUnit → sProp 𝕄) :
    iprop(owns (c : Thread nD τ) arg0 fullShare x0 ∗ owns (c : Thread nD τ) arg1 fullShare x1 ∗ owns (c : Thread nD τ) arg2 fullShare x2
        ∗ (∃ d, owns (c : Thread nD τ) arg3 fullShare d)
        ∗ (iprop(owns (c : Thread nD τ) arg0 fullShare x0 ∗ owns (c : Thread nD τ) arg1 fullShare x1 ∗ owns (c : Thread nD τ) arg2 fullShare x2
            ∗ owns (c : Thread nD τ) arg3 fullShare (projTerm x0 x1 x2)) -∗ K ⟨⟩))
      ⊢ wp frame (wpE (defs₀ (F := F)) Variants.none c none) E (cc0__proj_body arg0 harg0 arg1 harg1 arg2 harg2 arg3 harg3) K := by
  simp only [cc0__proj_body_eq_skeleton]; unfold cc0__proj_body_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  rw [View.read_writes_eq_canon _ _ _ (fun y => ⟨_, List.mem_singleton_self _, View.mem_set_unit_zero zeros2 inb_S8x128_S8x128_0_0 y⟩), View.canon_unit_zero zeros2]
  show k0_pay1 (View.ld (View.read (Elt F) arg0.view f0) (Rect.unit ![0, 0] S8x256.size inb_S8x256_S8x256_0_0))
      (View.ld (View.read (Elt F) arg1.view f1) (Rect.unit ![0, 0] S256x128.size inb_S256x128_S256x128_0_0))
      (View.ld (View.read (Elt F) arg2.view f2) (Rect.unit ![0, 0] S1x128.size inb_S1x128_S1x128_0_0)) = _
  rw [View.ld_unit_zero zeros2, View.ld_unit_zero zeros2, View.ld_unit_zero zeros2, k0_pay1_eq]

end Cert.Kernel.ProjRegion

end
-- ==== Proof.ProjRegionB.lean ====
import proofs.«206855_g20126216749723_cont_sun_m_335_21_alg».proof.Proof.ProjBodyB

/-!
# The projection region as one step of the TensorCore's program

The region stages the three operands whole, runs the body once (the grid has one point) and writes the staged
result block back whole.  Here the staged run is assembled from the body's triple: the proof data say that each
operand block is the operand array itself, that the result block is the one pure term of the three operands, and the
region step hands back the operands unchanged and the result array at that term.
-/

set_option maxRecDepth 16384

noncomputable section

namespace Cert.Kernel.ProjRegion

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore (T)
open Idealize.ShloMosaic.SparseCore.Cfg (HIx Pay)
open Idealize.ShloMosaic.Pipeline (Dat Cfg Window BodyObligation cellOf)
open Cert.Kernel.Gen
open Cert.Proof.LookupB (projTerm)

variable {F : FTy → Type} [FloatOps F]
variable {U : Type} [URA U]

local notation "𝕄" => MT nD τ sig (HIx 1) (Elt F) ℕ U ℕ

/-- The SparseCore configuration of the program, at the float instance. -/
abbrev K : SparseCore.Cfg τ sig (Pipeline.Sig Λ₀ (Fin 1) fun p => (pcfgs (F := F) p).Adm) 1 := sc (F := F)

/-! ## The proof data: what is staged, what the body leaves, what is written back -/

section Data

variable (tA : (c : Dev nD) → Buf (Elt F) ((c : Thread nD τ).loc main_arg1))
  (wA : (c : Dev nD) → Buf (Elt F) ((c : Thread nD τ).loc main_arg2))
  (rA : (c : Dev nD) → Buf (Elt F) ((c : Thread nD τ).loc main_v0))
  (oA : (c : Dev nD) → Buf (Elt F) ((c : Thread nD τ).loc main_v1))

/-- The entry contents of the four staged arrays on device c. -/
def entryOf (c : Dev nD) : (w : Fin cfg0.W) → Buf (Elt F) ((cfg0.win w).arr.view.loc (c : Thread nD τ))
  | ⟨0, _⟩ => tA c
  | ⟨1, _⟩ => wA c
  | ⟨2, _⟩ => rA c
  | ⟨3, _⟩ => oA c

/-- An operand window's block at the one point, read off its array. -/
def iblk (c : Dev nD) (w : Fin cfg0.W) (t : Fin cfg0.N) : ((cfg0.win w).xblock (cfg0.grid.coords t)).Idx → Elt F (cfg0.win w).elt :=
  ((cfg0.win w).blk t).view.read (Elt F) (entryOf tA wA rA oA c w)

/-- The proof data of the pipeline on device c: the arrays at their entry contents; after the body each operand block as
    staged and the result block at the term of the three operand blocks; no invariant of the body's own; full shares; the
    TensorCore owes throughout what it owes before the first SparseCore call, and has recorded only pairs at level 0. -/
def dat (c : Dev nD) : Dat τ (Elt F) (HIx 1) ℕ U ℕ cfg0 c where
  A w := entryOf tA wA rA oA c w
  after w t := match w with
    | ⟨0, _⟩ => iblk tA wA rA oA c 0 t
    | ⟨1, _⟩ => iblk tA wA rA oA c 1 t
    | ⟨2, _⟩ => iblk tA wA rA oA c 2 t
    | ⟨3, _⟩ => projTerm (iblk tA wA rA oA c 0 t) (iblk tA wA rA oA c 1 t) (iblk tA wA rA oA c 2 t)
  Φ _ := iprop(emp)
  q _ := fullShare
  owed _ := (K (F := F)).Otc c 0
  recorded _ := {p | (K (F := F)).lev ((T c : Thread nD τ), p.1) p.2 ≤ 0}

theorem A_eq (c : Dev nD) (w : Fin cfg0.W) : (dat (U := U) tA wA rA oA c).A w = entryOf tA wA rA oA c w := by dsimp only [dat]
theorem after0 (c : Dev nD) (t : Fin cfg0.N) : (dat (U := U) tA wA rA oA c).after 0 t = iblk tA wA rA oA c 0 t := by dsimp only [dat]
theorem after1 (c : Dev nD) (t : Fin cfg0.N) : (dat (U := U) tA wA rA oA c).after 1 t = iblk tA wA rA oA c 1 t := by dsimp only [dat]
theorem after2 (c : Dev nD) (t : Fin cfg0.N) : (dat (U := U) tA wA rA oA c).after 2 t = iblk tA wA rA oA c 2 t := by dsimp only [dat]
theorem after3 (c : Dev nD) (t : Fin cfg0.N) : (dat (U := U) tA wA rA oA c).after 3 t
    = projTerm (iblk tA wA rA oA c 0 t) (iblk tA wA rA oA c 1 t) (iblk tA wA rA oA c 2 t) := by dsimp only [dat]

/-- Each operand window is fetched at the point, whole: the body finds the operand's block. -/
theorem before0 (c : Dev nD) (t : Fin cfg0.N) (d) : (dat (U := U) tA wA rA oA c).before 0 t d = iblk tA wA rA oA c 0 t := by
  unfold Dat.before; rw [if_pos (fetch0_0 t)]; rfl
theorem before1 (c : Dev nD) (t : Fin cfg0.N) (d) : (dat (U := U) tA wA rA oA c).before 1 t d = iblk tA wA rA oA c 1 t := by
  unfold Dat.before; rw [if_pos (fetch0_1 t)]; rfl
theorem before2 (c : Dev nD) (t : Fin cfg0.N) (d) : (dat (U := U) tA wA rA oA c).before 2 t d = iblk tA wA rA oA c 2 t := by
  unfold Dat.before; rw [if_pos (fetch0_2 t)]; rfl

/-! ## The body obligation -/

/-- What the body is called with at the point, the windows one by one, -/
def bodyPre (c : Dev nD) (t : Fin cfg0.N) : sProp 𝕄 :=
  iprop((dat (U := U) tA wA rA oA c).Φ t.castSucc ∗ (dat (U := U) tA wA rA oA c).owesAt none t.castSucc
    ∗ (∃ d, owns (c : Thread nD τ) (st0_0 t) fullShare ((dat (U := U) tA wA rA oA c).before 0 t d))
    ∗ (∃ d, owns (c : Thread nD τ) (st0_1 t) fullShare ((dat (U := U) tA wA rA oA c).before 1 t d))
    ∗ (∃ d, owns (c : Thread nD τ) (st0_2 t) fullShare ((dat (U := U) tA wA rA oA c).before 2 t d))
    ∗ (∃ d, owns (c : Thread nD τ) (st0_3 t) fullShare ((dat (U := U) tA wA rA oA c).before 3 t d)))

/-- and what it returns. -/
def bodyPost (c : Dev nD) (t : Fin cfg0.N) : sProp 𝕄 :=
  iprop((dat (U := U) tA wA rA oA c).Φ t.succ ∗ (dat (U := U) tA wA rA oA c).owesAt none t.succ
    ∗ owns (c : Thread nD τ) (st0_0 t) fullShare ((dat (U := U) tA wA rA oA c).after 0 t)
    ∗ owns (c : Thread nD τ) (st0_1 t) fullShare ((dat (U := U) tA wA rA oA c).after 1 t)
    ∗ owns (c : Thread nD τ) (st0_2 t) fullShare ((dat (U := U) tA wA rA oA c).after 2 t)
    ∗ owns (c : Thread nD τ) (st0_3 t) fullShare ((dat (U := U) tA wA rA oA c).after 3 t))

/-- The body at the point: the operand blocks are the operands' (before0 … before2), so the body's triple applies; the
    invariant and what the TensorCore owes pass through unread. -/
theorem sound_body [∀ e, Nonempty (Elt F e)] (c : Dev nD) (t : Fin cfg0.N) :
    bodyPre (U := U) tA wA rA oA c t ⊢ wp frame (wpE (defs₀ (F := F)) Variants.none c none) Set.univ (bodyAt0 t) (fun _ => bodyPost (U := U) tA wA rA oA c t) := by
  unfold bodyPre bodyPost bodyAt0
  simp only [before0, before1, before2]
  rw [show (dat (U := U) tA wA rA oA c).Φ t.succ = (dat (U := U) tA wA rA oA c).Φ t.castSucc from rfl,
    show (dat (U := U) tA wA rA oA c).owesAt none t.succ = (dat (U := U) tA wA rA oA c).owesAt none t.castSucc from rfl,
    after0, after1, after2, after3]
  iintro ⟨HΦ, Ho, ⟨%d0, H0⟩, ⟨%d1, H1⟩, ⟨%d2, H2⟩, ⟨%d3, H3⟩⟩
  iapply (sound_kernel c Set.univ _ _ _ _ _ _ _ _ (iblk tA wA rA oA c 0 t) (iblk tA wA rA oA c 1 t) (iblk tA wA rA oA c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at the one point. -/
theorem body_obligation [∀ e, Nonempty (Elt F e)] (c : Dev nD) :
    BodyObligation (dat (U := U) tA wA rA oA c) (defs₀ (F := F)) Variants.none none Set.univ := fun t => by
  rw [bigSep_W0, bigSep_W0]
  exact sound_body tA wA rA oA c t

end Data

/-! ## With no grid, a block is its whole array -/

section Blocks

/-- The block's index into the array is the index itself: the index map is constantly zero. -/
theorem blk_emb0 (t : Fin cfg0.N) (j : S8x256.Idx) : ((cfg0.win 0).blk t).view.emb j = j := by
  funext a; apply Fin.ext
  match a with
  | ⟨0, _⟩ => show win0_0.index t (0 : Fin 2) * 8 + 1 * (j 0).val = (j 0).val; have h : win0_0.index t (0 : Fin 2) = 0 := rfl; omega
  | ⟨1, _⟩ => show win0_0.index t (1 : Fin 2) * 256 + 1 * (j 1).val = (j 1).val; have h : win0_0.index t (1 : Fin 2) = 0 := rfl; omega
theorem blk_emb1 (t : Fin cfg0.N) (j : S256x128.Idx) : ((cfg0.win 1).blk t).view.emb j = j := by
  funext a; apply Fin.ext
  match a with
  | ⟨0, _⟩ => show win0_1.index t (0 : Fin 2) * 256 + 1 * (j 0).val = (j 0).val; have h : win0_1.index t (0 : Fin 2) = 0 := rfl; omega
  | ⟨1, _⟩ => show win0_1.index t (1 : Fin 2) * 128 + 1 * (j 1).val = (j 1).val; have h : win0_1.index t (1 : Fin 2) = 0 := rfl; omega
theorem blk_emb2 (t : Fin cfg0.N) (j : S1x128.Idx) : ((cfg0.win 2).blk t).view.emb j = j := by
  funext a; apply Fin.ext
  match a with
  | ⟨0, _⟩ => show win0_2.index t (0 : Fin 2) * 1 + 1 * (j 0).val = (j 0).val; have h : win0_2.index t (0 : Fin 2) = 0 := rfl; omega
  | ⟨1, _⟩ => show win0_2.index t (1 : Fin 2) * 128 + 1 * (j 1).val = (j 1).val; have h : win0_2.index t (1 : Fin 2) = 0 := rfl; omega
theorem blk_emb3 (t : Fin cfg0.N) (j : S8x128.Idx) : ((cfg0.win 3).blk t).view.emb j = j := by
  funext a; apply Fin.ext
  match a with
  | ⟨0, _⟩ => show win0_3.index t (0 : Fin 2) * 8 + 1 * (j 0).val = (j 0).val; have h : win0_3.index t (0 : Fin 2) = 0 := rfl; omega
  | ⟨1, _⟩ => show win0_3.index t (1 : Fin 2) * 128 + 1 * (j 1).val = (j 1).val; have h : win0_3.index t (1 : Fin 2) = 0 := rfl; omega

end Blocks

/-! ## What the arrays hold after the region -/

section Values

variable (tA : (c : Dev nD) → Buf (Elt F) ((c : Thread nD τ).loc main_arg1))
  (wA : (c : Dev nD) → Buf (Elt F) ((c : Thread nD τ).loc main_arg2))
  (rA : (c : Dev nD) → Buf (Elt F) ((c : Thread nD τ).loc main_v0))
  (oA : (c : Dev nD) → Buf (Elt F) ((c : Thread nD τ).loc main_v1))

/-- Each operand's block is the operand. -/
theorem iblk0 (c : Dev nD) (t : Fin cfg0.N) : iblk tA wA rA oA c 0 t = tA c := by
  funext j; show tA c (((cfg0.win 0).blk t).view.emb j) = tA c j; rw [blk_emb0]
theorem iblk1 (c : Dev nD) (t : Fin cfg0.N) : iblk tA wA rA oA c 1 t = wA c := by
  funext j; show wA c (((cfg0.win 1).blk t).view.emb j) = wA c j; rw [blk_emb1]
theorem iblk2 (c : Dev nD) (t : Fin cfg0.N) : iblk tA wA rA oA c 2 t = rA c := by
  funext j; show rA c (((cfg0.win 2).blk t).view.emb j) = rA c j; rw [blk_emb2]

/-- The operands are never written. -/
theorem arr0 (c : Dev nD) (n : Nat) : (dat (U := U) tA wA rA oA c).arrAt 0 n = tA c := (dat (U := U) tA wA rA oA c).arrAt_in 0 rfl n
theorem arr1 (c : Dev nD) (n : Nat) : (dat (U := U) tA wA rA oA c).arrAt 1 n = wA c := (dat (U := U) tA wA rA oA c).arrAt_in 1 rfl n
theorem arr2 (c : Dev nD) (n : Nat) : (dat (U := U) tA wA rA oA c).arrAt 2 n = rA c := (dat (U := U) tA wA rA oA c).arrAt_in 2 rfl n

/-- What the point writes back is the whole of the term of the three operands. -/
theorem flushed3_eq (c : Dev nD) (t : Fin cfg0.N) :
    (dat (U := U) tA wA rA oA c).flushed 3 t = ((cfg0.win 3).blk t).view.read (Elt F) (projTerm (tA c) (wA c) (rA c)) := by
  show (cfg0.win 3).cut (grid0.coords t) ((dat (U := U) tA wA rA oA c).after 3 t) = _
  rw [after3, iblk0, iblk1, iblk2]
  funext j
  show projTerm (tA c) (wA c) (rA c) j = projTerm (tA c) (wA c) (rA c) (((cfg0.win 3).blk t).view.emb j)
  rw [blk_emb3]

/-- The result array after the region: the term of the three operands (the one block written back is the array). -/
theorem final3 (c : Dev nD) : (dat (U := U) tA wA rA oA c).arrAt 3 cfg0.N = projTerm (tA c) (wA c) (rA c) :=
  (dat (U := U) tA wA rA oA c).arrAt_eq_of_cover 3 _ (fun t _ => flushed3_eq tA wA rA oA c t) (fun i => ⟨t0_0, flush0_3 t0_0, by
    have h := ((cfg0.win 3).blk t0_0).view.emb_mem_set i
    rwa [blk_emb3] at h⟩)

end Values

/-- The pipeline's configurations at the one admissible contents: no prefetched table. -/
abbrev cfgsP : Fin 1 → Pipeline.Cfg sig Λ₀ := Pipeline.pin (pcfgs (F := F)) (fun p => (cfgs p).toPCfg_adm)

/-- A points-to at equal contents. -/
theorem pts_congr {ℓ : Loc nD τ sig} {f g : Buf (Elt F) ℓ} (h : f = g) : (ℓ ↦{fullShare} f : sProp 𝕄) ⊢ ℓ ↦{fullShare} g := by
  rw [h]

/-! ## The region as a step of the TensorCore's program -/

section Region

variable (tA : (c : Dev nD) → Buf (Elt F) ((c : Thread nD τ).loc main_arg1))
  (wA : (c : Dev nD) → Buf (Elt F) ((c : Thread nD τ).loc main_arg2))
  (rA : (c : Dev nD) → Buf (Elt F) ((c : Thread nD τ).loc main_v0))
  (oA : (c : Dev nD) → Buf (Elt F) ((c : Thread nD τ).loc main_v1))

/-- Nothing the TensorCore owes the launch protocol sits at the index of a kernel's own waits. -/
theorem Otc_none (c : Dev nD) (n : ℕ) (g : GSem nD τ sig) : (K (F := F)).Otc c n g none = 0 := by
  by_contra h
  have := SparseCore.Cfg.lev_of_Otc_pos (K := K (F := F)) (Nat.pos_of_ne_zero h)
  rw [SparseCore.Cfg.lev_none] at this; omega

/-- What the TensorCore owes, with its recorded waits all at level 0: the first conjunct of its state before the first
    SparseCore call. -/
abbrev owesPart (c : Dev nD) : sProp 𝕄 :=
  iprop(∃ W, ⌜(K (F := F)).WBelow (T c) W (8 * 0)⌝ ∗ owes (T c) ((K (F := F)).Otc c 0) W)

/-- The four arrays before the region, -/
abbrev arrPre (c : Dev nD) : sProp 𝕄 :=
  iprop(((T c : Thread nD τ).loc main_arg1 ↦{fullShare} tA c) ∗ ((T c : Thread nD τ).loc main_arg2 ↦{fullShare} wA c)
    ∗ ((T c : Thread nD τ).loc main_v0 ↦{fullShare} rA c) ∗ ((T c : Thread nD τ).loc main_v1 ↦{fullShare} oA c))
/-- and after it. -/
abbrev arrPost (c : Dev nD) : sProp 𝕄 :=
  iprop(((T c : Thread nD τ).loc main_arg1 ↦{fullShare} tA c) ∗ ((T c : Thread nD τ).loc main_arg2 ↦{fullShare} wA c)
    ∗ ((T c : Thread nD τ).loc main_v0 ↦{fullShare} rA c) ∗ ((T c : Thread nD τ).loc main_v1 ↦{fullShare} projTerm (tA c) (wA c) (rA c)))

theorem share_full (c : Dev nD) (w : Fin cfg0.W) : (dat (U := U) tA wA rA oA c).share w = fullShare :=
  (dat (U := U) tA wA rA oA c).share_full (fun _ => rfl) w

/-- The region's record: the layout facts, no semaphore of the kernel's own, the body obligation, the wait evidence
    (the staging cells are waited on at index none, below everything the TensorCore owes), and the entry and exit
    entailments between the thread's state and the pipeline's. -/
def seg [∀ e, Nonempty (Elt F e)] {lv : GSem nD τ sig → HIx 1 → ℕ} (hlv : (K (F := F)).Refines lv) :
    Pipeline.RegionSeg (Name := ℕ) (U := U) (pcfgs (F := F)) (fun p => (cfgs p).toPCfg_adm) (fun _ c => dat (U := U) tA wA rA oA c) none
      (defs₀ (F := F)) Variants.none (K (F := F)).L lv (0 : Fin 1) where
  win := winFacts0.to₀
  block_pos := block_pos0
  stage_whole := stage_whole0
  K := PEmpty
  osem := fun k => k.elim
  ho := Pipeline.OwnSemFacts.none _
  hbody c := (body_obligation tA wA rA oA c).loose
  hwaits c := Pipeline.cellsWaits_intro _ _ none 0 c fun w s t =>
    (K (F := F)).mayWait_none _ (Otc_none c 0) lv hlv
  pre c := iprop(owesPart c ∗ arrPre tA wA rA oA c)
  post c := iprop(owesPart c ∗ arrPost tA wA rA c)
  X _ := iprop(emp)
  Y _ := iprop(emp)
  Z _ := iprop(emp)
  hentry c := by
    rw [Pipeline.arrays_eq (cfgsP (F := F)) (fun _ c => dat (U := U) tA wA rA oA c) 0 c arr_whole0 (share_full tA wA rA oA c), bigSep_W0]
    iintro ⟨⟨⟨%W, %hW, HO⟩, H1, H2, H3, H4⟩, -, -⟩
    imodintro
    isplitl [H1 H2 H3 H4]
    · isplitl [H1]; · iexact H1
      isplitl [H2]; · iexact H2
      isplitl [H3]; · iexact H3
      iexact H4
    isplitr
    · unfold Pipeline.prefHeld; rw [Finset.univ_eq_empty, BI.bigSep_empty]; iempintro
    isplitl [HO]
    · iexists W; isplitr
      · ipureintro; exact fun p hp => Or.inl (hW p hp)
      iexact HO
    isplitr <;> iempintro
  hin c := by
    iintro -; iempintro
  hout c := by
    rw [Pipeline.ownSems0_none, scopedRest0_eq]
    iintro -
    isplitr; · iempintro
    isplitr <;> iempintro
  hexit c := by
    rw [Pipeline.arrays_eq (cfgsP (F := F)) (fun _ c => dat (U := U) tA wA rA oA c) 0 c arr_whole0 (share_full tA wA rA oA c), bigSep_W0]
    iintro ⟨⟨H1, H2, H3, H4⟩, ⟨%W, %hW, HO⟩, -, -⟩
    imodintro
    isplitl [HO]
    · iexists W; isplitr
      · ipureintro
        intro p hp
        rcases hW (Finset.mem_coe.mpr hp) with h | ⟨w, s, rfl⟩
        · exact h
        · exact Nat.le_of_eq rfl
      iexact HO
    isplitl [H1]; · iapply (pts_congr (arr0 tA wA rA oA c cfg0.N)); iexact H1
    isplitl [H2]; · iapply (pts_congr (arr1 tA wA rA oA c cfg0.N)); iexact H2
    isplitl [H3]; · iapply (pts_congr (arr2 tA wA rA oA c cfg0.N)); iexact H3
    iapply (pts_congr (final3 tA wA rA oA c)); iexact H4

end Region

/-! ## The region lemma -/

section Lemma

variable (tA : (c : Dev nD) → Buf (Elt F) ((c : Thread nD τ).loc main_arg1))
  (wA : (c : Dev nD) → Buf (Elt F) ((c : Thread nD τ).loc main_arg2))
  (rA : (c : Dev nD) → Buf (Elt F) ((c : Thread nD τ).loc main_v0))
  (oA : (c : Dev nD) → Buf (Elt F) ((c : Thread nD τ).loc main_v1))

/-- The projection region on the TensorCore of device d, inside the SparseCore program.  Holding the launch protocol's
    records, the TensorCore's state before the first SparseCore call, its region-boundary holdings, the staging cells'
    ghost state and duty tokens, and the four arrays whole (the operands at tA d, wA d, rA d, the result at anything):
    the region call ends with all of it given back, the operands as they were and the result array at
    projTerm (tA d) (wA d) (rA d). -/
theorem wp_projRegion_fam [∀ e, Nonempty (Elt F e)]
    (EH : Emb (URounds (GSem nD τ sig) ℕ) (MT nD τ sig (HIx 1) (Elt F) ℕ U ℕ))
    (EP : Emb (URounds (GSem nD τ sig) Unit) (MT nD τ sig (HIx 1) (Elt F) ℕ U ℕ)) [EP.LandsIn (upEmb : UEmb _ 𝕄)]
    (P : (K (F := F)).Pay (nD := nD) (Val := Elt F) (Name := ℕ) (U := U))
    {lv : GSem nD τ sig → HIx 1 → ℕ} (hlv : (K (F := F)).Refines lv) (κ : GSem nD τ sig → ℕ) (d : Dev nD) (Φ : PUnit → sProp 𝕄) :
    iprop((K (F := F)).ctx EH P κ lv ∗ (K (F := F)).tcSt EH d 0 ∗ boundary (T d : Thread nD τ)
        ∗ Pipeline.cellsGhost (cfgsP (F := F)) EP 0 d ∗ Pipeline.toksInit (cfgsP (F := F)) EP 0 d
        ∗ arrPre tA wA rA oA d
        ∗ (iprop((K (F := F)).tcSt EH d 0 ∗ boundary (T d : Thread nD τ) ∗ arrPost tA wA rA d) -∗ Φ ⟨⟩))
      ⊢ wp frame (wpE ((K (F := F)).defs (Pipeline.defs pcfgs defs₀)) Variants.none.lift (T d) none) Set.univ
          (Prog.lift (.customCall (SparseCore.inner (Pipeline.entry 0)) ())) Φ := by
  have hR := Pipeline.RegionSeg.wp (pcfgs (F := F)) (fun p => (cfgs p).toPCfg_adm) (fun _ c => dat (U := U) tA wA rA oA c) none cellOf_inj EP
    (defs₀ (F := F)) Variants.none (K (F := F)).L lv (seg tA wA rA oA hlv) d none (fun u h => nomatch h) (fun x => .ret x) Φ
  rw [show (seg (U := U) tA wA rA oA hlv).post d = iprop(owesPart d ∗ arrPost tA wA rA d) from rfl,
    show (seg (U := U) tA wA rA oA hlv).pre d = iprop(owesPart d ∗ arrPre tA wA rA oA d) from rfl] at hR
  unfold SparseCore.Cfg.tcSt
  iintro ⟨#Hctx, ⟨HO, Hrest⟩, Hbd, Hg, Ht, Harr, Hk⟩
  iapply ((K (F := F)).wp_liftProg (Pipeline.defs pcfgs defs₀) Variants.none.lift (T d) Set.univ none
    (Prog.lift (.customCall (Pipeline.entry 0) ())) Φ)
  iapply hR
  isplitl [Hk Hrest]
  · iintro ⟨Hbd, HO, Harr⟩
    rw [wp_ret]; imodintro
    iapply Hk
    isplitl [HO Hrest]; · isplitl [HO] <;> iassumption
    isplitl [Hbd] <;> iassumption
  isplitl [Hbd]; · iexact Hbd
  isplitl [HO Harr]; · isplitl [HO] <;> iassumption
  isplitr; · iapply (SparseCore.Cfg.ctx_levAts (K := K (F := F)) (EH := EH) (P := P) κ); iexact Hctx
  isplitl [Hg] <;> iassumption

end Lemma

end Cert.Kernel.ProjRegion

end
-- ==== Proof.PreOKB.lean ====
/- What the precondition says of the integer input, in the form the kernel's proof uses it: every one of the 16384
   index words, read as a natural number, is below 8 — it names a row of the 8-row table, and of its projection. -/
import proofs.«206855_g20126216749723_cont_sun_m_335_21_alg».proof.Proof.ProtocolB

namespace Cert.Proof.LookupB

open Cert.Kernel Idealize.ShloMosaic

variable {F : FTy → Type}

/-- Every index word of the launch memory names a row of the table. -/
def PreOK (m : (ℓ : Loc nD τ sig) → Buf (Elt F) ℓ) : Prop :=
  ∀ (d : Dev nD) (i : Fin 16384), (m (xLoc d) (ValueIdx.ix1 i)).toNat < 8

end Cert.Proof.LookupB
-- ==== Proof.TileSetupB.lean ====
/-
  A tile's share of the launch, opened.

  Tile (c, s) of the 2 x 16 grid is worker w = 2 s + c. Of the arrays in HBM it touches rows 4 w .. 4 w + 3 of the
  128 x 128 index array (its 512 words) and, for r = 0 .. 7, rows 512 w + 64 r .. 512 w + 64 r + 63 of the result (its
  chunk 8 w + r of the 256 chunks of 64 rows): the rectangles the program cuts out at the offsets it computes from the
  grid coordinates are exactly those blocks. Of the semaphores it owns eleven that the program uses: one per chunk for
  the eight gathers, one for the copies out, one for the fetch of its index words, one for tile 0's copy of the
  projected table; and of the buffers, its index scratch and its row buffer. What the sequencer hands a tile at its start
  and takes back at its end is stated here over the worker's number.
-/
import proofs.«206855_g20126216749723_cont_sun_m_335_21_alg».proof.Proof.ProtocolB
import proofs.«206855_g20126216749723_cont_sun_m_335_21_alg».proof.Proof.Gen.Kernel.Skeleton

noncomputable section

namespace Cert.Proof.LookupB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

variable (m : (ℓ : Loc nD τ sig) → Buf (Elt F) ℓ) (ρ : Dev nD → PrngReg)

variable [FloatOps F]

local notation "pV" => (Memref.whole Cert.Kernel.main_v1_scv : Memref Cert.Kernel.sig Kind.scVector Space.hbm Cert.Kernel.S8x128 EltTy.f32)
local notation "iV" => (Memref.whole Cert.Kernel.main_v2_scv : Memref Cert.Kernel.sig Kind.scVector Space.hbm Cert.Kernel.S128x128 EltTy.i32)
local notation "oV" => (Memref.whole Cert.Kernel.main_v3_scv : Memref Cert.Kernel.sig Kind.scVector Space.hbm Cert.Kernel.S16384x128 EltTy.f32)
local notation "xS" => (Memref.whole Cert.Kernel.cc1_scratch0 : Memref Cert.Kernel.sig Kind.scVector Space.vmem Cert.Kernel.S4x128 EltTy.i32)
local notation "shV" => (Memref.whole Cert.Kernel.cc1_scratch1 : Memref Cert.Kernel.sig Kind.scVector Space.shared Cert.Kernel.S8x128 EltTy.f32)
local notation "rS" => (Memref.whole Cert.Kernel.cc1_scratch2 : Memref Cert.Kernel.sig Kind.scVector Space.vmem Cert.Kernel.S512x128 EltTy.f32)

section Tile

variable (d : Dev nD) (L : grid1.Coords)

/-- The tile's SparseCore and subcore, as the topology numbers them, and its thread. -/
abbrev cV (L : grid1.Coords) : Fin τ.nSC := (L 0).castLE hcore1
abbrev jV (L : grid1.Coords) : Fin τ.nSub := (L 1).castLE hsub1
abbrev thr (d : Dev nD) (L : grid1.Coords) : Thread nD τ := V d (cV L) (jV L)
omit [FloatOps F] in
theorem bound_zero : grid1.bound 0 = 2 := rfl
omit [FloatOps F] in
theorem bound_one : grid1.bound 1 = 16 := rfl
/-- The same two coordinates as numbers below 2 and 16, and the worker's number 2 s + c. -/
abbrev cL (L : grid1.Coords) : Fin 2 := Fin.cast bound_zero (L 0)
abbrev jL (L : grid1.Coords) : Fin 16 := Fin.cast bound_one (L 1)
abbrev wL (L : grid1.Coords) : Fin 32 := worker (cL L) (jL L)

/-- The tile's four rows of the index array, and chunk r of its rows of the result, as the program cuts them out. -/
abbrev iRowK (L : grid1.Coords) : Memref sig .scVector .hbm S4x128 .i32 :=
  (iV).slice (Rect.unit (s := S128x128) (k1_off1 L) S4x128.size (k1_off1_inb L)) (fun _ => rfl)
abbrev oChunkK (L : grid1.Coords) (r : Fin 8) : Memref sig .scVector .hbm S64x128 .f32 :=
  (oV).slice (Rect.unit (s := S16384x128) (k1_off2 L (BitVec.ofNat 32 (64 * r.val))) S64x128.size (k1_off2_inb L r)) (fun _ => rfl)

omit [FloatOps F] in
/-- The rows the program cuts out of the index array are worker w's block of four rows. -/
theorem set_iRowK : (iRowK L).view.set = iSet (wL L) := by
  show ((View.whole main_v2_scv : View sig .scVector _ _ _).slice (Rect.unit (s := S128x128) (k1_off1 L) S4x128.size (k1_off1_inb L))).set = (iBlock (wL L)).set
  rw [View.set_slice_whole]
  ext i
  rw [Rect.mem_set_unit, Rect.mem_set_unit, k1_off1_eq]
  refine forall_congr' fun a => ?_
  have h0 := (L 0).isLt
  have h1 := (L 1).isLt
  fin_cases a <;> simp [Shape.partIx, Shape.partSize, worker] <;> omega
omit [FloatOps F] in
/-- The rows the program cuts out of the result for chunk r are chunk 8 w + r. -/
theorem set_oChunkK (r : Fin 8) : (oChunkK L r).view.set = oChunkSet (chunkOf (wL L) r) := by
  show ((View.whole main_v3_scv : View sig .scVector _ _ _).slice (Rect.unit (s := S16384x128) (k1_off2 L (BitVec.ofNat 32 (64 * r.val))) S64x128.size (k1_off2_inb L r))).set = (oChunk (chunkOf (wL L) r)).set
  rw [View.set_slice_whole]
  ext i
  rw [Rect.mem_set_unit, Rect.mem_set_unit, k1_off2_eq]
  refine forall_congr' fun a => ?_
  have h0 := (L 0).isLt
  have h1 := (L 1).isLt
  have hr := r.isLt
  fin_cases a <;> simp [Shape.partIx, Shape.partSize, worker, chunkOf] <;> omega

omit [FloatOps F] in
theorem pts_iRowK (q : PosShare TreeShare) (f : Buf (Elt F) (iLoc d)) :
    ((iRowK L).view.loc (thr d L) ↦[(iRowK L).view.set]{q} f : sProp 𝕄) = iLoc d ↦[iSet (wL L)]{q} f := by
  rw [set_iRowK]
omit [FloatOps F] in
theorem pts_oChunkK (r : Fin 8) (f : Buf (Elt F) (oLoc d)) :
    ((oChunkK L r).view.loc (thr d L) ↦[(oChunkK L r).view.set]{fullShare} f : sProp 𝕄) = oLoc d ↦[oChunkSet (chunkOf (wL L) r)]{fullShare} f := by
  rw [set_oChunkK]
omit [FloatOps F] in
theorem pts_pV (q : PosShare TreeShare) (f : Buf (Elt F) (pLoc d)) :
    ((pV).view.loc (thr d L) ↦{q} f : sProp 𝕄) = pLoc d ↦{q} f := rfl
omit [FloatOps F] in
theorem pts_shV (q : PosShare TreeShare) (f : Buf (Elt F) (shLoc d (cV L))) :
    ((shV).view.loc (thr d L) ↦{q} f : sProp 𝕄) = shLoc d (cV L) ↦{q} f := rfl

/-- The tile's eleven DMA cells: one per chunk for the gathers, the copies' out, the index fetch's, and the one of
    tile 0's copy of the projected table. -/
abbrev gsemCell (d : Dev nD) (L : grid1.Coords) (r : Fin 8) : GSem nD τ sig :=
  (thr d L, SemLoc.dma (SemArray.squeeze (SemArray.slice cc1_scratch3 (Rect.unit (s := S8) ![r.val] S1.size (by decide +revert))) S_ squeezes_S1_S_).sem)
abbrev ssemCell (d : Dev nD) (L : grid1.Coords) : GSem nD τ sig := (thr d L, SemLoc.dma cc1_scratch4.sem)
abbrev isemCell (d : Dev nD) (L : grid1.Coords) : GSem nD τ sig := (thr d L, SemLoc.dma cc1_scratch5.sem)
abbrev psemCell (d : Dev nD) (L : grid1.Coords) : GSem nD τ sig := (thr d L, SemLoc.dma cc1_scoped0.sem)

/-- Chunk r's gather semaphore, apart from any tile. -/
abbrev gsemLoc (r : Fin 8) : SemLoc sig :=
  SemLoc.dma (SemArray.squeeze (SemArray.slice cc1_scratch3 (Rect.unit (s := S8) ![r.val] S1.size (by decide +revert))) S_ squeezes_S1_S_).sem

/-- The eleven semaphores are scoped ones of a vector subcore, and no two of them are the same. -/
theorem gsemLoc_scoped : ∀ r : Fin 8, (gsemLoc r).isScoped .scVector = true := by decide
theorem gsemLoc_ne_isem : ∀ r : Fin 8, gsemLoc r ≠ SemLoc.dma cc1_scratch5.sem := by decide
theorem gsemLoc_ne_psem : ∀ r : Fin 8, gsemLoc r ≠ SemLoc.dma cc1_scoped0.sem := by decide
theorem gsemLoc_ne_ssem : ∀ r : Fin 8, gsemLoc r ≠ SemLoc.dma cc1_scratch4.sem := by decide
theorem gsemLoc_injective : ∀ r r' : Fin 8, gsemLoc r = gsemLoc r' → r = r' := by decide
theorem psem_ne_isem : (SemLoc.dma cc1_scoped0.sem : SemLoc sig) ≠ SemLoc.dma cc1_scratch5.sem := by decide
theorem ssem_ne_psem : (SemLoc.dma cc1_scratch4.sem : SemLoc sig) ≠ SemLoc.dma cc1_scoped0.sem := by decide
theorem ssem_ne_isem : (SemLoc.dma cc1_scratch4.sem : SemLoc sig) ≠ SemLoc.dma cc1_scratch5.sem := by decide

/-- The tile's other scoped semaphores, each at zero: what is left of its own cells once the eleven are out. -/
def semsRest (d : Dev nD) (L : grid1.Coords) : sProp 𝕄 :=
  bigSep (((((ownCells (thr d L)).erase (isemCell d L)).erase (psemCell d L)).erase (ssemCell d L)) \ (Finset.univ.image (gsemCell d L)))
    fun g => semVal g 0

omit [FloatOps F] in
/-- The tile's scoped semaphores at zero are the eleven cells at zero and the rest. -/
theorem scopedSems0_tile :
    (scopedSems0 (thr d L) : sProp 𝕄)
      = iprop(semVal (isemCell d L) 0 ∗ semVal (psemCell d L) 0 ∗ semVal (ssemCell d L) 0
          ∗ (bigSep Finset.univ fun r : Fin 8 => semVal (gsemCell d L r) 0) ∗ semsRest d L) := by
  have hmem : ∀ r : Fin 8, gsemCell d L r ∈ ownCells (thr d L) := fun r => mem_ownCells.mpr ⟨rfl, gsemLoc_scoped r⟩
  have hsub : Finset.univ.image (gsemCell d L) ⊆ (((ownCells (thr d L)).erase (isemCell d L)).erase (psemCell d L)).erase (ssemCell d L) :=
    Finset.image_subset_iff.mpr fun r _ => Finset.mem_erase.mpr ⟨fun e => gsemLoc_ne_ssem r (congrArg Prod.snd e),
      Finset.mem_erase.mpr ⟨fun e => gsemLoc_ne_psem r (congrArg Prod.snd e), Finset.mem_erase.mpr ⟨fun e => gsemLoc_ne_isem r (congrArg Prod.snd e), hmem r⟩⟩⟩
  have hinj : Set.InjOn (gsemCell d L) (Finset.univ : Finset (Fin 8)) := fun r _ r' _ e => gsemLoc_injective r r' (congrArg Prod.snd e)
  rw [SparseCore.Cfg.scopedSems0_V]
  unfold SparseCore.Cfg.ownSems0 semsRest
  rw [SparseCore.bigSep_erase' ((mem_ownCells (g := isemCell d L)).mpr ⟨rfl, by
      show (SemLoc.dma cc1_scratch5.sem : SemLoc sig).isScoped .scVector = true; decide⟩),
    SparseCore.bigSep_erase' (Finset.mem_erase.mpr ⟨fun e => psem_ne_isem (congrArg Prod.snd e), (mem_ownCells (g := psemCell d L)).mpr ⟨rfl, by
      show (SemLoc.dma cc1_scoped0.sem : SemLoc sig).isScoped .scVector = true; decide⟩⟩),
    SparseCore.bigSep_erase' (Finset.mem_erase.mpr ⟨fun e => ssem_ne_psem (congrArg Prod.snd e), Finset.mem_erase.mpr ⟨fun e => ssem_ne_isem (congrArg Prod.snd e),
      (mem_ownCells (g := ssemCell d L)).mpr ⟨rfl, by show (SemLoc.dma cc1_scratch4.sem : SemLoc sig).isScoped .scVector = true; decide⟩⟩⟩),
    SparseCore.bigSep_sdiff_split' hsub, SparseCore.bigSep_image_of_injOn hinj]

/-- The tile's other buffers, each whole at some contents: what is left of its own once the index scratch and the row
    buffer are out. -/
def bufsRest (d : Dev nD) (L : grid1.Coords) : sProp 𝕄 :=
  bigSep (((ownRefs (τ := τ) (.scVector (cV L) (jV L))).erase ((Proc.scVector (cV L) (jV L)).devRef cc1_scratch0)).erase
      ((Proc.scVector (cV L) (jV L)).devRef cc1_scratch2))
    fun b => iprop(∃ f, ((d, b) : Loc nD τ sig) ↦{fullShare} f)

omit [FloatOps F] in
/-- The tile's scoped buffers are its index scratch and its row buffer, at some contents, and the rest. -/
theorem scopedBufs_tile (hF : (K (F := F)).Facts) :
    (scopedBufs (thr d L) : sProp 𝕄)
      = iprop((∃ f, (xS).view.loc (thr d L) ↦{fullShare} f) ∗ (∃ f, (rS).view.loc (thr d L) ↦{fullShare} f) ∗ bufsRest d L) := by
  rw [(K (F := F)).scopedBufs_V hF d (cV L) (jV L)]
  unfold SparseCore.Cfg.ownBufs bufsRest
  refine (SparseCore.bigSep_erase' (SparseCore.Cfg.mem_ownRefs_of_owner (p := Proc.scVector (cV L) (jV L))
    (b := (Proc.scVector (cV L) (jV L)).devRef cc1_scratch0) rfl)).trans ?_
  rw [SparseCore.bigSep_erase' (Finset.mem_erase.mpr ⟨fun e => absurd (Proc.devRef_injective _ e) (show (cc1_scratch2 : Ref sig .scVector) ≠ cc1_scratch0 by decide),
    SparseCore.Cfg.mem_ownRefs_of_owner (p := Proc.scVector (cV L) (jV L)) (b := (Proc.scVector (cV L) (jV L)).devRef cc1_scratch2) rfl⟩)]

/-- What the tile is handed at its start, over the worker's number. -/
theorem goOf_tile :
    (goOf m d (cV L) (jL L) : sProp 𝕄)
      = iprop(iRows m d (wL L) ∗ (bigSep Finset.univ fun r : Fin 8 => oChunkPts d (chunkOf (wL L) r) (m (oLoc d)))
          ∗ if jL L = 0 then iprop(pTok m d (cL L) ∗ ∃ f, shLoc d (cV L) ↦{fullShare} f) else iprop(emp)) := by
  have hc : cN (cV L) = cL L := Fin.ext rfl
  unfold goOf
  rw [hc]

/-- What the tile hands back at its end, over the worker's number. -/
theorem tdOf_tile :
    (tdOf m d (cV L) (jL L) : sProp 𝕄)
      = iprop((bigSep Finset.univ fun r : Fin 8 => oChunkPts d (chunkOf (wL L) r) (outVal m d)) ∗ shTok m d (cV L) (jL L)
          ∗ if jL L = 0 then shRest m d (cV L) else iprop(emp)) := by
  have hc : cN (cV L) = cL L := Fin.ext rfl
  unfold tdOf
  rw [hc]

end Tile

end Cert.Proof.LookupB

end
-- ==== Proof.TileFactsB.lean ====
/- Facts of arithmetic and of values the tile's task rests on: a conjunction over the eight chunks written out, and that
   every index word the gathers read names a row of the shared copy of P — the index array is the 16384 index words of
   the launch memory laid out 128 to a row, each of them below 8 by the precondition, and what the index fetch lands in
   the tile's scratch is four rows of that array. -/
import proofs.«206855_g20126216749723_cont_sun_m_335_21_alg».proof.Proof.TileSetupB
import proofs.«206855_g20126216749723_cont_sun_m_335_21_alg».proof.Proof.PreOKB

noncomputable section

namespace Cert.Proof.LookupB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

variable (m : (ℓ : Loc nD τ sig) → Buf (Elt F) ℓ) (ρ : Dev nD → PrngReg)

variable [FloatOps F]

local notation "pV" => (Memref.whole Cert.Kernel.main_v1_scv : Memref Cert.Kernel.sig Kind.scVector Space.hbm Cert.Kernel.S8x128 EltTy.f32)
local notation "iV" => (Memref.whole Cert.Kernel.main_v2_scv : Memref Cert.Kernel.sig Kind.scVector Space.hbm Cert.Kernel.S128x128 EltTy.i32)
local notation "oV" => (Memref.whole Cert.Kernel.main_v3_scv : Memref Cert.Kernel.sig Kind.scVector Space.hbm Cert.Kernel.S16384x128 EltTy.f32)
local notation "xS" => (Memref.whole Cert.Kernel.cc1_scratch0 : Memref Cert.Kernel.sig Kind.scVector Space.vmem Cert.Kernel.S4x128 EltTy.i32)
local notation "shV" => (Memref.whole Cert.Kernel.cc1_scratch1 : Memref Cert.Kernel.sig Kind.scVector Space.shared Cert.Kernel.S8x128 EltTy.f32)
local notation "rS" => (Memref.whole Cert.Kernel.cc1_scratch2 : Memref Cert.Kernel.sig Kind.scVector Space.vmem Cert.Kernel.S512x128 EltTy.f32)

section Tile

variable (d : Dev nD) (L : grid1.Coords)

omit [FloatOps F] in
/-- A big conjunction over eight indices, written out. -/
theorem bigSep_fin8 (Φ : Fin 8 → sProp 𝕄) : (bigSep Finset.univ Φ : sProp 𝕄) = iprop(Φ 0 ∗ Φ 1 ∗ Φ 2 ∗ Φ 3 ∗ Φ 4 ∗ Φ 5 ∗ Φ 6 ∗ Φ 7) := by
  rw [show (Finset.univ : Finset (Fin 8)) = {0, 1, 2, 3, 4, 5, 6, 7} by decide,
    bigSep_insert (by decide), bigSep_insert (by decide), bigSep_insert (by decide), bigSep_insert (by decide),
    bigSep_insert (by decide), bigSep_insert (by decide), bigSep_insert (by decide), bigSep_singleton]
  rfl

/-- Every word of the index array laid out 128 to a row is an index word, so names a row of the table. -/
theorem idxVal_lt (hpre : PreOK m) (j : S128x128.Idx) : (idxVal m d j).toNat < 8 := by
  -- the word at (a, b) is index word 128 a + b: the one index of the source with the same row-major position
  have e : Shape.reshapeEquiv shapeCasts_S16384_S128x128 j = ValueIdx.ix1 ((Shape.reshapeEquiv shapeCasts_S16384_S128x128 j) 0) :=
    ValueIdx.eq_ix1 _
  show (m (xLoc d) (Shape.reshapeEquiv shapeCasts_S16384_S128x128 j)).toNat < 8
  rw [e]
  exact hpre d _

/-- THE OFFSETS ARE IN RANGE. Once the index fetch has landed — the tile's index scratch written whole with the fetched
    rows — every word that any 64-word piece of one row of the scratch reads is below 8, the number of rows of the shared
    copy the gather takes rows from. -/
theorem offs_inb (hpre : PreOK m) (fs : Buf (Elt F) ((thr d L).loc cc1_scratch0)) (pay : S4x128.Idx → Elt F .i32)
    (hpay : pay = (iRowK L).view.read (Elt F) (idxVal m d))
    (off : Fin 2 → ℕ) (hinb : ∀ a, off a + S1x64.size a ≤ S4x128.size a) (x : S64.Idx) :
    ((((xS).slice (Rect.unit (s := S4x128) off S1x64.size hinb) (fun _ => rfl)).squeeze S64 squeezes_S1x64_S64).view.read (Elt F)
        (View.write (Elt F) (xS).view fs pay Finset.univ) x).toNat < S8x128.size gathers_S8x128_S64x128.axis := by
  subst hpay
  have hw : View.write (Elt F) (xS).view fs ((iRowK L).view.read (Elt F) (idxVal m d)) Finset.univ
      = (iRowK L).view.read (Elt F) (idxVal m d) := View.write_whole_univ cc1_scratch0 fs _
  rw [hw]
  -- a word of the scratch is a word of the fetched rows, which is a word of the index array
  have hrow : ∀ y : S4x128.Idx, ((iRowK L).view.read (Elt F) (idxVal m d) y).toNat < 8 := fun y => by
    rw [show (iRowK L).view.read (Elt F) (idxVal m d) y = idxVal m d ((iRowK L).view.emb y) from (View.read_apply _ _).trans (cast_eq _ _)]
    exact idxVal_lt m d hpre _
  rw [View.read_apply, cast_eq]
  exact hrow _

end Tile

end Cert.Proof.LookupB

end
-- ==== Proof.TileTermsB.lean ====
/- The terms of a tile's task: the blocks of its own buffers, what each transfer carries, and the contents they leave.
   Block t of the tile's 512 x 128 row buffer is rows 64 t .. 64 t + 63. Gather t takes its 64 offsets from the piece of
   the tile's index scratch that holds words 64 t .. 64 t + 63 of the tile's 512 index words — row t / 2 of the 4 x 128
   scratch, columns 64 (t mod 2) .. — and lands, in block t of the row buffer, row r := the row of the shared copy of P
   that offset r names. After the eight gathers the row buffer holds one function: its prior contents overwritten by
   the eight blocks. Copy-out t then carries block t to chunk t of the tile's part of the result. -/
import proofs.«206855_g20126216749723_cont_sun_m_335_21_alg».proof.Proof.TileSetupB

noncomputable section

namespace Cert.Proof.LookupB

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem

variable {F : FTy → Type}
local notation "𝕄" => MT nD τ sig (HIx 1) (Elt F) ℕ UU ℕ
variable (m : (ℓ : Loc nD τ sig) → Buf (Elt F) ℓ)

local notation "iV" => (Memref.whole Cert.Kernel.main_v2_scv : Memref Cert.Kernel.sig Kind.scVector Space.hbm Cert.Kernel.S128x128 EltTy.i32)
local notation "oV" => (Memref.whole Cert.Kernel.main_v3_scv : Memref Cert.Kernel.sig Kind.scVector Space.hbm Cert.Kernel.S16384x128 EltTy.f32)
local notation "xS" => (Memref.whole Cert.Kernel.cc1_scratch0 : Memref Cert.Kernel.sig Kind.scVector Space.vmem Cert.Kernel.S4x128 EltTy.i32)
local notation "shV" => (Memref.whole Cert.Kernel.cc1_scratch1 : Memref Cert.Kernel.sig Kind.scVector Space.shared Cert.Kernel.S8x128 EltTy.f32)
local notation "rS" => (Memref.whole Cert.Kernel.cc1_scratch2 : Memref Cert.Kernel.sig Kind.scVector Space.vmem Cert.Kernel.S512x128 EltTy.f32)

/-- A resource set aside for a later step: the same proposition under a name that is not opened meanwhile. -/
def aside (P : sProp 𝕄) : sProp 𝕄 := P
theorem aside_intro (P : sProp 𝕄) : P ⊢ aside P := BI.Entails.refl _
theorem aside_elim (P : sProp 𝕄) : aside P ⊢ P := BI.Entails.refl _

theorem rChunk_inb (t : Fin 8) : ∀ a, (![64 * t.val, 0] : Fin 2 → Nat) a + S64x128.size a ≤ S512x128.size a := by
  intro a
  have ht := t.isLt
  match a with
  | 0 => show 64 * t.val + 64 ≤ 512; omega
  | 1 => show 0 + 128 ≤ 128; omega
/-- Block t (64 rows) of the tile's own row buffer, as a rectangle and as the program's slice of the buffer. -/
abbrev rRect (t : Fin 8) : Rect S512x128 := Rect.unit (s := S512x128) ![64 * t.val, 0] S64x128.size (rChunk_inb t)
abbrev rChunkK (t : Fin 8) : Memref sig .scVector .vmem S64x128 .f32 := (rS).slice (rRect t) (fun _ => rfl)

theorem offs_inb' (t : Fin 8) : ∀ a, (![t.val / 2, 64 * (t.val % 2)] : Fin 2 → Nat) a + S1x64.size a ≤ S4x128.size a := by
  intro a
  have ht := t.isLt
  match a with
  | 0 => show t.val / 2 + 1 ≤ 4; omega
  | 1 => show 64 * (t.val % 2) + 64 ≤ 128; omega
/-- The piece of the index scratch gather t takes its offsets from: 64 words of row t / 2. -/
abbrev offsK (t : Fin 8) : Memref sig .scVector .vmem S64 .i32 :=
  ((xS).slice (Rect.unit (s := S4x128) ![t.val / 2, 64 * (t.val % 2)] S1x64.size (offs_inb' t)) (fun _ => rfl)).squeeze S64 squeezes_S1x64_S64

section Tile
variable (d : Dev nD) (L : grid1.Coords)

/-- What the index fetch lands in the tile's index scratch: the tile's four rows of the index array. -/
abbrev idxPay : S4x128.Idx → Elt F .i32 := ReadAs.same.apply ((iRowK L).view.read (Elt F) (idxVal m d))

variable [FloatOps F]

/-- The index scratch once the fetch has landed, whatever it held before. -/
abbrev idxLanded (fx : Buf (Elt F) ((xS).view.loc (thr d L))) : Buf (Elt F) ((xS).view.loc (thr d L)) :=
  View.write (Elt F) (xS).view fx (idxPay m d L) Finset.univ

/-- The offsets of gather t are in range (a hypothesis of this form is what each gather is issued under). -/
abbrev OffsOK (fx : Buf (Elt F) ((xS).view.loc (thr d L))) (t : Fin 8) : Prop :=
  ∀ x : S64.Idx, ((offsK t).view.read (Elt F) (idxLanded m d L fx) x).toNat < S8x128.size gathers_S8x128_S64x128.axis

/-- What gather t lands in block t of the row buffer: row r is the row of P (read through the whole shared copy) that
    offset r names. -/
abbrev gatherOf (fx : Buf (Elt F) ((xS).view.loc (thr d L))) (t : Fin 8) (hin : OffsOK m d L fx t) : S64x128.Idx → Elt F .f32 :=
  SparseCore.gatherPayload gathers_S8x128_S64x128
    (((shV).slice (Rect.unit (s := S8x128) ![0, 0] S8x128.size inb_S8x128_S8x128_0_0) (fun _ => rfl)).view.read (Elt F) (projVal m d))
    (SparseCore.rows ((offsK t).view.read (Elt F) (idxLanded m d L fx)) rfl hin)

/-- The row buffer after the eight gathers: its prior contents with the eight blocks written, the last issued first. -/
abbrev rowsLanded (fx : Buf (Elt F) ((xS).view.loc (thr d L))) (fr : Buf (Elt F) ((rS).view.loc (thr d L)))
    (hin : ∀ t, OffsOK m d L fx t) : Buf (Elt F) ((rS).view.loc (thr d L)) :=
  (rS).view.writes (Elt F) fr
    [⟨rRect 7, gatherOf m d L fx 7 (hin 7)⟩, ⟨rRect 6, gatherOf m d L fx 6 (hin 6)⟩, ⟨rRect 5, gatherOf m d L fx 5 (hin 5)⟩,
      ⟨rRect 4, gatherOf m d L fx 4 (hin 4)⟩, ⟨rRect 3, gatherOf m d L fx 3 (hin 3)⟩, ⟨rRect 2, gatherOf m d L fx 2 (hin 2)⟩,
      ⟨rRect 1, gatherOf m d L fx 1 (hin 1)⟩, ⟨rRect 0, gatherOf m d L fx 0 (hin 0)⟩]

/-- Chunk t of the tile's part of the result once copy-out t has landed: written whole with block t of the row buffer
    (at contents fR). -/
abbrev outLanded (fR : Buf (Elt F) ((rS).view.loc (thr d L))) (t : Fin 8) : Buf (Elt F) ((oChunkK L t).view.loc (thr d L)) :=
  (oChunkK L t).view.writes (Elt F) (m (oLoc d)) [⟨Rect.whole S64x128, ReadAs.same.apply ((rChunkK t).view.read (Elt F) fR)⟩]

/-- What copy-out t delivers: chunk t landed, and block t of the row buffer back. -/
abbrev outDeliv (fR : Buf (Elt F) ((rS).view.loc (thr d L))) (t : Fin 8) : sProp 𝕄 :=
  iprop(((oChunkK L t).view.loc (thr d L) ↦[(oChunkK L t).view.set]{fullShare} outLanded m d L fR t)
    ∗ ((rChunkK t).view.loc (thr d L) ↦[(rChunkK t).view.set]{fullShare} fR))

end Tile

end Cert.Proof.LookupB

end
-- ==== Proof.TileValueB.lean ====
/- The value of a tile's part of the result.
   Worker w = 2 s + c holds index words 512 w .. 512 w + 511 (rows 4 w .. 4 w + 3 of the index array laid out 128 to a
   row). Gather t reads words 64 t .. 64 t + 63 of them — row t / 2 of the tile's scratch, columns 64 (t mod 2) .. — and
   lands in row 64 t + r of the tile's row buffer the row of P that word 64 t + r names; copy-out t carries rows
   64 t .. 64 t + 63 of the buffer to rows 512 w + 64 t .. of the result. So row 512 w + 64 t + r of the result is row
   x_{512 w + 64 t + r} of P, which is the result's value there. -/
import proofs.«206855_g20126216749723_cont_sun_m_335_21_alg».proof.Proof.TileTermsB
import proofs.«206855_g20126216749723_cont_sun_m_335_21_alg».proof.Proof.TileFactsB
import Idealize.ShloMosaic.Lib.Writes

noncomputable section

namespace Cert.Proof.LookupB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

variable (m : (ℓ : Loc nD τ sig) → Buf (Elt F) ℓ) (ρ : Dev nD → PrngReg)

variable [FloatOps F]

local notation "pV" => (Memref.whole Cert.Kernel.main_v1_scv : Memref Cert.Kernel.sig Kind.scVector Space.hbm Cert.Kernel.S8x128 EltTy.f32)
local notation "iV" => (Memref.whole Cert.Kernel.main_v2_scv : Memref Cert.Kernel.sig Kind.scVector Space.hbm Cert.Kernel.S128x128 EltTy.i32)
local notation "oV" => (Memref.whole Cert.Kernel.main_v3_scv : Memref Cert.Kernel.sig Kind.scVector Space.hbm Cert.Kernel.S16384x128 EltTy.f32)
local notation "xS" => (Memref.whole Cert.Kernel.cc1_scratch0 : Memref Cert.Kernel.sig Kind.scVector Space.vmem Cert.Kernel.S4x128 EltTy.i32)
local notation "shV" => (Memref.whole Cert.Kernel.cc1_scratch1 : Memref Cert.Kernel.sig Kind.scVector Space.shared Cert.Kernel.S8x128 EltTy.f32)
local notation "rS" => (Memref.whole Cert.Kernel.cc1_scratch2 : Memref Cert.Kernel.sig Kind.scVector Space.vmem Cert.Kernel.S512x128 EltTy.f32)

section Tile

variable (d : Dev nD) (L : grid1.Coords)

omit [FloatOps F] in
/-- Two indices of a rank-2 shape with the same two coordinates are the same. -/
theorem idx2_ext {n0 n1 : ℕ} {j j' : (⟨2, ![n0, n1]⟩ : Shape).Idx} (h0 : (j 0).val = (j' 0).val) (h1 : (j 1).val = (j' 1).val) : j = j' := by
  funext a
  match a with
  | ⟨0, _⟩ => exact Fin.ext h0
  | ⟨1, _⟩ => exact Fin.ext h1

omit [FloatOps F] in
/-- Offset r of gather t sits at row t / 2, column 64 (t mod 2) + r of the index scratch. -/
theorem offsK_emb (t : Fin 8) (r : Fin 64) :
    (offsK t).view.emb (ValueIdx.ix1 r)
      = ValueIdx.ix2 (⟨t.val / 2, by have := t.isLt; omega⟩ : Fin 4) (⟨64 * (t.val % 2) + r.val, by have := r.isLt; omega⟩ : Fin 128) := by
  have hsq : Shape.reshapeEquiv squeezes_S1x64_S64.numel_eq (ValueIdx.ix1 r) = ValueIdx.ix2 (0 : Fin 1) r :=
    Shape.reshapeEquiv_eq_of_rowMajor _ (by rw [Shape.rowMajor_val_one, Shape.rowMajor_val_two]; simp)
  show (Rect.unit (s := S4x128) ![t.val / 2, 64 * (t.val % 2)] S1x64.size (offs_inb' t)).emb (Shape.reshapeEquiv squeezes_S1x64_S64.numel_eq (ValueIdx.ix1 r)) = _
  rw [hsq]
  refine idx2_ext ?_ ?_
  · show t.val / 2 + 1 * 0 = t.val / 2; omega
  · show 64 * (t.val % 2) + 1 * r.val = 64 * (t.val % 2) + r.val; omega

/-- OFFSET r OF GATHER t IS INDEX WORD 512 w + 64 t + r: the scratch holds rows 4 w .. 4 w + 3 of the index array, so its
    word (t / 2, 64 (t mod 2) + r) is the array's word (4 w + t / 2, 64 (t mod 2) + r), the launch memory's word
    128 (4 w + t / 2) + 64 (t mod 2) + r. -/
theorem offs_word (fx : Buf (Elt F) ((xS).view.loc (thr d L))) (t : Fin 8) (r : Fin 64) :
    (offsK t).view.read (Elt F) (idxLanded m d L fx) (ValueIdx.ix1 r)
      = m (xLoc d) (ValueIdx.ix1 (⟨512 * (wL L).val + 64 * t.val + r.val, by have := (wL L).isLt; have := t.isLt; have := r.isLt; omega⟩ : Fin 16384)) := by
  have hw : idxLanded m d L fx = idxPay m d L := View.write_whole_univ cc1_scratch0 fx _
  rw [hw, View.read_apply, cast_eq]
  show (iRowK L).view.read (Elt F) (idxVal m d) _ = _
  rw [View.read_apply, cast_eq]
  show m (xLoc d) (Shape.reshapeEquiv shapeCasts_S16384_S128x128 _) = _
  congr 1
  refine Shape.reshapeEquiv_eq_of_rowMajor _ ?_
  rw [Shape.rowMajor_val_one, Shape.rowMajor_val_two, offsK_emb]
  show 512 * (2 * (L 1).val + (L 0).val) + 64 * t.val + r.val
    = (k1_off1 L 0 + 1 * (t.val / 2)) * 128 + (k1_off1 L 1 + 1 * (64 * (t.val % 2) + r.val))
  rw [k1_off1_eq]
  show 512 * (2 * (L 1).val + (L 0).val) + 64 * t.val + r.val
    = (8 * (L 1).val + 4 * (L 0).val + 1 * (t.val / 2)) * 128 + (0 + 1 * (64 * (t.val % 2) + r.val))
  omega

omit [FloatOps F] in
/-- In a shape of rank one the k-th index in row-major order is k. -/
theorem rowMajor_symm_one {n : ℕ} (k : Fin (⟨1, ![n]⟩ : Shape).numel) (hn : (⟨1, ![n]⟩ : Shape).numel = n) :
    (⟨1, ![n]⟩ : Shape).rowMajor.symm k = ValueIdx.ix1 (k.cast hn) := by
  rw [Equiv.symm_apply_eq]
  apply Fin.ext
  rw [Shape.rowMajor_val_one]
  rfl

/-- WHAT GATHER t LANDS AT (r, c): column c of the row of P that index word 512 w + 64 t + r names (the gather is along
    axis 0: the row is the one its offset names, the column the index's own). -/
theorem gatherOf_apply (hpre : PreOK m) (fx : Buf (Elt F) ((xS).view.loc (thr d L))) (t : Fin 8) (hin : OffsOK m d L fx t) (r : Fin 64) (c : Fin 128) :
    gatherOf m d L fx t hin (ValueIdx.ix2 r c)
      = projVal m d (ValueIdx.ix2 (Cert.EmbedProject.rowOf (m (xLoc d) (ValueIdx.ix1
          (⟨512 * (wL L).val + 64 * t.val + r.val, by have := (wL L).isLt; have := t.isLt; have := r.isLt; omega⟩ : Fin 16384)))) c) := by
  unfold gatherOf SparseCore.gatherPayload
  rw [View.read_apply, cast_eq]
  congr 1
  refine idx2_ext ?_ ?_
  · rw [Cert.EmbedProject.rowOf_val (hpre d _)]
    show 0 + 1 * (gathers_S8x128_S64x128.idx _ (ValueIdx.ix2 r c) gathers_S8x128_S64x128.axis).val = _
    rw [Shape.Gathers.idx_axis, Nat.zero_add, Nat.one_mul]
    unfold SparseCore.rows
    show ((offsK t).view.read (Elt F) (idxLanded m d L fx) (S64.rowMajor.symm _)).toNat = _
    rw [rowMajor_symm_one _ rfl]
    exact congrArg BitVec.toNat (offs_word m d L fx t r)
  · show 0 + 1 * (gathers_S8x128_S64x128.idx _ (ValueIdx.ix2 r c) (1 : Fin 2)).val = c.val
    rw [Shape.Gathers.idx_of_ne gathers_S8x128_S64x128 _ (ValueIdx.ix2 r c) (1 : Fin S8x128.rank) (by decide), Nat.zero_add, Nat.one_mul]
    rfl

/-- The row buffer's value once the gathers have landed, as one function of its index: row y of the buffer is the row of
    P that the tile's index word y names. -/
def rowsG (y : S512x128.Idx) : Elt F .f32 :=
  projVal m d (ValueIdx.ix2 (Cert.EmbedProject.rowOf (m (xLoc d) (ValueIdx.ix1
    (⟨512 * (wL L).val + (y 0).val, by have := (wL L).isLt; have := ValueIdx.idx2_lt0 y; omega⟩ : Fin 16384))))
    (⟨(y 1).val, ValueIdx.idx2_lt1 y⟩ : Fin 128))

/-- Block t as gathered agrees with that one function on its own rows. -/
theorem gather_agrees (hpre : PreOK m) (fx : Buf (Elt F) ((xS).view.loc (thr d L))) (t : Fin 8) (hin : OffsOK m d L fx t)
    (x : S64x128.Idx) : gatherOf m d L fx t hin x = rowsG m d L ((rRect t).emb x) := by
  obtain ⟨r, c, rfl⟩ : ∃ r c, x = ValueIdx.ix2 r c := ⟨x 0, x 1, ValueIdx.eq_ix2 x⟩
  rw [gatherOf_apply m d L hpre]
  unfold rowsG
  congr 1
  refine idx2_ext ?_ ?_
  · show (Cert.EmbedProject.rowOf _).val = (Cert.EmbedProject.rowOf _).val
    congr 4
    refine Fin.ext ?_
    show 512 * (wL L).val + 64 * t.val + r.val = 512 * (wL L).val + (64 * t.val + 1 * r.val)
    omega
  · show c.val = 0 + 1 * c.val
    omega

/-- Each of the eight blocks is among the pieces written. -/
theorem piece_mem (fx : Buf (Elt F) ((xS).view.loc (thr d L))) (hin : ∀ t, OffsOK m d L fx t) (t : Fin 8) :
    (⟨rRect t, gatherOf m d L fx t (hin t)⟩ : View.Piece (Elt F) S512x128 .f32) ∈
      ([⟨rRect 7, gatherOf m d L fx 7 (hin 7)⟩, ⟨rRect 6, gatherOf m d L fx 6 (hin 6)⟩, ⟨rRect 5, gatherOf m d L fx 5 (hin 5)⟩,
        ⟨rRect 4, gatherOf m d L fx 4 (hin 4)⟩, ⟨rRect 3, gatherOf m d L fx 3 (hin 3)⟩, ⟨rRect 2, gatherOf m d L fx 2 (hin 2)⟩,
        ⟨rRect 1, gatherOf m d L fx 1 (hin 1)⟩, ⟨rRect 0, gatherOf m d L fx 0 (hin 0)⟩] : List (View.Piece (Elt F) S512x128 .f32)) := by
  fin_cases t <;> repeat (first | exact List.mem_cons_self | apply List.mem_cons_of_mem)

/-- Block t of the row buffer after the eight gathers: every block written agrees with the one function, so whichever
    block an index lies in, the buffer reads that function there. -/
theorem rowsLanded_block (hpre : PreOK m) (fx : Buf (Elt F) ((xS).view.loc (thr d L))) (fr : Buf (Elt F) ((rS).view.loc (thr d L)))
    (hin : ∀ t, OffsOK m d L fx t) (t : Fin 8) (x : S64x128.Idx) :
    rowsLanded m d L fx fr hin ((rRect t).emb x) = rowsG m d L ((rRect t).emb x) := by
  refine View.read_writes_apply_of_pieces (rS).view fr (rowsG m d L) _ ?_ ((rRect t).emb x)
    ⟨⟨rRect t, gatherOf m d L fx t (hin t)⟩, piece_mem m d L fx hin t, ?_⟩
  · intro p hp
    simp only [List.mem_cons, List.not_mem_nil, or_false] at hp
    rcases hp with rfl | rfl | rfl | rfl | rfl | rfl | rfl | rfl <;> exact gather_agrees m d L hpre fx _ _
  · rw [← Rect.map_emb_univ]; exact Finset.mem_map_of_mem _ (Finset.mem_univ x)

/-- Chunk t once copy-out t has landed: at the element under local index x it holds what block t of the row buffer held
    at x. -/
theorem outLanded_apply (fR : Buf (Elt F) ((rS).view.loc (thr d L))) (t : Fin 8) (x : S64x128.Idx) :
    outLanded m d L fR t ((oChunkK L t).view.emb x) = fR ((rRect t).emb x) := by
  have h := View.read_writes_cons_emb (oChunkK L t).view (m (oLoc d)) (Rect.whole S64x128)
    (ReadAs.same.apply ((rChunkK t).view.read (Elt F) fR)) [] x
  rw [View.read_apply, cast_eq, Rect.emb_whole_apply] at h
  refine Eq.trans h ?_
  show (rChunkK t).view.read (Elt F) fR x = _
  rw [View.read_apply, cast_eq]
  rfl

/-- ROW r OF CHUNK t IS ROW x_{512 w + 64 t + r} OF P. Once the eight gathers have landed in the row buffer and copy-out t
    has carried block t out, chunk t of the tile's part of the result agrees with the result's value on its own rows. -/
theorem landed_eq (hpre : PreOK m) (fx : Buf (Elt F) ((xS).view.loc (thr d L))) (fr : Buf (Elt F) ((rS).view.loc (thr d L)))
    (hin : ∀ t, OffsOK m d L fx t) (t : Fin 8) :
    ∀ i ∈ (oChunkK L t).view.set, outLanded m d L (rowsLanded m d L fx fr hin) t i = outVal m d i := by
  intro i hi
  obtain ⟨x, -, rfl⟩ := Finset.mem_map.mp hi
  rw [outLanded_apply, rowsLanded_block m d L hpre]
  unfold rowsG outVal
  congr 1
  refine idx2_ext ?_ ?_
  · show (Cert.EmbedProject.rowOf _).val = (Cert.EmbedProject.rowOf _).val
    congr 4
    refine Fin.ext ?_
    show 512 * (2 * (L 1).val + (L 0).val) + (64 * t.val + 1 * (x 0).val) = k1_off2 L (BitVec.ofNat 32 (64 * t.val)) 0 + 1 * (x 0).val
    rw [k1_off2_eq]
    show 512 * (2 * (L 1).val + (L 0).val) + (64 * t.val + 1 * (x 0).val) = 1024 * (L 1).val + 512 * (L 0).val + 64 * t.val + 1 * (x 0).val
    omega
  · show 0 + 1 * (x 1).val = k1_off2 L (BitVec.ofNat 32 (64 * t.val)) 1 + 1 * (x 1).val
    rw [k1_off2_eq]
    show 0 + 1 * (x 1).val = 0 + 1 * (x 1).val
    rfl

/-- the same as an equation of what the tile holds: -/
theorem chunk_landed (hpre : PreOK m) (fx : Buf (Elt F) ((xS).view.loc (thr d L))) (fr : Buf (Elt F) ((rS).view.loc (thr d L)))
    (hin : ∀ t, OffsOK m d L fx t) (t : Fin 8) :
    ((oChunkK L t).view.loc (thr d L) ↦[(oChunkK L t).view.set]{fullShare} outLanded m d L (rowsLanded m d L fx fr hin) t : sProp 𝕄)
      = oLoc d ↦[oChunkSet (chunkOf (wL L) t)]{fullShare} outVal m d := by
  rw [pointsTo_congr (landed_eq m d L hpre fx fr hin t), pts_oChunkK]

end Tile

end Cert.Proof.LookupB

end
-- ==== Proof.TileRowsB.lean ====
/-
  The tile's row buffer is its eight blocks of 64 rows.

  Block t of the 512 x 128 row buffer is rows 64 t .. 64 t + 63: the t-th of the eight equal parts of the buffer along
  its rows. Distinct parts are disjoint and the eight together are every row. So holding each block, all at one
  contents, is holding the whole buffer at those contents.
-/
import proofs.«206855_g20126216749723_cont_sun_m_335_21_alg».proof.Proof.TileTermsB

noncomputable section

namespace Cert.Proof.LookupB

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem

variable {F : FTy → Type}
local notation "𝕄" => MT nD τ sig (HIx 1) (Elt F) ℕ UU ℕ
variable (m : (ℓ : Loc nD τ sig) → Buf (Elt F) ℓ)

local notation "rS" => (Memref.whole Cert.Kernel.cc1_scratch2 : Memref Cert.Kernel.sig Kind.scVector Space.vmem Cert.Kernel.S512x128 EltTy.f32)

/-- The row buffer's 512 rows cut into eight equal parts. -/
theorem hdivR : 8 ∣ S512x128.size 0 := ⟨64, rfl⟩
/-- Part t: rows 64 t .. 64 t + 63. -/
abbrev rSet (t : Fin 8) : Finset S512x128.Idx := (Rect.part (s := S512x128) (a₀ := 0) hdivR t).set

theorem rSets_disjoint : ∀ t ∈ (Finset.univ : Finset (Fin 8)), ∀ t' ∈ (Finset.univ : Finset (Fin 8)), t ≠ t' → Disjoint (rSet t) (rSet t') :=
  fun _ _ _ _ h => Rect.part_disjoint hdivR h
theorem rSets_cover : (Finset.univ : Finset (Fin 8)).biUnion rSet = Finset.univ := Rect.biUnion_part hdivR

/-- Block t, as the program cuts it out of the row buffer, is part t. -/
theorem set_rChunkK (t : Fin 8) : (rChunkK t).view.set = rSet t := by
  show ((View.whole cc1_scratch2 : View sig .scVector _ _ _).slice (rRect t)).set = (Rect.part (s := S512x128) (a₀ := 0) hdivR t).set
  rw [View.set_slice_whole]
  ext i
  rw [Rect.mem_set_unit, Rect.mem_set_unit]
  refine forall_congr' fun a => ?_
  have ht := t.isLt
  fin_cases a <;> simp [Shape.partIx, Shape.partSize] <;> omega

section Tile
variable (d : Dev nD) (L : grid1.Coords)

/-- The eight blocks of 64 rows are the whole row buffer: held block by block at one contents, it is held whole. -/
theorem rows_rejoin (f : Buf (Elt F) ((rS).view.loc (thr d L))) :
    (bigSep Finset.univ fun t : Fin 8 => ((rChunkK t).view.loc (thr d L) ↦[(rChunkK t).view.set]{fullShare} f : sProp 𝕄))
      ⊢ ((rS).view.loc (thr d L) ↦{fullShare} f : sProp 𝕄) := by
  refine Entails.of_eq ?_
  have hb : (bigSep Finset.univ fun t : Fin 8 => ((rChunkK t).view.loc (thr d L) ↦[(rChunkK t).view.set]{fullShare} f : sProp 𝕄))
      = bigSep Finset.univ fun t : Fin 8 => ((rS).view.loc (thr d L) ↦[rSet t]{fullShare} f : sProp 𝕄) :=
    bigSep_congr fun t _ => by rw [set_rChunkK]
  rw [hb, ← pointsTo_biUnion Finset.univ (ℓ := (rS).view.loc (thr d L)) rSet rSets_disjoint, rSets_cover]

end Tile

end Cert.Proof.LookupB

end
-- ==== Proof.TileTaskB.lean ====
/- The task of one tile of the lookup kernel.
   Tile (c, s) of device d is worker w = 2 s + c. Its task: start the fetch of its four rows of the index array into
   its own memory; if it is tile 0 of its core, copy the projected table P from HBM into the core's shared memory and
   wait for that copy; arrive at the subcore barrier of the core's sixteen tiles (tile 0's arrival hands every tile a
   read share of the shared copy of P) and wait there; wait for the index fetch; start eight gathers, one per block of
   64 index words, each of the rows of P those words name into the matching 64 rows of its own 512 x 128 buffer, each
   on a semaphore of its own, each reading the shared copy through a share of the tile's share; then, block by block,
   wait for the gather and start the copy of the 64 finished rows out to chunk 8 w + j of the result, all eight copies
   on one semaphore — a counted batch: only the eighth wait knows that every copy has landed —; and wait eight times.
   What it holds at its end: its eight chunks of the result, row i of which is row x_i of P (every index word names a
   row: the precondition), its read share of the shared copy put together again (tile 0: also what was left beside the
   sixteen shares), and its scratch and cells as they were handed. -/
import proofs.«206855_g20126216749723_cont_sun_m_335_21_alg».proof.Proof.PreOKB
import proofs.«206855_g20126216749723_cont_sun_m_335_21_alg».proof.Proof.Gen.Kernel.Skeleton
import proofs.«206855_g20126216749723_cont_sun_m_335_21_alg».proof.Proof.TileSetupB
import proofs.«206855_g20126216749723_cont_sun_m_335_21_alg».proof.Proof.TileFactsB
import proofs.«206855_g20126216749723_cont_sun_m_335_21_alg».proof.Proof.TileTermsB
import proofs.«206855_g20126216749723_cont_sun_m_335_21_alg».proof.Proof.TileValueB
import proofs.«206855_g20126216749723_cont_sun_m_335_21_alg».proof.Proof.TileRowsB

noncomputable section

namespace Cert.Proof.LookupB

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
local notation "𝕄" => MT nD τ sig (HIx 1) (Elt F) ℕ UU ℕ
variable (m : (ℓ : Loc nD τ sig) → Buf (Elt F) ℓ) (ρ : Dev nD → PrngReg)
variable [FloatOps F]

local notation "pV" => (Memref.whole Cert.Kernel.main_v1_scv : Memref Cert.Kernel.sig Kind.scVector Space.hbm Cert.Kernel.S8x128 EltTy.f32)
local notation "iV" => (Memref.whole Cert.Kernel.main_v2_scv : Memref Cert.Kernel.sig Kind.scVector Space.hbm Cert.Kernel.S128x128 EltTy.i32)
local notation "oV" => (Memref.whole Cert.Kernel.main_v3_scv : Memref Cert.Kernel.sig Kind.scVector Space.hbm Cert.Kernel.S16384x128 EltTy.f32)
local notation "xS" => (Memref.whole Cert.Kernel.cc1_scratch0 : Memref Cert.Kernel.sig Kind.scVector Space.vmem Cert.Kernel.S4x128 EltTy.i32)
local notation "shV" => (Memref.whole Cert.Kernel.cc1_scratch1 : Memref Cert.Kernel.sig Kind.scVector Space.shared Cert.Kernel.S8x128 EltTy.f32)
local notation "rS" => (Memref.whole Cert.Kernel.cc1_scratch2 : Memref Cert.Kernel.sig Kind.scVector Space.vmem Cert.Kernel.S512x128 EltTy.f32)

section Tile
variable (d : Dev nD) (L : grid1.Coords)

/-- The test of `pl.when`: the tile's number within its core is 0. -/
abbrev isFirst (L : grid1.Coords) : Prop :=
  Scalar.cmpi .ne (Scalar.extui (Scalar.cmpi .eq (BitVec.ofNat 32 (L 1).val) 0#32)) 0#32 = 1#1

omit [FloatOps F] in
theorem isFirst_iff : ∀ L : grid1.Coords, isFirst L ↔ (jV L).val = 0 := by decide +revert

/-- What the tile's own barrier round collected holds tile 0's arrival: the tile's read share of the shared copy. -/
theorem own_token : (bigSep ((bRd (F := F) m).duties (bcell d (cV L) (jV L)) 0 \ ∅) fun n => (bRd (F := F) m).payload (bcell d (cV L) (jV L)) 0 n)
    ⊢ (shTok m d (cV L) (jL L) : sProp 𝕄) := by
  rw [Finset.sdiff_empty, bRd_duties₀]
  refine (bigSep_elim (i := 0) (Finset.mem_image.mpr ⟨(⟨0, by decide⟩ : Fin τ.nSub), Finset.mem_univ _, rfl⟩)).trans ?_
  show bPay m (bcell d (cV L) (jV L)) 0 ⊢ _
  unfold bPay; dsimp only
  rw [if_pos rfl]
  exact BI.Entails.refl _

/-- What a tile holds of its own when its task starts: its index scratch and row buffer and its eleven transfer cells, spelt as
    the program addresses them, and the rest of its scoped storage, which the task never touches. -/
def tileOwn (d : Dev nD) (L : grid1.Coords) : sProp 𝕄 :=
  iprop((∃ fx, (xS).view.loc (thr d L) ↦{fullShare} fx) ∗ (∃ fr, (rS).view.loc (thr d L) ↦{fullShare} fr)
    ∗ semVal (isemCell d L) 0 ∗ semVal (psemCell d L) 0 ∗ semVal (ssemCell d L) 0 ∗ (bigSep Finset.univ fun r : Fin 8 => semVal (gsemCell d L r) 0)
    ∗ bufsRest d L ∗ semsRest d L)

set_option maxRecDepth 200000 in
/-- THE TASK OF A TILE THAT IS NOT TILE 0 OF ITS CORE. -/
theorem tile_other (hF : (K (F := F)).Facts) (hpre : PreOK m) (O : CellTallies nD τ sig (HIx 1)) (W : Waits sig (HIx 1)) (hO : ∀ g, O g none = 0)
    (hOlev : ∀ g ι, 0 < O g ι → 8 * (0 : Fin 1).val + 6 ≤ (K (F := F)).lev g ι)
    (hs : ¬ isFirst L) :
    iprop(levAts (K (F := F)).L (K (F := F)).lev ∗ bkit m d (cV L) (jV L)
        ∗ iRows m d (wL L) ∗ (bigSep Finset.univ fun r : Fin 8 => oChunkPts d (chunkOf (wL L) r) (m (oLoc d)))
        ∗ tileOwn d L ∗ owes (thr d L) (O + oxV d (cV L)) W)
      ⊢ wp frame (wpE (defs₀ (F := F)) 𝒱₀ (thr d L) none) Set.univ
          (cc1_gather_k L pV (Memref.isWhole_whole _) iV (Memref.isWhole_whole _) oV (Memref.isWhole_whole _) xS (Memref.isWhole_whole _)
            shV (Memref.isWhole_whole _) rS (Memref.isWhole_whole _) cc1_scratch3 cc1_scratch4 cc1_scratch5 cc1_scoped0)
          fun _ => iprop((bigSep Finset.univ fun r : Fin 8 => oChunkPts d (chunkOf (wL L) r) (outVal m d)) ∗ shTok m d (cV L) (jL L)
            ∗ tileOwn d L ∗ ∃ W', ⌜∀ p ∈ W', p ∈ W ∨ p.2 = none ∨ p.2 = some (0 : Fin 1)⌝ ∗ owes (thr d L) O W') := by
  have hs' : (jV L).val ≠ 0 := fun h => hs ((isFirst_iff L).mpr h)
  simp only [cc1_gather_k_eq_skeleton]; unfold cc1_gather_k_skel
  simp only [k1_part1_eq_skeleton]; unfold k1_part1_skel
  unfold bkit tileOwn
  iintro ⟨#Hlv, ⟨⟨%κ, #Hinv⟩, Htoks, #Hrch, Hat, Hcred⟩, Hi, Hos, ⟨⟨%fx, Hx⟩, ⟨%fr, Hr⟩, Hsem, Hpsem, Hssem, Hgsems, Hbr, Hsr⟩, HO⟩
  ihave Hi := (Entails.of_eq (pts_iRowK (F := F) d L _ _).symm) $$ Hi
  ihave Hos' := (Entails.of_eq (bigSep_fin8 (F := F) _)) $$ Hos
  icases Hos' with ⟨Ho0, Ho1, Ho2, Ho3, Ho4, Ho5, Ho6, Ho7⟩
  ihave Ho0 := (Entails.of_eq (pts_oChunkK (F := F) d L 0 _).symm) $$ Ho0
  ihave Ho1 := (Entails.of_eq (pts_oChunkK (F := F) d L 1 _).symm) $$ Ho1
  ihave Ho2 := (Entails.of_eq (pts_oChunkK (F := F) d L 2 _).symm) $$ Ho2
  ihave Ho3 := (Entails.of_eq (pts_oChunkK (F := F) d L 3 _).symm) $$ Ho3
  ihave Ho4 := (Entails.of_eq (pts_oChunkK (F := F) d L 4 _).symm) $$ Ho4
  ihave Ho5 := (Entails.of_eq (pts_oChunkK (F := F) d L 5 _).symm) $$ Ho5
  ihave Ho6 := (Entails.of_eq (pts_oChunkK (F := F) d L 6 _).symm) $$ Ho6
  ihave Ho7 := (Entails.of_eq (pts_oChunkK (F := F) d L 7 _).symm) $$ Ho7
  ihave Hgs' := (Entails.of_eq (bigSep_fin8 (F := F) _)) $$ Hgsems
  icases Hgs' with ⟨Hg0, Hg1, Hg2, Hg3, Hg4, Hg5, Hg6, Hg7⟩
  ihave Hssem' := (aside_intro (F := F) _) $$ Hssem
  have hO' : ∀ g, (O + oxV d (cV L)) g none = 0 := fun g => by rw [Pi.add_apply, Finsupp.add_apply, hO g, oxV_none]
  ihave Hmw1 := (show levAts (K (F := F)).L (K (F := F)).lev ⊢ Transfers.MayWaits (thr d L) (default : HIx 1) (O + oxV d (cV L)) from
    (K (F := F)).mayWaits_none (thr := thr d L) hO') $$ Hlv
  ihave Hmw2 := (show levAts (K (F := F)).L (K (F := F)).lev ⊢ Transfers.MayWaits (thr d L) (default : HIx 1) O from
    (K (F := F)).mayWaits_none (thr := thr d L) hO) $$ Hlv
  -- the index fetch is started; the branch of tile 0 is not taken
  sl_exec
  rw [Prog.bind_assoc]
  -- THE BARRIER: each of this tile's sixteen arrivals carries nothing (its number is not 0)
  have hpay : ∀ j : Fin (grid1.bound 1), (bRd (F := F) m).payload (bcell d (cV L) (j.castLE hsub1)) 0 (jV L).val = (iprop(emp) : sProp 𝕄) :=
    fun j => if_neg hs'
  iapply (SparseCore.wp_subcoreBarrier 𝒱₀ none EB (bRd (F := F) m) d (sc := cV L) (i := jV L) sc_bar0 (grid1.bound 1) hsub1 (L 1) rfl κ (fun _ => 0) (jV L).val
      (fun j => bRd_mem₀ m d _ _ _) (fun _ => rfl) (bRd_expect m d _ _) (some 0) O _) $$ [HO Htoks Hcred Hat]
  · isplitr; · iexact Hinv
    isplitl [HO]; · iexact HO
    isplitl [Htoks]
    · rw [bigSep_sep', bigSep_sep']
      isplitl [Htoks]; · iexact Htoks
      isplitr
      · rw [bigSep_congr fun j _ => hpay j, bigSep_emp']; iempintro
      iexact Hrch
    isplitl [Hcred]; · iexact Hcred
    isplitl [Hat]; · iexact Hat
    iapply ((K (F := F)).mayOwe_of_bound (thr := thr d L) 3 (fun p hp => by
        rw [Finset.mem_singleton] at hp; subst hp
        show (K (F := F)).lev (bcell d (cV L) (jV L)) (some 0) ≤ 3
        rw [(K (F := F)).lev_V_reg d _ _ (show (sc_bar0 : Sem sig) ≠ (K (F := F)).go from sc_bar0_ne_go)]; exact le_rfl)
      (fun g ι hg => lt_of_lt_of_le (by decide) (hOlev g ι hg)))
    iexact Hlv
  iintro ⟨HO, Hat, -, Hgot⟩
  -- the tile's own round collected tile 0's arrival: its read share of the shared copy of P; eight gathers will read it at
  -- once, so it goes out as eight read shares
  ihave Htok := (own_token (F := F) m d L) $$ Hgot
  ihave Hsh := (Entails.of_eq (pts_shV (F := F) d L _ _).symm) $$ Htok
  ihave Hsp := (Transfers.pointsTo_toks_split (S := Finset.univ) (f := projVal m d) (Transfers.shareTok fullShare 16 (jL L)) 8) $$ Hsh
  icases Hsp with ⟨Hsh0, Hsh8⟩
  ihave Hsh8' := (Entails.of_eq (bigSep_fin8 (F := F) _)) $$ Hsh8
  icases Hsh8' with ⟨Ht0, Ht1, Ht2, Ht3, Ht4, Ht5, Ht6, Ht7⟩
  -- the index fetch is waited for
  sl_exec
  -- the offsets of the eight gathers are in range: each 64-word piece of the fetched rows holds index words
  have hin0 := offs_inb m d L hpre fx (tile_other.sl.dma0 m d L) rfl ![0, 0] inb_S4x128_S1x64_0_0
  have hin1 := offs_inb m d L hpre fx (tile_other.sl.dma0 m d L) rfl ![0, 64] inb_S4x128_S1x64_0_64
  have hin2 := offs_inb m d L hpre fx (tile_other.sl.dma0 m d L) rfl ![1, 0] inb_S4x128_S1x64_1_0
  have hin3 := offs_inb m d L hpre fx (tile_other.sl.dma0 m d L) rfl ![1, 64] inb_S4x128_S1x64_1_64
  have hin4 := offs_inb m d L hpre fx (tile_other.sl.dma0 m d L) rfl ![2, 0] inb_S4x128_S1x64_2_0
  have hin5 := offs_inb m d L hpre fx (tile_other.sl.dma0 m d L) rfl ![2, 64] inb_S4x128_S1x64_2_64
  have hin6 := offs_inb m d L hpre fx (tile_other.sl.dma0 m d L) rfl ![3, 0] inb_S4x128_S1x64_3_0
  have hin7 := offs_inb m d L hpre fx (tile_other.sl.dma0 m d L) rfl ![3, 64] inb_S4x128_S1x64_3_64
  -- the eight gathers are started; the first is waited for
  sl_exec
  -- the eight copies out all complete on one semaphore: a counted batch, its deliveries stated now that the row buffer's contents are known
  ihave Hssem := (aside_elim (F := F) _) $$ Hssem'
  imod (Transfers.batch_alloc' countersEmb (thr d L) (default : HIx 1) ((oChunkK L 0).view.amount (SemLoc.dma (sig := sig) cc1_scratch4.sem))
      (outDeliv m d L (rowsLanded m d L fx fr (fun t => match t with
        | 0 => hin0 | 1 => hin1 | 2 => hin2 | 3 => hin3 | 4 => hin4 | 5 => hin5 | 6 => hin6 | 7 => hin7)))
      (sm := .dma cc1_scratch4.sem) (E := Set.univ)) $$ Hssem with HB
  sl_exec
  sl_step
  -- the eight chunks of the tile's part of the result: each landed at the result's value on its rows
  isplitl [HB_dst0 HB_dst1 HB_dst2 HB_dst3 HB_dst4 HB_dst5 HB_dst6 HB_dst7]
  · iapply (Entails.of_eq (bigSep_fin8 (F := F) _).symm)
    isplitl [HB_dst0]; · iapply (Entails.of_eq (chunk_landed (F := F) m d L hpre fx fr _ 0)); iexact HB_dst0
    isplitl [HB_dst1]; · iapply (Entails.of_eq (chunk_landed (F := F) m d L hpre fx fr _ 1)); iexact HB_dst1
    isplitl [HB_dst2]; · iapply (Entails.of_eq (chunk_landed (F := F) m d L hpre fx fr _ 2)); iexact HB_dst2
    isplitl [HB_dst3]; · iapply (Entails.of_eq (chunk_landed (F := F) m d L hpre fx fr _ 3)); iexact HB_dst3
    isplitl [HB_dst4]; · iapply (Entails.of_eq (chunk_landed (F := F) m d L hpre fx fr _ 4)); iexact HB_dst4
    isplitl [HB_dst5]; · iapply (Entails.of_eq (chunk_landed (F := F) m d L hpre fx fr _ 5)); iexact HB_dst5
    isplitl [HB_dst6]; · iapply (Entails.of_eq (chunk_landed (F := F) m d L hpre fx fr _ 6)); iexact HB_dst6
    iapply (Entails.of_eq (chunk_landed (F := F) m d L hpre fx fr _ 7)); iexact HB_dst7
  -- the tile's read share of the shared copy, put together again from its eight parts
  isplitl [Hsh0 Ht0 Ht1 Ht2 Ht3 Ht4 Ht5 Ht6 Ht7]
  · iapply (Entails.of_eq (pts_shV (F := F) d L _ _))
    iapply (Transfers.pointsTo_toks_join (S := Finset.univ) (f := projVal m d) (Transfers.shareTok fullShare 16 (jL L)) 8)
    isplitl [Hsh0]; · iexact Hsh0
    iapply (Entails.of_eq (bigSep_fin8 (F := F) _).symm)
    isplitl [Ht0]; · iexact Ht0
    isplitl [Ht1]; · iexact Ht1
    isplitl [Ht2]; · iexact Ht2
    isplitl [Ht3]; · iexact Ht3
    isplitl [Ht4]; · iexact Ht4
    isplitl [Ht5]; · iexact Ht5
    isplitl [Ht6]; · iexact Ht6
    iexact Ht7
  -- its own buffers and cells, as they were handed: the index scratch, the row buffer joined from its eight blocks, every cell at zero
  isplitl [Hx HB_src0 HB_src1 HB_src2 HB_src3 HB_src4 HB_src5 HB_src6 HB_src7 Hsem Hpsem HB Hg0 Hg1 Hg2 Hg3 Hg4 Hg5 Hg6 Hg7 Hbr Hsr]
  · isplitl [Hx]; · iexists _; iexact Hx
    isplitl [HB_src0 HB_src1 HB_src2 HB_src3 HB_src4 HB_src5 HB_src6 HB_src7]
    · iexists _
      iapply (rows_rejoin (F := F) d L _)
      iapply (Entails.of_eq (bigSep_fin8 (F := F) _).symm)
      isplitl [HB_src0]; · iexact HB_src0
      isplitl [HB_src1]; · iexact HB_src1
      isplitl [HB_src2]; · iexact HB_src2
      isplitl [HB_src3]; · iexact HB_src3
      isplitl [HB_src4]; · iexact HB_src4
      isplitl [HB_src5]; · iexact HB_src5
      isplitl [HB_src6]; · iexact HB_src6
      iexact HB_src7
    isplitl [Hsem]; · iexact Hsem
    isplitl [Hpsem]; · iexact Hpsem
    isplitl [HB]; · iexact HB
    isplitl [Hg0 Hg1 Hg2 Hg3 Hg4 Hg5 Hg6 Hg7]
    · iapply (Entails.of_eq (bigSep_fin8 (F := F) _).symm)
      isplitl [Hg0]; · iexact Hg0
      isplitl [Hg1]; · iexact Hg1
      isplitl [Hg2]; · iexact Hg2
      isplitl [Hg3]; · iexact Hg3
      isplitl [Hg4]; · iexact Hg4
      isplitl [Hg5]; · iexact Hg5
      isplitl [Hg6]; · iexact Hg6
      iexact Hg7
    isplitl [Hbr]; · iexact Hbr
    iexact Hsr
  -- what it owes is what it was handed; every wait it recorded is at the kernel's own index or at the call's
  iexists _; isplitr
  swap; · iexact HO
  ipureintro; intro p hp
  repeat (rcases Finset.mem_insert.mp hp with hp | hp; · first | exact .inr (.inl (hp ▸ rfl)) | exact .inr (.inr (hp ▸ rfl)))
  exact .inl hp

/-- The shared memory once tile 0's copy of P has landed: whatever it held, it holds P. -/
theorem sh_filled (fsh : Buf (Elt F) ((shV).view.loc (thr d L))) (pay : S8x128.Idx → Elt F .f32)
    (hpay : pay = (pV).view.read (Elt F) (projVal m d)) :
    View.write (Elt F) (shV).view fsh pay Finset.univ = projVal m d := by
  subst hpay
  exact (View.write_whole_univ (Val := Elt F) cc1_scratch1 fsh _).trans rfl

/-- Tile 0's sixteen arrivals: its arrival at tile j's cell carries read share j of the shared copy. -/
theorem arrivals_first (hs0 : (jV L).val = 0) :
    (bigSep Finset.univ fun i : Fin 16 => ((shV).view.loc (thr d L) ↦{Transfers.shareTok fullShare 16 i} projVal m d : sProp 𝕄))
      ⊢ bigSep Finset.univ fun j : Fin (grid1.bound 1) => (bRd (F := F) m).payload (bcell d (cV L) (j.castLE hsub1)) 0 (jV L).val := by
  show (bigSep (Finset.univ : Finset (Fin 16)) _) ⊢ bigSep (Finset.univ : Finset (Fin 16)) _
  refine bigSep_mono fun j _ => ?_
  show _ ⊢ bPay m (bcell d (cV L) (j.castLE hsub1)) (jV L).val
  unfold bPay; dsimp only
  rw [if_pos hs0]
  exact Entails.of_eq (pts_shV (F := F) d L _ _)

set_option maxRecDepth 200000 in
/-- THE TASK OF TILE 0 OF A CORE: it also fills the core's shared memory with P and hands every tile its read share of it. -/
theorem tile_zero (hF : (K (F := F)).Facts) (hpre : PreOK m) (O : CellTallies nD τ sig (HIx 1)) (W : Waits sig (HIx 1)) (hO : ∀ g, O g none = 0)
    (hOlev : ∀ g ι, 0 < O g ι → 8 * (0 : Fin 1).val + 6 ≤ (K (F := F)).lev g ι)
    (hs : isFirst L) :
    iprop(levAts (K (F := F)).L (K (F := F)).lev ∗ bkit m d (cV L) (jV L)
        ∗ iRows m d (wL L) ∗ (bigSep Finset.univ fun r : Fin 8 => oChunkPts d (chunkOf (wL L) r) (m (oLoc d)))
        ∗ (pTok m d (cL L) ∗ ∃ f, shLoc d (cV L) ↦{fullShare} f)
        ∗ tileOwn d L ∗ owes (thr d L) (O + oxV d (cV L)) W)
      ⊢ wp frame (wpE (defs₀ (F := F)) 𝒱₀ (thr d L) none) Set.univ
          (cc1_gather_k L pV (Memref.isWhole_whole _) iV (Memref.isWhole_whole _) oV (Memref.isWhole_whole _) xS (Memref.isWhole_whole _)
            shV (Memref.isWhole_whole _) rS (Memref.isWhole_whole _) cc1_scratch3 cc1_scratch4 cc1_scratch5 cc1_scoped0)
          fun _ => iprop((bigSep Finset.univ fun r : Fin 8 => oChunkPts d (chunkOf (wL L) r) (outVal m d)) ∗ shTok m d (cV L) (jL L) ∗ shRest m d (cV L)
            ∗ tileOwn d L ∗ ∃ W', ⌜∀ p ∈ W', p ∈ W ∨ p.2 = none ∨ p.2 = some (0 : Fin 1)⌝ ∗ owes (thr d L) O W') := by
  have hs0 : (jV L).val = 0 := (isFirst_iff L).mp hs
  simp only [cc1_gather_k_eq_skeleton]; unfold cc1_gather_k_skel
  simp only [k1_part1_eq_skeleton]; unfold k1_part1_skel
  unfold bkit tileOwn
  iintro ⟨#Hlv, ⟨⟨%κ, #Hinv⟩, Htoks, #Hrch, Hat, Hcred⟩, Hi, Hos, ⟨Hp, ⟨%fsh, Hshw⟩⟩, ⟨⟨%fx, Hx⟩, ⟨%fr, Hr⟩, Hsem, Hpsem, Hssem, Hgsems, Hbr, Hsr⟩, HO⟩
  ihave Hi := (Entails.of_eq (pts_iRowK (F := F) d L _ _).symm) $$ Hi
  ihave Hos' := (Entails.of_eq (bigSep_fin8 (F := F) _)) $$ Hos
  icases Hos' with ⟨Ho0, Ho1, Ho2, Ho3, Ho4, Ho5, Ho6, Ho7⟩
  ihave Ho0 := (Entails.of_eq (pts_oChunkK (F := F) d L 0 _).symm) $$ Ho0
  ihave Ho1 := (Entails.of_eq (pts_oChunkK (F := F) d L 1 _).symm) $$ Ho1
  ihave Ho2 := (Entails.of_eq (pts_oChunkK (F := F) d L 2 _).symm) $$ Ho2
  ihave Ho3 := (Entails.of_eq (pts_oChunkK (F := F) d L 3 _).symm) $$ Ho3
  ihave Ho4 := (Entails.of_eq (pts_oChunkK (F := F) d L 4 _).symm) $$ Ho4
  ihave Ho5 := (Entails.of_eq (pts_oChunkK (F := F) d L 5 _).symm) $$ Ho5
  ihave Ho6 := (Entails.of_eq (pts_oChunkK (F := F) d L 6 _).symm) $$ Ho6
  ihave Ho7 := (Entails.of_eq (pts_oChunkK (F := F) d L 7 _).symm) $$ Ho7
  ihave Hgs' := (Entails.of_eq (bigSep_fin8 (F := F) _)) $$ Hgsems
  icases Hgs' with ⟨Hg0, Hg1, Hg2, Hg3, Hg4, Hg5, Hg6, Hg7⟩
  ihave Hssem' := (aside_intro (F := F) _) $$ Hssem
  ihave Hp := (Entails.of_eq (pts_pV (F := F) d L _ _).symm) $$ Hp
  ihave Hshw := (Entails.of_eq (pts_shV (F := F) d L _ _).symm) $$ Hshw
  have hO' : ∀ g, (O + oxV d (cV L)) g none = 0 := fun g => by rw [Pi.add_apply, Finsupp.add_apply, hO g, oxV_none]
  ihave Hmw1 := (show levAts (K (F := F)).L (K (F := F)).lev ⊢ Transfers.MayWaits (thr d L) (default : HIx 1) (O + oxV d (cV L)) from
    (K (F := F)).mayWaits_none (thr := thr d L) hO') $$ Hlv
  ihave Hmw2 := (show levAts (K (F := F)).L (K (F := F)).lev ⊢ Transfers.MayWaits (thr d L) (default : HIx 1) O from
    (K (F := F)).mayWaits_none (thr := thr d L) hO) $$ Hlv
  -- the index fetch is started; P is copied from HBM into the core's shared memory, and the copy waited for
  sl_exec
  rw [Prog.bind_assoc]
  -- the shared memory now holds P, whatever it held: it goes out as sixteen read shares and a remainder
  ihave Hshw := (Entails.of_eq (congrArg (fun f => ((shV).view.loc (thr d L) ↦{fullShare} f : sProp 𝕄)) (sh_filled (F := F) m d L fsh (tile_zero.sl.dma0_1 m d) rfl))) $$ Hshw
  ihave Hsp16 := (Transfers.pointsTo_toks_split (S := Finset.univ) (f := projVal m d) fullShare 16) $$ Hshw
  icases Hsp16 with ⟨Hrest, Htok16⟩
  -- THE BARRIER: tile 0's arrival at tile j's cell carries tile j's read share
  ihave Hpays := (arrivals_first (F := F) m d L hs0) $$ Htok16
  iapply (SparseCore.wp_subcoreBarrier 𝒱₀ none EB (bRd (F := F) m) d (sc := cV L) (i := jV L) sc_bar0 (grid1.bound 1) hsub1 (L 1) rfl κ (fun _ => 0) (jV L).val
      (fun j => bRd_mem₀ m d _ _ _) (fun _ => rfl) (bRd_expect m d _ _) (some 0) O _) $$ [HO Htoks Hpays Hcred Hat]
  · isplitr; · iexact Hinv
    isplitl [HO]; · iexact HO
    isplitl [Htoks Hpays]
    · rw [bigSep_sep', bigSep_sep']
      isplitl [Htoks]; · iexact Htoks
      isplitl [Hpays]; · iexact Hpays
      iexact Hrch
    isplitl [Hcred]; · iexact Hcred
    isplitl [Hat]; · iexact Hat
    iapply ((K (F := F)).mayOwe_of_bound (thr := thr d L) 3 (fun p hp => by
        rw [Finset.mem_singleton] at hp; subst hp
        show (K (F := F)).lev (bcell d (cV L) (jV L)) (some 0) ≤ 3
        rw [(K (F := F)).lev_V_reg d _ _ (show (sc_bar0 : Sem sig) ≠ (K (F := F)).go from sc_bar0_ne_go)]; exact le_rfl)
      (fun g ι hg => lt_of_lt_of_le (by decide) (hOlev g ι hg)))
    iexact Hlv
  iintro ⟨HO, Hat, -, Hgot⟩
  -- the tile's own round collected tile 0's arrival: its read share of the shared copy of P; eight gathers will read it at
  -- once, so it goes out as eight read shares
  ihave Htok := (own_token (F := F) m d L) $$ Hgot
  ihave Hsh := (Entails.of_eq (pts_shV (F := F) d L _ _).symm) $$ Htok
  ihave Hsp := (Transfers.pointsTo_toks_split (S := Finset.univ) (f := projVal m d) (Transfers.shareTok fullShare 16 (jL L)) 8) $$ Hsh
  icases Hsp with ⟨Hsh0, Hsh8⟩
  ihave Hsh8' := (Entails.of_eq (bigSep_fin8 (F := F) _)) $$ Hsh8
  icases Hsh8' with ⟨Ht0, Ht1, Ht2, Ht3, Ht4, Ht5, Ht6, Ht7⟩
  -- the index fetch is waited for
  sl_exec
  -- the offsets of the eight gathers are in range: each 64-word piece of the fetched rows holds index words
  have hin0 := offs_inb m d L hpre fx (tile_zero.sl.dma0 m d L) rfl ![0, 0] inb_S4x128_S1x64_0_0
  have hin1 := offs_inb m d L hpre fx (tile_zero.sl.dma0 m d L) rfl ![0, 64] inb_S4x128_S1x64_0_64
  have hin2 := offs_inb m d L hpre fx (tile_zero.sl.dma0 m d L) rfl ![1, 0] inb_S4x128_S1x64_1_0
  have hin3 := offs_inb m d L hpre fx (tile_zero.sl.dma0 m d L) rfl ![1, 64] inb_S4x128_S1x64_1_64
  have hin4 := offs_inb m d L hpre fx (tile_zero.sl.dma0 m d L) rfl ![2, 0] inb_S4x128_S1x64_2_0
  have hin5 := offs_inb m d L hpre fx (tile_zero.sl.dma0 m d L) rfl ![2, 64] inb_S4x128_S1x64_2_64
  have hin6 := offs_inb m d L hpre fx (tile_zero.sl.dma0 m d L) rfl ![3, 0] inb_S4x128_S1x64_3_0
  have hin7 := offs_inb m d L hpre fx (tile_zero.sl.dma0 m d L) rfl ![3, 64] inb_S4x128_S1x64_3_64
  -- the eight gathers are started; the first is waited for
  sl_exec
  -- the eight copies out all complete on one semaphore: a counted batch, its deliveries stated now that the row buffer's contents are known
  ihave Hssem := (aside_elim (F := F) _) $$ Hssem'
  imod (Transfers.batch_alloc' countersEmb (thr d L) (default : HIx 1) ((oChunkK L 0).view.amount (SemLoc.dma (sig := sig) cc1_scratch4.sem))
      (outDeliv m d L (rowsLanded m d L fx fr (fun t => match t with
        | 0 => hin0 | 1 => hin1 | 2 => hin2 | 3 => hin3 | 4 => hin4 | 5 => hin5 | 6 => hin6 | 7 => hin7)))
      (sm := .dma cc1_scratch4.sem) (E := Set.univ)) $$ Hssem with HB
  sl_exec
  sl_step
  -- the eight chunks of the tile's part of the result: each landed at the result's value on its rows
  isplitl [HB_dst0 HB_dst1 HB_dst2 HB_dst3 HB_dst4 HB_dst5 HB_dst6 HB_dst7]
  · iapply (Entails.of_eq (bigSep_fin8 (F := F) _).symm)
    isplitl [HB_dst0]; · iapply (Entails.of_eq (chunk_landed (F := F) m d L hpre fx fr _ 0)); iexact HB_dst0
    isplitl [HB_dst1]; · iapply (Entails.of_eq (chunk_landed (F := F) m d L hpre fx fr _ 1)); iexact HB_dst1
    isplitl [HB_dst2]; · iapply (Entails.of_eq (chunk_landed (F := F) m d L hpre fx fr _ 2)); iexact HB_dst2
    isplitl [HB_dst3]; · iapply (Entails.of_eq (chunk_landed (F := F) m d L hpre fx fr _ 3)); iexact HB_dst3
    isplitl [HB_dst4]; · iapply (Entails.of_eq (chunk_landed (F := F) m d L hpre fx fr _ 4)); iexact HB_dst4
    isplitl [HB_dst5]; · iapply (Entails.of_eq (chunk_landed (F := F) m d L hpre fx fr _ 5)); iexact HB_dst5
    isplitl [HB_dst6]; · iapply (Entails.of_eq (chunk_landed (F := F) m d L hpre fx fr _ 6)); iexact HB_dst6
    iapply (Entails.of_eq (chunk_landed (F := F) m d L hpre fx fr _ 7)); iexact HB_dst7
  -- the tile's read share of the shared copy, put together again from its eight parts
  isplitl [Hsh0 Ht0 Ht1 Ht2 Ht3 Ht4 Ht5 Ht6 Ht7]
  · iapply (Entails.of_eq (pts_shV (F := F) d L _ _))
    iapply (Transfers.pointsTo_toks_join (S := Finset.univ) (f := projVal m d) (Transfers.shareTok fullShare 16 (jL L)) 8)
    isplitl [Hsh0]; · iexact Hsh0
    iapply (Entails.of_eq (bigSep_fin8 (F := F) _).symm)
    isplitl [Ht0]; · iexact Ht0
    isplitl [Ht1]; · iexact Ht1
    isplitl [Ht2]; · iexact Ht2
    isplitl [Ht3]; · iexact Ht3
    isplitl [Ht4]; · iexact Ht4
    isplitl [Ht5]; · iexact Ht5
    isplitl [Ht6]; · iexact Ht6
    iexact Ht7
  -- what is left of the shared copy beside the sixteen shares
  isplitl [Hrest]; · iapply (Entails.of_eq (pts_shV (F := F) d L _ _)); iexact Hrest
  -- its own buffers and cells, as they were handed: the index scratch, the row buffer joined from its eight blocks, every cell at zero
  isplitl [Hx HB_src0 HB_src1 HB_src2 HB_src3 HB_src4 HB_src5 HB_src6 HB_src7 Hsem Hpsem HB Hg0 Hg1 Hg2 Hg3 Hg4 Hg5 Hg6 Hg7 Hbr Hsr]
  · isplitl [Hx]; · iexists _; iexact Hx
    isplitl [HB_src0 HB_src1 HB_src2 HB_src3 HB_src4 HB_src5 HB_src6 HB_src7]
    · iexists _
      iapply (rows_rejoin (F := F) d L _)
      iapply (Entails.of_eq (bigSep_fin8 (F := F) _).symm)
      isplitl [HB_src0]; · iexact HB_src0
      isplitl [HB_src1]; · iexact HB_src1
      isplitl [HB_src2]; · iexact HB_src2
      isplitl [HB_src3]; · iexact HB_src3
      isplitl [HB_src4]; · iexact HB_src4
      isplitl [HB_src5]; · iexact HB_src5
      isplitl [HB_src6]; · iexact HB_src6
      iexact HB_src7
    isplitl [Hsem]; · iexact Hsem
    isplitl [Hpsem]; · iexact Hpsem
    isplitl [HB]; · iexact HB
    isplitl [Hg0 Hg1 Hg2 Hg3 Hg4 Hg5 Hg6 Hg7]
    · iapply (Entails.of_eq (bigSep_fin8 (F := F) _).symm)
      isplitl [Hg0]; · iexact Hg0
      isplitl [Hg1]; · iexact Hg1
      isplitl [Hg2]; · iexact Hg2
      isplitl [Hg3]; · iexact Hg3
      isplitl [Hg4]; · iexact Hg4
      isplitl [Hg5]; · iexact Hg5
      isplitl [Hg6]; · iexact Hg6
      iexact Hg7
    isplitl [Hbr]; · iexact Hbr
    iexact Hsr
  -- what it owes is what it was handed; every wait it recorded is at the kernel's own index or at the call's
  iexists _; isplitr
  swap; · iexact HO
  ipureintro; intro p hp
  repeat (rcases Finset.mem_insert.mp hp with hp | hp; · first | exact .inr (.inl (hp ▸ rfl)) | exact .inr (.inr (hp ▸ rfl)))
  exact .inl hp

end Tile

end Cert.Proof.LookupB

end
-- ==== Proof.TileBodyB.lean ====
/- Every tile's task as the launch theorem asks for it.
   The two cases of the task — tile 0 of a core, which also fills the shared memory, and the other fifteen — are proved
   over the tile's buffers, cells and rows spelt out. Here they are put behind the launch's own vocabulary: what a tile
   is handed at its start (its rows, tile 0 also its core's share of P in HBM and the shared memory) and hands back at
   its end (its chunks of the result at their value, its read share of the shared copy, tile 0 also the remainder), and
   its scoped storage, opened into those buffers, cells and the rest; then the body table's row for a vector subcore is
   the kernel at that subcore's coordinates. -/
import proofs.«206855_g20126216749723_cont_sun_m_335_21_alg».proof.Proof.TileTaskB

noncomputable section

namespace Cert.Proof.LookupB

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
local notation "𝕄" => MT nD τ sig (HIx 1) (Elt F) ℕ UU ℕ
variable (m : (ℓ : Loc nD τ sig) → Buf (Elt F) ℓ) (ρ : Dev nD → PrngReg)
variable [FloatOps F]

local notation "pV" => (Memref.whole Cert.Kernel.main_v1_scv : Memref Cert.Kernel.sig Kind.scVector Space.hbm Cert.Kernel.S8x128 EltTy.f32)
local notation "iV" => (Memref.whole Cert.Kernel.main_v2_scv : Memref Cert.Kernel.sig Kind.scVector Space.hbm Cert.Kernel.S128x128 EltTy.i32)
local notation "oV" => (Memref.whole Cert.Kernel.main_v3_scv : Memref Cert.Kernel.sig Kind.scVector Space.hbm Cert.Kernel.S16384x128 EltTy.f32)
local notation "xS" => (Memref.whole Cert.Kernel.cc1_scratch0 : Memref Cert.Kernel.sig Kind.scVector Space.vmem Cert.Kernel.S4x128 EltTy.i32)
local notation "shV" => (Memref.whole Cert.Kernel.cc1_scratch1 : Memref Cert.Kernel.sig Kind.scVector Space.shared Cert.Kernel.S8x128 EltTy.f32)
local notation "rS" => (Memref.whole Cert.Kernel.cc1_scratch2 : Memref Cert.Kernel.sig Kind.scVector Space.vmem Cert.Kernel.S512x128 EltTy.f32)

section Tile
variable (d : Dev nD) (L : grid1.Coords)

/-! ## The regroupings: the launch's grouping of a tile's resources against the task's -/

theorem pre_first (O : CellTallies nD τ sig (HIx 1)) (W : Waits sig (HIx 1)) :
    iprop(levAts (K (F := F)).L (K (F := F)).lev ∗ bkit m d (cV L) (jV L)
        ∗ (iRows m d (wL L) ∗ (bigSep Finset.univ fun r : Fin 8 => oChunkPts d (chunkOf (wL L) r) (m (oLoc d))) ∗ iprop(pTok m d (cL L) ∗ ∃ f, shLoc d (cV L) ↦{fullShare} f))
        ∗ ((∃ fx, (xS).view.loc (thr d L) ↦{fullShare} fx) ∗ (∃ fr, (rS).view.loc (thr d L) ↦{fullShare} fr) ∗ bufsRest d L)
        ∗ (semVal (isemCell d L) 0 ∗ semVal (psemCell d L) 0 ∗ semVal (ssemCell d L) 0 ∗ (bigSep Finset.univ fun r : Fin 8 => semVal (gsemCell d L r) 0) ∗ semsRest d L)
        ∗ owes (thr d L) (O + oxV d (cV L)) W)
      ⊢ iprop(levAts (K (F := F)).L (K (F := F)).lev ∗ bkit m d (cV L) (jV L)
        ∗ iRows m d (wL L) ∗ (bigSep Finset.univ fun r : Fin 8 => oChunkPts d (chunkOf (wL L) r) (m (oLoc d)))
        ∗ (pTok m d (cL L) ∗ ∃ f, shLoc d (cV L) ↦{fullShare} f)
        ∗ tileOwn d L ∗ owes (thr d L) (O + oxV d (cV L)) W) := by
  unfold tileOwn
  iintro ⟨Hlv, Hk, ⟨Hi, Hos, Hp⟩, ⟨Hx, Hr, Hbr⟩, ⟨Hsem, Hpsem, Hssem, Hgs, Hsr⟩, HO⟩
  isplitl [Hlv]; · iexact Hlv
  isplitl [Hk]; · iexact Hk
  isplitl [Hi]; · iexact Hi
  isplitl [Hos]; · iexact Hos
  isplitl [Hp]; · iexact Hp
  isplitl [Hx Hr Hbr Hsem Hpsem Hssem Hgs Hsr]
  · isplitl [Hx]; · iexact Hx
    isplitl [Hr]; · iexact Hr
    isplitl [Hsem]; · iexact Hsem
    isplitl [Hpsem]; · iexact Hpsem
    isplitl [Hssem]; · iexact Hssem
    isplitl [Hgs]; · iexact Hgs
    isplitl [Hbr]; · iexact Hbr
    iexact Hsr
  iexact HO

theorem post_first (O : CellTallies nD τ sig (HIx 1)) (W : Waits sig (HIx 1)) :
    iprop((bigSep Finset.univ fun r : Fin 8 => oChunkPts d (chunkOf (wL L) r) (outVal m d)) ∗ shTok m d (cV L) (jL L) ∗ shRest m d (cV L)
        ∗ tileOwn d L ∗ ∃ W', ⌜∀ p ∈ W', p ∈ W ∨ p.2 = none ∨ p.2 = some (0 : Fin 1)⌝ ∗ owes (thr d L) O W')
      ⊢ iprop(((bigSep Finset.univ fun r : Fin 8 => oChunkPts d (chunkOf (wL L) r) (outVal m d)) ∗ shTok m d (cV L) (jL L) ∗ shRest m d (cV L))
        ∗ ((∃ fx, (xS).view.loc (thr d L) ↦{fullShare} fx) ∗ (∃ fr, (rS).view.loc (thr d L) ↦{fullShare} fr) ∗ bufsRest d L)
        ∗ (semVal (isemCell d L) 0 ∗ semVal (psemCell d L) 0 ∗ semVal (ssemCell d L) 0 ∗ (bigSep Finset.univ fun r : Fin 8 => semVal (gsemCell d L r) 0) ∗ semsRest d L)
        ∗ ∃ W', ⌜∀ p ∈ W', p ∈ W ∨ p.2 = none ∨ p.2 = some (0 : Fin 1)⌝ ∗ owes (thr d L) O W') := by
  unfold tileOwn
  iintro ⟨Hos, Htok, Hrest, ⟨Hx, Hr, Hsem, Hpsem, Hssem, Hgs, Hbr, Hsr⟩, HO⟩
  isplitl [Hos Htok Hrest]
  · isplitl [Hos]; · iexact Hos
    isplitl [Htok]; · iexact Htok
    iexact Hrest
  isplitl [Hx Hr Hbr]
  · isplitl [Hx]; · iexact Hx
    isplitl [Hr]; · iexact Hr
    iexact Hbr
  isplitl [Hsem Hpsem Hssem Hgs Hsr]
  · isplitl [Hsem]; · iexact Hsem
    isplitl [Hpsem]; · iexact Hpsem
    isplitl [Hssem]; · iexact Hssem
    isplitl [Hgs]; · iexact Hgs
    iexact Hsr
  iexact HO

theorem pre_other (O : CellTallies nD τ sig (HIx 1)) (W : Waits sig (HIx 1)) :
    iprop(levAts (K (F := F)).L (K (F := F)).lev ∗ bkit m d (cV L) (jV L)
        ∗ (iRows m d (wL L) ∗ (bigSep Finset.univ fun r : Fin 8 => oChunkPts d (chunkOf (wL L) r) (m (oLoc d))) ∗ iprop(emp))
        ∗ ((∃ fx, (xS).view.loc (thr d L) ↦{fullShare} fx) ∗ (∃ fr, (rS).view.loc (thr d L) ↦{fullShare} fr) ∗ bufsRest d L)
        ∗ (semVal (isemCell d L) 0 ∗ semVal (psemCell d L) 0 ∗ semVal (ssemCell d L) 0 ∗ (bigSep Finset.univ fun r : Fin 8 => semVal (gsemCell d L r) 0) ∗ semsRest d L)
        ∗ owes (thr d L) (O + oxV d (cV L)) W)
      ⊢ iprop(levAts (K (F := F)).L (K (F := F)).lev ∗ bkit m d (cV L) (jV L)
        ∗ iRows m d (wL L) ∗ (bigSep Finset.univ fun r : Fin 8 => oChunkPts d (chunkOf (wL L) r) (m (oLoc d)))
        ∗ tileOwn d L ∗ owes (thr d L) (O + oxV d (cV L)) W) := by
  unfold tileOwn
  iintro ⟨Hlv, Hk, ⟨Hi, Hos, -⟩, ⟨Hx, Hr, Hbr⟩, ⟨Hsem, Hpsem, Hssem, Hgs, Hsr⟩, HO⟩
  isplitl [Hlv]; · iexact Hlv
  isplitl [Hk]; · iexact Hk
  isplitl [Hi]; · iexact Hi
  isplitl [Hos]; · iexact Hos
  isplitl [Hx Hr Hbr Hsem Hpsem Hssem Hgs Hsr]
  · isplitl [Hx]; · iexact Hx
    isplitl [Hr]; · iexact Hr
    isplitl [Hsem]; · iexact Hsem
    isplitl [Hpsem]; · iexact Hpsem
    isplitl [Hssem]; · iexact Hssem
    isplitl [Hgs]; · iexact Hgs
    isplitl [Hbr]; · iexact Hbr
    iexact Hsr
  iexact HO

theorem post_other (O : CellTallies nD τ sig (HIx 1)) (W : Waits sig (HIx 1)) :
    iprop((bigSep Finset.univ fun r : Fin 8 => oChunkPts d (chunkOf (wL L) r) (outVal m d)) ∗ shTok m d (cV L) (jL L)
        ∗ tileOwn d L ∗ ∃ W', ⌜∀ p ∈ W', p ∈ W ∨ p.2 = none ∨ p.2 = some (0 : Fin 1)⌝ ∗ owes (thr d L) O W')
      ⊢ iprop(((bigSep Finset.univ fun r : Fin 8 => oChunkPts d (chunkOf (wL L) r) (outVal m d)) ∗ shTok m d (cV L) (jL L) ∗ iprop(emp))
        ∗ ((∃ fx, (xS).view.loc (thr d L) ↦{fullShare} fx) ∗ (∃ fr, (rS).view.loc (thr d L) ↦{fullShare} fr) ∗ bufsRest d L)
        ∗ (semVal (isemCell d L) 0 ∗ semVal (psemCell d L) 0 ∗ semVal (ssemCell d L) 0 ∗ (bigSep Finset.univ fun r : Fin 8 => semVal (gsemCell d L r) 0) ∗ semsRest d L)
        ∗ ∃ W', ⌜∀ p ∈ W', p ∈ W ∨ p.2 = none ∨ p.2 = some (0 : Fin 1)⌝ ∗ owes (thr d L) O W') := by
  unfold tileOwn
  iintro ⟨Hos, Htok, ⟨Hx, Hr, Hsem, Hpsem, Hssem, Hgs, Hbr, Hsr⟩, HO⟩
  isplitl [Hos Htok]
  · isplitl [Hos]; · iexact Hos
    isplitl [Htok]; · iexact Htok
    iempintro
  isplitl [Hx Hr Hbr]
  · isplitl [Hx]; · iexact Hx
    isplitl [Hr]; · iexact Hr
    iexact Hbr
  isplitl [Hsem Hpsem Hssem Hgs Hsr]
  · isplitl [Hsem]; · iexact Hsem
    isplitl [Hpsem]; · iexact Hpsem
    isplitl [Hssem]; · iexact Hssem
    isplitl [Hgs]; · iexact Hgs
    iexact Hsr
  iexact HO

/-- THE TASK OF ANY TILE, from what the launch hands it at its start to what it hands back at its end. -/
theorem tile_body (hF : (K (F := F)).Facts) (hpre : PreOK m) (O : CellTallies nD τ sig (HIx 1)) (W : Waits sig (HIx 1)) (hO : ∀ g, O g none = 0)
    (hOlev : ∀ g ι, 0 < O g ι → 8 * (0 : Fin 1).val + 6 ≤ (K (F := F)).lev g ι) :
    iprop(levAts (K (F := F)).L (K (F := F)).lev ∗ bkit m d (cV L) (jV L) ∗ goOf m d (cV L) (jL L)
        ∗ scopedBufs (thr d L) ∗ scopedSems0 (thr d L) ∗ owes (thr d L) (O + oxV d (cV L)) W)
      ⊢ wp frame (wpE (defs₀ (F := F)) 𝒱₀ (thr d L) none) Set.univ
          (cc1_gather_k L pV (Memref.isWhole_whole _) iV (Memref.isWhole_whole _) oV (Memref.isWhole_whole _) xS (Memref.isWhole_whole _)
            shV (Memref.isWhole_whole _) rS (Memref.isWhole_whole _) cc1_scratch3 cc1_scratch4 cc1_scratch5 cc1_scoped0)
          fun _ => iprop(tdOf m d (cV L) (jL L) ∗ scopedBufs (thr d L) ∗ scopedSems0 (thr d L)
            ∗ ∃ W', ⌜∀ p ∈ W', p ∈ W ∨ p.2 = none ∨ p.2 = some (0 : Fin 1)⌝ ∗ owes (thr d L) O W') := by
  rw [scopedBufs_tile (F := F) d L hF, scopedSems0_tile (F := F) d L, goOf_tile (F := F) m d L, tdOf_tile (F := F) m d L]
  by_cases hs : isFirst L
  · have hj : jL L = 0 := Fin.ext ((isFirst_iff L).mp hs)
    rw [if_pos hj, if_pos hj]
    exact (pre_first (F := F) m d L O W).trans ((tile_zero m d L hF hpre O W hO hOlev hs).trans (wp_mono frame _ _ fun _ => post_first (F := F) m d L O W))
  · have hj : jL L ≠ 0 := fun h => hs ((isFirst_iff L).mpr (congrArg Fin.val h))
    rw [if_neg hj, if_neg hj]
    exact (pre_other (F := F) m d L O W).trans ((tile_other m d L hF hpre O W hO hOlev hs).trans (wp_mono frame _ _ fun _ => post_other (F := F) m d L O W))

end Tile

/-! ## The obligation -/

/-- A tile's coordinates in the kernel's grid: its core, its number within the core. -/
def coordsV (c : Fin (grid1.bound 0)) (s : Fin (grid1.bound 1)) : grid1.Coords :=
  fun | 0 => c | 1 => s | ⟨_ + 2, h⟩ => absurd h (Nat.not_lt.2 (Nat.le_add_left _ _))

/-- The body table's row for a vector subcore is the kernel at that subcore's coordinates. -/
theorem defs₀_vector (c : Fin τ.nSC) (s : Fin τ.nSub) :
    defs₀ (F := F) (.scVector c s) 1 ()
      = SparseCore.onTile hcore1 hsub1 (fun c s => cc1_gather_k (coordsV c s) pV (Memref.isWhole_whole _) iV (Memref.isWhole_whole _)
          oV (Memref.isWhole_whole _) xS (Memref.isWhole_whole _) shV (Memref.isWhole_whole _) rS (Memref.isWhole_whole _)
          cc1_scratch3 cc1_scratch4 cc1_scratch5 cc1_scoped0) ⟨⟩ c s := rfl

set_option maxRecDepth 16384 in
/-- The launch theorem's obligation for the one vector-subcore call: every tile's task, from what it is handed at its
    start to what it hands back at its end. -/
theorem tileObl (hF : (K (F := F)).Facts) (hpre : PreOK m) : (K (F := F)).TileObl (D (F := F)) 𝒱 (P m) v₀ 0 := by
  intro d c i O W hO hOlev _
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body m d (coordsV ⟨_, hci.1⟩ ⟨_, hci.2⟩) hF hpre O W hO hOlev

end Cert.Proof.LookupB

end
-- ==== Proof.MainB.lean ====
import proofs.«206855_g20126216749723_cont_sun_m_335_21_alg».proof.Proof.ProtocolB
import proofs.«206855_g20126216749723_cont_sun_m_335_21_alg».proof.Proof.SplitB
import proofs.«206855_g20126216749723_cont_sun_m_335_21_alg».proof.Proof.LaunchElemB
import proofs.«206855_g20126216749723_cont_sun_m_335_21_alg».proof.Proof.ProjRegionB
import proofs.«206855_g20126216749723_cont_sun_m_335_21_alg».proof.Proof.TileBodyB
import Idealize.ShloMosaic.Lib.StableHlo.Run

/-!
# The TensorCore's program, and the run of the whole lookup

The TensorCore lays the bias out as a row, projects the table once (the product with W plus the bias row: the array
P), lays the index words out 128 to a row, and starts the SparseCore kernel, which writes row x_i of P to row i of the
result.  Here: that program step by step from what the launch deals the TensorCore, ending with the four arguments
unchanged and the result at the lookup of rows of P; how the final memory reads that; and the launch theorem applied.
-/

noncomputable section

namespace Cert.Proof.LookupB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)
variable [FloatOps F]

/-! ## The TensorCore's arrays -/

abbrev a0' : DevRef τ sig := Proc.devRef .tc (main_arg0 : Ref sig .tc)
abbrev a3' : DevRef τ sig := Proc.devRef .tc (main_arg3 : Ref sig .tc)
abbrev v0' : DevRef τ sig := Proc.devRef .tc (main_v0 : Ref sig .tc)
abbrev v2' : DevRef τ sig := Proc.devRef .tc (main_v2 : Ref sig .tc)

/-- The bias laid out as a row; the index words laid out 128 to a row. -/
abbrev opRow : HloOp τ sig (Elt F) := StableHlo.reshape main_arg3 main_v0 rfl shapeCasts_S128_S1x128
abbrev opIdx : HloOp τ sig (Elt F) := StableHlo.reshape main_arg0 main_v2 rfl shapeCasts_S16384_S128x128

/-- The launch valuation. -/
def V0 (d : Dev nD) : Valuation τ sig (Elt F) := fun b => m (d, b)

omit [FloatOps F] in
/-- The TensorCore's eight arrays, all unscoped, one by one. -/
theorem unscopedBufs_eq (d : Dev nD) (W : (b : Ref sig .tc) → Buf (Elt F) ((d.tc : Thread nD τ).loc b)) :
    (unscopedBufs d W : sProp 𝕄) = iprop((xLoc d ↦{fullShare} W main_arg0) ∗ (tLoc d ↦{fullShare} W main_arg1) ∗ (wLoc d ↦{fullShare} W main_arg2)
      ∗ (bLoc d ↦{fullShare} W main_arg3) ∗ (rLoc d ↦{fullShare} W main_v0) ∗ (pLoc d ↦{fullShare} W main_v1) ∗ (iLoc d ↦{fullShare} W main_v2)
      ∗ (oLoc d ↦{fullShare} W main_v3)) := by
  unfold unscopedBufs
  rw [show (Finset.univ.filter fun b : Ref sig .tc => ¬ b.isScoped) = {main_arg0, main_arg1, main_arg2, main_arg3, main_v0, main_v1, main_v2, main_v3} by decide,
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

omit [FloatOps F] in
/-- Two distinct arrays held whole. -/
theorem held_pair (d : Dev nD) {a b : DevRef τ sig} (hab : a ∉ ({b} : Finset (DevRef τ sig))) (W : Valuation τ sig (Elt F)) :
    (held (T d) {a, b} W : sProp 𝕄) = iprop((((d, a) : Loc nD τ sig) ↦{fullShare} W a) ∗ (((d, b) : Loc nD τ sig) ↦{fullShare} W b)) := by
  unfold held
  rw [SparseCore.bigSep_insert' hab, bigSep_singleton]

theorem hRow : (opRow (F := F)).bufs ⊆ ({a3', v0'} : Finset (DevRef τ sig)) := show ({a3', v0'} : Finset (DevRef τ sig)) ⊆ {a3', v0'} from Finset.Subset.refl _
theorem hIdx : (opIdx (F := F)).bufs ⊆ ({a0', v2'} : Finset (DevRef τ sig)) := show ({a0', v2'} : Finset (DevRef τ sig)) ⊆ {a0', v2'} from Finset.Subset.refl _

/-- After the first layout the row array holds the bias as a row, the bias is as it was; -/
theorem row_v0 (d : Dev nD) : (opRow (F := F)).result (V0 m d) v0' = rowVal m d :=
  (StableHlo.reshape_result main_arg3 main_v0 rfl shapeCasts_S128_S1x128 _ _ (V0 m d)).trans rfl
theorem row_a3 (d : Dev nD) : (opRow (F := F)).result (V0 m d) a3' = m (bLoc d) :=
  (opRow (F := F)).result_of_not_mem (V0 m d) (b := a3') (show a3' ∉ ({v0'} : Finset (DevRef τ sig)) by decide)
/-- after the second the index array holds the words 128 to a row, the words are as they were. -/
theorem idx_v2 (d : Dev nD) : (opIdx (F := F)).result (V0 m d) v2' = idxVal m d :=
  (StableHlo.reshape_result main_arg0 main_v2 rfl shapeCasts_S16384_S128x128 _ _ (V0 m d)).trans rfl
theorem idx_a0 (d : Dev nD) : (opIdx (F := F)).result (V0 m d) a0' = m (xLoc d) :=
  (opIdx (F := F)).result_of_not_mem (V0 m d) (b := a0') (show a0' ∉ ({v2'} : Finset (DevRef τ sig)) by decide)

omit [FloatOps F] in
theorem held_row0 (d : Dev nD) : (held (T d) {a3', v0'} (V0 m d) : sProp 𝕄) = iprop((bLoc d ↦{fullShare} m (bLoc d)) ∗ (rLoc d ↦{fullShare} m (rLoc d))) := by
  rw [held_pair d (by decide)]; rfl
theorem held_row (d : Dev nD) : (held (T d) {a3', v0'} ((opRow (F := F)).result (V0 m d)) : sProp 𝕄)
    = iprop((bLoc d ↦{fullShare} m (bLoc d)) ∗ (rLoc d ↦{fullShare} rowVal m d)) := by
  rw [held_pair d (by decide), row_a3, row_v0]
omit [FloatOps F] in
theorem held_idx0 (d : Dev nD) : (held (T d) {a0', v2'} (V0 m d) : sProp 𝕄) = iprop((xLoc d ↦{fullShare} m (xLoc d)) ∗ (iLoc d ↦{fullShare} m (iLoc d))) := by
  rw [held_pair d (by decide)]; rfl
theorem held_idx (d : Dev nD) : (held (T d) {a0', v2'} ((opIdx (F := F)).result (V0 m d)) : sProp 𝕄)
    = iprop((xLoc d ↦{fullShare} m (xLoc d)) ∗ (iLoc d ↦{fullShare} idxVal m d)) := by
  rw [held_pair d (by decide), idx_a0, idx_v2]

/-! ## @main on the TensorCore -/

/-- What @main leaves the claim: the four arguments at their launch contents, the result at the lookup. -/
abbrev FIN (d : Dev nD) : sProp 𝕄 :=
  iprop((xLoc d ↦{fullShare} m (xLoc d)) ∗ (tLoc d ↦{fullShare} m (tLoc d)) ∗ (wLoc d ↦{fullShare} m (wLoc d)) ∗ (bLoc d ↦{fullShare} m (bLoc d)) ∗ (oLoc d ↦{fullShare} outVal m d))

theorem hmain [∀ e, Nonempty (Elt F e)] (κ : GSem nD τ sig → ℕ) (d : Dev nD) :
    iprop((K (F := F)).ctx EH (P m) κ ∗ (K (F := F)).tcSt EH d 0 ∗ (K (F := F)).tcRes m ρ d ∗ G (F := F) d)
      ⊢ wp frame (wpE ((K (F := F)).defs (D (F := F))) 𝒱 (SparseCore.T d) none) Set.univ (main d) fun _ => iprop((K (F := F)).tcSt EH d 1 ∗ FIN m d) := by
  unfold SparseCore.Cfg.tcRes G
  rw [unscopedBufs_eq]
  simp only [main, wp_bind, wp_pure]
  iintro ⟨#Hctx, Hst, ⟨Hb, ⟨Hx, Ht, Hw, Hbias, Hr, Hp, Hi, Ho⟩, -, -⟩, ⟨Hg, Htk⟩⟩
  -- the bias laid out as a row
  iapply (wp_hlo_within 𝒱 (SparseCore.T d) none Set.univ (op := opRow) (S := {a3', v0'}) hRow (V := V0 m d)) $$ [Hb Hbias Hr]
  · isplitl [Hb]; · iexact Hb
    rw [held_row0]
    isplitl [Hbias] <;> iassumption
  iintro ⟨Hb, Hheld⟩
  ihave Hh := (Entails.of_eq (held_row m d)) $$ Hheld
  icases Hh with ⟨Hbias, Hr⟩
  rw [wp_ret]; imodintro
  -- the projection: P at the product plus the bias row
  iapply (Cert.Kernel.ProjRegion.wp_projRegion_fam (U := UU) (fun c => m (tLoc c)) (fun c => m (wLoc c)) (fun c => rowVal m c) (fun c => m (pLoc c))
    EH EP (P m) ((K (F := F)).refines_self) κ d _)
  isplitr; · iexact Hctx
  isplitl [Hst]; · iexact Hst
  isplitl [Hb]; · iexact Hb
  isplitl [Hg]; · iexact Hg
  isplitl [Htk]; · iexact Htk
  isplitl [Ht Hw Hr Hp]
  · isplitl [Ht]; · iexact Ht
    isplitl [Hw]; · iexact Hw
    isplitl [Hr]; · iexact Hr
    iexact Hp
  iintro ⟨Hst, Hb, Ht, Hw, Hr, Hp⟩
  -- the index words laid out 128 to a row
  iapply (wp_hlo_within 𝒱 (SparseCore.T d) none Set.univ (op := opIdx) (S := {a0', v2'}) hIdx (V := V0 m d)) $$ [Hb Hx Hi]
  · isplitl [Hb]; · iexact Hb
    rw [held_idx0]
    isplitl [Hx] <;> iassumption
  iintro ⟨Hb, Hheld⟩
  ihave Hh := (Entails.of_eq (held_idx m d)) $$ Hheld
  icases Hh with ⟨Hx, Hi⟩
  rw [wp_ret]; imodintro
  -- the call: each core its read token of P and its workers' rows and chunks; back, the chunks at the lookup
  iapply ((K (F := F)).wp_run (D (F := F)) 𝒱 (EH := EH) (P := P m) κ d 0) $$ [Hst Hp Hi Ho Hx Ht Hw Hbias]
  isplitr; · iexact Hctx
  isplitl [Hst]; · iexact Hst
  isplitl [Hp Hi Ho]
  · ihave Hs := (st_all m d) $$ [Hp Hi Ho]
    · isplitl [Hp]; · iexact Hp
      isplitl [Hi] <;> iassumption
    icases Hs with ⟨-, Hs⟩
    iexact Hs
  iintro ⟨Hst, Hdn⟩
  ihave Ho := (dn_all m d) $$ Hdn
  imodintro
  isplitl [Hst]; · iexact Hst
  isplitl [Hx]; · iexact Hx
  isplitl [Ht]; · iexact Ht
  isplitl [Hw]; · iexact Hw
  isplitl [Hbias]; · iexact Hbias
  iexact Ho

/-! ## The final memory -/

def fq (d : Dev nD) (s' : Phys nD τ sig (Elt F)) : Prop :=
  s'.mem.mem (oLoc d) = outVal m d ∧ s'.mem.mem (xLoc d) = m (xLoc d) ∧ s'.mem.mem (tLoc d) = m (tLoc d) ∧ s'.mem.mem (wLoc d) = m (wLoc d) ∧ s'.mem.mem (bLoc d) = m (bLoc d)

theorem hfin (d : Dev nD) (s' : Phys nD τ sig (Elt F)) : iprop(FIN m d ∗ SI s') ⊢ (⌜fq m d s'⌝ : sProp 𝕄) := by
  iintro ⟨⟨Hx, Ht, Hw, Hb, Ho⟩, HSI⟩
  icombine HSI Hx gives %hx
  icombine HSI Ht gives %ht
  icombine HSI Hw gives %hw
  icombine HSI Hb gives %hb
  icombine HSI Ho gives %ho
  ipureintro
  exact ⟨funext fun i => ho i (Finset.mem_univ i), funext fun i => hx i (Finset.mem_univ i), funext fun i => ht i (Finset.mem_univ i),
    funext fun i => hw i (Finset.mem_univ i), funext fun i => hb i (Finset.mem_univ i)⟩

def QC : PUnit × MemSt nD τ sig (Elt F) → Prop := fun r => ∀ c : Dev nD,
  r.2.mem (oLoc c) = outVal m c ∧ r.2.mem (xLoc c) = m (xLoc c) ∧ r.2.mem (tLoc c) = m (tLoc c) ∧ r.2.mem (wLoc c) = m (wLoc c) ∧ r.2.mem (bLoc c) = m (bLoc c)

/-! ## The run -/

theorem run_main [∀ e, Nonempty (Elt F e)] (hpre : PreOK m) :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m facts hpre)
    (fun q _ => match q with | 0 => vecSplit m)
    m ρ main (G (F := F)) (FIN m) (u₀ (F := F)) (hu₀ m) (hmain m ρ) (fq m) (hfin m) (QC m) (fun _ h => h)

end Cert.Proof.LookupB

end
-- ==== Proof.MainPreB.lean ====
import proofs.«206855_g20126216749723_cont_sun_m_335_21_alg».proof.Defs
import proofs.«206855_g20126216749723_cont_sun_m_335_21_alg».proof.Proof.MainB
import proofs.«206855_g20126216749723_cont_sun_m_335_21_alg».proof.Proof.IndexRange
import proofs.«206855_g20126216749723_cont_sun_m_335_21_alg».proof.Proof.Gen.Kernel
import proofs.«206855_g20126216749723_cont_sun_m_335_21_alg».proof.Proof.Gen.Pre_input_domain

/-!
# The word-level lookup's run under the stated precondition

The precondition says every index word is between 0 and 7; read as a natural number each word is then below 8, which is
what the tiles' gathers ask.  With it the whole program runs to the end and leaves its four arguments as they were.
-/

noncomputable section

namespace Cert.Proof.LookupB

open Cert.Kernel Cert.Kernel.Gen
open Idealize.ShloMosaic Idealize.SL.Sem

/-- Under the precondition every index word names a row of the projected table. -/
theorem ok_of_pre (m : (ℓ : Loc Cert.Kernel.nD Cert.Kernel.τ Cert.Kernel.sig) → Buf (Elt Bits) ℓ)
    (h : Cert.Pre_Kernel (hPre_input_domain := Cert.Pre_input_domain.Gen.facts) m) : PreOK (F := Bits) m :=
  fun d i => (@Cert.EmbedProject.index_lt_eight Bits _ Cert.Pre_input_domain.Gen.facts (m (xLoc d)) (m (tLoc d)) (m (wLoc d)) (m (bLoc d)) (h d) i).1

/-- The word-level run under the precondition: it ends, and the four arguments are unchanged. -/
theorem frame_run (m : (ℓ : Loc Cert.Kernel.nD Cert.Kernel.τ Cert.Kernel.sig) → Buf (Elt Bits) ℓ) (g : Dev Cert.Kernel.nD → PrngReg)
    (h : Cert.Pre_Kernel (hPre_input_domain := Cert.Pre_input_domain.Gen.facts) m) :
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)) :=
  (θ_run _ _ _).mono (fun _ hq c => (hq c).2) (run_main m g (ok_of_pre m h))

end Cert.Proof.LookupB

end
-- ==== Proof.lean ====
/-
  The lookup of projected rows, certified.

  The function: from 16384 index words x, an 8 x 256 table, a 256 x 128 matrix W and a bias b of 128 numbers, row i of
  the result is row x_i of P, where P = table W + b (the bias added to each of the eight rows).  The one law used about
  numbers: an entry of a matrix product depends on one row of its left factor only, so gathering rows commutes with the
  projection — the kernel projects the eight rows once and then moves rows of P; the reference gathers 16384 rows of
  the table and projects each; entry (i, d) of either is the same finite sum of the same products, plus b(d).  No sum is
  rearranged and no finiteness of the numbers is used; all the rest is moving rows.
  How the kernel's run is certified.  On the TensorCore the bias is laid out as a row, the three operands are staged
  whole and the projection's body stores its one term into the staged result, which is written back whole (P); the
  index words are laid out 128 to a row; then the two SparseCores' thirty-two tiles run at once.  Tile (c, s) is worker
  2 s + c: it fetches its four rows of index words; tile 0 of each core copies P into the core's shared memory; the
  sixteen tiles of a core meet at a barrier, and tile 0's arrival there hands every tile a read share of the shared
  copy; each tile then gathers, 64 words at a time, the rows its words name (under the precondition every word is
  below 8, so every named row exists) and copies each finished block of 64 rows to its rows of the result.  The index
  array is split into the workers' blocks of four rows and the result into 256 chunks of 64 rows, eight per worker, so
  that every piece has one owner; the launch theorem for programs with SparseCore kernels puts the TensorCore's
  program, the tiles' tasks and the split together into the run of all thirty-five threads: it ends, the arguments are
  unchanged, and the result is the lookup.  The word-level program is the same text at the other number format.
  The reference: its run is read off its host operations; under the precondition its take is the plain gather of rows
  (no index is wrapped, none is out of range), and the law above turns its result into the same lookup.  The assembly:
  three frames (the runs with the value forgotten), nothing to preserve (no operation was rewritten for the ideal
  reading), and the agreement of the two results on the extended reals.
-/
import proofs.«206855_g20126216749723_cont_sun_m_335_21_alg».proof.Defs
import proofs.«206855_g20126216749723_cont_sun_m_335_21_alg».proof.Proof.Assemble
import proofs.«206855_g20126216749723_cont_sun_m_335_21_alg».proof.Proof.MainPre
import proofs.«206855_g20126216749723_cont_sun_m_335_21_alg».proof.Proof.MainPreB
import proofs.«206855_g20126216749723_cont_sun_m_335_21_alg».proof.Proof.Gen.Kernel
import proofs.«206855_g20126216749723_cont_sun_m_335_21_alg».proof.Proof.Gen.Kernel.Skeleton
import proofs.«206855_g20126216749723_cont_sun_m_335_21_alg».proof.Proof.Gen.Kernel.Launch
import proofs.«206855_g20126216749723_cont_sun_m_335_21_alg».proof.Proof.Gen.Kernel.Points
import proofs.«206855_g20126216749723_cont_sun_m_335_21_alg».proof.Proof.Gen.KernelIdeal
import proofs.«206855_g20126216749723_cont_sun_m_335_21_alg».proof.Proof.Gen.KernelIdeal.Skeleton
import proofs.«206855_g20126216749723_cont_sun_m_335_21_alg».proof.Proof.Gen.KernelIdeal.Launch
import proofs.«206855_g20126216749723_cont_sun_m_335_21_alg».proof.Proof.Gen.KernelIdeal.Points
import proofs.«206855_g20126216749723_cont_sun_m_335_21_alg».proof.Proof.Gen.ReferenceIdeal
import proofs.«206855_g20126216749723_cont_sun_m_335_21_alg».proof.Proof.Gen.Pre_input_domain
import Idealize.ShloMosaic.Adequacy
import Idealize.ShloMosaic.Init

noncomputable section

namespace Cert.Proof

open Idealize.ShloMosaic Idealize.SL.Sem

theorem claim : Cert.Claim :=
  Cert.Proof.claim_of_runs (fun m g h => Cert.Proof.LookupB.frame_run m g h) (fun m ρ h => Cert.Proof.LookupI.value_run m ρ h)

end Cert.Proof

end
